-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x56x56 : Shape := ⟨4, ![8, 256, 56, 56]⟩
abbrev S256x64 : Shape := ⟨2, ![256, 64]⟩
abbrev S9x64x64 : Shape := ⟨3, ![9, 64, 64]⟩
abbrev S64x256 : Shape := ⟨2, ![64, 256]⟩
abbrev S1x64 : Shape := ⟨2, ![1, 64]⟩
abbrev S1x256 : Shape := ⟨2, ![1, 256]⟩
abbrev S_ : Shape := ⟨0, ![]⟩

class Facts : Prop where
  bcast_S_S8x256x56x56 : S_.BroadcastsInDim S8x256x56x56 (![] : Fin 0 → Fin S8x256x56x56.rank)
  reducesTo_S8x256x56x56_S_d0_1_2_3 : S8x256x56x56.ReducesTo [0, 1, 2, 3] S_
  h_S_ : 0 < S_.numel
  bcast_S_S256x64 : S_.BroadcastsInDim S256x64 (![] : Fin 0 → Fin S256x64.rank)
  reducesTo_S256x64_S_d0_1 : S256x64.ReducesTo [0, 1] S_
  bcast_S_S9x64x64 : S_.BroadcastsInDim S9x64x64 (![] : Fin 0 → Fin S9x64x64.rank)
  reducesTo_S9x64x64_S_d0_1_2 : S9x64x64.ReducesTo [0, 1, 2] S_
  bcast_S_S64x256 : S_.BroadcastsInDim S64x256 (![] : Fin 0 → Fin S64x256.rank)
  reducesTo_S64x256_S_d0_1 : S64x256.ReducesTo [0, 1] S_
  bcast_S_S1x64 : S_.BroadcastsInDim S1x64 (![] : Fin 0 → Fin S1x64.rank)
  reducesTo_S1x64_S_d0_1 : S1x64.ReducesTo [0, 1] S_
  bcast_S_S1x256 : S_.BroadcastsInDim S1x256 (![] : Fin 0 → Fin S1x256.rank)
  reducesTo_S1x256_S_d0_1 : S1x256.ReducesTo [0, 1] S_

variable [Facts]

def fn_part2 {F : FTy → Type} [FloatOps F] (main_arg7 : FVec F S1x64 .f32) (main_arg8 : FVec F S1x256 .f32) (main_arg9 : FVec F S1x256 .f32) (main_v33 : IVec S_ 1) : IVec S_ 1 :=
  let main_v34 : FVec F S1x64 .f32 := Host.absf main_arg7
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1x256 .f32 := Host.absf main_arg8
  let main_cst_14 : FVec F S_ .f32 := constant S_ .f32 0x7F800000#32
  let main_v40 : FVec F S1x256 .f32 := broadcastInDim S1x256 ![] bcast_S_S1x256 main_cst_14
  let main_v41 : IVec S1x256 1 := cmpf .olt main_v39 main_v40
  let main_c_15 : IVec S_ 1 := constantI S_ 1 1#1
  let main_v42 : IVec S_ 1 := (fun x v => Host.reduce IntOp.andi x v reducesTo_S1x256_S_d0_1 h_S_) main_v41 main_c_15
  let main_v43 : IVec S_ 1 := andi main_v38 main_v42
  let main_v44 : FVec F S1x256 .f32 := Host.absf main_arg9
  let main_cst_16 : FVec F S_ .f32 := constant S_ .f32 0x7F800000#32
  let main_v45 : FVec F S1x256 .f32 := broadcastInDim S1x256 ![] bcast_S_S1x256 main_cst_16
  let main_v46 : IVec S1x256 1 := cmpf .olt main_v44 main_v45
  let main_c_17 : IVec S_ 1 := constantI S_ 1 1#1
  let main_v47 : IVec S_ 1 := (fun x v => Host.reduce IntOp.andi x v reducesTo_S1x256_S_d0_1 h_S_) main_v46 main_c_17
  let main_v48 : IVec S_ 1 := andi main_v43 main_v47
  main_v48

def fn_part1 {F : FTy → Type} [FloatOps F] (main_arg4 : FVec F S1x64 .f32) (main_arg5 : FVec F S1x64 .f32) (main_arg6 : FVec F S1x64 .f32) (main_arg7 : FVec F S1x64 .f32) (main_arg8 : FVec F S1x256 .f32) (main_arg9 : FVec F S1x256 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x256x56x56 .f32) (main_arg1 : FVec F S256x64 .f32) (main_arg2 : FVec F S9x64x64 .f32) (main_arg3 : FVec F S64x256 .f32) (main_arg4 : FVec F S1x64 .f32) (main_arg5 : FVec F S1x64 .f32) (main_arg6 : FVec F S1x64 .f32) (main_arg7 : FVec F S1x64 .f32) (main_arg8 : FVec F S1x256 .f32) (main_arg9 : FVec F S1x256 .f32) : IVec S_ 1 :=
  let main_v0 : FVec F S8x256x56x56 .f32 := Host.absf main_arg0
  let main_cst : FVec F S_ .f32 := constant S_ .f32 0x7F800000#32
  let main_v1 : FVec F S8x256x56x56 .f32 := broadcastInDim S8x256x56x56 ![] bcast_S_S8x256x56x56 main_cst
  let main_v2 : IVec S8x256x56x56 1 := cmpf .olt main_v0 main_v1
  let main_c : IVec S_ 1 := constantI S_ 1 1#1
  let main_v3 : IVec S_ 1 := (fun x v => Host.reduce IntOp.andi x v reducesTo_S8x256x56x56_S_d0_1_2_3 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S9x64x64 .f32 := Host.absf main_arg2
  let main_cst_2 : FVec F S_ .f32 := constant S_ .f32 0x7F800000#32
  let main_v10 : FVec F S9x64x64 .f32 := broadcastInDim S9x64x64 ![] bcast_S_S9x64x64 main_cst_2
  let main_v11 : IVec S9x64x64 1 := cmpf .olt main_v9 main_v10
  let main_c_3 : IVec S_ 1 := constantI S_ 1 1#1
  let main_v12 : IVec S_ 1 := (fun x v => Host.reduce IntOp.andi x v reducesTo_S9x64x64_S_d0_1_2 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg4 main_arg5 main_arg6 main_arg7 main_arg8 main_arg9 main_v13 main_v16
-- ==== Kernel.lean ====
abbrev S8x256x56x56 : Shape := ⟨4, ![8, 256, 56, 56]⟩
abbrev S256x64 : Shape := ⟨2, ![256, 64]⟩
abbrev S9x64x64 : Shape := ⟨3, ![9, 64, 64]⟩
abbrev S64x256 : Shape := ⟨2, ![64, 256]⟩
abbrev S1x64 : Shape := ⟨2, ![1, 64]⟩
abbrev S1x256 : Shape := ⟨2, ![1, 256]⟩
abbrev S8x56x56x256 : Shape := ⟨4, ![8, 56, 56, 256]⟩
abbrev S25088x256 : Shape := ⟨2, ![25088, 256]⟩
abbrev S576x64 : Shape := ⟨2, ![576, 64]⟩
abbrev S3136 : Shape := ⟨1, ![3136]⟩
abbrev S_ : Shape := ⟨0, ![]⟩
abbrev S3136x1 : Shape := ⟨2, ![3136, 1]⟩
abbrev S3136x2 : Shape := ⟨2, ![3136, 2]⟩
abbrev S8x3136x64 : Shape := ⟨3, ![8, 3136, 64]⟩
abbrev S8x2x64 : Shape := ⟨3, ![8, 2, 64]⟩
abbrev S3136x256 : Shape := ⟨2, ![3136, 256]⟩
abbrev S1x3136x64 : Shape := ⟨3, ![1, 3136, 64]⟩
abbrev S1x2x64 : Shape := ⟨3, ![1, 2, 64]⟩
abbrev S3136x64 : Shape := ⟨2, ![3136, 64]⟩
abbrev S64 : Shape := ⟨1, ![64]⟩
abbrev S2x64 : Shape := ⟨2, ![2, 64]⟩
abbrev S3135x64 : Shape := ⟨2, ![3135, 64]⟩
abbrev S56x64 : Shape := ⟨2, ![56, 64]⟩
abbrev S3080x64 : Shape := ⟨2, ![3080, 64]⟩
abbrev S3136x576 : Shape := ⟨2, ![3136, 576]⟩
abbrev S8x2x256 : Shape := ⟨3, ![8, 2, 256]⟩
abbrev S1x2x256 : Shape := ⟨3, ![1, 2, 256]⟩
abbrev S256 : Shape := ⟨1, ![256]⟩
abbrev S2x256 : Shape := ⟨2, ![2, 256]⟩

abbrev nBuf : Space → Nat
  | .hbm => 55
  | .vmem => 38
  | .smem => 0
  | _ => 0

abbrev bufTy : (tb : Table) → Fin (tcTables nBuf tb) → BufTy
  | .hbm, ⟨0, _⟩ => ⟨S8x256x56x56, .f32⟩
  | .hbm, ⟨1, _⟩ => ⟨S256x64, .f32⟩
  | .hbm, ⟨2, _⟩ => ⟨S9x64x64, .f32⟩
  | .hbm, ⟨3, _⟩ => ⟨S64x256, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x256, .f32⟩
  | .hbm, ⟨9, _⟩ => ⟨S1x256, .f32⟩
  | .hbm, ⟨10, _⟩ => ⟨S8x56x56x256, .f32⟩
  | .hbm, ⟨11, _⟩ => ⟨S25088x256, .f32⟩
  | .hbm, ⟨12, _⟩ => ⟨S576x64, .f32⟩
  | .hbm, ⟨13, _⟩ => ⟨S3136, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S3136, .i32⟩
  | .hbm, ⟨21, _⟩ => ⟨S3136, .i32⟩
  | .hbm, ⟨22, _⟩ => ⟨S_, .i32⟩
  | .hbm, ⟨23, _⟩ => ⟨S3136, .i32⟩
  | .hbm, ⟨24, _⟩ => ⟨S3136, .i1⟩
  | .hbm, ⟨25, _⟩ => ⟨S_, .i32⟩
  | .hbm, ⟨26, _⟩ => ⟨S3136, .i32⟩
  | .hbm, ⟨27, _⟩ => ⟨S3136, .i1⟩
  | .hbm, ⟨28, _⟩ => ⟨S_, .i32⟩
  | .hbm, ⟨29, _⟩ => ⟨S_, .i1⟩
  | .hbm, ⟨30, _⟩ => ⟨S3136, .i1⟩
  | .hbm, ⟨31, _⟩ => ⟨S3136, .i1⟩
  | .hbm, ⟨32, _⟩ => ⟨S3136, .i1⟩
  | .hbm, ⟨33, _⟩ => ⟨S3136, .i32⟩
  | .hbm, ⟨34, _⟩ => ⟨S3136, .i32⟩
  | .hbm, ⟨35, _⟩ => ⟨S3136, .i32⟩
  | .hbm, ⟨36, _⟩ => ⟨S_, .i32⟩
  | .hbm, ⟨37, _⟩ => ⟨S3136, .i32⟩
  | .hbm, ⟨38, _⟩ => ⟨S3136, .i1⟩
  | .hbm, ⟨39, _⟩ => ⟨S_, .i32⟩
  | .hbm, ⟨40, _⟩ => ⟨S3136, .i32⟩
  | .hbm, ⟨41, _⟩ => ⟨S3136, .i1⟩
  | .hbm, ⟨42, _⟩ => ⟨S3136x1, .i1⟩
  | .hbm, ⟨43, _⟩ => ⟨S3136x1, .i1⟩
  | .hbm, ⟨44, _⟩ => ⟨S3136x2, .i1⟩
  | .hbm, ⟨45, _⟩ => ⟨S3136x2, .f32⟩
  | .hbm, ⟨46, _⟩ => ⟨S8x3136x64, .bf16⟩
  | .hbm, ⟨47, _⟩ => ⟨S8x2x64, .f32⟩
  | .hbm, ⟨48, _⟩ => ⟨S8x3136x64, .bf16⟩
  | .hbm, ⟨49, _⟩ => ⟨S8x2x64, .f32⟩
  | .hbm, ⟨50, _⟩ => ⟨S8x3136x64, .bf16⟩
  | .hbm, ⟨51, _⟩ => ⟨S8x2x256, .f32⟩
  | .hbm, ⟨52, _⟩ => ⟨S25088x256, .f32⟩
  | .hbm, ⟨53, _⟩ => ⟨S8x56x56x256, .f32⟩
  | .hbm, ⟨54, _⟩ => ⟨S8x256x56x56, .f32⟩
  | .local _ .vmem, ⟨0, _⟩ => ⟨S3136x256, .f32⟩
  | .local _ .vmem, ⟨1, _⟩ => ⟨S3136x256, .f32⟩
  | .local _ .vmem, ⟨2, _⟩ => ⟨S256x64, .f32⟩
  | .local _ .vmem, ⟨3, _⟩ => ⟨S1x3136x64, .bf16⟩
  | .local _ .vmem, ⟨4, _⟩ => ⟨S1x3136x64, .bf16⟩
  | .local _ .vmem, ⟨5, _⟩ => ⟨S1x2x64, .f32⟩
  | .local _ .vmem, ⟨6, _⟩ => ⟨S1x2x64, .f32⟩
  | .local _ .vmem, ⟨7, _⟩ => ⟨S1x3136x64, .bf16⟩
  | .local _ .vmem, ⟨8, _⟩ => ⟨S1x3136x64, .bf16⟩
  | .local _ .vmem, ⟨9, _⟩ => ⟨S8x2x64, .f32⟩
  | .local _ .vmem, ⟨10, _⟩ => ⟨S1x64, .f32⟩
  | .local _ .vmem, ⟨11, _⟩ => ⟨S1x64, .f32⟩
  | .local _ .vmem, ⟨12, _⟩ => ⟨S3136x2, .f32⟩
  | .local _ .vmem, ⟨13, _⟩ => ⟨S576x64, .f32⟩
  | .local _ .vmem, ⟨14, _⟩ => ⟨S1x3136x64, .bf16⟩
  | .local _ .vmem, ⟨15, _⟩ => ⟨S1x3136x64, .bf16⟩
  | .local _ .vmem, ⟨16, _⟩ => ⟨S1x2x64, .f32⟩
  | .local _ .vmem, ⟨17, _⟩ => ⟨S1x2x64, .f32⟩
  | .local _ .vmem, ⟨18, _⟩ => ⟨S1x3136x64, .bf16⟩
  | .local _ .vmem, ⟨19, _⟩ => ⟨S1x3136x64, .bf16⟩
  | .local _ .vmem, ⟨20, _⟩ => ⟨S8x2x64, .f32⟩
  | .local _ .vmem, ⟨21, _⟩ => ⟨S1x64, .f32⟩
  | .local _ .vmem, ⟨22, _⟩ => ⟨S1x64, .f32⟩
  | .local _ .vmem, ⟨23, _⟩ => ⟨S64x256, .f32⟩
  | .local _ .vmem, ⟨24, _⟩ => ⟨S1x3136x64, .bf16⟩
  | .local _ .vmem, ⟨25, _⟩ => ⟨S1x3136x64, .bf16⟩
  | .local _ .vmem, ⟨26, _⟩ => ⟨S1x2x256, .f32⟩
  | .local _ .vmem, ⟨27, _⟩ => ⟨S1x2x256, .f32⟩
  | .local _ .vmem, ⟨28, _⟩ => ⟨S1x3136x64, .bf16⟩
  | .local _ .vmem, ⟨29, _⟩ => ⟨S1x3136x64, .bf16⟩
  | .local _ .vmem, ⟨30, _⟩ => ⟨S8x2x256, .f32⟩
  | .local _ .vmem, ⟨31, _⟩ => ⟨S1x256, .f32⟩
  | .local _ .vmem, ⟨32, _⟩ => ⟨S1x256, .f32⟩
  | .local _ .vmem, ⟨33, _⟩ => ⟨S64x256, .f32⟩
  | .local _ .vmem, ⟨34, _⟩ => ⟨S3136x256, .f32⟩
  | .local _ .vmem, ⟨35, _⟩ => ⟨S3136x256, .f32⟩
  | .local _ .vmem, ⟨36, _⟩ => ⟨S3136x256, .f32⟩
  | .local _ .vmem, ⟨37, _⟩ => ⟨S3136x256, .f32⟩
  | _, _ => ⟨S8x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v4 : Ref sig .tc := ⟨.hbm, 35, rfl⟩
abbrev main_c_0 : Ref sig .tc := ⟨.hbm, 36, rfl⟩
abbrev main_v5 : Ref sig .tc := ⟨.hbm, 37, rfl⟩
abbrev main_v6 : Ref sig .tc := ⟨.hbm, 38, rfl⟩
abbrev main_c_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13_0 : Ref sig .tc := ⟨.hbm, 46, rfl⟩
abbrev main_v13_1 : Ref sig .tc := ⟨.hbm, 47, rfl⟩
abbrev main_v14_0 : Ref sig .tc := ⟨.hbm, 48, rfl⟩
abbrev main_v14_1 : Ref sig .tc := ⟨.hbm, 49, rfl⟩
abbrev main_v15_0 : Ref sig .tc := ⟨.hbm, 50, rfl⟩
abbrev main_v15_1 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc3_stg6_0 : Ref sig .tc := ⟨.vmem, 36, rfl⟩
abbrev cc3_stg6_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc3_sem6_0 : DmaSem sig := 36
abbrev cc3_sem6_1 : DmaSem sig := 37

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3136x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x3136x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x3136x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x2x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3136x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S576x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x3136x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x2x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x3136x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x2x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x3136x64 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x2x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1x3136x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8x2x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S3136x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S3136x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  transposes_S8x256x56x56_S8x56x56x256_0_2_3_1 : S8x256x56x56.Transposes [0, 2, 3, 1] S8x56x56x256
  shapeCasts_S8x56x56x256_S25088x256 : S8x56x56x256.ShapeCasts S25088x256
  shapeCasts_S9x64x64_S576x64 : S9x64x64.ShapeCasts S576x64
  bcast_S_S3136 : S_.BroadcastsInDim S3136 (![] : Fin 0 → Fin S3136.rank)
  bcast_S3136_S3136x1_0 : S3136.BroadcastsInDim S3136x1 (![0] : Fin 1 → Fin S3136x1.rank)
  concatenates_S3136x1_S3136x1_S3136x2_d1 : Shape.Concatenates [S3136x1, S3136x1] S3136x2 1
  inb_S3136x256_S3136x256_0_0 : ∀ a, (![0, 0] : Fin 2 → Nat) a + S3136x256.size a ≤ S3136x256.size a
  h_S3136x256 : 0 < S3136x256.numel
  shapeCasts_S3136x256_S3136x256 : S3136x256.ShapeCasts S3136x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x3136x64_S1x3136x64_0_0_0 : ∀ a, (![0, 0, 0] : Fin 3 → Nat) a + S1x3136x64.size a ≤ S1x3136x64.size a
  h_S1x3136x64 : 0 < S1x3136x64.numel
  shapeCasts_S1x3136x64_S3136x64 : S1x3136x64.ShapeCasts S3136x64
  shapeCasts_S3136x64_S1x3136x64 : S3136x64.ShapeCasts S1x3136x64
  packedbf16_S1x3136x64_S1x3136x64_0_0_0 : (Rect.unit (s := S1x3136x64) ![0, 0, 0] S1x3136x64.size inb_S1x3136x64_S1x3136x64_0_0_0).PackedRows (EltTy.packing .bf16)
  reduces_S3136x64_S64 : S3136x64.Reduces [0] S64
  shapeCasts_S64_S1x64 : S64.ShapeCasts S1x64
  concatenates_S1x64_S1x64_S2x64_d0 : Shape.Concatenates [S1x64, S1x64] S2x64 0
  inb_S1x2x64_S1x2x64_0_0_0 : ∀ a, (![0, 0, 0] : Fin 3 → Nat) a + S1x2x64.size a ≤ S1x2x64.size a
  h_S1x2x64 : 0 < S1x2x64.numel
  shapeCasts_S1x2x64_S2x64 : S1x2x64.ShapeCasts S2x64
  shapeCasts_S2x64_S1x2x64 : S2x64.ShapeCasts S1x2x64
  inb_S8x2x64_S8x2x64_0_0_0 : ∀ a, (![0, 0, 0] : Fin 3 → Nat) a + S8x2x64.size a ≤ S8x2x64.size a
  h_S8x2x64 : 0 < S8x2x64.numel
  shapeCasts_S8x2x64_S8x2x64 : S8x2x64.ShapeCasts S8x2x64
  reduces_S8x2x64_S2x64 : S8x2x64.Reduces [0] S2x64
  slices_S2x64_o0_0_S1x64 : S2x64.Slices ![0, 0] S1x64
  slices_S2x64_o1_0_S1x64 : S2x64.Slices ![1, 0] S1x64
  inb_S1x64_S1x64_0_0 : ∀ a, (![0, 0] : Fin 2 → Nat) a + S1x64.size a ≤ S1x64.size a
  h_S1x64 : 0 < S1x64.numel
  broadcasts_S1x64_S3136x64 : S1x64.Broadcasts S3136x64
  inb_S3136x2_S3136x2_0_0 : ∀ a, (![0, 0] : Fin 2 → Nat) a + S3136x2.size a ≤ S3136x2.size a
  h_S3136x2 : 0 < S3136x2.numel
  shapeCasts_S3136x2_S3136x2 : S3136x2.ShapeCasts S3136x2
  slices_S3136x2_o0_1_S3136x1 : S3136x2.Slices ![0, 1] S3136x1
  broadcasts_S3136x1_S3136x64 : S3136x1.Broadcasts S3136x64
  slices_S3136x2_o0_0_S3136x1 : S3136x2.Slices ![0, 0] S3136x1
  slices_S3136x64_o0_0_S3135x64 : S3136x64.Slices ![0, 0] S3135x64
  concatenates_S1x64_S3135x64_S3136x64_d0 : Shape.Concatenates [S1x64, S3135x64] S3136x64 0
  slices_S3136x64_o1_0_S3135x64 : S3136x64.Slices ![1, 0] S3135x64
  concatenates_S3135x64_S1x64_S3136x64_d0 : Shape.Concatenates [S3135x64, S1x64] S3136x64 0
  slices_S3136x64_o0_0_S3080x64 : S3136x64.Slices ![0, 0] S3080x64
  concatenates_S56x64_S3080x64_S3136x64_d0 : Shape.Concatenates [S56x64, S3080x64] S3136x64 0
  slices_S3136x64_o56_0_S3080x64 : S3136x64.Slices ![56, 0] S3080x64
  concatenates_S3080x64_S56x64_S3136x64_d0 : Shape.Concatenates [S3080x64, S56x64] S3136x64 0
  concatenates_S3136x64_S3136x64_S3136x64_S3136x64_S3136x64_S3136x64_S3136x64_S3136x64_S3136x64_S3136x576_d1 : Shape.Concatenates [S3136x64, S3136x64, S3136x64, S3136x64, S3136x64, S3136x64, S3136x64, S3136x64, S3136x64] S3136x576 1
  inb_S576x64_S576x64_0_0 : ∀ a, (![0, 0] : Fin 2 → Nat) a + S576x64.size a ≤ S576x64.size a
  h_S576x64 : 0 < S576x64.numel
  shapeCasts_S576x64_S576x64 : S576x64.ShapeCasts S576x64
  inb_S64x256_S64x256_0_0 : ∀ a, (![0, 0] : Fin 2 → Nat) a + S64x256.size a ≤ S64x256.size a
  h_S64x256 : 0 < S64x256.numel
  reduces_S3136x256_S256 : S3136x256.Reduces [0] S256
  shapeCasts_S256_S1x256 : S256.ShapeCasts S1x256
  concatenates_S1x256_S1x256_S2x256_d0 : Shape.Concatenates [S1x256, S1x256] S2x256 0
  inb_S1x2x256_S1x2x256_0_0_0 : ∀ a, (![0, 0, 0] : Fin 3 → Nat) a + S1x2x256.size a ≤ S1x2x256.size a
  h_S1x2x256 : 0 < S1x2x256.numel
  shapeCasts_S1x2x256_S2x256 : S1x2x256.ShapeCasts S2x256
  shapeCasts_S2x256_S1x2x256 : S2x256.ShapeCasts S1x2x256
  inb_S8x2x256_S8x2x256_0_0_0 : ∀ a, (![0, 0, 0] : Fin 3 → Nat) a + S8x2x256.size a ≤ S8x2x256.size a
  h_S8x2x256 : 0 < S8x2x256.numel
  shapeCasts_S8x2x256_S8x2x256 : S8x2x256.ShapeCasts S8x2x256
  reduces_S8x2x256_S2x256 : S8x2x256.Reduces [0] S2x256
  slices_S2x256_o0_0_S1x256 : S2x256.Slices ![0, 0] S1x256
  slices_S2x256_o1_0_S1x256 : S2x256.Slices ![1, 0] S1x256
  inb_S1x256_S1x256_0_0 : ∀ a, (![0, 0] : Fin 2 → Nat) a + S1x256.size a ≤ S1x256.size a
  h_S1x256 : 0 < S1x256.numel
  broadcasts_S1x256_S3136x256 : S1x256.Broadcasts S3136x256
  shapeCasts_S25088x256_S8x56x56x256 : S25088x256.ShapeCasts S8x56x56x256
  transposes_S8x56x56x256_S8x256x56x56_0_3_1_2 : S8x56x56x256.Transposes [0, 3, 1, 2] S8x256x56x56
  dot_S3136x256_S256x64_S3136x64_1_0_0_1_n_n_wf : DotDims.WF S3136x256 S256x64 S3136x64 [1] [0] [0] [1] [] []
  dot_S3136x576_S576x64_S3136x64_1_0_0_1_n_n_wf : DotDims.WF S3136x576 S576x64 S3136x64 [1] [0] [0] [1] [] []
  dot_S3136x64_S64x256_S3136x256_1_0_0_1_n_n_wf : DotDims.WF S3136x64 S64x256 S3136x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3136x256.size a ≤ S25088x256.size a
  hwx0_0 : ∀ i : grid0.Coords, EltTy.bits .f32 = 32 ∨ (Rect.block (s := S25088x256) S3136x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3136x64.size a ≤ S8x3136x64.size a
  hwx0_2 : ∀ i : grid0.Coords, EltTy.bits .bf16 = 32 ∨ (Rect.block (s := S8x3136x64) S1x3136x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x64.size a ≤ S8x2x64.size a
  hwx0_3 : ∀ i : grid0.Coords, EltTy.bits .f32 = 32 ∨ (Rect.block (s := S8x2x64) S1x2x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3136x64.size a ≤ S8x3136x64.size a
  hwx1_0 : ∀ i : grid1.Coords, EltTy.bits .bf16 = 32 ∨ (Rect.block (s := S8x3136x64) S1x3136x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x2x64.size a ≤ S8x2x64.size a
  hwx1_1 : ∀ i : grid1.Coords, EltTy.bits .f32 = 32 ∨ (Rect.block (s := S8x2x64) S8x2x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3136x2.size a ≤ S3136x2.size a
  hwx1_4 : ∀ i : grid1.Coords, EltTy.bits .f32 = 32 ∨ (Rect.block (s := S3136x2) S3136x2.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S576x64.size a ≤ S576x64.size a
  hwx1_5 : ∀ i : grid1.Coords, EltTy.bits .f32 = 32 ∨ (Rect.block (s := S576x64) S576x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x3136x64.size a ≤ S8x3136x64.size a
  hwx1_6 : ∀ i : grid1.Coords, EltTy.bits .bf16 = 32 ∨ (Rect.block (s := S8x3136x64) S1x3136x64.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x2x64.size a ≤ S8x2x64.size a
  hwx1_7 : ∀ i : grid1.Coords, EltTy.bits .f32 = 32 ∨ (Rect.block (s := S8x2x64) S1x2x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x3136x64.size a ≤ S8x3136x64.size a
  hwx2_0 : ∀ i : grid2.Coords, EltTy.bits .bf16 = 32 ∨ (Rect.block (s := S8x3136x64) S1x3136x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x2x64.size a ≤ S8x2x64.size a
  hwx2_1 : ∀ i : grid2.Coords, EltTy.bits .f32 = 32 ∨ (Rect.block (s := S8x2x64) S8x2x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x256.size a ≤ S64x256.size a
  hwx2_4 : ∀ i : grid2.Coords, EltTy.bits .f32 = 32 ∨ (Rect.block (s := S64x256) S64x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x3136x64.size a ≤ S8x3136x64.size a
  hwx2_5 : ∀ i : grid2.Coords, EltTy.bits .bf16 = 32 ∨ (Rect.block (s := S8x3136x64) S1x3136x64.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x2x256.size a ≤ S8x2x256.size a
  hwx2_6 : ∀ i : grid2.Coords, EltTy.bits .f32 = 32 ∨ (Rect.block (s := S8x2x256) S1x2x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x3136x64.size a ≤ S8x3136x64.size a
  hwx3_0 : ∀ i : grid3.Coords, EltTy.bits .bf16 = 32 ∨ (Rect.block (s := S8x3136x64) S1x3136x64.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8x2x256.size a ≤ S8x2x256.size a
  hwx3_1 : ∀ i : grid3.Coords, EltTy.bits .f32 = 32 ∨ (Rect.block (s := S8x2x256) S8x2x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x256.size a ≤ S64x256.size a
  hwx3_4 : ∀ i : grid3.Coords, EltTy.bits .f32 = 32 ∨ (Rect.block (s := S64x256) S64x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S3136x256.size a ≤ S25088x256.size a
  hwx3_5 : ∀ i : grid3.Coords, EltTy.bits .f32 = 32 ∨ (Rect.block (s := S25088x256) S3136x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S3136x256.size a ≤ S25088x256.size a
  hwx3_6 : ∀ i : grid3.Coords, EltTy.bits .f32 = 32 ∨ (Rect.block (s := S25088x256) S3136x256.size (cc3_transform_6 i) (hinb3_6 i)).WholeWords (EltTy.packing .f32)

variable [Facts₀]

def dot_S3136x256_S256x64_S3136x64_1_0_0_1_n_n : DotDims S3136x256 S256x64 S3136x64 where
  lhsContracting := [1]
  rhsContracting := [0]
  lhsNonContracting := [0]
  rhsNonContracting := [1]
  lhsBatch := []
  rhsBatch := []
  wf := dot_S3136x256_S256x64_S3136x64_1_0_0_1_n_n_wf
def dot_S3136x576_S576x64_S3136x64_1_0_0_1_n_n : DotDims S3136x576 S576x64 S3136x64 where
  lhsContracting := [1]
  rhsContracting := [0]
  lhsNonContracting := [0]
  rhsNonContracting := [1]
  lhsBatch := []
  rhsBatch := []
  wf := dot_S3136x576_S576x64_S3136x64_1_0_0_1_n_n_wf
def dot_S3136x64_S64x256_S3136x256_1_0_0_1_n_n : DotDims S3136x64 S64x256 S3136x256 where
  lhsContracting := [1]
  rhsContracting := [0]
  lhsNonContracting := [0]
  rhsNonContracting := [1]
  lhsBatch := []
  rhsBatch := []
  wf := dot_S3136x64_S64x256_S3136x256_1_0_0_1_n_n_wf

abbrev win0_0 : Pipeline.Window sig grid0 :=
  Pipeline.Window.ofSpec (Memref.whole main_v1) S3136x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13_0) S1x3136x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13_1) S1x2x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13_0) S1x3136x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13_1) S8x2x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S3136x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S576x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14_0) S1x3136x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v14_1) S1x2x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v14_0) S1x3136x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14_1) S8x2x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg3) S64x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v15_0) S1x3136x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v15_1) S1x2x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v15_0) S1x3136x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15_1) S8x2x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg3) S64x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v1) S3136x256.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v16) S3136x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S8x256x56x56 : Shape := ⟨4, ![8, 256, 56, 56]⟩
abbrev S256x64 : Shape := ⟨2, ![256, 64]⟩
abbrev S9x64x64 : Shape := ⟨3, ![9, 64, 64]⟩
abbrev S64x256 : Shape := ⟨2, ![64, 256]⟩
abbrev S1x64 : Shape := ⟨2, ![1, 64]⟩
abbrev S1x256 : Shape := ⟨2, ![1, 256]⟩
abbrev S8x56x56x256 : Shape := ⟨4, ![8, 56, 56, 256]⟩
abbrev S25088x256 : Shape := ⟨2, ![25088, 256]⟩
abbrev S25088x64 : Shape := ⟨2, ![25088, 64]⟩
abbrev S98x2x64 : Shape := ⟨3, ![98, 2, 64]⟩
abbrev S256x256 : Shape := ⟨2, ![256, 256]⟩
abbrev S1x2x64 : Shape := ⟨3, ![1, 2, 64]⟩
abbrev S64 : Shape := ⟨1, ![64]⟩
abbrev S2x64 : Shape := ⟨2, ![2, 64]⟩
abbrev S_ : Shape := ⟨0, ![]⟩
abbrev S3136 : Shape := ⟨1, ![3136]⟩
abbrev S3136x1 : Shape := ⟨2, ![3136, 1]⟩
abbrev S3136x2 : Shape := ⟨2, ![3136, 2]⟩
abbrev S576x64 : Shape := ⟨2, ![576, 64]⟩
abbrev S8x3136x64 : Shape := ⟨3, ![8, 3136, 64]⟩
abbrev S8x2x64 : Shape := ⟨3, ![8, 2, 64]⟩
abbrev S1x3136x64 : Shape := ⟨3, ![1, 3136, 64]⟩
abbrev S3136x64 : Shape := ⟨2, ![3136, 64]⟩
abbrev S57x64 : Shape := ⟨2, ![57, 64]⟩
abbrev S3079x64 : Shape := ⟨2, ![3079, 64]⟩
abbrev S56x64 : Shape := ⟨2, ![56, 64]⟩
abbrev S3080x64 : Shape := ⟨2, ![3080, 64]⟩
abbrev S55x64 : Shape := ⟨2, ![55, 64]⟩
abbrev S3081x64 : Shape := ⟨2, ![3081, 64]⟩
abbrev S3135x64 : Shape := ⟨2, ![3135, 64]⟩
abbrev S3136x576 : Shape := ⟨2, ![3136, 576]⟩
abbrev S98x2x256 : Shape := ⟨3, ![98, 2, 256]⟩
abbrev S1x2x256 : Shape := ⟨3, ![1, 2, 256]⟩
abbrev S256 : Shape := ⟨1, ![256]⟩
abbrev S2x256 : Shape := ⟨2, ![2, 256]⟩

abbrev nBuf : Space → Nat
  | .hbm => 141
  | .vmem => 34
  | .smem => 0
  | _ => 0

abbrev hbmTy0_0 (i : Nat) : BufTy := match i % 128 with
  | 0 => ⟨S8x256x56x56, .f32⟩
  | 1 => ⟨S256x64, .f32⟩
  | 2 => ⟨S9x64x64, .f32⟩
  | 3 => ⟨S64x256, .f32⟩
  | 4 => ⟨S1x64, .f32⟩
  | 5 => ⟨S1x64, .f32⟩
  | 6 => ⟨S1x64, .f32⟩
  | 7 => ⟨S1x64, .f32⟩
  | 8 => ⟨S1x256, .f32⟩
  | 9 => ⟨S1x256, .f32⟩
  | 10 => ⟨S8x56x56x256, .f32⟩
  | 11 => ⟨S25088x256, .f32⟩
  | 12 => ⟨S25088x64, .f32⟩
  | 13 => ⟨S98x2x64, .f32⟩
  | 14 => ⟨S_, .f32⟩
  | 15 => ⟨S2x64, .f32⟩
  | 16 => ⟨S1x64, .f32⟩
  | 17 => ⟨S64, .f32⟩
  | 18 => ⟨S_, .f32⟩
  | 19 => ⟨S64, .f32⟩
  | 20 => ⟨S64, .f32⟩
  | 21 => ⟨S1x64, .f32⟩
  | 22 => ⟨S64, .f32⟩
  | 23 => ⟨S_, .f32⟩
  | 24 => ⟨S64, .f32⟩
  | 25 => ⟨S64, .f32⟩
  | 26 => ⟨S64, .f32⟩
  | 27 => ⟨S64, .f32⟩
  | 28 => ⟨S_, .f32⟩
  | 29 => ⟨S64, .f32⟩
  | 30 => ⟨S64, .f32⟩
  | 31 => ⟨S64, .f32⟩
  | 32 => ⟨S_, .f32⟩
  | 33 => ⟨S64, .f32⟩
  | 34 => ⟨S64, .f32⟩
  | 35 => ⟨S64, .f32⟩
  | 36 => ⟨S64, .f32⟩
  | 37 => ⟨S64, .f32⟩
  | 38 => ⟨S64, .f32⟩
  | 39 => ⟨S64, .f32⟩
  | 40 => ⟨S1x64, .f32⟩
  | 41 => ⟨S1x64, .f32⟩
  | 42 => ⟨S3136, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S3136, .i32⟩
  | 50 => ⟨S3136, .i32⟩
  | 51 => ⟨S_, .i32⟩
  | 52 => ⟨S3136, .i32⟩
  | 53 => ⟨S3136, .i1⟩
  | 54 => ⟨S_, .i32⟩
  | 55 => ⟨S3136, .i32⟩
  | 56 => ⟨S3136, .i1⟩
  | 57 => ⟨S_, .i32⟩
  | 58 => ⟨S_, .i1⟩
  | 59 => ⟨S3136, .i1⟩
  | 60 => ⟨S3136, .i1⟩
  | 61 => ⟨S3136, .i1⟩
  | 62 => ⟨S3136, .i32⟩
  | 63 => ⟨S3136, .i32⟩
  | 64 => ⟨S3136, .i32⟩
  | 65 => ⟨S_, .i32⟩
  | 66 => ⟨S3136, .i32⟩
  | 67 => ⟨S3136, .i1⟩
  | 68 => ⟨S_, .i32⟩
  | 69 => ⟨S3136, .i32⟩
  | 70 => ⟨S3136, .i1⟩
  | 71 => ⟨S3136x1, .i1⟩
  | 72 => ⟨S3136x1, .i1⟩
  | 73 => ⟨S3136x2, .i1⟩
  | 74 => ⟨S3136x2, .f32⟩
  | 75 => ⟨S576x64, .f32⟩
  | 76 => ⟨S8x3136x64, .f32⟩
  | 77 => ⟨S8x3136x64, .f32⟩
  | 78 => ⟨S8x2x64, .f32⟩
  | 79 => ⟨S_, .f32⟩
  | 80 => ⟨S2x64, .f32⟩
  | 81 => ⟨S1x64, .f32⟩
  | 82 => ⟨S64, .f32⟩
  | 83 => ⟨S_, .f32⟩
  | 84 => ⟨S64, .f32⟩
  | 85 => ⟨S64, .f32⟩
  | 86 => ⟨S1x64, .f32⟩
  | 87 => ⟨S64, .f32⟩
  | 88 => ⟨S_, .f32⟩
  | 89 => ⟨S64, .f32⟩
  | 90 => ⟨S64, .f32⟩
  | 91 => ⟨S64, .f32⟩
  | 92 => ⟨S64, .f32⟩
  | 93 => ⟨S_, .f32⟩
  | 94 => ⟨S64, .f32⟩
  | 95 => ⟨S64, .f32⟩
  | 96 => ⟨S64, .f32⟩
  | 97 => ⟨S_, .f32⟩
  | 98 => ⟨S64, .f32⟩
  | 99 => ⟨S64, .f32⟩
  | 100 => ⟨S64, .f32⟩
  | 101 => ⟨S64, .f32⟩
  | 102 => ⟨S64, .f32⟩
  | 103 => ⟨S64, .f32⟩
  | 104 => ⟨S64, .f32⟩
  | 105 => ⟨S1x64, .f32⟩
  | 106 => ⟨S1x64, .f32⟩
  | 107 => ⟨S25088x64, .f32⟩
  | 108 => ⟨S25088x256, .f32⟩
  | 109 => ⟨S98x2x256, .f32⟩
  | 110 => ⟨S_, .f32⟩
  | 111 => ⟨S2x256, .f32⟩
  | 112 => ⟨S1x256, .f32⟩
  | 113 => ⟨S256, .f32⟩
  | 114 => ⟨S_, .f32⟩
  | 115 => ⟨S256, .f32⟩
  | 116 => ⟨S256, .f32⟩
  | 117 => ⟨S1x256, .f32⟩
  | 118 => ⟨S256, .f32⟩
  | 119 => ⟨S_, .f32⟩
  | 120 => ⟨S256, .f32⟩
  | 121 => ⟨S256, .f32⟩
  | 122 => ⟨S256, .f32⟩
  | 123 => ⟨S256, .f32⟩
  | 124 => ⟨S_, .f32⟩
  | 125 => ⟨S256, .f32⟩
  | 126 => ⟨S256, .f32⟩
  | 127 => ⟨S256, .f32⟩
  | _ => ⟨S8x256x56x56, .f32⟩

abbrev hbmTy0_1 (i : Nat) : BufTy := match i % 128 with
  | 0 => ⟨S_, .f32⟩
  | 1 => ⟨S256, .f32⟩
  | 2 => ⟨S256, .f32⟩
  | 3 => ⟨S256, .f32⟩
  | 4 => ⟨S256, .f32⟩
  | 5 => ⟨S256, .f32⟩
  | 6 => ⟨S256, .f32⟩
  | 7 => ⟨S256, .f32⟩
  | 8 => ⟨S1x256, .f32⟩
  | 9 => ⟨S1x256, .f32⟩
  | 10 => ⟨S25088x256, .f32⟩
  | 11 => ⟨S8x56x56x256, .f32⟩
  | 12 => ⟨S8x256x56x56, .f32⟩
  | _ => ⟨S8x256x56x56, .f32⟩

abbrev hbmTy (i : Nat) : BufTy := match i / 128 with
  | 0 => hbmTy0_0 i
  | 1 => hbmTy0_1 i
  | _ => ⟨S8x256x56x56, .f32⟩

abbrev bufTy : (tb : Table) → Fin (tcTables nBuf tb) → BufTy
  | .hbm, ⟨i, _⟩ => hbmTy i
  | .local _ .vmem, ⟨0, _⟩ => ⟨S256x256, .f32⟩
  | .local _ .vmem, ⟨1, _⟩ => ⟨S256x256, .f32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S1x2x64, .f32⟩
  | .local _ .vmem, ⟨6, _⟩ => ⟨S1x2x64, .f32⟩
  | .local _ .vmem, ⟨7, _⟩ => ⟨S1x3136x64, .f32⟩
  | .local _ .vmem, ⟨8, _⟩ => ⟨S1x3136x64, .f32⟩
  | .local _ .vmem, ⟨9, _⟩ => ⟨S1x64, .f32⟩
  | .local _ .vmem, ⟨10, _⟩ => ⟨S1x64, .f32⟩
  | .local _ .vmem, ⟨11, _⟩ => ⟨S3136x2, .f32⟩
  | .local _ .vmem, ⟨12, _⟩ => ⟨S576x64, .f32⟩
  | .local _ .vmem, ⟨13, _⟩ => ⟨S1x3136x64, .f32⟩
  | .local _ .vmem, ⟨14, _⟩ => ⟨S1x3136x64, .f32⟩
  | .local _ .vmem, ⟨15, _⟩ => ⟨S1x2x64, .f32⟩
  | .local _ .vmem, ⟨16, _⟩ => ⟨S1x2x64, .f32⟩
  | .local _ .vmem, ⟨17, _⟩ => ⟨S256x64, .f32⟩
  | .local _ .vmem, ⟨18, _⟩ => ⟨S256x64, .f32⟩
  | .local _ .vmem, ⟨19, _⟩ => ⟨S1x64, .f32⟩
  | .local _ .vmem, ⟨20, _⟩ => ⟨S1x64, .f32⟩
  | .local _ .vmem, ⟨21, _⟩ => ⟨S64x256, .f32⟩
  | .local _ .vmem, ⟨22, _⟩ => ⟨S256x256, .f32⟩
  | .local _ .vmem, ⟨23, _⟩ => ⟨S256x256, .f32⟩
  | .local _ .vmem, ⟨24, _⟩ => ⟨S1x2x256, .f32⟩
  | .local _ .vmem, ⟨25, _⟩ => ⟨S1x2x256, .f32⟩
  | .local _ .vmem, ⟨26, _⟩ => ⟨S256x256, .f32⟩
  | .local _ .vmem, ⟨27, _⟩ => ⟨S256x256, .f32⟩
  | .local _ .vmem, ⟨28, _⟩ => ⟨S1x256, .f32⟩
  | .local _ .vmem, ⟨29, _⟩ => ⟨S1x256, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S256x256, .f32⟩
  | _, _ => ⟨S8x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c : Ref sig .tc := ⟨.hbm, 43, rfl⟩
abbrev main_call0_v0 : Ref sig .tc := ⟨.hbm, 44, rfl⟩
abbrev main_call0_c : Ref sig .tc := ⟨.hbm, 45, rfl⟩
abbrev main_call0_v1 : Ref sig .tc := ⟨.hbm, 46, rfl⟩
abbrev main_call0_c_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_c_1 : Ref sig .tc := ⟨.hbm, 51, rfl⟩
abbrev main_call0_v5 : Ref sig .tc := ⟨.hbm, 52, rfl⟩
abbrev main_call0_v6 : Ref sig .tc := ⟨.hbm, 53, rfl⟩
abbrev main_call0_c_2 : Ref sig .tc := ⟨.hbm, 54, rfl⟩
abbrev main_call0_v7 : Ref sig .tc := ⟨.hbm, 55, rfl⟩
abbrev main_call0_v8 : Ref sig .tc := ⟨.hbm, 56, rfl⟩
abbrev main_call0_c_3 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_v12 : Ref sig .tc := ⟨.hbm, 61, rfl⟩
abbrev main_call0_v13 : Ref sig .tc := ⟨.hbm, 62, rfl⟩
abbrev main_call0_v14 : Ref sig .tc := ⟨.hbm, 63, rfl⟩
abbrev main_v27 : Ref sig .tc := ⟨.hbm, 64, rfl⟩
abbrev main_c_4 : Ref sig .tc := ⟨.hbm, 65, rfl⟩
abbrev main_v28 : Ref sig .tc := ⟨.hbm, 66, rfl⟩
abbrev main_v29 : Ref sig .tc := ⟨.hbm, 67, rfl⟩
abbrev main_c_5 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38_0 : Ref sig .tc := ⟨.hbm, 77, rfl⟩
abbrev main_v38_1 : Ref sig .tc := ⟨.hbm, 78, rfl⟩
abbrev main_cst_6 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_7 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_cst_8 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_cst_9 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_10 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63_0 : Ref sig .tc := ⟨.hbm, 108, rfl⟩
abbrev main_v63_1 : Ref sig .tc := ⟨.hbm, 109, rfl⟩
abbrev main_cst_11 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_cst_12 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_cst_13 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_cst_14 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_cst_15 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem3_1 : DmaSem sig := 31
abbrev cc3_sem4_0 : DmaSem sig := 32
abbrev cc3_sem4_1 : DmaSem sig := 33

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x3136x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3136x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S576x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x3136x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x2x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![98], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S256x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x2x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![98], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  transposes_S8x256x56x56_S8x56x56x256_0_2_3_1 : S8x256x56x56.Transposes [0, 2, 3, 1] S8x56x56x256
  shapeCasts_S8x56x56x256_S25088x256 : S8x56x56x256.ShapeCasts S25088x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x64_S256x64_0_0 : ∀ a, (![0, 0] : Fin 2 → Nat) a + S256x64.size a ≤ S256x64.size a
  h_S256x64 : 0 < S256x64.numel
  reduces_S256x64_S64 : S256x64.Reduces [0] S64
  shapeCasts_S64_S1x64 : S64.ShapeCasts S1x64
  concatenates_S1x64_S1x64_S2x64_d0 : Shape.Concatenates [S1x64, S1x64] S2x64 0
  inb_S1x2x64_S1x2x64_0_0_0 : ∀ a, (![0, 0, 0] : Fin 3 → Nat) a + S1x2x64.size a ≤ S1x2x64.size a
  h_S1x2x64 : 0 < S1x2x64.numel
  shapeCasts_S1x2x64_S2x64 : S1x2x64.ShapeCasts S2x64
  shapeCasts_S2x64_S1x2x64 : S2x64.ShapeCasts S1x2x64
  reducesTo_S98x2x64_S2x64_d0 : S98x2x64.ReducesTo [0] S2x64
  h_S_ : 0 < S_.numel
  slices_S2x64_S1x64_0_0 : S2x64.Slices ![0, 0] S1x64
  shapeCasts_S1x64_S64 : S1x64.ShapeCasts S64
  bcast_S_S64 : S_.BroadcastsInDim S64 (![] : Fin 0 → Fin S64.rank)
  slices_S2x64_S1x64_1_0 : S2x64.Slices ![1, 0] S1x64
  bcast_S_S3136 : S_.BroadcastsInDim S3136 (![] : Fin 0 → Fin S3136.rank)
  bcast_S3136_S3136x1_0 : S3136.BroadcastsInDim S3136x1 (![0] : Fin 1 → Fin S3136x1.rank)
  concatenates_S3136x1_S3136x1_S3136x2_d1 : Shape.Concatenates [S3136x1, S3136x1] S3136x2 1
  shapeCasts_S9x64x64_S576x64 : S9x64x64.ShapeCasts S576x64
  shapeCasts_S25088x64_S8x3136x64 : S25088x64.ShapeCasts S8x3136x64
  inb_S1x3136x64_S1x3136x64_0_0_0 : ∀ a, (![0, 0, 0] : Fin 3 → Nat) a + S1x3136x64.size a ≤ S1x3136x64.size a
  h_S1x3136x64 : 0 < S1x3136x64.numel
  shapeCasts_S1x3136x64_S3136x64 : S1x3136x64.ShapeCasts S3136x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3136x64 : S1x64.Broadcasts S3136x64
  inb_S3136x2_S3136x2_0_0 : ∀ a, (![0, 0] : Fin 2 → Nat) a + S3136x2.size a ≤ S3136x2.size a
  h_S3136x2 : 0 < S3136x2.numel
  shapeCasts_S3136x2_S3136x2 : S3136x2.ShapeCasts S3136x2
  slices_S3136x64_o0_0_S3079x64 : S3136x64.Slices ![0, 0] S3079x64
  concatenates_S57x64_S3079x64_S3136x64_d0 : Shape.Concatenates [S57x64, S3079x64] S3136x64 0
  slices_S3136x2_o0_0_S3136x1 : S3136x2.Slices ![0, 0] S3136x1
  broadcasts_S3136x1_S3136x64 : S3136x1.Broadcasts S3136x64
  slices_S3136x64_o0_0_S3080x64 : S3136x64.Slices ![0, 0] S3080x64
  concatenates_S56x64_S3080x64_S3136x64_d0 : Shape.Concatenates [S56x64, S3080x64] S3136x64 0
  slices_S3136x64_o0_0_S3081x64 : S3136x64.Slices ![0, 0] S3081x64
  concatenates_S55x64_S3081x64_S3136x64_d0 : Shape.Concatenates [S55x64, S3081x64] S3136x64 0
  slices_S3136x2_o0_1_S3136x1 : S3136x2.Slices ![0, 1] S3136x1
  slices_S3136x64_o0_0_S3135x64 : S3136x64.Slices ![0, 0] S3135x64
  concatenates_S1x64_S3135x64_S3136x64_d0 : Shape.Concatenates [S1x64, S3135x64] S3136x64 0
  slices_S3136x64_o1_0_S3135x64 : S3136x64.Slices ![1, 0] S3135x64
  concatenates_S3135x64_S1x64_S3136x64_d0 : Shape.Concatenates [S3135x64, S1x64] S3136x64 0
  slices_S3136x64_o55_0_S3081x64 : S3136x64.Slices ![55, 0] S3081x64
  concatenates_S3081x64_S55x64_S3136x64_d0 : Shape.Concatenates [S3081x64, S55x64] S3136x64 0
  slices_S3136x64_o56_0_S3080x64 : S3136x64.Slices ![56, 0] S3080x64
  concatenates_S3080x64_S56x64_S3136x64_d0 : Shape.Concatenates [S3080x64, S56x64] S3136x64 0
  slices_S3136x64_o57_0_S3079x64 : S3136x64.Slices ![57, 0] S3079x64
  concatenates_S3079x64_S57x64_S3136x64_d0 : Shape.Concatenates [S3079x64, S57x64] S3136x64 0
  concatenates_S3136x64_S3136x64_S3136x64_S3136x64_S3136x64_S3136x64_S3136x64_S3136x64_S3136x64_S3136x576_d1 : Shape.Concatenates [S3136x64, S3136x64, S3136x64, S3136x64, S3136x64, S3136x64, S3136x64, S3136x64, S3136x64] S3136x576 1
  inb_S576x64_S576x64_0_0 : ∀ a, (![0, 0] : Fin 2 → Nat) a + S576x64.size a ≤ S576x64.size a
  h_S576x64 : 0 < S576x64.numel
  shapeCasts_S576x64_S576x64 : S576x64.ShapeCasts S576x64
  shapeCasts_S3136x64_S1x3136x64 : S3136x64.ShapeCasts S1x3136x64
  reduces_S3136x64_S64 : S3136x64.Reduces [0] S64
  reducesTo_S8x2x64_S2x64_d0 : S8x2x64.ReducesTo [0] S2x64
  shapeCasts_S8x3136x64_S25088x64 : S8x3136x64.ShapeCasts S25088x64
  shapeCasts_S256x64_S256x64 : S256x64.ShapeCasts S256x64
  broadcasts_S1x64_S256x64 : S1x64.Broadcasts S256x64
  inb_S64x256_S64x256_0_0 : ∀ a, (![0, 0] : Fin 2 → Nat) a + S64x256.size a ≤ S64x256.size a
  h_S64x256 : 0 < S64x256.numel
  reduces_S256x256_S256 : S256x256.Reduces [0] S256
  shapeCasts_S256_S1x256 : S256.ShapeCasts S1x256
  concatenates_S1x256_S1x256_S2x256_d0 : Shape.Concatenates [S1x256, S1x256] S2x256 0
  inb_S1x2x256_S1x2x256_0_0_0 : ∀ a, (![0, 0, 0] : Fin 3 → Nat) a + S1x2x256.size a ≤ S1x2x256.size a
  h_S1x2x256 : 0 < S1x2x256.numel
  shapeCasts_S1x2x256_S2x256 : S1x2x256.ShapeCasts S2x256
  shapeCasts_S2x256_S1x2x256 : S2x256.ShapeCasts S1x2x256
  reducesTo_S98x2x256_S2x256_d0 : S98x2x256.ReducesTo [0] S2x256
  slices_S2x256_S1x256_0_0 : S2x256.Slices ![0, 0] S1x256
  shapeCasts_S1x256_S256 : S1x256.ShapeCasts S256
  bcast_S_S256 : S_.BroadcastsInDim S256 (![] : Fin 0 → Fin S256.rank)
  slices_S2x256_S1x256_1_0 : S2x256.Slices ![1, 0] S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  shapeCasts_S25088x256_S8x56x56x256 : S25088x256.ShapeCasts S8x56x56x256
  transposes_S8x56x56x256_S8x256x56x56_0_3_1_2 : S8x56x56x256.Transposes [0, 3, 1, 2] S8x256x56x56
  dot_S256x256_S256x64_S256x64_1_0_0_1_n_n_wf : DotDims.WF S256x256 S256x64 S256x64 [1] [0] [0] [1] [] []
  dot_S3136x576_S576x64_S3136x64_1_0_0_1_n_n_wf : DotDims.WF S3136x576 S576x64 S3136x64 [1] [0] [0] [1] [] []
  dot_S256x64_S64x256_S256x256_1_0_0_1_n_n_wf : DotDims.WF S256x64 S64x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S25088x256.size a
  hwx0_0 : ∀ i : grid0.Coords, EltTy.bits .f32 = 32 ∨ (Rect.block (s := S25088x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S25088x64.size a
  hwx0_2 : ∀ i : grid0.Coords, EltTy.bits .f32 = 32 ∨ (Rect.block (s := S25088x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x64.size a ≤ S98x2x64.size a
  hwx0_3 : ∀ i : grid0.Coords, EltTy.bits .f32 = 32 ∨ (Rect.block (s := S98x2x64) S1x2x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3136x64.size a ≤ S8x3136x64.size a
  hwx1_0 : ∀ i : grid1.Coords, EltTy.bits .f32 = 32 ∨ (Rect.block (s := S8x3136x64) S1x3136x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3136x2.size a ≤ S3136x2.size a
  hwx1_3 : ∀ i : grid1.Coords, EltTy.bits .f32 = 32 ∨ (Rect.block (s := S3136x2) S3136x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S576x64.size a ≤ S576x64.size a
  hwx1_4 : ∀ i : grid1.Coords, EltTy.bits .f32 = 32 ∨ (Rect.block (s := S576x64) S576x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x3136x64.size a ≤ S8x3136x64.size a
  hwx1_5 : ∀ i : grid1.Coords, EltTy.bits .f32 = 32 ∨ (Rect.block (s := S8x3136x64) S1x3136x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x2x64.size a ≤ S8x2x64.size a
  hwx1_6 : ∀ i : grid1.Coords, EltTy.bits .f32 = 32 ∨ (Rect.block (s := S8x2x64) S1x2x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x64.size a ≤ S25088x64.size a
  hwx2_0 : ∀ i : grid2.Coords, EltTy.bits .f32 = 32 ∨ (Rect.block (s := S25088x64) S256x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x256.size a ≤ S64x256.size a
  hwx2_3 : ∀ i : grid2.Coords, EltTy.bits .f32 = 32 ∨ (Rect.block (s := S64x256) S64x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S25088x256.size a
  hwx2_4 : ∀ i : grid2.Coords, EltTy.bits .f32 = 32 ∨ (Rect.block (s := S25088x256) S256x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x2x256.size a ≤ S98x2x256.size a
  hwx2_5 : ∀ i : grid2.Coords, EltTy.bits .f32 = 32 ∨ (Rect.block (s := S98x2x256) S1x2x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x256.size a ≤ S25088x256.size a
  hwx3_0 : ∀ i : grid3.Coords, EltTy.bits .f32 = 32 ∨ (Rect.block (s := S25088x256) S256x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S25088x256.size a
  hwx3_3 : ∀ i : grid3.Coords, EltTy.bits .f32 = 32 ∨ (Rect.block (s := S25088x256) S256x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S25088x256.size a
  hwx3_4 : ∀ i : grid3.Coords, EltTy.bits .f32 = 32 ∨ (Rect.block (s := S25088x256) S256x256.size (cc3_transform_4 i) (hinb3_4 i)).WholeWords (EltTy.packing .f32)

variable [Facts₀]

def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S3136x576_S576x64_S3136x64_1_0_0_1_n_n : DotDims S3136x576 S576x64 S3136x64 where
  lhsContracting := [1]
  rhsContracting := [0]
  lhsNonContracting := [0]
  rhsNonContracting := [1]
  lhsBatch := []
  rhsBatch := []
  wf := dot_S3136x576_S576x64_S3136x64_1_0_0_1_n_n_wf
def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf

abbrev win0_0 : Pipeline.Window sig grid0 :=
  Pipeline.Window.ofSpec (Memref.whole main_v1) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S256x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x2x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v37) S1x3136x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S3136x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S576x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38_0) S1x3136x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v38_1) S1x2x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v62) S256x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S64x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63_0) S256x256.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v63_1) S1x2x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v63_0) S256x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v85) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v86) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v1) S256x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v87) S256x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== Proof.KRun.lean ====
/-
  The program's run with its result array named: every weakly fair execution of @main terminates without a fault, the
  result array holds what the last boundary's contents hold at it, and the argument arrays are as launched.
-/
import proofs.«118062_g2000700299631556_pallasbulk_725_21_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the program's segments, the last thread state read against the final state: the result array
    at the last boundary's contents, each argument array as launched. -/
theorem run_named : θ_run defs (onTc (τ := τ) (main (F := F))) ⟨m, fun _ => 0, ρ⟩ (fun r => ∀ c : Dev nD,
      r.2.mem ((c.tc : Thread nD τ).loc main_v18) = W8 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v18 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.Gen

end
-- ==== Proof.RRun.lean ====
/-
  The program's run with its result array named: every weakly fair execution of @main terminates without a fault, the
  result array holds what the last boundary's contents hold at it, and the argument arrays are as launched.
-/
import proofs.«118062_g2000700299631556_pallasbulk_725_21_alg».proof.Proof.Gen.ReferenceIdeal.Frame

set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the program's segments, the last thread state read against the final state: the result array
    at the last boundary's contents, each argument array as launched. -/
theorem run_named : θ_run defs (onTc (τ := τ) (main (F := F))) ⟨m, fun _ => 0, ρ⟩ (fun r => ∀ c : Dev nD,
      r.2.mem ((c.tc : Thread nD τ).loc main_v89) = W11 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v89 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.ReferenceIdeal.Gen

end
-- ==== Proof.Spec.lean ====
/-
  The mathematics of the residual bottleneck block, stated once over plain index functions on the extended reals.

  One image has 56 x 56 = 3136 pixels, a batch has 8 images, so an activation matrix has 8 * 3136 = 25088 rows (one per
  pixel of the batch, image after image) and one column per channel.  The block is
    y1 = x · w1;  a1 = relu (bn y1);  y2 = conv3x3 a1 (as a product of a 576-column patch matrix with w2);
    a2 = relu (bn y2);  y3 = a2 · w3;  out = relu (bn y3 + x),
  where "bn" is the affine map whose scale and shift come from the column totals and the column totals of squares of
  the matrix it normalises, taken over all 25088 rows.
-/
import Idealize.ShloMosaic.PureOps.Ideal
import Idealize.ShloMosaic.Lib.ValueIdx
import Mathlib.Algebra.BigOperators.Fin

noncomputable section

namespace Cert.Bneck

open Idealize.ShloMosaic Idealize.ShloMosaic.ValueIdx
open scoped BigOperators

/-- The three float words the block uses: the row count 25088, the variance offset, and zero. -/
abbrev cnt : EReal := Ideal.ofBits .f32 0x46C40000#32
abbrev eps : EReal := Ideal.ofBits .f32 0x3727C5AC#32
abbrev z0 : EReal := Ideal.ofBits .f32 0x00000000#32

/-- A two- and a three-axis array read through its coordinates. -/
abbrev cur2 {a b : ℕ} (A : (⟨2, ![a, b]⟩ : Shape).Idx → EReal) : Fin a → Fin b → EReal := fun p q => A (ix2 p q)
abbrev cur3 {a b c : ℕ} (A : (⟨3, ![a, b, c]⟩ : Shape).Idx → EReal) : Fin a → Fin b → Fin c → EReal :=
  fun n p q => A (ix3 n p q)

/-- Row r of image n in the matrix of all pixels. -/
def row (n : Fin 8) (r : Fin 3136) : Fin 25088 := ⟨n.val * 3136 + r.val, by have := n.isLt; have := r.isLt; omega⟩
/-- Row r of tile i when the matrix of all pixels is cut into 98 tiles of 256 rows. -/
def trow (i : Fin 98) (r : Fin 256) : Fin 25088 := ⟨i.val * 256 + r.val, by have := i.isLt; have := r.isLt; omega⟩

/-- The plain matrix product at an entry. -/
def mm {M K C : ℕ} (A : Fin M → Fin K → EReal) (B : Fin K → Fin C → EReal) (p : Fin M) (q : Fin C) : EReal :=
  ∑ k : Fin K, A p k * B k q

/-- Column totals and column totals of squares of a matrix. -/
def tot {M C : ℕ} (Y : Fin M → Fin C → EReal) (q : Fin C) : EReal := ∑ r : Fin M, Y r q
def totSq {M C : ℕ} (Y : Fin M → Fin C → EReal) (q : Fin C) : EReal := ∑ r : Fin M, Y r q * Y r q

/-- The normalisation's scale and shift of one column from its total s, its total of squares t, gain g, bias b. -/
def mean (s : EReal) : EReal := Ideal.div s cnt
def scaleOf (g s t : EReal) : EReal := g * Ideal.rsqrt (max (Ideal.div t cnt - mean s * mean s) z0 + eps)
def shiftOf (b g s t : EReal) : EReal := b - mean s * scaleOf g s t

/-- The rectified affine map of a matrix, column by column. -/
def act {M C : ℕ} (Y : Fin M → Fin C → EReal) (sc sh : Fin C → EReal) (p : Fin M) (q : Fin C) : EReal :=
  max (Y p q * sc q + sh q) z0

/-- The rows of one image moved down by d places (row r reads row r - d), the zero word above; and up. -/
def down (d : ℕ) (A : Fin 3136 → Fin 64 → EReal) (r : Fin 3136) (c : Fin 64) : EReal :=
  if h : d ≤ r.val then A ⟨r.val - d, by have := r.isLt; omega⟩ c else z0
def up (d : ℕ) (A : Fin 3136 → Fin 64 → EReal) (r : Fin 3136) (c : Fin 64) : EReal :=
  if h : r.val + d < 3136 then A ⟨r.val + d, h⟩ c else z0
/-- An image's rows each multiplied by column j of the two-column edge mask. -/
def masked (j : Fin 2) (A : Fin 3136 → Fin 64 → EReal) (CM : Fin 3136 → Fin 2 → EReal) (r : Fin 3136) (c : Fin 64) : EReal :=
  A r c * CM r j

/-- The nine taps of the 3x3 window of one image, FIRST MOVED THEN MASKED: tap 3*di + dj reads the pixel
    (di - 1) rows and (dj - 1) columns away, that is (di - 1) * 56 + (dj - 1) places along the flat pixel axis, and
    the lateral taps are masked at the destination pixel. -/
def slabMoveMask (A : Fin 3136 → Fin 64 → EReal) (CM : Fin 3136 → Fin 2 → EReal) (tap : ℕ) (r : Fin 3136) (c : Fin 64) : EReal :=
  match tap with
  | 0 => down 57 A r c * CM r 0
  | 1 => down 56 A r c
  | 2 => down 55 A r c * CM r 1
  | 3 => down 1 A r c * CM r 0
  | 4 => A r c
  | 5 => up 1 A r c * CM r 1
  | 6 => up 55 A r c * CM r 0
  | 7 => up 56 A r c
  | _ => up 57 A r c * CM r 1

/-- The nine taps, FIRST MASKED THEN MOVED: the lateral taps are masked at the source pixel (with the other mask
    column), moved one place, and then every tap is moved by a whole number of image rows. -/
def slabMaskMove (A : Fin 3136 → Fin 64 → EReal) (CM : Fin 3136 → Fin 2 → EReal) (tap : ℕ) (r : Fin 3136) (c : Fin 64) : EReal :=
  match tap with
  | 0 => down 56 (down 1 (masked 1 A CM)) r c
  | 1 => down 56 A r c
  | 2 => down 56 (up 1 (masked 0 A CM)) r c
  | 3 => down 1 (masked 1 A CM) r c
  | 4 => A r c
  | 5 => up 1 (masked 0 A CM) r c
  | 6 => up 56 (down 1 (masked 1 A CM)) r c
  | 7 => up 56 A r c
  | _ => up 56 (up 1 (masked 0 A CM)) r c

/-- The 576-column patch matrix of one image from its nine taps: column k is tap k / 64, channel k % 64. -/
def patch (slab : ℕ → Fin 3136 → Fin 64 → EReal) (r : Fin 3136) (k : Fin 576) : EReal :=
  slab (k.val / 64) r ⟨k.val % 64, Nat.mod_lt _ (by decide)⟩

/-- The 3x3 convolution of one image: its patch matrix times the 576 x 64 weight matrix. -/
def conv (slab : ℕ → Fin 3136 → Fin 64 → EReal) (W : Fin 576 → Fin 64 → EReal) (r : Fin 3136) (q : Fin 64) : EReal :=
  ∑ k : Fin 576, patch slab r k * W k q

/-- Image n, and tile i, of a matrix over all pixels. -/
def img {C : ℕ} (Y : Fin 25088 → Fin C → EReal) (n : Fin 8) : Fin 3136 → Fin C → EReal := fun r q => Y (row n r) q
def tile {C : ℕ} (Y : Fin 25088 → Fin C → EReal) (i : Fin 98) : Fin 256 → Fin C → EReal := fun r q => Y (trow i r) q

/-- The normalisation's scale and shift, column by column, from N partial totals (row 0 of each partial) and N
    partial totals of squares (row 1), a one-row gain and a one-row bias. -/
def scOf {N C : ℕ} (G : Fin 1 → Fin C → EReal) (ST : Fin N → Fin 2 → Fin C → EReal) (q : Fin C) : EReal :=
  scaleOf (G 0 q) (∑ n : Fin N, ST n 0 q) (∑ n : Fin N, ST n 1 q)
def shOf {N C : ℕ} (B G : Fin 1 → Fin C → EReal) (ST : Fin N → Fin 2 → Fin C → EReal) (q : Fin C) : EReal :=
  shiftOf (B 0 q) (G 0 q) (∑ n : Fin N, ST n 0 q) (∑ n : Fin N, ST n 1 q)

/-- The block's last step: the rectified sum of the affine map of a matrix and the residual matrix. -/
def res {M C : ℕ} (Y : Fin M → Fin C → EReal) (sc sh : Fin C → EReal) (X : Fin M → Fin C → EReal) (p : Fin M) (q : Fin C) : EReal :=
  max (Y p q * sc q + sh q + X p q) z0

/-- The edge mask of one image: column 0 is zero on the first pixel of every image row (pixel r with r % 56 = 0),
    column 1 on the last (r % 56 = 55), one elsewhere. -/
def edge (r : Fin 3136) (j : Fin 2) : EReal :=
  if j.val = 0 then (if r.val % 56 = 0 then 0 else 1) else (if r.val % 56 = 55 then 0 else 1)

end Cert.Bneck

end
-- ==== Proof.KHost.lean ====
/-
  The first program's buffers at the entry of each of its four regions, read back to the argument arrays: the pixel
  matrix is the transposed input reshaped, the 576 x 64 weights are the 3x3 weights reshaped, the gains, biases and
  1x1 weights are the arguments themselves, and a region leaves an array it only reads, or does not touch, as it was.
-/
import proofs.«118062_g2000700299631556_pallasbulk_725_21_alg».proof.Proof.Gen.KernelIdeal.Frame
import proofs.«118062_g2000700299631556_pallasbulk_725_21_alg».proof.Proof.Spec
import Idealize.ShloMosaic.Lib.StableHlo.Run

set_option maxRecDepth 16384
noncomputable section
namespace Cert.KernelIdeal.Val
open Idealize.ShloMosaic Idealize.ShloMosaic.TcCoe Idealize.SL.Sem Idealize.ShloMosaic.ValueIdx
open Cert.KernelIdeal Cert.Bneck

/-- A stretch of host operations leaves a buffer none of them writes as it was. -/
macro "host_kept " ops:ident : tactic => `(tactic| exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg)

/-- The pixel matrix: the input transposed to channels-last and reshaped to one row per pixel. -/
abbrev xArr (c : Dev nD) : S25088x256.Idx → EReal :=
  shapeCast S25088x256 (transpose S8x56x56x256 [0, 2, 3, 1] (m ((c : Thread nD τ).loc main_arg0)) Gen.transposes_S8x256x56x56_S8x56x56x256_0_2_3_1) Gen.shapeCasts_S8x56x56x256_S25088x256
/-- The 3x3 weights as a 576 x 64 matrix. -/
abbrev w2Arr (c : Dev nD) : S576x64.Idx → EReal :=
  shapeCast S576x64 (m ((c : Thread nD τ).loc main_arg2)) Gen.shapeCasts_S9x64x64_S576x64

theorem x_at3 (c : Dev nD) : (Gen.V3 m ρ c main_v1 : S25088x256.Idx → EReal) = xArr m c := by
  show StableHlo.after Gen.hostOps0_2 (StableHlo.after Gen.hostOps0_1 (StableHlo.after Gen.hostOps0 (Gen.W0 m ρ c))) (Proc.devRef .tc main_v1) = _
  refine Eq.trans (by host_kept Gen.hostOps0_2) ?_
  refine Eq.trans (by host_kept Gen.hostOps0_1) ?_
  simp only [Gen.hostOps0]
  after_results
  rfl

theorem w2_at3 (c : Dev nD) : (Gen.V3 m ρ c main_v2 : S576x64.Idx → EReal) = w2Arr m c := by
  show StableHlo.after Gen.hostOps0_2 (StableHlo.after Gen.hostOps0_1 (StableHlo.after Gen.hostOps0 (Gen.W0 m ρ c))) (Proc.devRef .tc main_v2) = _
  refine Eq.trans (by host_kept Gen.hostOps0_2) ?_
  refine Eq.trans (by host_kept Gen.hostOps0_1) ?_
  simp only [Gen.hostOps0]
  after_results
  rfl

/-- An argument array no host operation writes is at region 0's entry what it was at the launch. -/
macro "arg_at3" : tactic => `(tactic| (
  show StableHlo.after Gen.hostOps0_2 (StableHlo.after Gen.hostOps0_1 (StableHlo.after Gen.hostOps0 (Gen.W0 _ _ _))) _ = _
  refine Eq.trans (by host_kept Gen.hostOps0_2) ?_
  refine Eq.trans (by host_kept Gen.hostOps0_1) ?_
  refine Eq.trans (by host_kept Gen.hostOps0) ?_
  rfl))

theorem arg1_at3 (c : Dev nD) : Gen.V3 m ρ c main_arg1 = m ((c : Thread nD τ).loc main_arg1) := by arg_at3
theorem arg3_at3 (c : Dev nD) : Gen.V3 m ρ c main_arg3 = m ((c : Thread nD τ).loc main_arg3) := by arg_at3
theorem arg4_at3 (c : Dev nD) : Gen.V3 m ρ c main_arg4 = m ((c : Thread nD τ).loc main_arg4) := by arg_at3
theorem arg5_at3 (c : Dev nD) : Gen.V3 m ρ c main_arg5 = m ((c : Thread nD τ).loc main_arg5) := by arg_at3
theorem arg6_at3 (c : Dev nD) : Gen.V3 m ρ c main_arg6 = m ((c : Thread nD τ).loc main_arg6) := by arg_at3
theorem arg7_at3 (c : Dev nD) : Gen.V3 m ρ c main_arg7 = m ((c : Thread nD τ).loc main_arg7) := by arg_at3
theorem arg8_at3 (c : Dev nD) : Gen.V3 m ρ c main_arg8 = m ((c : Thread nD τ).loc main_arg8) := by arg_at3
theorem arg9_at3 (c : Dev nD) : Gen.V3 m ρ c main_arg9 = m ((c : Thread nD τ).loc main_arg9) := by arg_at3

/-! Region 0 (arrays: the pixel matrix, the first weights, its two outputs). -/
theorem x_at4 (c : Dev nD) : Gen.V4 m ρ c main_v1 = Gen.V3 m ρ c main_v1 :=
  (Gen.W4_arr m ρ c 0).trans (((Gen.dat0 (Gen.V3 m ρ) c).arrAt_in 0 rfl _).trans (Gen.A_eq0 (Gen.V3 m ρ) c 0))
theorem v2_at4 (c : Dev nD) : Gen.V4 m ρ c main_v2 = Gen.V3 m ρ c main_v2 := Gen.W4_of_ne m ρ c main_v2 (by decide)
theorem v12_at4 (c : Dev nD) : Gen.V4 m ρ c main_v12 = Gen.V3 m ρ c main_v12 := Gen.W4_of_ne m ρ c main_v12 (by decide)
theorem arg3_at4 (c : Dev nD) : Gen.V4 m ρ c main_arg3 = Gen.V3 m ρ c main_arg3 := Gen.W4_of_ne m ρ c main_arg3 (by decide)
theorem arg4_at4 (c : Dev nD) : Gen.V4 m ρ c main_arg4 = Gen.V3 m ρ c main_arg4 := Gen.W4_of_ne m ρ c main_arg4 (by decide)
theorem arg5_at4 (c : Dev nD) : Gen.V4 m ρ c main_arg5 = Gen.V3 m ρ c main_arg5 := Gen.W4_of_ne m ρ c main_arg5 (by decide)
theorem arg6_at4 (c : Dev nD) : Gen.V4 m ρ c main_arg6 = Gen.V3 m ρ c main_arg6 := Gen.W4_of_ne m ρ c main_arg6 (by decide)
theorem arg7_at4 (c : Dev nD) : Gen.V4 m ρ c main_arg7 = Gen.V3 m ρ c main_arg7 := Gen.W4_of_ne m ρ c main_arg7 (by decide)
theorem arg8_at4 (c : Dev nD) : Gen.V4 m ρ c main_arg8 = Gen.V3 m ρ c main_arg8 := Gen.W4_of_ne m ρ c main_arg8 (by decide)
theorem arg9_at4 (c : Dev nD) : Gen.V4 m ρ c main_arg9 = Gen.V3 m ρ c main_arg9 := Gen.W4_of_ne m ρ c main_arg9 (by decide)

/-! Region 1 (arrays: region 0's outputs, gain 1, bias 1, the mask, the 576 x 64 weights, its two outputs). -/
theorem x_at5 (c : Dev nD) : Gen.V5 m ρ c main_v1 = Gen.V4 m ρ c main_v1 := Gen.W5_of_ne m ρ c main_v1 (by decide)
theorem arg3_at5 (c : Dev nD) : Gen.V5 m ρ c main_arg3 = Gen.V4 m ρ c main_arg3 := Gen.W5_of_ne m ρ c main_arg3 (by decide)
theorem arg6_at5 (c : Dev nD) : Gen.V5 m ρ c main_arg6 = Gen.V4 m ρ c main_arg6 := Gen.W5_of_ne m ρ c main_arg6 (by decide)
theorem arg7_at5 (c : Dev nD) : Gen.V5 m ρ c main_arg7 = Gen.V4 m ρ c main_arg7 := Gen.W5_of_ne m ρ c main_arg7 (by decide)
theorem arg8_at5 (c : Dev nD) : Gen.V5 m ρ c main_arg8 = Gen.V4 m ρ c main_arg8 := Gen.W5_of_ne m ρ c main_arg8 (by decide)
theorem arg9_at5 (c : Dev nD) : Gen.V5 m ρ c main_arg9 = Gen.V4 m ρ c main_arg9 := Gen.W5_of_ne m ρ c main_arg9 (by decide)

/-! Region 2 (arrays: region 1's outputs, gain 2, bias 2, the last weights, its two outputs). -/
theorem x_at6 (c : Dev nD) : Gen.V6 m ρ c main_v1 = Gen.V5 m ρ c main_v1 := Gen.W6_of_ne m ρ c main_v1 (by decide)
theorem arg3_at6 (c : Dev nD) : Gen.V6 m ρ c main_arg3 = Gen.V5 m ρ c main_arg3 :=
  (Gen.W6_arr m ρ c 4).trans (((Gen.dat2 (Gen.V5 m ρ) c).arrAt_in 4 rfl _).trans (Gen.A_eq2 (Gen.V5 m ρ) c 4))
theorem arg8_at6 (c : Dev nD) : Gen.V6 m ρ c main_arg8 = Gen.V5 m ρ c main_arg8 := Gen.W6_of_ne m ρ c main_arg8 (by decide)
theorem arg9_at6 (c : Dev nD) : Gen.V6 m ρ c main_arg9 = Gen.V5 m ρ c main_arg9 := Gen.W6_of_ne m ρ c main_arg9 (by decide)

end Cert.KernelIdeal.Val
end
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.LibColReduce.lean ====
/-
  Reductions of a two-axis array along its FIRST axis, read at an index over the extended reals: the sum down column q is
  the plain sum over the rows of the entries of that column, the minimum down column q is min folded over the rows from
  the initial word. The companions, for the first axis, of the row reductions along the second. For any extents and
  element type. Names no program.
-/
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibColReduce

open Idealize.ShloMosaic Idealize.ShloMosaic.ValueIdx

variable {a b : ℕ}

/-- Result index q of a reduction along the first axis, with the dropped coordinate k put back, is (k, q). -/
theorem lift_col (h : (⟨2, ![a, b]⟩ : Shape).Reduces [(0 : Fin 2)] ⟨1, ![b]⟩) (q : Fin b) (k : Fin a) :
    h.lift (ix1 q) k = ix2 k q := by
  funext c
  apply Fin.ext
  match c with
  | ⟨0, _⟩ => rfl
  | ⟨1, _⟩ => rfl

/-- The sum down column q: the plain sum over the rows. -/
theorem colSum_apply {φ : FTy} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.add.neutral φ hφ) (q : Fin b) :
    multiReduction .add [(0 : Fin 2)] ⟨1, ![b]⟩ src acc h hφ hacc (ix1 q) = ∑ k : Fin a, src (ix2 k q) :=
  (Ideal.multiReduction_add_single src acc h hφ hacc (ix1 q)).trans
    (Finset.sum_congr rfl fun k _ => congrArg src (lift_col h q k))

/-- The minimum down column q: min folded over the rows from the initial word. -/
theorem colMin_apply {φ : FTy} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.minimumf.neutral φ hφ) (q : Fin b) :
    multiReduction .minimumf [(0 : Fin 2)] ⟨1, ![b]⟩ src acc h hφ hacc (ix1 q)
      = (Finset.univ : Finset (Fin a)).fold min (FloatOps.ofBits (F := Ideal) φ acc) (fun k => src (ix2 k q)) := by
  rw [multiReduction_minimumf_eq_fold]
  refine (h.fold_filter_drop_single _ _ src (ix1 q)).trans ?_
  exact congrArg (fun f => (Finset.univ : Finset (Fin a)).fold min (FloatOps.ofBits (F := Ideal) φ acc) f)
    (funext fun k => congrArg src (lift_col h q k))

/-- The sum down column q of an f32 array from the zero word, with the side condition on the initial word spelt as an
    equation between the two literal words (the form a printed reduction carries). -/
theorem colSum_f32 (src : FVec Ideal ⟨2, ![a, b]⟩ .f32)
    (h : (⟨2, ![a, b]⟩ : Shape).Reduces [(0 : Fin 2)] ⟨1, ![b]⟩) (hφ : FKind.Formats .f32)
    (hacc : (0x00000000#32 : BitVec 32) = 0x00000000#32) (q : Fin b) :
    multiReduction .add [(0 : Fin 2)] ⟨1, ![b]⟩ src 0x00000000#32 h hφ hacc (ix1 q) = ∑ k : Fin a, src (ix2 k q) :=
  colSum_apply src 0x00000000#32 h hφ hacc q

/-- The minimum down column q of an f32 array from the word of +∞, the side condition spelt the same way. -/
theorem colMin_f32 (src : FVec Ideal ⟨2, ![a, b]⟩ .f32)
    (h : (⟨2, ![a, b]⟩ : Shape).Reduces [(0 : Fin 2)] ⟨1, ![b]⟩) (hφ : FKind.Formats .f32)
    (hacc : (0x7F800000#32 : BitVec 32) = 0x7F800000#32) (q : Fin b) :
    multiReduction .minimumf [(0 : Fin 2)] ⟨1, ![b]⟩ src 0x7F800000#32 h hφ hacc (ix1 q)
      = (Finset.univ : Finset (Fin a)).fold min (Ideal.ofBits .f32 0x7F800000#32) (fun k => src (ix2 k q)) :=
  colMin_apply src 0x7F800000#32 h hφ hacc q

end Cert.LibColReduce

end
-- ==== Proof.LibRowShift.lean ====
/-
  Layout operations of matrices read at an index (row, column), for any extents and any element type.

  * One row stacked on `R` rows (a join of a `[1, C]` and an `[R, C]` array along the row axis into `[N, C]`): row 0 of
    the result is the single row, row `r' + 1` is row `r'` of the lower piece.
  * A rotation of the rows by ONE place (row `r` of the result is row `r - 1` of the operand, and row 0 is the LAST row,
    which comes around the end).
  * A column `[N, 1]` broadcast along the lanes to `[N, C]`: entry (r, c) is the column's entry r.
  * A scalar broadcast to any shape: every entry is the scalar.
-/
import Idealize.ShloMosaic.Lib.Pipeline.Value
import Idealize.ShloMosaic.Lib.ValueIdx
import Idealize.ShloMosaic.Lib.KernelVsHost

namespace Cert.RowShift

open Idealize.ShloMosaic Idealize.ShloMosaic.ValueIdx

variable {α : Type}

/-- A single row `top` stacked on the rows `rest`, read in row 0: the entry of `top` in the same column. -/
theorem stack_head_apply {R N C : Nat} (top : (⟨2, ![1, C]⟩ : Shape).Idx → α) (rest : (⟨2, ![R, C]⟩ : Shape).Idx → α)
    (h : Shape.Concatenates [(⟨2, ![1, C]⟩ : Shape), (⟨2, ![R, C]⟩ : Shape)] (⟨2, ![N, C]⟩ : Shape) (0 : Fin 2))
    (r : Fin N) (c : Fin C) (hr : r.val = 0) :
    concatenate (⟨2, ![N, C]⟩ : Shape) (0 : Fin 2) [⟨(⟨2, ![1, C]⟩ : Shape), top⟩, ⟨(⟨2, ![R, C]⟩ : Shape), rest⟩] h (ix2 r c)
      = top (ix2 (0 : Fin 1) c) :=
  concatenate_pair_apply_left (0 : Fin 2) top rest h (ix2 r c) rfl (ix2 (0 : Fin 1) c) (fun b => match b with
    | ⟨0, _⟩ => hr.symm
    | ⟨1, _⟩ => rfl)

/-- A single row stacked on the rows `rest`, read in a row `r = r' + 1` below the first: row `r'` of `rest`, same column. -/
theorem stack_tail_apply {R N C : Nat} (top : (⟨2, ![1, C]⟩ : Shape).Idx → α) (rest : (⟨2, ![R, C]⟩ : Shape).Idx → α)
    (h : Shape.Concatenates [(⟨2, ![1, C]⟩ : Shape), (⟨2, ![R, C]⟩ : Shape)] (⟨2, ![N, C]⟩ : Shape) (0 : Fin 2))
    (r : Fin N) (c : Fin C) (r' : Fin R) (hr : r'.val + 1 = r.val) :
    concatenate (⟨2, ![N, C]⟩ : Shape) (0 : Fin 2) [⟨(⟨2, ![1, C]⟩ : Shape), top⟩, ⟨(⟨2, ![R, C]⟩ : Shape), rest⟩] h (ix2 r c)
      = rest (ix2 r' c) :=
  concatenate_pair_apply_right (0 : Fin 2) top rest h (ix2 r c) rfl rfl (ix2 r' c)
    (fun b hb => match b, hb with
      | ⟨0, _⟩, hb => absurd rfl hb
      | ⟨1, _⟩, _ => rfl)
    hr

/-- The rows rotated by one place: row `r` of the result is the operand's row `(r + N - 1) mod N` — the row above, and
    for row 0 the last row. -/
theorem rotate_rows_one_apply {N C : Nat} (hN : 1 < N) (sb : BitVec 32) (hsb : sb.toNat = 1)
    (x : (⟨2, ![N, C]⟩ : Shape).Idx → α) (h : (⟨2, ![N, C]⟩ : Shape).Rotates (0 : Fin 2) none)
    (r r' : Fin N) (c : Fin C) (hr : r'.val = (r.val + N - 1) % N) :
    dynamicRotate (0 : Fin 2) sb none x h (ix2 r c) = x (ix2 r' c) :=
  dynamicRotate_apply (0 : Fin 2) sb x h (ix2 r c) (ix2 r' c) (fun b => match b with
    | ⟨0, hlt⟩ => by
        have e : (⟨0, hlt⟩ : Fin (⟨2, ![N, C]⟩ : Shape).rank) = (0 : Fin 2) := rfl
        rw [if_pos e]
        show r'.val = (r.val + N - sb.toNat % N) % N
        rw [hsb, Nat.mod_eq_of_lt hN]; exact hr
    | ⟨1, hlt⟩ => by
        have e : ¬ (⟨1, hlt⟩ : Fin (⟨2, ![N, C]⟩ : Shape).rank) = (0 : Fin 2) :=
          fun he => absurd (show (1 : Nat) = 0 from congrArg Fin.val he) (by decide)
        rw [if_neg e])

/-- A column broadcast along the lanes: entry (r, c) is the column's entry r. -/
theorem column_broadcast_apply {N C : Nat} (x : (⟨2, ![N, 1]⟩ : Shape).Idx → α)
    (h : (⟨2, ![N, 1]⟩ : Shape).Broadcasts (⟨2, ![N, C]⟩ : Shape)) (r : Fin N) (c : Fin C) :
    broadcastTo (⟨2, ![N, C]⟩ : Shape) x h (ix2 r c) = x (ix2 r (0 : Fin 1)) :=
  broadcastTo_apply x h (ix2 r c) (ix2 r (0 : Fin 1)) (fun a => match a with
    | ⟨0, _⟩ => by
        show r.val = if N = 1 then 0 else r.val
        have := r.isLt
        split <;> omega
    | ⟨1, _⟩ => by
        show 0 = if (1 : Nat) = 1 then 0 else c.val
        rw [if_pos rfl])

/-- A scalar broadcast to any shape: every entry is the scalar. -/
theorem scalar_broadcast_apply {t : Shape} (dims : Fin 0 → Fin t.rank) (h : (⟨0, ![]⟩ : Shape).BroadcastsInDim t dims)
    (x : (⟨0, ![]⟩ : Shape).Idx → α) (j : t.Idx) :
    broadcastInDim t dims h x j = x ix0 :=
  broadcastInDim_apply dims h x j ix0 (fun a => a.elim0)

end Cert.RowShift
-- ==== Proof.K0.lean ====
import proofs.«118062_g2000700299631556_pallasbulk_725_21_alg».proof.Proof.Gen.KernelIdeal.Frame
import proofs.«118062_g2000700299631556_pallasbulk_725_21_alg».proof.Proof.Spec
import proofs.«118062_g2000700299631556_pallasbulk_725_21_alg».proof.Proof.LibMatmulAt
import proofs.«118062_g2000700299631556_pallasbulk_725_21_alg».proof.Proof.LibColReduce
import proofs.«118062_g2000700299631556_pallasbulk_725_21_alg».proof.Proof.LibRowShift
import Idealize.ShloMosaic.Lib.ValueLayout
import Idealize.ShloMosaic.Lib.Pipeline.Value

noncomputable section
namespace Cert.KernelIdeal.Val
open Idealize.ShloMosaic Idealize.ShloMosaic.TcCoe Idealize.SL.Sem Idealize.ShloMosaic.ValueIdx
open Cert.KernelIdeal Cert.Bneck
open scoped BigOperators

variable (V : (c : Dev nD) → (b : Ref sig .tc) → Buf (Elt Ideal) ((c : Thread nD τ).loc b))

namespace Region0

/-! ## The body's three values at an index, over arbitrary loaded blocks -/

theorem zero2 : (![0, 0] : Fin 2 → Nat) = fun _ => 0 := funext fun a => by fin_cases a <;> rfl
theorem zero3 : (![0, 0, 0] : Fin 3 → Nat) = fun _ => 0 := funext fun a => by fin_cases a <;> rfl

/-- The product of the two loaded blocks at (p, q): the sum over the 256 contracted columns. -/
theorem prod_apply (x0 : Vec Ideal S3136x256 .f32) (x1 : Vec Ideal S256x64 .f32) (p : Fin 3136) (q : Fin 64) :
    (Gen.k0_pay1 x0 x1 : S3136x64.Idx → EReal) (ix2 p q)
      = ∑ k : Fin 256, (x0 : S3136x256.Idx → EReal) (ix2 p k) * (x1 : S256x64.Idx → EReal) (ix2 k q) := by
  unfold Gen.k0_pay1
  rw [shapeCast_self]
  exact Cert.LibMatmulAt.matmul_zero_apply dot_S3136x256_S256x64_S3136x64_1_0_0_1_n_n rfl rfl rfl rfl rfl rfl none _ _ p q

/-- The stored block at (u, p, q) is the product at (p, q). -/
theorem stored_apply (x0 : Vec Ideal S3136x256 .f32) (x1 : Vec Ideal S256x64 .f32) (u : Fin 1) (p : Fin 3136) (q : Fin 64) :
    (Gen.k0_pay2 x0 x1 : S1x3136x64.Idx → EReal) (ix3 u p q) = (Gen.k0_pay1 x0 x1 : S3136x64.Idx → EReal) (ix2 p q) := by
  unfold Gen.k0_pay2
  exact shapeCast_ab_1ab_apply _ _ u p q

/-- Row 0 of the statistics block: the column totals of the product. -/
theorem stat0_apply (x0 : Vec Ideal S3136x256 .f32) (x1 : Vec Ideal S256x64 .f32) (u : Fin 1) (q : Fin 64) :
    (Gen.k0_pay3 x0 x1 : S1x2x64.Idx → EReal) (ix3 u (0 : Fin 2) q)
      = ∑ r : Fin 3136, (Gen.k0_pay1 x0 x1 : S3136x64.Idx → EReal) (ix2 r q) := by
  unfold Gen.k0_pay3
  dsimp only
  refine (shapeCast_ab_1ab_apply _ _ u (0 : Fin 2) q).trans ?_
  refine (Cert.RowShift.stack_head_apply _ _ _ (0 : Fin 2) q rfl).trans ?_
  refine (shapeCast_a_1a_apply _ _ (0 : Fin 1) q).trans ?_
  exact Cert.LibColReduce.colSum_f32 _ _ _ _ q

/-- Row 1 of the statistics block: the column totals of the squares of the product. -/
theorem stat1_apply (x0 : Vec Ideal S3136x256 .f32) (x1 : Vec Ideal S256x64 .f32) (u : Fin 1) (q : Fin 64) :
    (Gen.k0_pay3 x0 x1 : S1x2x64.Idx → EReal) (ix3 u (1 : Fin 2) q)
      = ∑ r : Fin 3136, (Gen.k0_pay1 x0 x1 : S3136x64.Idx → EReal) (ix2 r q) * (Gen.k0_pay1 x0 x1 : S3136x64.Idx → EReal) (ix2 r q) := by
  unfold Gen.k0_pay3
  dsimp only
  refine (shapeCast_ab_1ab_apply _ _ u (1 : Fin 2) q).trans ?_
  refine (Cert.RowShift.stack_tail_apply _ _ _ (1 : Fin 2) q (0 : Fin 1) rfl).trans ?_
  refine (shapeCast_a_1a_apply _ _ (0 : Fin 1) q).trans ?_
  exact Cert.LibColReduce.colSum_f32 _ _ _ _ q

/-! ## Where each block sits in its array -/

/-- The windows' block indices at grid point t: the row block of the activation matrix and the image of each output
    follow t, every other axis stays at block 0. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The image grid point t works on. -/
def imageOf (t : Fin cfg0.N) : Fin 8 := ⟨t.val, lt_of_lt_of_eq t.isLt Gen.N_0⟩

/-- The grid point that works on image n. -/
def pointOf (n : Fin 8) : Fin cfg0.N := ⟨n.val, lt_of_lt_of_eq n.isLt Gen.N_0.symm⟩

theorem imageOf_pointOf (n : Fin 8) : imageOf (pointOf n) = n := rfl

/-- The activation block at point t is the rows of image t of the activation matrix. -/
theorem lhs_block (c : Dev nD) (t : Fin cfg0.N) (p : Fin 3136) (k : Fin 256) :
    (Gen.iblk0 V c 0 t : S3136x256.Idx → EReal) (ix2 p k)
      = (V c main_v1 : S25088x256.Idx → EReal) (ix2 (row (imageOf t) p) k) := by
  obtain ⟨e0, e1, -⟩ := block_index t
  show (V c main_v1 : S25088x256.Idx → EReal) (((cfg0.win 0).blk t).view.emb (ix2 p k)) = _
  refine congrArg (V c main_v1 : S25088x256.Idx → EReal) (funext fun a => Fin.ext ?_)
  match a with
  | ⟨0, _⟩ => show win0_0.index t (0 : Fin 2) * 3136 + 1 * p.val = t.val * 3136 + p.val; rw [e0]; omega
  | ⟨1, _⟩ => show win0_0.index t (1 : Fin 2) * 256 + 1 * k.val = k.val; rw [e1]; omega

/-- The weight block at every point is the whole weight matrix. -/
theorem rhs_block (c : Dev nD) (t : Fin cfg0.N) (k : Fin 256) (q : Fin 64) :
    (Gen.iblk0 V c 1 t : S256x64.Idx → EReal) (ix2 k q) = (V c main_arg1 : S256x64.Idx → EReal) (ix2 k q) := by
  obtain ⟨-, -, e0, e1, -⟩ := block_index t
  show (V c main_arg1 : S256x64.Idx → EReal) (((cfg0.win 1).blk t).view.emb (ix2 k q)) = _
  refine congrArg (V c main_arg1 : S256x64.Idx → EReal) (funext fun a => Fin.ext ?_)
  match a with
  | ⟨0, _⟩ => show win0_1.index t (0 : Fin 2) * 256 + 1 * k.val = k.val; rw [e0]; omega
  | ⟨1, _⟩ => show win0_1.index t (1 : Fin 2) * 64 + 1 * q.val = q.val; rw [e1]; omega

/-- The product of the blocks loaded at point t is image t of the product of the whole matrices. -/
theorem prod_block (c : Dev nD) (t : Fin cfg0.N) (p : Fin 3136) (q : Fin 64) :
    (Gen.k0_pay1 (Gen.iblk0 V c 0 t) (Gen.iblk0 V c 1 t) : S3136x64.Idx → EReal) (ix2 p q)
      = mm (cur2 (V c main_v1 : S25088x256.Idx → EReal)) (cur2 (V c main_arg1 : S256x64.Idx → EReal)) (row (imageOf t) p) q := by
  refine (prod_apply (Gen.iblk0 V c 0 t) (Gen.iblk0 V c 1 t) p q).trans ?_
  unfold mm
  exact Finset.sum_congr rfl fun k _ => congrArg₂ (· * ·) (lhs_block V c t p k) (rhs_block V c t k q)

/-! ## The stored product: from blocks to the array -/

/-- What the array of the stored product ends holding: the product of the whole matrices, image by image. -/
def prodArr (A : S25088x256.Idx → EReal) (B : S256x64.Idx → EReal) : S8x3136x64.Idx → EReal :=
  fun i => mm (cur2 A) (cur2 B) (row (i 0) (i 1)) (i 2)

/-- What grid point t writes back to the stored product is block t of that array. -/
theorem flushed_prod (c : Dev nD) (t : Fin cfg0.N) :
    (Gen.dat0 V c).flushed 2 t
      = ((cfg0.win 2).blk t).view.read (Elt Ideal) (prodArr (V c main_v1 : S25088x256.Idx → EReal) (V c main_arg1 : S256x64.Idx → EReal)) := by
  show (cfg0.win 2).cut (grid0.coords t) ((Gen.dat0 V c).after 2 t) = _
  rw [Gen.after0_2]
  unfold Gen.out0_2
  rw [View.canon_unit_zero zero3]
  simp only [View.ld_unit_zero (S := S3136x256) zero2, View.ld_unit_zero (S := S256x64) zero2]
  obtain ⟨-, -, -, -, e0, e1, e2, -⟩ := block_index t
  funext (j : S1x3136x64.Idx)
  obtain ⟨u, p, q, rfl⟩ : ∃ (u : Fin 1) (p : Fin 3136) (q : Fin 64), j = ix3 u p q := ⟨j 0, j 1, j 2, eq_ix3 j⟩
  show (Gen.k0_pay2 (Gen.iblk0 V c 0 t) (Gen.iblk0 V c 1 t) : S1x3136x64.Idx → EReal) (ix3 u p q)
      = prodArr (V c main_v1 : S25088x256.Idx → EReal) (V c main_arg1 : S256x64.Idx → EReal) (((cfg0.win 2).blk t).view.emb (ix3 u p q))
  have hemb : ((cfg0.win 2).blk t).view.emb (ix3 u p q) = ix3 (imageOf t) p q := by
    funext a; apply Fin.ext
    match a with
    | ⟨0, _⟩ => show win0_2.index t (0 : Fin 3) * 1 + 1 * u.val = t.val; rw [e0]; omega
    | ⟨1, _⟩ => show win0_2.index t (1 : Fin 3) * 3136 + 1 * p.val = p.val; rw [e1]; omega
    | ⟨2, _⟩ => show win0_2.index t (2 : Fin 3) * 64 + 1 * q.val = q.val; rw [e2]; omega
  rw [hemb]
  exact (stored_apply (Gen.iblk0 V c 0 t) (Gen.iblk0 V c 1 t) u p q).trans (prod_block V c t p q)

/-- An index of the stored product's array is in point t's block iff each coordinate is in the block's range. -/
theorem mem_prod_block (t : Fin cfg0.N) (i : S8x3136x64.Idx) :
    i ∈ ((cfg0.win 2).blk t).view.set ↔ ∀ a : Fin 3, win0_2.index t a * S1x3136x64.size a ≤ (i a).val ∧ (i a).val < win0_2.index t a * S1x3136x64.size a + S1x3136x64.size a := by
  show i ∈ ((View.whole main_v13_0).slice (win0_2.rect t)).set ↔ _
  rw [View.set_slice_whole, Rect.mem_set_unit]
  exact Iff.rfl

/-! ## The statistics: from blocks to the array -/

/-- What the statistics array ends holding: per image, row 0 the column totals and row 1 the column totals of squares
    of that image of the product of the whole matrices. -/
def statArr (A : S25088x256.Idx → EReal) (B : S256x64.Idx → EReal) : S8x2x64.Idx → EReal :=
  fun i => if (i 1).val = 0 then tot (img (mm (cur2 A) (cur2 B)) (i 0)) (i 2) else totSq (img (mm (cur2 A) (cur2 B)) (i 0)) (i 2)

theorem statArr_row0 (A : S25088x256.Idx → EReal) (B : S256x64.Idx → EReal) (n : Fin 8) (q : Fin 64) :
    statArr A B (ix3 n (0 : Fin 2) q) = tot (img (mm (cur2 A) (cur2 B)) n) q := if_pos rfl

theorem statArr_row1 (A : S25088x256.Idx → EReal) (B : S256x64.Idx → EReal) (n : Fin 8) (q : Fin 64) :
    statArr A B (ix3 n (1 : Fin 2) q) = totSq (img (mm (cur2 A) (cur2 B)) n) q := if_neg Nat.one_ne_zero

/-- What grid point t writes back to the statistics is block t of that array. -/
theorem flushed_stat (c : Dev nD) (t : Fin cfg0.N) :
    (Gen.dat0 V c).flushed 3 t
      = ((cfg0.win 3).blk t).view.read (Elt Ideal) (statArr (V c main_v1 : S25088x256.Idx → EReal) (V c main_arg1 : S256x64.Idx → EReal)) := by
  show (cfg0.win 3).cut (grid0.coords t) ((Gen.dat0 V c).after 3 t) = _
  rw [Gen.after0_3]
  unfold Gen.out0_3
  rw [View.canon_unit_zero zero3]
  simp only [View.ld_unit_zero (S := S3136x256) zero2, View.ld_unit_zero (S := S256x64) zero2]
  obtain ⟨-, -, -, -, -, -, -, e0, e1, e2⟩ := block_index t
  funext (j : S1x2x64.Idx)
  obtain ⟨u, s, q, rfl⟩ : ∃ (u : Fin 1) (s : Fin 2) (q : Fin 64), j = ix3 u s q := ⟨j 0, j 1, j 2, eq_ix3 j⟩
  show (Gen.k0_pay3 (Gen.iblk0 V c 0 t) (Gen.iblk0 V c 1 t) : S1x2x64.Idx → EReal) (ix3 u s q)
      = statArr (V c main_v1 : S25088x256.Idx → EReal) (V c main_arg1 : S256x64.Idx → EReal) (((cfg0.win 3).blk t).view.emb (ix3 u s q))
  have hemb : ((cfg0.win 3).blk t).view.emb (ix3 u s q) = ix3 (imageOf t) s q := by
    funext a; apply Fin.ext
    match a with
    | ⟨0, _⟩ => show win0_3.index t (0 : Fin 3) * 1 + 1 * u.val = t.val; rw [e0]; omega
    | ⟨1, _⟩ => show win0_3.index t (1 : Fin 3) * 2 + 1 * s.val = s.val; rw [e1]; omega
    | ⟨2, _⟩ => show win0_3.index t (2 : Fin 3) * 64 + 1 * q.val = q.val; rw [e2]; omega
  rw [hemb]
  match s with
  | ⟨0, _⟩ =>
    refine (stat0_apply (Gen.iblk0 V c 0 t) (Gen.iblk0 V c 1 t) u q).trans ?_
    refine Eq.trans ?_ (statArr_row0 _ _ (imageOf t) q).symm
    unfold tot img
    exact Finset.sum_congr rfl fun r _ => prod_block V c t r q
  | ⟨1, _⟩ =>
    refine (stat1_apply (Gen.iblk0 V c 0 t) (Gen.iblk0 V c 1 t) u q).trans ?_
    refine Eq.trans ?_ (statArr_row1 _ _ (imageOf t) q).symm
    unfold totSq img
    exact Finset.sum_congr rfl fun r _ => congrArg₂ (· * ·) (prod_block V c t r q) (prod_block V c t r q)

/-- An index of the statistics array is in point t's block iff each coordinate is in the block's range. -/
theorem mem_stat_block (t : Fin cfg0.N) (i : S8x2x64.Idx) :
    i ∈ ((cfg0.win 3).blk t).view.set ↔ ∀ a : Fin 3, win0_3.index t a * S1x2x64.size a ≤ (i a).val ∧ (i a).val < win0_3.index t a * S1x2x64.size a + S1x2x64.size a := by
  show i ∈ ((View.whole main_v13_1).slice (win0_3.rect t)).set ↔ _
  rw [View.set_slice_whole, Rect.mem_set_unit]
  exact Iff.rfl

/-- Row s of image n of the statistics array after the run. -/
theorem stat_at (c : Dev nD) (n : Fin 8) (s : Fin 2) (q : Fin 64) :
    ((Gen.dat0 V c).arrAt 3 cfg0.N : S8x2x64.Idx → EReal) (ix3 n s q)
      = statArr (V c main_v1 : S25088x256.Idx → EReal) (V c main_arg1 : S256x64.Idx → EReal) (ix3 n s q) := by
  refine (Gen.dat0 V c).arrAt_apply_of_mem 3 (statArr (V c main_v1 : S25088x256.Idx → EReal) (V c main_arg1 : S256x64.Idx → EReal))
    (fun t _ => flushed_stat V c t) cfg0.N (pointOf n) (ix3 n s q) (pointOf n).isLt (Gen.flush0_3 _) ?_
  rw [mem_stat_block]
  obtain ⟨-, -, -, -, -, -, -, e0, e1, e2⟩ := block_index (pointOf n)
  have hs := s.isLt
  have hq := q.isLt
  intro a
  match a with
  | ⟨0, _⟩ => show win0_3.index (pointOf n) (0 : Fin 3) * 1 ≤ n.val ∧ n.val < win0_3.index (pointOf n) (0 : Fin 3) * 1 + 1; rw [e0]; show n.val * 1 ≤ n.val ∧ n.val < n.val * 1 + 1; omega
  | ⟨1, _⟩ => show win0_3.index (pointOf n) (1 : Fin 3) * 2 ≤ s.val ∧ s.val < win0_3.index (pointOf n) (1 : Fin 3) * 2 + 2; rw [e1]; omega
  | ⟨2, _⟩ => show win0_3.index (pointOf n) (2 : Fin 3) * 64 ≤ q.val ∧ q.val < win0_3.index (pointOf n) (2 : Fin 3) * 64 + 64; rw [e2]; omega

end Region0

open Region0

/-- Region 0 (the first 1x1 convolution, one image per grid point): the stored product. -/
theorem y1_eq (c : Dev nD) (n : Fin 8) (r : Fin 3136) (q : Fin 64) :
    ((Gen.dat0 V c).arrAt 2 cfg0.N : S8x3136x64.Idx → EReal) (ix3 n r q)
      = mm (cur2 (V c main_v1 : S25088x256.Idx → EReal)) (cur2 (V c main_arg1 : S256x64.Idx → EReal)) (row n r) q := by
  refine (Gen.dat0 V c).arrAt_apply_of_mem 2 (prodArr (V c main_v1 : S25088x256.Idx → EReal) (V c main_arg1 : S256x64.Idx → EReal))
    (fun t _ => flushed_prod V c t) cfg0.N (pointOf n) (ix3 n r q) (pointOf n).isLt (Gen.flush0_2 _) ?_
  rw [mem_prod_block]
  obtain ⟨-, -, -, -, e0, e1, e2, -⟩ := block_index (pointOf n)
  have hr := r.isLt
  have hq := q.isLt
  intro a
  match a with
  | ⟨0, _⟩ => show win0_2.index (pointOf n) (0 : Fin 3) * 1 ≤ n.val ∧ n.val < win0_2.index (pointOf n) (0 : Fin 3) * 1 + 1; rw [e0]; show n.val * 1 ≤ n.val ∧ n.val < n.val * 1 + 1; omega
  | ⟨1, _⟩ => show win0_2.index (pointOf n) (1 : Fin 3) * 3136 ≤ r.val ∧ r.val < win0_2.index (pointOf n) (1 : Fin 3) * 3136 + 3136; rw [e1]; omega
  | ⟨2, _⟩ => show win0_2.index (pointOf n) (2 : Fin 3) * 64 ≤ q.val ∧ q.val < win0_2.index (pointOf n) (2 : Fin 3) * 64 + 64; rw [e2]; omega

/-- Region 0: each image's column totals and column totals of squares of the product. -/
theorem st1_eq (c : Dev nD) (n : Fin 8) (q : Fin 64) :
    ((Gen.dat0 V c).arrAt 3 cfg0.N : S8x2x64.Idx → EReal) (ix3 n 0 q)
        = tot (img (mm (cur2 (V c main_v1 : S25088x256.Idx → EReal)) (cur2 (V c main_arg1 : S256x64.Idx → EReal))) n) q
    ∧ ((Gen.dat0 V c).arrAt 3 cfg0.N : S8x2x64.Idx → EReal) (ix3 n 1 q)
        = totSq (img (mm (cur2 (V c main_v1 : S25088x256.Idx → EReal)) (cur2 (V c main_arg1 : S256x64.Idx → EReal))) n) q := by
  exact ⟨(stat_at V c n 0 q).trans (statArr_row0 _ _ n q), (stat_at V c n 1 q).trans (statArr_row1 _ _ n q)⟩

end Cert.KernelIdeal.Val
end
-- ==== Proof.K1a.lean ====
/-
  Row moves and joins of matrices with 3136 rows, read at an entry.

  * Rows stacked on rows (a join along the row axis of an [n₁, C] and an [n₂, C] array), read in the upper and in the
    lower piece.
  * d rows of the zero word stacked on the first n rows of a matrix M (d + n = 3136): the rows of M moved down by d
    places; and the last n rows of M stacked on d rows of the zero word: the rows moved up.
  * Nine [3136, 64] matrices joined along the column axis into [3136, 576]: column k reads piece k / 64 at column
    k % 64.
  * The sum of an [a, b, c] array along its first axis.
-/
import proofs.«118062_g2000700299631556_pallasbulk_725_21_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.Bneck.Moves

open Idealize.ShloMosaic Idealize.ShloMosaic.ValueIdx Cert.Bneck
open scoped BigOperators

section Stack
variable {α : Type}

/-- n₁ rows stacked on n₂ rows, read in a row of the upper piece. -/
theorem stack_top_apply {n₁ n₂ N C : Nat} (top : (⟨2, ![n₁, C]⟩ : Shape).Idx → α) (bot : (⟨2, ![n₂, C]⟩ : Shape).Idx → α)
    (h : Shape.Concatenates [(⟨2, ![n₁, C]⟩ : Shape), (⟨2, ![n₂, C]⟩ : Shape)] (⟨2, ![N, C]⟩ : Shape) (0 : Fin 2))
    (r : Fin N) (c : Fin C) (r' : Fin n₁) (hr : r'.val = r.val) :
    concatenate (⟨2, ![N, C]⟩ : Shape) (0 : Fin 2) [⟨(⟨2, ![n₁, C]⟩ : Shape), top⟩, ⟨(⟨2, ![n₂, C]⟩ : Shape), bot⟩] h (ix2 r c)
      = top (ix2 r' c) :=
  concatenate_pair_apply_left (0 : Fin 2) top bot h (ix2 r c) rfl (ix2 r' c) (fun b => match b with
    | ⟨0, _⟩ => hr
    | ⟨1, _⟩ => rfl)

/-- n₁ rows stacked on n₂ rows, read in a row of the lower piece: row r' + n₁ of the whole is row r' of the lower. -/
theorem stack_bot_apply {n₁ n₂ N C : Nat} (top : (⟨2, ![n₁, C]⟩ : Shape).Idx → α) (bot : (⟨2, ![n₂, C]⟩ : Shape).Idx → α)
    (h : Shape.Concatenates [(⟨2, ![n₁, C]⟩ : Shape), (⟨2, ![n₂, C]⟩ : Shape)] (⟨2, ![N, C]⟩ : Shape) (0 : Fin 2))
    (r : Fin N) (c : Fin C) (r' : Fin n₂) (hr : r'.val + n₁ = r.val) :
    concatenate (⟨2, ![N, C]⟩ : Shape) (0 : Fin 2) [⟨(⟨2, ![n₁, C]⟩ : Shape), top⟩, ⟨(⟨2, ![n₂, C]⟩ : Shape), bot⟩] h (ix2 r c)
      = bot (ix2 r' c) :=
  concatenate_pair_apply_right (0 : Fin 2) top bot h (ix2 r c) rfl rfl (ix2 r' c)
    (fun b hb => match b, hb with
      | ⟨0, _⟩, hb => absurd rfl hb
      | ⟨1, _⟩, _ => rfl)
    hr

end Stack

/-- d rows of the zero word stacked on n rows that are the first n rows of M: the rows of M moved down by d. -/
theorem down_rows_apply (d n : Nat) (hdn : d + n = 3136) (M : Fin 3136 → Fin 64 → EReal)
    (Z : (⟨2, ![d, 64]⟩ : Shape).Idx → EReal) (hZ : ∀ j, Z j = z0)
    (Y : (⟨2, ![n, 64]⟩ : Shape).Idx → EReal)
    (hY : ∀ (p : Fin n) (q : Fin 64), Y (ix2 p q) = M ⟨p.val, by have := p.isLt; omega⟩ q)
    (hc : Shape.Concatenates [(⟨2, ![d, 64]⟩ : Shape), (⟨2, ![n, 64]⟩ : Shape)] (⟨2, ![3136, 64]⟩ : Shape) (0 : Fin 2))
    (r : Fin 3136) (c : Fin 64) :
    concatenate (⟨2, ![3136, 64]⟩ : Shape) (0 : Fin 2) [⟨(⟨2, ![d, 64]⟩ : Shape), Z⟩, ⟨(⟨2, ![n, 64]⟩ : Shape), Y⟩] hc (ix2 r c)
      = down d M r c := by
  unfold down
  by_cases h : d ≤ r.val
  · rw [dif_pos h]
    have hlt : r.val - d < n := by have := r.isLt; omega
    refine (stack_bot_apply Z Y hc r c ⟨r.val - d, hlt⟩ (by show r.val - d + d = r.val; omega)).trans ?_
    exact hY ⟨r.val - d, hlt⟩ c
  · rw [dif_neg h]
    exact (stack_top_apply Z Y hc r c ⟨r.val, by omega⟩ rfl).trans (hZ _)

/-- n rows that are the last n rows of M stacked on d rows of the zero word: the rows of M moved up by d. -/
theorem up_rows_apply (d n : Nat) (hdn : d + n = 3136) (M : Fin 3136 → Fin 64 → EReal)
    (Y : (⟨2, ![n, 64]⟩ : Shape).Idx → EReal)
    (hY : ∀ (p : Fin n) (q : Fin 64), Y (ix2 p q) = M ⟨p.val + d, by have := p.isLt; omega⟩ q)
    (Z : (⟨2, ![d, 64]⟩ : Shape).Idx → EReal) (hZ : ∀ j, Z j = z0)
    (hc : Shape.Concatenates [(⟨2, ![n, 64]⟩ : Shape), (⟨2, ![d, 64]⟩ : Shape)] (⟨2, ![3136, 64]⟩ : Shape) (0 : Fin 2))
    (r : Fin 3136) (c : Fin 64) :
    concatenate (⟨2, ![3136, 64]⟩ : Shape) (0 : Fin 2) [⟨(⟨2, ![n, 64]⟩ : Shape), Y⟩, ⟨(⟨2, ![d, 64]⟩ : Shape), Z⟩] hc (ix2 r c)
      = up d M r c := by
  unfold up
  by_cases h : r.val + d < 3136
  · rw [dif_pos h]
    exact (stack_top_apply Y Z hc r c ⟨r.val, by omega⟩ rfl).trans (hY ⟨r.val, by omega⟩ c)
  · rw [dif_neg h]
    have hlt : r.val - n < d := by have := r.isLt; omega
    exact (stack_bot_apply Y Z hc r c ⟨r.val - n, hlt⟩ (by show r.val - n + n = r.val; omega)).trans (hZ _)

/-- The first n rows of a matrix X, as a slice at offset zero. -/
theorem head_rows_apply (n : Nat) (hn : n ≤ 3136) (X : (⟨2, ![3136, 64]⟩ : Shape).Idx → EReal)
    (hs : (⟨2, ![3136, 64]⟩ : Shape).Slices ![0, 0] ⟨2, ![n, 64]⟩) (p : Fin n) (q : Fin 64) :
    extractStridedSlice ⟨2, ![n, 64]⟩ ![0, 0] X hs (ix2 p q) = cur2 X ⟨p.val, by have := p.isLt; omega⟩ q :=
  slice2_axis0_apply 0 X hs p q ⟨p.val, by have := p.isLt; omega⟩ (Nat.zero_add _).symm

/-- The last n rows of a matrix X, as a slice at offset d. -/
theorem tail_rows_apply (d n : Nat) (hdn : d + n = 3136) (X : (⟨2, ![3136, 64]⟩ : Shape).Idx → EReal)
    (hs : (⟨2, ![3136, 64]⟩ : Shape).Slices ![d, 0] ⟨2, ![n, 64]⟩) (p : Fin n) (q : Fin 64) :
    extractStridedSlice ⟨2, ![n, 64]⟩ ![d, 0] X hs (ix2 p q) = cur2 X ⟨p.val + d, by have := p.isLt; omega⟩ q :=
  slice2_axis0_apply d X hs p q ⟨p.val + d, by have := p.isLt; omega⟩ (Nat.add_comm _ _)

/-- Nine [3136, 64] matrices joined along the column axis, read in column k with k / 64 = i: piece i at column
    k % 64. -/
theorem join9_apply {α : Type} (xs : List ((s : Shape) × (s.Idx → α)))
    (hc : Shape.Concatenates (xs.map (·.1)) (⟨2, ![3136, 576]⟩ : Shape) (1 : Fin 2))
    (hsh : xs.map (·.1) = [(⟨2, ![3136, 64]⟩ : Shape), ⟨2, ![3136, 64]⟩, ⟨2, ![3136, 64]⟩, ⟨2, ![3136, 64]⟩, ⟨2, ![3136, 64]⟩,
      ⟨2, ![3136, 64]⟩, ⟨2, ![3136, 64]⟩, ⟨2, ![3136, 64]⟩, ⟨2, ![3136, 64]⟩])
    (r : Fin 3136) (k : Fin 576) (i : Nat) (hi : k.val / 64 = i) (hlen : i < xs.length)
    (x : (⟨2, ![3136, 64]⟩ : Shape).Idx → α) (hx : xs[i] = ⟨(⟨2, ![3136, 64]⟩ : Shape), x⟩) :
    concatenate (⟨2, ![3136, 576]⟩ : Shape) (1 : Fin 2) xs hc (ix2 r k)
      = x (ix2 r ⟨k.val % 64, Nat.mod_lt _ (by decide)⟩) := by
  refine concatenate_apply_piece (1 : Fin 2) xs hc (ix2 r k) i hlen _ x hx rfl (64 * i) ?_
    (ix2 r ⟨k.val % 64, Nat.mod_lt _ (by decide)⟩) (fun b hb => match b, hb with
      | ⟨0, _⟩, _ => rfl
      | ⟨1, _⟩, hb => absurd rfl hb) ?_
  · rw [List.map_take, hsh]
    have h9 : i < 9 := by have := k.isLt; omega
    interval_cases i <;> rfl
  · show 64 * i + k.val % 64 = k.val
    omega

/-- Index j of the result of a sum along the first axis, with the dropped coordinate k put back, is (k, j, q). -/
theorem lift_first {a b c : ℕ} (h : (⟨3, ![a, b, c]⟩ : Shape).Reduces [(0 : Fin 3)] ⟨2, ![b, c]⟩) (j : Fin b) (q : Fin c)
    (k : Fin a) : h.lift (ix2 j q) k = ix3 k j q := by
  funext d
  apply Fin.ext
  match d with
  | ⟨0, _⟩ => rfl
  | ⟨1, _⟩ => rfl
  | ⟨2, _⟩ => rfl

/-- The sum of an [a, b, c] array of f32 along its first axis from the zero word, read at (j, q). -/
theorem sum_first_f32 {a b c : ℕ} (src : FVec Ideal ⟨3, ![a, b, c]⟩ .f32)
    (h : (⟨3, ![a, b, c]⟩ : Shape).Reduces [(0 : Fin 3)] ⟨2, ![b, c]⟩) (hφ : FKind.Formats .f32)
    (hacc : (0x00000000#32 : BitVec 32) = 0x00000000#32) (j : Fin b) (q : Fin c) :
    multiReduction .add [(0 : Fin 3)] ⟨2, ![b, c]⟩ src 0x00000000#32 h hφ hacc (ix2 j q) = ∑ k : Fin a, src (ix3 k j q) :=
  (Ideal.multiReduction_add_single src 0x00000000#32 h hφ hacc (ix2 j q)).trans
    (Finset.sum_congr rfl fun k _ => congrArg src (lift_first h j q k))

end Cert.Bneck.Moves

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.K1b.lean ====
/-
  Region 1's arithmetic at an entry: the payloads of the region's body read at an index, over the extended reals.

  The body computes, from the eight partial totals, the normalisation's scale and shift of every channel, rectifies the
  normalised image, multiplies it by each of the two columns of the edge mask, moves the masked and the plain image by
  one place and by one image row (zero rows stacked above or below a slice), joins the nine moved images along the
  channel axis into the patch matrix, multiplies it with the weights and takes the column totals of the product and of
  its square.
-/
import proofs.«118062_g2000700299631556_pallasbulk_725_21_alg».proof.Proof.Gen.KernelIdeal.Skeleton
import proofs.«118062_g2000700299631556_pallasbulk_725_21_alg».proof.Proof.Spec
import proofs.«118062_g2000700299631556_pallasbulk_725_21_alg».proof.Proof.K1a
import proofs.«118062_g2000700299631556_pallasbulk_725_21_alg».proof.Proof.LibMatmulAt
import proofs.«118062_g2000700299631556_pallasbulk_725_21_alg».proof.Proof.LibColReduce
import proofs.«118062_g2000700299631556_pallasbulk_725_21_alg».proof.Proof.LibColumn

noncomputable section
namespace Cert.KernelIdeal.Pay1
open Idealize.ShloMosaic Idealize.ShloMosaic.ValueIdx
open Cert.KernelIdeal Cert.Bneck Cert.Bneck.Moves
open scoped BigOperators

theorem rsqrt_apply {s : Shape} {φ : FTy} (a : FVec Ideal s φ) (i : s.Idx) : rsqrt a i = Ideal.rsqrt (a i) := rfl

/-- Row 0 and row 1 of a two-row matrix, as one-row slices. -/
theorem row0_apply (X : (⟨2, ![2, 64]⟩ : Shape).Idx → EReal) (h : (⟨2, ![2, 64]⟩ : Shape).Slices ![0, 0] ⟨2, ![1, 64]⟩)
    (u : Fin 1) (q : Fin 64) : extractStridedSlice ⟨2, ![1, 64]⟩ ![0, 0] X h (ix2 u q) = X (ix2 (0 : Fin 2) q) :=
  slice2_axis0_apply 0 X h u q (0 : Fin 2) (by have := u.isLt; show 0 = 0 + u.val; omega)
theorem row1_apply (X : (⟨2, ![2, 64]⟩ : Shape).Idx → EReal) (h : (⟨2, ![2, 64]⟩ : Shape).Slices ![1, 0] ⟨2, ![1, 64]⟩)
    (u : Fin 1) (q : Fin 64) : extractStridedSlice ⟨2, ![1, 64]⟩ ![1, 0] X h (ix2 u q) = X (ix2 (1 : Fin 2) q) :=
  slice2_axis0_apply 1 X h u q (1 : Fin 2) (by have := u.isLt; show 1 = 1 + u.val; omega)

/-- Column 0 and column 1 of a two-column matrix, as one-column slices. -/
theorem col0_apply (X : (⟨2, ![3136, 2]⟩ : Shape).Idx → EReal) (h : (⟨2, ![3136, 2]⟩ : Shape).Slices ![0, 0] ⟨2, ![3136, 1]⟩)
    (p : Fin 3136) (u : Fin 1) : extractStridedSlice ⟨2, ![3136, 1]⟩ ![0, 0] X h (ix2 p u) = X (ix2 p (0 : Fin 2)) :=
  slice2_axis1_apply 0 X h p u (0 : Fin 2) (by have := u.isLt; show 0 = 0 + u.val; omega)
theorem col1_apply (X : (⟨2, ![3136, 2]⟩ : Shape).Idx → EReal) (h : (⟨2, ![3136, 2]⟩ : Shape).Slices ![0, 1] ⟨2, ![3136, 1]⟩)
    (p : Fin 3136) (u : Fin 1) : extractStridedSlice ⟨2, ![3136, 1]⟩ ![0, 1] X h (ix2 p u) = X (ix2 p (1 : Fin 2)) :=
  slice2_axis1_apply 1 X h p u (1 : Fin 2) (by have := u.isLt; show 1 = 1 + u.val; omega)

/-- The rectified normalised image at (p, q). -/
theorem pay2_apply (v0 : Vec Ideal S8x2x64 .f32) (v13 v18 : Vec Ideal S1x64 .f32) (v21 : Vec Ideal S1x3136x64 .bf16)
    (p : Fin 3136) (q : Fin 64) :
    Gen.k1_pay2 v0 v13 v18 v21 (ix2 p q)
      = act (cur3 (v21 : S1x3136x64.Idx → EReal) 0)
          (scOf (cur2 (v13 : S1x64.Idx → EReal)) (cur3 (v0 : S8x2x64.Idx → EReal)))
          (shOf (cur2 (v18 : S1x64.Idx → EReal)) (cur2 (v13 : S1x64.Idx → EReal)) (cur3 (v0 : S8x2x64.Idx → EReal))) p q := by
  have h0 := sum_first_f32 v0 Gen.reduces_S8x2x64_S2x64 (.inl rfl) rfl (0 : Fin 2) q
  have h1 := sum_first_f32 v0 Gen.reduces_S8x2x64_S2x64 (.inl rfl) rfl (1 : Fin 2) q
  unfold Gen.k1_pay2
  simp only [maximumf_apply, addf_apply, mulf_apply, subf_apply, divf_apply, rsqrt_apply, broadcast_apply, extf_apply,
    broadcastTo_1b_ab_apply, shapeCast_1ab_ab_apply, shapeCast_self, row0_apply, row1_apply]
  simp only [act, scOf, shOf, scaleOf, shiftOf, mean, cur2, cur3]
  rw [← h0, ← h1]
  rfl

/-- The image times column 0 of the edge mask. -/
theorem pay4_apply (v0 : Vec Ideal S8x2x64 .f32) (v13 v18 : Vec Ideal S1x64 .f32) (v21 : Vec Ideal S1x3136x64 .bf16)
    (v30 : Vec Ideal S3136x2 .f32) (p : Fin 3136) (q : Fin 64) :
    Gen.k1_pay4 v0 v13 v18 v21 v30 (ix2 p q)
      = masked 0 (cur2 (Gen.k1_pay2 v0 v13 v18 v21)) (cur2 (v30 : S3136x2.Idx → EReal)) p q := by
  unfold Gen.k1_pay4 Gen.k1_pay3
  simp only [mulf_apply, Cert.LibColumn.broadcastTo_a1_ab_apply, shapeCast_self, col0_apply]
  rfl

/-- The row of the zero word. -/
theorem pay5_apply (j : S1x64.Idx) : Gen.k1_pay5 (F := Ideal) j = z0 := rfl

/-- The first 3135 rows of the image times column 1 of the edge mask. -/
theorem pay6_apply (v0 : Vec Ideal S8x2x64 .f32) (v13 v18 : Vec Ideal S1x64 .f32) (v21 : Vec Ideal S1x3136x64 .bf16)
    (v30 : Vec Ideal S3136x2 .f32) (p : Fin 3135) (q : Fin 64) :
    Gen.k1_pay6 v0 v13 v18 v21 v30 (ix2 p q)
      = masked 1 (cur2 (Gen.k1_pay2 v0 v13 v18 v21)) (cur2 (v30 : S3136x2.Idx → EReal)) ⟨p.val, by have := p.isLt; omega⟩ q := by
  unfold Gen.k1_pay6 Gen.k1_pay3
  refine (head_rows_apply 3135 (by omega) _ _ p q).trans ?_
  simp only [cur2, mulf_apply, Cert.LibColumn.broadcastTo_a1_ab_apply, shapeCast_self, col1_apply]
  rfl

/-- A tap that is not moved by an image row. -/
theorem tap_mid (X : FVec Ideal S3136x64 .f32) (h : FTy.bits .bf16 < FTy.bits .f32) (r : Fin 3136) (c : Fin 64) :
    (truncf .bf16 X h : FVec Ideal S3136x64 .bf16) (ix2 r c) = cur2 X r c := rfl

/-- A tap moved down by one image row: 56 rows of the zero word stacked on the first 3080 rows. -/
theorem tap_down (X : FVec Ideal S3136x64 .f32) (h : FTy.bits .bf16 < FTy.bits .f32)
    (hs : S3136x64.Slices ![0, 0] S3080x64) (hc : Shape.Concatenates [S56x64, S3080x64] S3136x64 0) (r : Fin 3136) (c : Fin 64) :
    (truncf .bf16 (concatenate S3136x64 0 [⟨S56x64, broadcast S56x64 (Scalar.ofBits (F := Ideal) .f32 0x00000000#32)⟩,
        ⟨S3080x64, extractStridedSlice S3080x64 ![0, 0] X hs⟩] hc) h : FVec Ideal S3136x64 .bf16) (ix2 r c)
      = down 56 (cur2 X) r c :=
  down_rows_apply 56 3080 rfl (cur2 X) _ (fun _ => rfl) _ (fun p q => head_rows_apply 3080 (by omega) X hs p q) hc r c

/-- A tap moved up by one image row: the last 3080 rows stacked on 56 rows of the zero word. -/
theorem tap_up (X : FVec Ideal S3136x64 .f32) (h : FTy.bits .bf16 < FTy.bits .f32)
    (hs : S3136x64.Slices ![56, 0] S3080x64) (hc : Shape.Concatenates [S3080x64, S56x64] S3136x64 0) (r : Fin 3136) (c : Fin 64) :
    (truncf .bf16 (concatenate S3136x64 0 [⟨S3080x64, extractStridedSlice S3080x64 ![56, 0] X hs⟩,
        ⟨S56x64, broadcast S56x64 (Scalar.ofBits (F := Ideal) .f32 0x00000000#32)⟩] hc) h : FVec Ideal S3136x64 .bf16) (ix2 r c)
      = up 56 (cur2 X) r c :=
  up_rows_apply 56 3080 rfl (cur2 X) _ (fun p q => tail_rows_apply 56 3080 rfl X hs p q) _ (fun _ => rfl) hc r c

/-- The product of the masked-then-moved patch matrix with the weights at (r, q), for any image v29 whose two masked
    copies are v37 (column 0 of the mask) and v39 (column 1, the first 3135 rows), v38 being a row of the zero word. -/
theorem pay7_apply (v29 v37 : FVec Ideal S3136x64 .f32) (v38 : FVec Ideal S1x64 .f32) (v39 : FVec Ideal S3135x64 .f32)
    (v71 : Vec Ideal S576x64 .f32) (CM : Fin 3136 → Fin 2 → EReal)
    (h37 : ∀ (p : Fin 3136) (q : Fin 64), v37 (ix2 p q) = masked 0 (cur2 v29) CM p q)
    (h38 : ∀ j, v38 j = z0)
    (h39 : ∀ (p : Fin 3135) (q : Fin 64), v39 (ix2 p q) = masked 1 (cur2 v29) CM ⟨p.val, by have := p.isLt; omega⟩ q)
    (r : Fin 3136) (q : Fin 64) :
    Gen.k1_pay7 v29 v37 v38 v39 v71 (ix2 r q)
      = conv (slabMaskMove (cur2 v29) CM) (cur2 (v71 : S576x64.Idx → EReal)) r q := by
  have e40 : cur2 (concatenate S3136x64 0 [⟨S1x64, v38⟩, ⟨S3135x64, v39⟩] Gen.concatenates_S1x64_S3135x64_S3136x64_d0)
      = down 1 (masked 1 (cur2 v29) CM) :=
    funext fun r => funext fun c => down_rows_apply 1 3135 rfl _ v38 h38 v39 h39 _ r c
  have e42 : cur2 (concatenate S3136x64 0 [⟨S3135x64, extractStridedSlice S3135x64 ![1, 0] v37 Gen.slices_S3136x64_o1_0_S3135x64⟩,
        ⟨S1x64, v38⟩] Gen.concatenates_S3135x64_S1x64_S3136x64_d0)
      = up 1 (masked 0 (cur2 v29) CM) :=
    funext fun r => funext fun c => up_rows_apply 1 3135 rfl _ _
      (fun p q => (tail_rows_apply 1 3135 rfl v37 _ p q).trans (h37 _ q)) v38 h38 _ r c
  unfold Gen.k1_pay7
  refine (Cert.LibMatmulAt.matmul_zero_apply dot_S3136x576_S576x64_S3136x64_1_0_0_1_n_n rfl rfl rfl rfl rfl rfl none _ _ r q).trans ?_
  unfold conv
  refine Finset.sum_congr rfl fun k _ => ?_
  refine congrArg₂ (· * ·) ?_ ?_
  swap
  · first | rw [truncf_apply, shapeCast_self] | rw [shapeCast_self]
  unfold patch
  have h9 : k.val / 64 < 9 := by have := k.isLt; omega
  obtain ⟨i, hi⟩ : ∃ i, k.val / 64 = i := ⟨_, rfl⟩
  rw [hi] at h9 ⊢
  interval_cases i
  · refine (join9_apply _ _ (by rfl) r k 0 hi (by show (0 : Nat) < 9; omega) _ (by rfl)).trans ?_
    refine (tap_down _ _ _ _ r _).trans ?_
    rw [e40]; rfl
  · refine (join9_apply _ _ (by rfl) r k 1 hi (by show (1 : Nat) < 9; omega) _ (by rfl)).trans ?_
    exact tap_down _ _ _ _ r _
  · refine (join9_apply _ _ (by rfl) r k 2 hi (by show (2 : Nat) < 9; omega) _ (by rfl)).trans ?_
    refine (tap_down _ _ _ _ r _).trans ?_
    rw [e42]; rfl
  · refine (join9_apply _ _ (by rfl) r k 3 hi (by show (3 : Nat) < 9; omega) _ (by rfl)).trans ?_
    refine (tap_mid _ _ r _).trans ?_
    rw [e40]; rfl
  · refine (join9_apply _ _ (by rfl) r k 4 hi (by show (4 : Nat) < 9; omega) _ (by rfl)).trans ?_
    exact tap_mid _ _ r _
  · refine (join9_apply _ _ (by rfl) r k 5 hi (by show (5 : Nat) < 9; omega) _ (by rfl)).trans ?_
    refine (tap_mid _ _ r _).trans ?_
    rw [e42]; rfl
  · refine (join9_apply _ _ (by rfl) r k 6 hi (by show (6 : Nat) < 9; omega) _ (by rfl)).trans ?_
    refine (tap_up _ _ _ _ r _).trans ?_
    rw [e40]; rfl
  · refine (join9_apply _ _ (by rfl) r k 7 hi (by show (7 : Nat) < 9; omega) _ (by rfl)).trans ?_
    exact tap_up _ _ _ _ r _
  · refine (join9_apply _ _ (by rfl) r k 8 hi (by show (8 : Nat) < 9; omega) _ (by rfl)).trans ?_
    refine (tap_up _ _ _ _ r _).trans ?_
    rw [e42]; rfl

/-- The stored product: the same entry, with a leading unit axis. -/
theorem pay8_apply (v29 v37 : FVec Ideal S3136x64 .f32) (v38 : FVec Ideal S1x64 .f32) (v39 : FVec Ideal S3135x64 .f32)
    (v71 : Vec Ideal S576x64 .f32) (u : Fin 1) (r : Fin 3136) (q : Fin 64) :
    Gen.k1_pay8 v29 v37 v38 v39 v71 (ix3 u r q) = Gen.k1_pay7 v29 v37 v38 v39 v71 (ix2 r q) := by
  unfold Gen.k1_pay8
  exact shapeCast_ab_1ab_apply _ _ u r q

/-- The stored totals: row 0 the column totals of the product, row 1 the column totals of its square. -/
theorem pay1_pay9_apply (v29 v37 : FVec Ideal S3136x64 .f32) (v38 : FVec Ideal S1x64 .f32) (v39 : FVec Ideal S3135x64 .f32)
    (v71 : Vec Ideal S576x64 .f32) (u : Fin 1) (q : Fin 64) :
    Gen.k1_pay1 (Gen.k1_pay9 v29 v37 v38 v39 v71) (ix3 u 0 q) = ∑ r : Fin 3136, Gen.k1_pay7 v29 v37 v38 v39 v71 (ix2 r q)
    ∧ Gen.k1_pay1 (Gen.k1_pay9 v29 v37 v38 v39 v71) (ix3 u 1 q)
        = ∑ r : Fin 3136, Gen.k1_pay7 v29 v37 v38 v39 v71 (ix2 r q) * Gen.k1_pay7 v29 v37 v38 v39 v71 (ix2 r q) := by
  unfold Gen.k1_pay1 Gen.k1_pay9
  constructor
  · refine (shapeCast_ab_1ab_apply _ _ u (0 : Fin 2) q).trans ?_
    refine (stack_top_apply _ _ _ (0 : Fin 2) q (0 : Fin 1) rfl).trans ?_
    refine (shapeCast_a_1a_apply _ _ (0 : Fin 1) q).trans ?_
    exact Cert.LibColReduce.colSum_f32 _ _ _ _ q
  · refine (shapeCast_ab_1ab_apply _ _ u (1 : Fin 2) q).trans ?_
    refine (stack_bot_apply _ _ _ (1 : Fin 2) q (0 : Fin 1) rfl).trans ?_
    refine (shapeCast_a_1a_apply _ _ (0 : Fin 1) q).trans ?_
    exact Cert.LibColReduce.colSum_f32 _ _ _ _ q

end Cert.KernelIdeal.Pay1
end
-- ==== Proof.K1.lean ====
import proofs.«118062_g2000700299631556_pallasbulk_725_21_alg».proof.Proof.Gen.KernelIdeal.Frame
import proofs.«118062_g2000700299631556_pallasbulk_725_21_alg».proof.Proof.Spec
import proofs.«118062_g2000700299631556_pallasbulk_725_21_alg».proof.Proof.K1b

noncomputable section
namespace Cert.KernelIdeal.Val
open Idealize.ShloMosaic Idealize.ShloMosaic.TcCoe Idealize.SL.Sem Idealize.ShloMosaic.ValueIdx
open Cert.KernelIdeal Cert.Bneck
open scoped BigOperators

variable (V : (c : Dev nD) → (b : Ref sig .tc) → Buf (Elt Ideal) ((c : Thread nD τ).loc b))

/-- Region 1's rectified normalised input of image n, from the region's own operands. -/
abbrev a1 (c : Dev nD) (n : Fin 8) : Fin 3136 → Fin 64 → EReal :=
  act (cur3 (V c main_v13_0 : S8x3136x64.Idx → EReal) n)
    (scOf (cur2 (V c main_arg4 : S1x64.Idx → EReal)) (cur3 (V c main_v13_1 : S8x2x64.Idx → EReal)))
    (shOf (cur2 (V c main_arg5 : S1x64.Idx → EReal)) (cur2 (V c main_arg4 : S1x64.Idx → EReal)) (cur3 (V c main_v13_1 : S8x2x64.Idx → EReal)))

/-! ## The index maps over the grid, and the input blocks as reads of the operands -/

theorem k1_hz2 : (![0, 0] : Fin 2 → Nat) = fun _ => 0 := funext fun a => by fin_cases a <;> rfl
theorem k1_hz3 : (![0, 0, 0] : Fin 3 → Nat) = fun _ => 0 := funext fun a => by fin_cases a <;> rfl

/-- The index maps of region 1, decided over its eight points: the image windows (0, 6, 7) sit at block (t, 0, 0), the
    other windows at block zero. -/
theorem k1_idx_facts : ∀ t : Fin cfg1.N,
    win1_0.index t (0 : Fin 3) = win1_6.index t (0 : Fin 3) ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 3) ≤ 7 ∧ win1_6.index t (1 : Fin 3) = 0 ∧ win1_6.index t (2 : Fin 3) = 0
    ∧ win1_7.index t (0 : Fin 3) = win1_6.index t (0 : Fin 3) ∧ win1_7.index t (1 : Fin 3) = 0 ∧ win1_7.index t (2 : Fin 3) = 0 :=
  (by decide +kernel : ∀ t : Fin grid1.N, _)

/-- Every image is some point's. -/
theorem k1_idx_onto : ∀ n : Fin 8, ∃ t : Fin cfg1.N, win1_6.index t (0 : Fin 3) = n.val :=
  (by decide +kernel : ∀ n : Fin 8, ∃ t : Fin grid1.N, win1_6.index t (0 : Fin 3) = n.val)

/-- Window 0's block at point t is image n of the first operand, n the point's block index. -/
theorem k1_iblk0_apply (c : Dev nD) (t : Fin cfg1.N) (n : Fin 8) (hn : n.val = win1_6.index t (0 : Fin 3))
    (u : Fin 1) (p : Fin 3136) (q : Fin 64) :
    (Gen.iblk1 V c 0 t : S1x3136x64.Idx → EReal) (ix3 u p q) = (V c main_v13_0 : S8x3136x64.Idx → EReal) (ix3 n p q) := by
  obtain ⟨e0, e1, e2, -⟩ := k1_idx_facts t
  unfold Gen.iblk1
  rw [View.read_apply]
  show (V c main_v13_0 : S8x3136x64.Idx → EReal) _ = _
  congr 1
  funext a; apply Fin.ext
  match a with
  | ⟨0, _⟩ => show win1_0.index t (0 : Fin 3) * 1 + 1 * u.val = n.val; have := u.isLt; omega
  | ⟨1, _⟩ => show win1_0.index t (1 : Fin 3) * 3136 + 1 * p.val = p.val; omega
  | ⟨2, _⟩ => show win1_0.index t (2 : Fin 3) * 64 + 1 * q.val = q.val; omega

/-- The windows whose block is their whole array: the block at any point is the array. -/
theorem k1_iblk1_eq (c : Dev nD) (t : Fin cfg1.N) :
    (Gen.iblk1 V c 1 t : S8x2x64.Idx → EReal) = (V c main_v13_1 : S8x2x64.Idx → EReal) := by
  obtain ⟨-, -, -, e0, e1, e2, -⟩ := k1_idx_facts t
  funext j
  unfold Gen.iblk1
  rw [View.read_apply]
  show (V c main_v13_1 : S8x2x64.Idx → EReal) _ = _
  congr 1
  funext a; apply Fin.ext
  match a with
  | ⟨0, _⟩ => show win1_1.index t (0 : Fin 3) * 8 + 1 * (j 0).val = (j 0).val; omega
  | ⟨1, _⟩ => show win1_1.index t (1 : Fin 3) * 2 + 1 * (j 1).val = (j 1).val; omega
  | ⟨2, _⟩ => show win1_1.index t (2 : Fin 3) * 64 + 1 * (j 2).val = (j 2).val; omega

theorem k1_iblk2_eq (c : Dev nD) (t : Fin cfg1.N) :
    (Gen.iblk1 V c 2 t : S1x64.Idx → EReal) = (V c main_arg4 : S1x64.Idx → EReal) := by
  obtain ⟨-, -, -, -, -, -, e0, e1, -⟩ := k1_idx_facts t
  funext j
  unfold Gen.iblk1
  rw [View.read_apply]
  show (V c main_arg4 : S1x64.Idx → EReal) _ = _
  congr 1
  funext a; apply Fin.ext
  match a with
  | ⟨0, _⟩ => show win1_2.index t (0 : Fin 2) * 1 + 1 * (j 0).val = (j 0).val; omega
  | ⟨1, _⟩ => show win1_2.index t (1 : Fin 2) * 64 + 1 * (j 1).val = (j 1).val; omega

theorem k1_iblk3_eq (c : Dev nD) (t : Fin cfg1.N) :
    (Gen.iblk1 V c 3 t : S1x64.Idx → EReal) = (V c main_arg5 : S1x64.Idx → EReal) := by
  obtain ⟨-, -, -, -, -, -, -, -, e0, e1, -⟩ := k1_idx_facts t
  funext j
  unfold Gen.iblk1
  rw [View.read_apply]
  show (V c main_arg5 : S1x64.Idx → EReal) _ = _
  congr 1
  funext a; apply Fin.ext
  match a with
  | ⟨0, _⟩ => show win1_3.index t (0 : Fin 2) * 1 + 1 * (j 0).val = (j 0).val; omega
  | ⟨1, _⟩ => show win1_3.index t (1 : Fin 2) * 64 + 1 * (j 1).val = (j 1).val; omega

theorem k1_iblk4_eq (c : Dev nD) (t : Fin cfg1.N) :
    (Gen.iblk1 V c 4 t : S3136x2.Idx → EReal) = (V c main_v12 : S3136x2.Idx → EReal) := by
  obtain ⟨-, -, -, -, -, -, -, -, -, -, e0, e1, -⟩ := k1_idx_facts t
  funext j
  unfold Gen.iblk1
  rw [View.read_apply]
  show (V c main_v12 : S3136x2.Idx → EReal) _ = _
  congr 1
  funext a; apply Fin.ext
  match a with
  | ⟨0, _⟩ => show win1_4.index t (0 : Fin 2) * 3136 + 1 * (j 0).val = (j 0).val; omega
  | ⟨1, _⟩ => show win1_4.index t (1 : Fin 2) * 2 + 1 * (j 1).val = (j 1).val; omega

theorem k1_iblk5_eq (c : Dev nD) (t : Fin cfg1.N) :
    (Gen.iblk1 V c 5 t : S576x64.Idx → EReal) = (V c main_v2 : S576x64.Idx → EReal) := by
  obtain ⟨-, -, -, -, -, -, -, -, -, -, -, -, e0, e1, -⟩ := k1_idx_facts t
  funext j
  unfold Gen.iblk1
  rw [View.read_apply]
  show (V c main_v2 : S576x64.Idx → EReal) _ = _
  congr 1
  funext a; apply Fin.ext
  match a with
  | ⟨0, _⟩ => show win1_5.index t (0 : Fin 2) * 576 + 1 * (j 0).val = (j 0).val; omega
  | ⟨1, _⟩ => show win1_5.index t (1 : Fin 2) * 64 + 1 * (j 1).val = (j 1).val; omega

/-! ## The body's product at a point, as the convolution of that point's image -/

/-- The product the body computes at the point whose block index is n, read at (r, q): the convolution of image n. -/
theorem k1_prod_apply (c : Dev nD) (t : Fin cfg1.N) (n : Fin 8) (hn : n.val = win1_6.index t (0 : Fin 3))
    (r : Fin 3136) (q : Fin 64) :
    Gen.k1_pay7
        (Gen.k1_pay2 (V c main_v13_1 : S8x2x64.Idx → EReal) (V c main_arg4 : S1x64.Idx → EReal) (V c main_arg5 : S1x64.Idx → EReal) (Gen.iblk1 V c 0 t))
        (Gen.k1_pay4 (V c main_v13_1 : S8x2x64.Idx → EReal) (V c main_arg4 : S1x64.Idx → EReal) (V c main_arg5 : S1x64.Idx → EReal) (Gen.iblk1 V c 0 t) (V c main_v12 : S3136x2.Idx → EReal))
        (Gen.k1_pay5 (F := Ideal))
        (Gen.k1_pay6 (V c main_v13_1 : S8x2x64.Idx → EReal) (V c main_arg4 : S1x64.Idx → EReal) (V c main_arg5 : S1x64.Idx → EReal) (Gen.iblk1 V c 0 t) (V c main_v12 : S3136x2.Idx → EReal))
        (V c main_v2 : S576x64.Idx → EReal) (ix2 r q)
      = conv (slabMaskMove (a1 V c n) (cur2 (V c main_v12 : S3136x2.Idx → EReal))) (cur2 (V c main_v2 : S576x64.Idx → EReal)) r q := by
  refine (Pay1.pay7_apply _ _ _ _ _ (cur2 (V c main_v12 : S3136x2.Idx → EReal))
    (fun p q => Pay1.pay4_apply _ _ _ _ _ p q) (fun j => Pay1.pay5_apply j) (fun p q => Pay1.pay6_apply _ _ _ _ _ p q) r q).trans ?_
  have hA : cur2 (Gen.k1_pay2 (V c main_v13_1 : S8x2x64.Idx → EReal) (V c main_arg4 : S1x64.Idx → EReal) (V c main_arg5 : S1x64.Idx → EReal) (Gen.iblk1 V c 0 t))
      = a1 V c n := by
    funext p q
    refine (Pay1.pay2_apply _ _ _ _ p q).trans ?_
    simp only [a1, act, cur3]
    rw [k1_iblk0_apply V c t n hn (0 : Fin 1) p q]
  rw [hA]

/-! ## Output window 6: the stored product -/

/-- What the product array ends holding: at (n, r, q) the convolution of image n at (r, q). -/
def k1_y2G (c : Dev nD) : S8x3136x64.Idx → EReal := fun i =>
  conv (slabMaskMove (a1 V c (i 0)) (cur2 (V c main_v12 : S3136x2.Idx → EReal))) (cur2 (V c main_v2 : S576x64.Idx → EReal)) (i 1) (i 2)

/-- What point t writes back to the product array is block t of that function. -/
theorem k1_flushed6_eq (c : Dev nD) (t : Fin cfg1.N) :
    (Gen.dat1 V c).flushed 6 t = ((cfg1.win 6).blk t).view.read (Elt Ideal) (k1_y2G V c) := by
  show (cfg1.win 6).cut (grid1.coords t) ((Gen.dat1 V c).after 6 t) = _
  rw [Gen.after1_6]
  unfold Gen.out1_6
  rw [View.canon_unit_zero k1_hz3]
  simp only [View.ld_unit_zero (S := S8x2x64) k1_hz3, View.ld_unit_zero (S := S1x64) k1_hz2,
    View.ld_unit_zero (S := S1x3136x64) k1_hz3, View.ld_unit_zero (S := S3136x2) k1_hz2, View.ld_unit_zero (S := S576x64) k1_hz2]
  rw [k1_iblk1_eq V c t, k1_iblk2_eq V c t, k1_iblk3_eq V c t, k1_iblk4_eq V c t, k1_iblk5_eq V c t]
  obtain ⟨-, -, -, -, -, -, -, -, -, -, -, -, -, -, e0, e1, e2, -⟩ := k1_idx_facts t
  funext j
  show Gen.k1_pay8 (F := Ideal) _ _ _ _ _ (win1_6.xinj (grid1.coords t) j) = k1_y2G V c (((cfg1.win 6).blk t).view.emb j)
  obtain ⟨u, r, q, hj⟩ : ∃ (u : Fin 1) (r : Fin 3136) (q : Fin 64), win1_6.xinj (grid1.coords t) j = ix3 u r q :=
    ⟨_, _, _, eq_ix3 _⟩
  have h0 : (j 0).val = u.val := congrArg (fun f : S1x3136x64.Idx => (f 0).val) hj
  have h1 : (j 1).val = r.val := congrArg (fun f : S1x3136x64.Idx => (f 1).val) hj
  have h2 : (j 2).val = q.val := congrArg (fun f : S1x3136x64.Idx => (f 2).val) hj
  have he : ((cfg1.win 6).blk t).view.emb j = ix3 (⟨win1_6.index t (0 : Fin 3), by omega⟩ : Fin 8) r q := by
    funext a; apply Fin.ext
    match a with
    | ⟨0, _⟩ => show win1_6.index t (0 : Fin 3) * 1 + 1 * (j 0).val = win1_6.index t (0 : Fin 3); have := u.isLt; omega
    | ⟨1, _⟩ => show win1_6.index t (1 : Fin 3) * 3136 + 1 * (j 1).val = r.val; omega
    | ⟨2, _⟩ => show win1_6.index t (2 : Fin 3) * 64 + 1 * (j 2).val = q.val; omega
  rw [hj, he]
  refine (Pay1.pay8_apply _ _ _ _ _ u r q).trans ?_
  exact k1_prod_apply V c t ⟨win1_6.index t (0 : Fin 3), by omega⟩ rfl r q

/-- An index of the product array is in point t's block iff each coordinate is in the block's range on its axis. -/
theorem k1_mem_blk6 (t : Fin cfg1.N) (i : S8x3136x64.Idx) :
    i ∈ ((cfg1.win 6).blk t).view.set ↔ ∀ a : Fin 3, win1_6.index t a * S1x3136x64.size a ≤ (i a).val ∧ (i a).val < win1_6.index t a * S1x3136x64.size a + S1x3136x64.size a := by
  show i ∈ ((View.whole main_v14_0).slice (win1_6.rect t)).set ↔ _
  rw [View.set_slice_whole, Rect.mem_set_unit]
  exact Iff.rfl

/-- Every index of the product array is in some point's block. -/
theorem k1_cover6 (i : S8x3136x64.Idx) :
    ∃ t : Fin cfg1.N, (cfg1.win 6).flush t = true ∧ i ∈ ((cfg1.win 6).blk t).view.set := by
  have hi0 : (i 0).val < 8 := (i 0).isLt
  have hi1 : (i 1).val < 3136 := (i 1).isLt
  have hi2 : (i 2).val < 64 := (i 2).isLt
  obtain ⟨t, ht⟩ := k1_idx_onto ⟨(i 0).val, hi0⟩
  have ht' : win1_6.index t (0 : Fin 3) = (i 0).val := ht
  obtain ⟨-, -, -, -, -, -, -, -, -, -, -, -, -, -, e0, e1, e2, -⟩ := k1_idx_facts t
  refine ⟨t, Gen.flush1_6 t, ?_⟩
  rw [k1_mem_blk6]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 3136 ≤ (i 1).val ∧ (i 1).val < win1_6.index t (1 : Fin 3) * 3136 + 3136; omega
  | ⟨2, _⟩ => show win1_6.index t (2 : Fin 3) * 64 ≤ (i 2).val ∧ (i 2).val < win1_6.index t (2 : Fin 3) * 64 + 64; omega

/-! ## Output window 7: the stored totals -/

/-- What the totals array ends holding: at (n, 0, q) the column total of image n's convolution, at (n, 1, q) the column
    total of its squares. -/
def k1_st2G (c : Dev nD) : S8x2x64.Idx → EReal := fun i =>
  if (i 1).val = 0 then tot (conv (slabMaskMove (a1 V c (i 0)) (cur2 (V c main_v12 : S3136x2.Idx → EReal))) (cur2 (V c main_v2 : S576x64.Idx → EReal))) (i 2)
  else totSq (conv (slabMaskMove (a1 V c (i 0)) (cur2 (V c main_v12 : S3136x2.Idx → EReal))) (cur2 (V c main_v2 : S576x64.Idx → EReal))) (i 2)

theorem k1_st2G_zero (c : Dev nD) (n : Fin 8) (q : Fin 64) :
    k1_st2G V c (ix3 n (0 : Fin 2) q) = tot (conv (slabMaskMove (a1 V c n) (cur2 (V c main_v12 : S3136x2.Idx → EReal))) (cur2 (V c main_v2 : S576x64.Idx → EReal))) q :=
  if_pos rfl

theorem k1_st2G_one (c : Dev nD) (n : Fin 8) (q : Fin 64) :
    k1_st2G V c (ix3 n (1 : Fin 2) q) = totSq (conv (slabMaskMove (a1 V c n) (cur2 (V c main_v12 : S3136x2.Idx → EReal))) (cur2 (V c main_v2 : S576x64.Idx → EReal))) q :=
  if_neg Nat.one_ne_zero

/-- What point t writes back to the totals array is block t of that function. -/
theorem k1_flushed7_eq (c : Dev nD) (t : Fin cfg1.N) :
    (Gen.dat1 V c).flushed 7 t = ((cfg1.win 7).blk t).view.read (Elt Ideal) (k1_st2G V c) := by
  show (cfg1.win 7).cut (grid1.coords t) ((Gen.dat1 V c).after 7 t) = _
  rw [Gen.after1_7]
  unfold Gen.out1_7
  rw [View.canon_unit_zero k1_hz3]
  simp only [View.ld_unit_zero (S := S8x2x64) k1_hz3, View.ld_unit_zero (S := S1x64) k1_hz2,
    View.ld_unit_zero (S := S1x3136x64) k1_hz3, View.ld_unit_zero (S := S3136x2) k1_hz2, View.ld_unit_zero (S := S576x64) k1_hz2]
  rw [k1_iblk1_eq V c t, k1_iblk2_eq V c t, k1_iblk3_eq V c t, k1_iblk4_eq V c t, k1_iblk5_eq V c t]
  obtain ⟨-, -, -, -, -, -, -, -, -, -, -, -, -, -, e0, -, -, f0, f1, f2⟩ := k1_idx_facts t
  funext j
  show Gen.k1_pay1 (F := Ideal) (Gen.k1_pay9 _ _ _ _ _) (win1_7.xinj (grid1.coords t) j) = k1_st2G V c (((cfg1.win 7).blk t).view.emb j)
  obtain ⟨u, s, q, hj⟩ : ∃ (u : Fin 1) (s : Fin 2) (q : Fin 64), win1_7.xinj (grid1.coords t) j = ix3 u s q :=
    ⟨_, _, _, eq_ix3 _⟩
  have h0 : (j 0).val = u.val := congrArg (fun f : S1x2x64.Idx => (f 0).val) hj
  have h1 : (j 1).val = s.val := congrArg (fun f : S1x2x64.Idx => (f 1).val) hj
  have h2 : (j 2).val = q.val := congrArg (fun f : S1x2x64.Idx => (f 2).val) hj
  have he : ((cfg1.win 7).blk t).view.emb j = ix3 (⟨win1_6.index t (0 : Fin 3), by omega⟩ : Fin 8) s q := by
    funext a; apply Fin.ext
    match a with
    | ⟨0, _⟩ => show win1_7.index t (0 : Fin 3) * 1 + 1 * (j 0).val = win1_6.index t (0 : Fin 3); have := u.isLt; omega
    | ⟨1, _⟩ => show win1_7.index t (1 : Fin 3) * 2 + 1 * (j 1).val = s.val; omega
    | ⟨2, _⟩ => show win1_7.index t (2 : Fin 3) * 64 + 1 * (j 2).val = q.val; omega
  rw [hj, he]
  have hs : s = 0 ∨ s = 1 := by
    rcases s with ⟨s, hs⟩
    have h01 : s = 0 ∨ s = 1 := by omega
    rcases h01 with rfl | rfl
    · exact Or.inl rfl
    · exact Or.inr rfl
  rcases hs with rfl | rfl
  · rw [k1_st2G_zero]
    refine ((Pay1.pay1_pay9_apply _ _ _ _ _ u q).1).trans ?_
    unfold tot
    exact Finset.sum_congr rfl fun r _ => k1_prod_apply V c t ⟨win1_6.index t (0 : Fin 3), by omega⟩ rfl r q
  · rw [k1_st2G_one]
    refine ((Pay1.pay1_pay9_apply _ _ _ _ _ u q).2).trans ?_
    unfold totSq
    exact Finset.sum_congr rfl fun r _ => by rw [k1_prod_apply V c t ⟨win1_6.index t (0 : Fin 3), by omega⟩ rfl r q]

/-- An index of the totals array is in point t's block iff each coordinate is in the block's range on its axis. -/
theorem k1_mem_blk7 (t : Fin cfg1.N) (i : S8x2x64.Idx) :
    i ∈ ((cfg1.win 7).blk t).view.set ↔ ∀ a : Fin 3, win1_7.index t a * S1x2x64.size a ≤ (i a).val ∧ (i a).val < win1_7.index t a * S1x2x64.size a + S1x2x64.size a := by
  show i ∈ ((View.whole main_v14_1).slice (win1_7.rect t)).set ↔ _
  rw [View.set_slice_whole, Rect.mem_set_unit]
  exact Iff.rfl

/-- Every index of the totals array is in some point's block. -/
theorem k1_cover7 (i : S8x2x64.Idx) :
    ∃ t : Fin cfg1.N, (cfg1.win 7).flush t = true ∧ i ∈ ((cfg1.win 7).blk t).view.set := by
  have hi0 : (i 0).val < 8 := (i 0).isLt
  have hi1 : (i 1).val < 2 := (i 1).isLt
  have hi2 : (i 2).val < 64 := (i 2).isLt
  obtain ⟨t, ht⟩ := k1_idx_onto ⟨(i 0).val, hi0⟩
  have ht' : win1_6.index t (0 : Fin 3) = (i 0).val := ht
  obtain ⟨-, -, -, -, -, -, -, -, -, -, -, -, -, -, -, -, -, f0, f1, f2⟩ := k1_idx_facts t
  refine ⟨t, Gen.flush1_7 t, ?_⟩
  rw [k1_mem_blk7]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 2 ≤ (i 1).val ∧ (i 1).val < win1_7.index t (1 : Fin 3) * 2 + 2; omega
  | ⟨2, _⟩ => show win1_7.index t (2 : Fin 3) * 64 ≤ (i 2).val ∧ (i 2).val < win1_7.index t (2 : Fin 3) * 64 + 64; omega

/-- Region 1 (the 3x3 convolution, one image per grid point): the stored product of the masked-then-moved patch
    matrix with the weights. -/
theorem y2_eq (c : Dev nD) (n : Fin 8) (r : Fin 3136) (q : Fin 64) :
    ((Gen.dat1 V c).arrAt 6 cfg1.N : S8x3136x64.Idx → EReal) (ix3 n r q)
      = conv (slabMaskMove (a1 V c n) (cur2 (V c main_v12 : S3136x2.Idx → EReal))) (cur2 (V c main_v2 : S576x64.Idx → EReal)) r q := by
  have h := (Gen.dat1 V c).arrAt_eq_of_cover 6 (k1_y2G V c) (fun t _ => k1_flushed6_eq V c t) k1_cover6
  exact congrFun h (ix3 n r q)

/-- Region 1: each image's column totals and column totals of squares of that product. -/
theorem st2_eq (c : Dev nD) (n : Fin 8) (q : Fin 64) :
    ((Gen.dat1 V c).arrAt 7 cfg1.N : S8x2x64.Idx → EReal) (ix3 n 0 q)
        = tot (conv (slabMaskMove (a1 V c n) (cur2 (V c main_v12 : S3136x2.Idx → EReal))) (cur2 (V c main_v2 : S576x64.Idx → EReal))) q
    ∧ ((Gen.dat1 V c).arrAt 7 cfg1.N : S8x2x64.Idx → EReal) (ix3 n 1 q)
        = totSq (conv (slabMaskMove (a1 V c n) (cur2 (V c main_v12 : S3136x2.Idx → EReal))) (cur2 (V c main_v2 : S576x64.Idx → EReal))) q := by
  have h := (Gen.dat1 V c).arrAt_eq_of_cover 7 (k1_st2G V c) (fun t _ => k1_flushed7_eq V c t) k1_cover7
  exact ⟨(congrFun h (ix3 n 0 q)).trans (k1_st2G_zero V c n q), (congrFun h (ix3 n 1 q)).trans (k1_st2G_one V c n q)⟩

end Cert.KernelIdeal.Val
end
-- ==== Proof.K2.lean ====
import proofs.«118062_g2000700299631556_pallasbulk_725_21_alg».proof.Proof.Gen.KernelIdeal.Frame
import proofs.«118062_g2000700299631556_pallasbulk_725_21_alg».proof.Proof.Spec
import proofs.«118062_g2000700299631556_pallasbulk_725_21_alg».proof.Proof.LibMatmulAt
import proofs.«118062_g2000700299631556_pallasbulk_725_21_alg».proof.Proof.LibColReduce
import proofs.«118062_g2000700299631556_pallasbulk_725_21_alg».proof.Proof.LibRowShift
import Idealize.ShloMosaic.Lib.ValueLayout
import Idealize.ShloMosaic.Lib.Pipeline.Value

noncomputable section
namespace Cert.KernelIdeal.Val
open Idealize.ShloMosaic Idealize.ShloMosaic.TcCoe Idealize.SL.Sem Idealize.ShloMosaic.ValueIdx
open Cert.KernelIdeal Cert.Bneck
open scoped BigOperators

variable (V : (c : Dev nD) → (b : Ref sig .tc) → Buf (Elt Ideal) ((c : Thread nD τ).loc b))

/-! ## The body's values at an index, over arbitrary loaded blocks -/

theorem k2_zero2 : (![0, 0] : Fin 2 → Nat) = fun _ => 0 := funext fun a => by fin_cases a <;> rfl
theorem k2_zero3 : (![0, 0, 0] : Fin 3 → Nat) = fun _ => 0 := funext fun a => by fin_cases a <;> rfl

/-- The reciprocal square root of a vector at an index is that of the element. -/
theorem k2_rsqrt_apply {s : Shape} {φ : FTy} (a : FVec Ideal s φ) (i : s.Idx) : rsqrt a i = Ideal.rsqrt (a i) := rfl

/-- A lane sum of an [8, 2, 64] array along its first axis at (r, q): the sum over the eight partials. -/
theorem k2_sum8_apply (src : FVec Ideal S8x2x64 .f32) (h : S8x2x64.Reduces [(0 : Fin 3)] S2x64) (hφ : FKind.Formats .f32)
    (hacc : (0x00000000#32 : BitVec 32) = 0x00000000#32) (r : Fin 2) (q : Fin 64) :
    multiReduction .add [(0 : Fin 3)] S2x64 src 0x00000000#32 h hφ hacc (ix2 r q) = ∑ n : Fin 8, src (ix3 n r q) :=
  (Ideal.multiReduction_add_single src 0x00000000#32 h hφ hacc (ix2 r q)).trans
    (Finset.sum_congr rfl fun k _ => congrArg src (funext fun a => Fin.ext (by
      match a with
      | ⟨0, _⟩ => rfl
      | ⟨1, _⟩ => rfl
      | ⟨2, _⟩ => rfl)))

/-- The rectified activation the body computes from its loaded blocks, at (p, q). -/
theorem k2_act_apply (x1 : Vec Ideal S8x2x64 .f32) (g b : Vec Ideal S1x64 .f32) (x0 : Vec Ideal S1x3136x64 .bf16)
    (p : Fin 3136) (q : Fin 64) :
    (Gen.k2_pay2 x1 g b x0 : S3136x64.Idx → EReal) (ix2 p q)
      = act (fun p q => (x0 : S1x3136x64.Idx → EReal) (ix3 (0 : Fin 1) p q))
          (scOf (cur2 (g : S1x64.Idx → EReal)) (cur3 (x1 : S8x2x64.Idx → EReal)))
          (shOf (cur2 (b : S1x64.Idx → EReal)) (cur2 (g : S1x64.Idx → EReal)) (cur3 (x1 : S8x2x64.Idx → EReal))) p q := by
  unfold Gen.k2_pay2
  dsimp only
  simp only [truncf_apply, maximumf_apply, addf_apply, mulf_apply, extf_apply, broadcast_apply, subf_apply, divf_apply,
    broadcastTo_1b_ab_apply, shapeCast_1ab_ab_apply, k2_rsqrt_apply, shapeCast_self]
  rw [slice2_axis0_apply 0 _ _ (0 : Fin 1) q (0 : Fin 2) rfl, slice2_axis0_apply 1 _ _ (0 : Fin 1) q (1 : Fin 2) rfl,
    k2_sum8_apply, k2_sum8_apply]
  rfl

/-- The stored block at (u, p, q) is the activation at (p, q). -/
theorem k2_stored_apply (x1 : Vec Ideal S8x2x64 .f32) (g b : Vec Ideal S1x64 .f32) (x0 : Vec Ideal S1x3136x64 .bf16)
    (u : Fin 1) (p : Fin 3136) (q : Fin 64) :
    (Gen.k2_pay3 x1 g b x0 : S1x3136x64.Idx → EReal) (ix3 u p q) = (Gen.k2_pay2 x1 g b x0 : S3136x64.Idx → EReal) (ix2 p q) := by
  unfold Gen.k2_pay3
  exact shapeCast_ab_1ab_apply _ _ u p q

/-- The product of a [3136, 64] and a [64, 256] array into the zero accumulator at (r, q). -/
theorem k2_prod_apply (A : FVec Ideal S3136x64 .bf16) (W : FVec Ideal S64x256 .bf16) (r : Fin 3136) (q : Fin 256) :
    matmul dot_S3136x64_S64x256_S3136x256_1_0_0_1_n_n none A W (constant (F := Ideal) S3136x256 .f32 0x00000000#32) (ix2 r q)
      = ∑ k : Fin 64, (A : S3136x64.Idx → EReal) (ix2 r k) * (W : S64x256.Idx → EReal) (ix2 k q) :=
  Cert.LibMatmulAt.matmul_zero_apply dot_S3136x64_S64x256_S3136x256_1_0_0_1_n_n rfl rfl rfl rfl rfl rfl none A W r q

/-- Row 0 of the statistics block: the column totals of the product. -/
theorem k2_stat0_apply (A : FVec Ideal S3136x64 .bf16) (W : FVec Ideal S64x256 .bf16) (u : Fin 1) (q : Fin 256) :
    (Gen.k2_pay1 A W (constant (F := Ideal) S3136x256 .f32 0x00000000#32) : S1x2x256.Idx → EReal) (ix3 u (0 : Fin 2) q)
      = ∑ r : Fin 3136, ∑ k : Fin 64, (A : S3136x64.Idx → EReal) (ix2 r k) * (W : S64x256.Idx → EReal) (ix2 k q) := by
  unfold Gen.k2_pay1
  dsimp only
  refine (shapeCast_ab_1ab_apply _ _ u (0 : Fin 2) q).trans ?_
  refine (Cert.RowShift.stack_head_apply _ _ _ (0 : Fin 2) q rfl).trans ?_
  refine (shapeCast_a_1a_apply _ _ (0 : Fin 1) q).trans ?_
  refine (Cert.LibColReduce.colSum_f32 _ _ _ _ q).trans ?_
  exact Finset.sum_congr rfl fun r _ => k2_prod_apply A W r q

/-- Row 1 of the statistics block: the column totals of the squares of the product. -/
theorem k2_stat1_apply (A : FVec Ideal S3136x64 .bf16) (W : FVec Ideal S64x256 .bf16) (u : Fin 1) (q : Fin 256) :
    (Gen.k2_pay1 A W (constant (F := Ideal) S3136x256 .f32 0x00000000#32) : S1x2x256.Idx → EReal) (ix3 u (1 : Fin 2) q)
      = ∑ r : Fin 3136, (∑ k : Fin 64, (A : S3136x64.Idx → EReal) (ix2 r k) * (W : S64x256.Idx → EReal) (ix2 k q))
          * (∑ k : Fin 64, (A : S3136x64.Idx → EReal) (ix2 r k) * (W : S64x256.Idx → EReal) (ix2 k q)) := by
  unfold Gen.k2_pay1
  dsimp only
  refine (shapeCast_ab_1ab_apply _ _ u (1 : Fin 2) q).trans ?_
  refine (Cert.RowShift.stack_tail_apply _ _ _ (1 : Fin 2) q (0 : Fin 1) rfl).trans ?_
  refine (shapeCast_a_1a_apply _ _ (0 : Fin 1) q).trans ?_
  refine (Cert.LibColReduce.colSum_f32 _ _ _ _ q).trans ?_
  exact Finset.sum_congr rfl fun r _ => (mulf_apply _ _ _).trans (congrArg₂ (· * ·) (k2_prod_apply A W r q) (k2_prod_apply A W r q))

/-- Region 2's rectified normalised input of image n, from the region's own operands. -/
abbrev a2 (c : Dev nD) (n : Fin 8) : Fin 3136 → Fin 64 → EReal :=
  act (cur3 (V c main_v14_0 : S8x3136x64.Idx → EReal) n)
    (scOf (cur2 (V c main_arg6 : S1x64.Idx → EReal)) (cur3 (V c main_v14_1 : S8x2x64.Idx → EReal)))
    (shOf (cur2 (V c main_arg7 : S1x64.Idx → EReal)) (cur2 (V c main_arg6 : S1x64.Idx → EReal)) (cur3 (V c main_v14_1 : S8x2x64.Idx → EReal)))

/-! ## From the grid points' blocks to the arrays -/

/-- The block index of every window at every grid point: the image's number on the first axis of the three windows cut
    by image, zero everywhere else. -/
theorem k2_idx : ∀ t : Fin cfg2.N,
    win2_0.index t (0 : Fin 3) = t.val ∧ win2_0.index t (1 : Fin 3) = 0 ∧ win2_0.index t (2 : Fin 3) = 0
    ∧ win2_1.index t (0 : Fin 3) = 0 ∧ win2_1.index t (1 : Fin 3) = 0 ∧ win2_1.index t (2 : Fin 3) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 3) = t.val ∧ win2_5.index t (1 : Fin 3) = 0 ∧ win2_5.index t (2 : Fin 3) = 0
    ∧ win2_6.index t (0 : Fin 3) = t.val ∧ win2_6.index t (1 : Fin 3) = 0 ∧ win2_6.index t (2 : Fin 3) = 0 :=
  (by decide +kernel : ∀ t : Fin grid2.N, _)

/-- The input block of image t is that image's rows of the input array. -/
theorem k2_blk0_apply (c : Dev nD) (t : Fin cfg2.N) (u : Fin 1) (p : Fin 3136) (q : Fin 64) (n : Fin 8) (hn : n.val = t.val) :
    (Gen.iblk2 V c 0 t : S1x3136x64.Idx → EReal) (ix3 u p q) = (V c main_v14_0 : S8x3136x64.Idx → EReal) (ix3 n p q) := by
  obtain ⟨e0, e1, e2, -⟩ := k2_idx t
  unfold Gen.iblk2
  rw [View.read_apply]
  show (V c main_v14_0 : S8x3136x64.Idx → EReal) _ = _
  refine congrArg (V c main_v14_0 : S8x3136x64.Idx → EReal) (funext fun a => Fin.ext ?_)
  match a with
  | ⟨0, _⟩ => show win2_0.index t (0 : Fin 3) * 1 + 1 * u.val = n.val; have := u.isLt; omega
  | ⟨1, _⟩ => show win2_0.index t (1 : Fin 3) * 3136 + 1 * p.val = p.val; omega
  | ⟨2, _⟩ => show win2_0.index t (2 : Fin 3) * 64 + 1 * q.val = q.val; omega

/-- The block of the partial totals is the whole array of them, at every point. -/
theorem k2_blk1_eq (c : Dev nD) (t : Fin cfg2.N) :
    (Gen.iblk2 V c 1 t : S8x2x64.Idx → EReal) = (V c main_v14_1 : S8x2x64.Idx → EReal) := by
  obtain ⟨-, -, -, e0, e1, e2, -⟩ := k2_idx t
  funext j
  unfold Gen.iblk2
  rw [View.read_apply]
  show (V c main_v14_1 : S8x2x64.Idx → EReal) _ = _
  refine congrArg (V c main_v14_1 : S8x2x64.Idx → EReal) (funext fun a => Fin.ext ?_)
  match a with
  | ⟨0, _⟩ => show win2_1.index t (0 : Fin 3) * 8 + 1 * (j 0).val = (j 0).val; omega
  | ⟨1, _⟩ => show win2_1.index t (1 : Fin 3) * 2 + 1 * (j 1).val = (j 1).val; omega
  | ⟨2, _⟩ => show win2_1.index t (2 : Fin 3) * 64 + 1 * (j 2).val = (j 2).val; omega

/-- The block of the gain row is the whole row. -/
theorem k2_blk2_eq (c : Dev nD) (t : Fin cfg2.N) :
    (Gen.iblk2 V c 2 t : S1x64.Idx → EReal) = (V c main_arg6 : S1x64.Idx → EReal) := by
  obtain ⟨-, -, -, -, -, -, e0, e1, -⟩ := k2_idx t
  funext j
  unfold Gen.iblk2
  rw [View.read_apply]
  show (V c main_arg6 : S1x64.Idx → EReal) _ = _
  refine congrArg (V c main_arg6 : S1x64.Idx → EReal) (funext fun a => Fin.ext ?_)
  match a with
  | ⟨0, _⟩ => show win2_2.index t (0 : Fin 2) * 1 + 1 * (j 0).val = (j 0).val; omega
  | ⟨1, _⟩ => show win2_2.index t (1 : Fin 2) * 64 + 1 * (j 1).val = (j 1).val; omega

/-- The block of the bias row is the whole row. -/
theorem k2_blk3_eq (c : Dev nD) (t : Fin cfg2.N) :
    (Gen.iblk2 V c 3 t : S1x64.Idx → EReal) = (V c main_arg7 : S1x64.Idx → EReal) := by
  obtain ⟨-, -, -, -, -, -, -, -, e0, e1, -⟩ := k2_idx t
  funext j
  unfold Gen.iblk2
  rw [View.read_apply]
  show (V c main_arg7 : S1x64.Idx → EReal) _ = _
  refine congrArg (V c main_arg7 : S1x64.Idx → EReal) (funext fun a => Fin.ext ?_)
  match a with
  | ⟨0, _⟩ => show win2_3.index t (0 : Fin 2) * 1 + 1 * (j 0).val = (j 0).val; omega
  | ⟨1, _⟩ => show win2_3.index t (1 : Fin 2) * 64 + 1 * (j 1).val = (j 1).val; omega

/-- The block of the weights is the whole weight matrix. -/
theorem k2_blk4_eq (c : Dev nD) (t : Fin cfg2.N) :
    (Gen.iblk2 V c 4 t : S64x256.Idx → EReal) = (V c main_arg3 : S64x256.Idx → EReal) := by
  obtain ⟨-, -, -, -, -, -, -, -, -, -, e0, e1, -⟩ := k2_idx t
  funext j
  unfold Gen.iblk2
  rw [View.read_apply]
  show (V c main_arg3 : S64x256.Idx → EReal) _ = _
  refine congrArg (V c main_arg3 : S64x256.Idx → EReal) (funext fun a => Fin.ext ?_)
  match a with
  | ⟨0, _⟩ => show win2_4.index t (0 : Fin 2) * 64 + 1 * (j 0).val = (j 0).val; omega
  | ⟨1, _⟩ => show win2_4.index t (1 : Fin 2) * 256 + 1 * (j 1).val = (j 1).val; omega

/-- What the body computes from the blocks of point t is the activation of image t. -/
theorem k2_act_blk (c : Dev nD) (t : Fin cfg2.N) (n : Fin 8) (hn : n.val = t.val) (p : Fin 3136) (q : Fin 64) :
    (Gen.k2_pay2 (Gen.iblk2 V c 1 t) (Gen.iblk2 V c 2 t) (Gen.iblk2 V c 3 t) (Gen.iblk2 V c 0 t) : S3136x64.Idx → EReal) (ix2 p q)
      = a2 V c n p q := by
  refine (k2_act_apply _ _ _ _ p q).trans ?_
  rw [k2_blk1_eq V c t, k2_blk2_eq V c t, k2_blk3_eq V c t]
  unfold a2 act
  beta_reduce
  rw [k2_blk0_apply V c t (0 : Fin 1) p q n hn]

/-- The activation of all eight images as one array. -/
abbrev k2_G5 (c : Dev nD) : S8x3136x64.Idx → EReal := fun i => a2 V c (i 0) (i 1) (i 2)

/-- What point t writes back through the activation's window is block t of that array. -/
theorem k2_flushed5 (c : Dev nD) (t : Fin cfg2.N) :
    (Gen.dat2 V c).flushed 5 t = ((cfg2.win 5).blk t).view.read (Elt Ideal) (k2_G5 V c) := by
  have hn : t.val < 8 := lt_of_lt_of_eq t.isLt Gen.N_2
  obtain ⟨-, -, -, -, -, -, -, -, -, -, -, -, e0, e1, e2, -⟩ := k2_idx t
  show (cfg2.win 5).cut (grid2.coords t) ((Gen.dat2 V c).after 5 t) = _
  rw [Gen.after2_5]
  unfold Gen.out2_5
  rw [View.canon_unit_zero k2_zero3]
  simp only [View.ld_unit_zero (S := S8x2x64) k2_zero3, View.ld_unit_zero (S := S1x64) k2_zero2,
    View.ld_unit_zero (S := S1x3136x64) k2_zero3]
  funext j
  obtain ⟨u, p, q, rfl⟩ : ∃ (u : Fin 1) (p : Fin 3136) (q : Fin 64), j = ix3 u p q :=
    ⟨(j : S1x3136x64.Idx) 0, (j : S1x3136x64.Idx) 1, (j : S1x3136x64.Idx) 2, eq_ix3 (n0 := 1) (n1 := 3136) (n2 := 64) j⟩
  refine (k2_stored_apply _ _ _ _ u p q).trans ?_
  refine (k2_act_blk V c t ⟨t.val, hn⟩ rfl p q).trans ?_
  rw [View.read_apply]
  have hemb : ((cfg2.win 5).blk t).view.emb (ix3 u p q) = (ix3 (⟨t.val, hn⟩ : Fin 8) p q : S8x3136x64.Idx) :=
    funext fun a => Fin.ext (by
      match a with
      | ⟨0, _⟩ => show win2_5.index t (0 : Fin 3) * 1 + 1 * u.val = t.val; have := u.isLt; omega
      | ⟨1, _⟩ => show win2_5.index t (1 : Fin 3) * 3136 + 1 * p.val = p.val; omega
      | ⟨2, _⟩ => show win2_5.index t (2 : Fin 3) * 64 + 1 * q.val = q.val; omega)
  show _ = k2_G5 V c (((cfg2.win 5).blk t).view.emb (ix3 u p q))
  rw [hemb]

/-- The product the body forms from the blocks of point t, at (r, q): the activation of image t times the weights. -/
theorem k2_prod_blk (c : Dev nD) (t : Fin cfg2.N) (n : Fin 8) (hn : n.val = t.val) (r : Fin 3136) (q : Fin 256) :
    (∑ k : Fin 64,
        (Gen.k2_pay2 (Gen.iblk2 V c 1 t) (Gen.iblk2 V c 2 t) (Gen.iblk2 V c 3 t) (Gen.iblk2 V c 0 t) : S3136x64.Idx → EReal) (ix2 r k)
          * (Gen.k2_pay4 (Gen.iblk2 V c 4 t) : S64x256.Idx → EReal) (ix2 k q))
      = mm (a2 V c n) (cur2 (V c main_arg3 : S64x256.Idx → EReal)) r q := by
  unfold mm
  refine Finset.sum_congr rfl fun k _ => ?_
  rw [k2_act_blk V c t n hn r k]
  unfold Gen.k2_pay4
  rw [k2_blk4_eq V c t]
  rfl

/-- Each image's column totals (row 0) and column totals of squares (row 1) of that product, as one array. -/
abbrev k2_G6 (c : Dev nD) : S8x2x256.Idx → EReal := fun i =>
  if (i 1).val = 0 then tot (mm (a2 V c (i 0)) (cur2 (V c main_arg3 : S64x256.Idx → EReal))) (i 2)
  else totSq (mm (a2 V c (i 0)) (cur2 (V c main_arg3 : S64x256.Idx → EReal))) (i 2)

/-- What point t writes back through the statistics' window is block t of that array. -/
theorem k2_flushed6 (c : Dev nD) (t : Fin cfg2.N) :
    (Gen.dat2 V c).flushed 6 t = ((cfg2.win 6).blk t).view.read (Elt Ideal) (k2_G6 V c) := by
  have hn : t.val < 8 := lt_of_lt_of_eq t.isLt Gen.N_2
  obtain ⟨-, -, -, -, -, -, -, -, -, -, -, -, -, -, -, e0, e1, e2⟩ := k2_idx t
  show (cfg2.win 6).cut (grid2.coords t) ((Gen.dat2 V c).after 6 t) = _
  rw [Gen.after2_6]
  unfold Gen.out2_6
  rw [View.canon_unit_zero k2_zero3]
  simp only [View.ld_unit_zero (S := S8x2x64) k2_zero3, View.ld_unit_zero (S := S1x64) k2_zero2,
    View.ld_unit_zero (S := S1x3136x64) k2_zero3, View.ld_unit_zero (S := S64x256) k2_zero2]
  funext j
  obtain ⟨u, s, q, rfl⟩ : ∃ (u : Fin 1) (s : Fin 2) (q : Fin 256), j = ix3 u s q :=
    ⟨(j : S1x2x256.Idx) 0, (j : S1x2x256.Idx) 1, (j : S1x2x256.Idx) 2, eq_ix3 (n0 := 1) (n1 := 2) (n2 := 256) j⟩
  rw [View.read_apply]
  have hemb : ((cfg2.win 6).blk t).view.emb (ix3 u s q) = (ix3 (⟨t.val, hn⟩ : Fin 8) s q : S8x2x256.Idx) :=
    funext fun a => Fin.ext (by
      match a with
      | ⟨0, _⟩ => show win2_6.index t (0 : Fin 3) * 1 + 1 * u.val = t.val; have := u.isLt; omega
      | ⟨1, _⟩ => show win2_6.index t (1 : Fin 3) * 2 + 1 * s.val = s.val; omega
      | ⟨2, _⟩ => show win2_6.index t (2 : Fin 3) * 256 + 1 * q.val = q.val; omega)
  show _ = k2_G6 V c (((cfg2.win 6).blk t).view.emb (ix3 u s q))
  rw [hemb]
  obtain rfl | rfl : s = 0 ∨ s = 1 := by
    rcases s with ⟨_ | _ | s, hs⟩
    · exact Or.inl rfl
    · exact Or.inr rfl
    · omega
  · refine (k2_stat0_apply _ _ u q).trans ?_
    show _ = tot (mm (a2 V c ⟨t.val, hn⟩) (cur2 (V c main_arg3 : S64x256.Idx → EReal))) q
    unfold tot
    exact Finset.sum_congr rfl fun r _ => k2_prod_blk V c t ⟨t.val, hn⟩ rfl r q
  · refine (k2_stat1_apply _ _ u q).trans ?_
    show _ = totSq (mm (a2 V c ⟨t.val, hn⟩) (cur2 (V c main_arg3 : S64x256.Idx → EReal))) q
    unfold totSq
    exact Finset.sum_congr rfl fun r _ =>
      congrArg₂ (· * ·) (k2_prod_blk V c t ⟨t.val, hn⟩ rfl r q) (k2_prod_blk V c t ⟨t.val, hn⟩ rfl r q)

/-- Region 2 stores that activation. -/
theorem a2_eq (c : Dev nD) (n : Fin 8) (r : Fin 3136) (q : Fin 64) :
    ((Gen.dat2 V c).arrAt 5 cfg2.N : S8x3136x64.Idx → EReal) (ix3 n r q) = a2 V c n r q := by
  have ht : n.val < cfg2.N := lt_of_lt_of_eq n.isLt Gen.N_2.symm
  refine ((Gen.dat2 V c).arrAt_apply_of_mem 5 (k2_G5 V c) (fun t _ => k2_flushed5 V c t) cfg2.N ⟨n.val, ht⟩ (ix3 n r q) ht
    (Gen.flush2_5 _) ?_).trans rfl
  obtain ⟨-, -, -, -, -, -, -, -, -, -, -, -, e0, e1, e2, -⟩ := k2_idx ⟨n.val, ht⟩
  replace e0 : win2_5.index ⟨n.val, ht⟩ (0 : Fin 3) = n.val := e0
  show (ix3 n r q : S8x3136x64.Idx) ∈ ((View.whole main_v15_0).slice (win2_5.rect ⟨n.val, ht⟩)).set
  rw [View.set_slice_whole, Rect.mem_set_unit]
  intro a
  match a with
  | ⟨0, _⟩ =>
    show win2_5.index ⟨n.val, ht⟩ (0 : Fin 3) * 1 ≤ n.val ∧ n.val < win2_5.index ⟨n.val, ht⟩ (0 : Fin 3) * 1 + 1
    omega
  | ⟨1, _⟩ =>
    show win2_5.index ⟨n.val, ht⟩ (1 : Fin 3) * 3136 ≤ r.val ∧ r.val < win2_5.index ⟨n.val, ht⟩ (1 : Fin 3) * 3136 + 3136
    have := r.isLt; omega
  | ⟨2, _⟩ =>
    show win2_5.index ⟨n.val, ht⟩ (2 : Fin 3) * 64 ≤ q.val ∧ q.val < win2_5.index ⟨n.val, ht⟩ (2 : Fin 3) * 64 + 64
    have := q.isLt; omega

/-- Region 2: each image's column totals and column totals of squares of the activation's product with the last
    1x1 weights (the product itself is not stored). -/
theorem st3_eq (c : Dev nD) (n : Fin 8) (q : Fin 256) :
    ((Gen.dat2 V c).arrAt 6 cfg2.N : S8x2x256.Idx → EReal) (ix3 n 0 q)
        = tot (mm (a2 V c n) (cur2 (V c main_arg3 : S64x256.Idx → EReal))) q
    ∧ ((Gen.dat2 V c).arrAt 6 cfg2.N : S8x2x256.Idx → EReal) (ix3 n 1 q)
        = totSq (mm (a2 V c n) (cur2 (V c main_arg3 : S64x256.Idx → EReal))) q := by
  have ht : n.val < cfg2.N := lt_of_lt_of_eq n.isLt Gen.N_2.symm
  have hmem : ∀ s : Fin 2, (ix3 n s q : S8x2x256.Idx) ∈ ((cfg2.win 6).blk ⟨n.val, ht⟩).view.set := by
    intro s
    obtain ⟨-, -, -, -, -, -, -, -, -, -, -, -, -, -, -, e0, e1, e2⟩ := k2_idx ⟨n.val, ht⟩
    replace e0 : win2_6.index ⟨n.val, ht⟩ (0 : Fin 3) = n.val := e0
    show (ix3 n s q : S8x2x256.Idx) ∈ ((View.whole main_v15_1).slice (win2_6.rect ⟨n.val, ht⟩)).set
    rw [View.set_slice_whole, Rect.mem_set_unit]
    intro a
    match a with
    | ⟨0, _⟩ =>
      show win2_6.index ⟨n.val, ht⟩ (0 : Fin 3) * 1 ≤ n.val ∧ n.val < win2_6.index ⟨n.val, ht⟩ (0 : Fin 3) * 1 + 1
      omega
    | ⟨1, _⟩ =>
      show win2_6.index ⟨n.val, ht⟩ (1 : Fin 3) * 2 ≤ s.val ∧ s.val < win2_6.index ⟨n.val, ht⟩ (1 : Fin 3) * 2 + 2
      have := s.isLt; omega
    | ⟨2, _⟩ =>
      show win2_6.index ⟨n.val, ht⟩ (2 : Fin 3) * 256 ≤ q.val ∧ q.val < win2_6.index ⟨n.val, ht⟩ (2 : Fin 3) * 256 + 256
      have := q.isLt; omega
  exact ⟨((Gen.dat2 V c).arrAt_apply_of_mem 6 (k2_G6 V c) (fun t _ => k2_flushed6 V c t) cfg2.N ⟨n.val, ht⟩ (ix3 n 0 q) ht
      (Gen.flush2_6 _) (hmem 0)).trans rfl,
    ((Gen.dat2 V c).arrAt_apply_of_mem 6 (k2_G6 V c) (fun t _ => k2_flushed6 V c t) cfg2.N ⟨n.val, ht⟩ (ix3 n 1 q) ht
      (Gen.flush2_6 _) (hmem 1)).trans rfl⟩

end Cert.KernelIdeal.Val
end
-- ==== Proof.K3a.lean ====
/-
  Region 3, at one grid point: what the body stores, entry by entry, as the specification's functions of the blocks it
  loaded. The eight partial totals and totals of squares are summed down the first axis, the scale and the shift rows
  are formed from them, the stored activation (its unit axis dropped) is multiplied with the weights, and the result is
  scaled, shifted, added to the residual block and rectified.
-/
import proofs.«118062_g2000700299631556_pallasbulk_725_21_alg».proof.Proof.Gen.KernelIdeal.Skeleton
import proofs.«118062_g2000700299631556_pallasbulk_725_21_alg».proof.Proof.Spec
import proofs.«118062_g2000700299631556_pallasbulk_725_21_alg».proof.Proof.LibMatmulAt
import Idealize.ShloMosaic.Lib.ValueLayout
import Idealize.ShloMosaic.PureOps.Ideal.Laws

noncomputable section
namespace Cert.KernelIdeal.Val
open Idealize.ShloMosaic Idealize.SL.Sem Idealize.ShloMosaic.ValueIdx
open Cert.KernelIdeal Cert.Bneck
open scoped BigOperators
namespace Region3

/-- Result index (j, q) of a sum along the first axis of a three-axis array, with the dropped coordinate k put back,
    is (k, j, q). -/
theorem lift_first3 {a b c : ℕ} (h : (⟨3, ![a, b, c]⟩ : Shape).Reduces [(0 : Fin 3)] ⟨2, ![b, c]⟩)
    (j : Fin b) (q : Fin c) (k : Fin a) : h.lift (ix2 j q) k = ix3 k j q := by
  funext d
  apply Fin.ext
  match d with
  | ⟨0, _⟩ => rfl
  | ⟨1, _⟩ => rfl
  | ⟨2, _⟩ => rfl

/-- The sum along the first axis of a three-axis array from the zero word, read at (j, q): the plain sum over the
    first coordinate. -/
theorem sum_first3 {a b c : ℕ} (src : FVec Ideal ⟨3, ![a, b, c]⟩ .f32)
    (h : (⟨3, ![a, b, c]⟩ : Shape).Reduces [(0 : Fin 3)] ⟨2, ![b, c]⟩) (hφ : FKind.Formats .f32)
    (hacc : (0x00000000#32 : BitVec 32) = 0x00000000#32) (j : Fin b) (q : Fin c) :
    multiReduction .add [(0 : Fin 3)] ⟨2, ![b, c]⟩ src 0x00000000#32 h hφ hacc (ix2 j q) = ∑ k : Fin a, src (ix3 k j q) :=
  (Ideal.multiReduction_add_single src 0x00000000#32 h hφ hacc (ix2 j q)).trans
    (Finset.sum_congr rfl fun k _ => congrArg src (lift_first3 h j q k))

/-- The reciprocal square root of a vector over the extended reals is taken entry by entry. -/
theorem rsqrt_at {s : Shape} {φ : FTy} (a : FVec Ideal s φ) (i : s.Idx) : rsqrt a i = Ideal.rsqrt (a i) := rfl

/-- Row 0 of the partial totals summed over the eight partials, read at column q. -/
theorem stat0 (x1 : Vec Ideal S8x2x256 .f32) (hφ : FKind.Formats .f32) (hacc : (0x00000000#32 : BitVec 32) = 0x00000000#32)
    (q : Fin 256) :
    extractStridedSlice S1x256 ![0, 0]
        (multiReduction (F := Ideal) .add [0] S2x256 x1 0x00000000#32 Gen.reduces_S8x2x256_S2x256 hφ hacc)
        Gen.slices_S2x256_o0_0_S1x256 (ix2 (0 : Fin 1) q)
      = ∑ n : Fin 8, x1 (ix3 n (0 : Fin 2) q) :=
  (slice2_axis0_apply 0 _ Gen.slices_S2x256_o0_0_S1x256 (0 : Fin 1) q (0 : Fin 2) rfl).trans
    (sum_first3 x1 Gen.reduces_S8x2x256_S2x256 hφ hacc 0 q)

/-- Row 1 of the partial totals (the totals of squares) summed over the eight partials, read at column q. -/
theorem stat1 (x1 : Vec Ideal S8x2x256 .f32) (hφ : FKind.Formats .f32) (hacc : (0x00000000#32 : BitVec 32) = 0x00000000#32)
    (q : Fin 256) :
    extractStridedSlice S1x256 ![1, 0]
        (multiReduction (F := Ideal) .add [0] S2x256 x1 0x00000000#32 Gen.reduces_S8x2x256_S2x256 hφ hacc)
        Gen.slices_S2x256_o1_0_S1x256 (ix2 (0 : Fin 1) q)
      = ∑ n : Fin 8, x1 (ix3 n (1 : Fin 2) q) :=
  (slice2_axis0_apply 1 _ Gen.slices_S2x256_o1_0_S1x256 (0 : Fin 1) q (1 : Fin 2) rfl).trans
    (sum_first3 x1 Gen.reduces_S8x2x256_S2x256 hφ hacc 1 q)

/-- The product of the stored activation (its unit axis dropped) with the weights, read at (p, q). -/
theorem prod_at (x0 : Vec Ideal S1x3136x64 .bf16) (x4 : Vec Ideal S64x256 .f32) (p : Fin 3136) (q : Fin 256) :
    matmul (F := Ideal) dot_S3136x64_S64x256_S3136x256_1_0_0_1_n_n none
        (shapeCast S3136x64 x0 Gen.shapeCasts_S1x3136x64_S3136x64 : FVec Ideal S3136x64 .bf16)
        (truncf (F := Ideal) FTy.bf16 x4 Gen.bitsLt_bf16_f32) (constant (F := Ideal) S3136x256 FTy.f32 0x00000000#32) (ix2 p q)
      = ∑ k : Fin 64, x0 (ix3 (0 : Fin 1) p k) * x4 (ix2 k q) :=
  (Cert.LibMatmulAt.matmul_zero_apply dot_S3136x64_S64x256_S3136x256_1_0_0_1_n_n rfl rfl rfl rfl rfl rfl none
      (shapeCast S3136x64 x0 Gen.shapeCasts_S1x3136x64_S3136x64 : FVec Ideal S3136x64 .bf16)
      (truncf (F := Ideal) FTy.bf16 x4 Gen.bitsLt_bf16_f32) p q).trans
    (Finset.sum_congr rfl fun k _ => congrArg (· * x4 (ix2 k q)) (shapeCast_1ab_ab_apply x0 _ p k))

/-- THE BODY'S VALUE AT AN ENTRY: the product of the stored activation with the weights, scaled and shifted column by
    column by the normalisation's scale and shift from the eight partial totals, the residual block added, rectified. -/
theorem pay_apply (x0 : Vec Ideal S1x3136x64 .bf16) (x1 : Vec Ideal S8x2x256 .f32) (x2 x3 : Vec Ideal S1x256 .f32)
    (x4 : Vec Ideal S64x256 .f32) (x5 : Vec Ideal S3136x256 .f32) (p : Fin 3136) (q : Fin 256) :
    Gen.k3_pay1 x1 x2 x3 x0 x4 x5 (ix2 p q)
      = res (mm (fun p k => x0 (ix3 (0 : Fin 1) p k)) (cur2 x4)) (scOf (cur2 x2) (cur3 x1))
          (shOf (cur2 x3) (cur2 x2) (cur3 x1)) (cur2 x5) p q := by
  unfold Gen.k3_pay1
  simp only [maximumf_apply, addf_apply, mulf_apply, subf_apply, divf_apply, broadcast_apply, shapeCast_self,
    broadcastTo_1b_ab_apply, rsqrt_at, prod_at]
  unfold res mm scOf shOf shiftOf scaleOf mean
  rw [stat0 x1, stat1 x1]
  rfl

/-- The same at an index of the block not yet split into its two coordinates. -/
theorem pay_idx (x0 : Vec Ideal S1x3136x64 .bf16) (x1 : Vec Ideal S8x2x256 .f32) (x2 x3 : Vec Ideal S1x256 .f32)
    (x4 : Vec Ideal S64x256 .f32) (x5 : Vec Ideal S3136x256 .f32) (j : S3136x256.Idx) :
    Gen.k3_pay1 x1 x2 x3 x0 x4 x5 j
      = res (mm (fun p k => x0 (ix3 (0 : Fin 1) p k)) (cur2 x4)) (scOf (cur2 x2) (cur3 x1))
          (shOf (cur2 x3) (cur2 x2) (cur3 x1)) (cur2 x5) (j 0) (j 1) :=
  (congrArg (Gen.k3_pay1 x1 x2 x3 x0 x4 x5) (eq_ix2 j)).trans (pay_apply x0 x1 x2 x3 x4 x5 (j 0) (j 1))

end Region3

end Cert.KernelIdeal.Val
end
-- ==== Proof.K3.lean ====
/-
  Region 3 over the whole grid: each of the eight points reads the stored activation of its image, the residual rows of
  its image and the four arrays shared by all points, and writes the rows of its image; the eight blocks fill the
  output array, so the array ends as one function of the arrays the region finds, read here at row r of image n.
-/
import proofs.«118062_g2000700299631556_pallasbulk_725_21_alg».proof.Proof.Gen.KernelIdeal.Frame
import proofs.«118062_g2000700299631556_pallasbulk_725_21_alg».proof.Proof.Spec
import proofs.«118062_g2000700299631556_pallasbulk_725_21_alg».proof.Proof.K3a
import Idealize.ShloMosaic.Lib.Pipeline.Value

noncomputable section
namespace Cert.KernelIdeal.Val
open Idealize.ShloMosaic Idealize.ShloMosaic.TcCoe Idealize.SL.Sem Idealize.ShloMosaic.ValueIdx
open Cert.KernelIdeal Cert.Bneck
open scoped BigOperators

variable (V : (c : Dev nD) → (b : Ref sig .tc) → Buf (Elt Ideal) ((c : Thread nD τ).loc b))

namespace Region3

theorem zeros2 : (![0, 0] : Fin 2 → Nat) = fun _ => 0 := funext fun a => by fin_cases a <;> rfl
theorem zeros3 : (![0, 0, 0] : Fin 3 → Nat) = fun _ => 0 := funext fun a => by fin_cases a <;> rfl

/-- The block index of every window at every grid point, decided over the eight points: the stored activation, the
    residual and the output move with the point along their first axis; the other four windows stay at block zero. -/
theorem idx_facts : ∀ t : Fin cfg3.N,
    win3_0.index t (0 : Fin 3) = t.val ∧ win3_0.index t (1 : Fin 3) = 0 ∧ win3_0.index t (2 : Fin 3) = 0
    ∧ win3_1.index t (0 : Fin 3) = 0 ∧ win3_1.index t (1 : Fin 3) = 0 ∧ win3_1.index t (2 : Fin 3) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- The stored activation's block at point t is image t. -/
theorem blk_act (c : Dev nD) (t : Fin cfg3.N) (n : Fin 8) (hn : n.val = t.val) (p : Fin 3136) (k : Fin 64) :
    (Gen.iblk3 V c 0 t : Vec Ideal S1x3136x64 .bf16) (ix3 (0 : Fin 1) p k)
      = (V c main_v15_0 : S8x3136x64.Idx → EReal) (ix3 n p k) := by
  obtain ⟨e0, e1, e2, -⟩ := idx_facts t
  unfold Gen.iblk3
  rw [View.read_apply]
  show (V c main_v15_0 : S8x3136x64.Idx → EReal) _ = (V c main_v15_0 : S8x3136x64.Idx → EReal) _
  refine congrArg (V c main_v15_0 : S8x3136x64.Idx → EReal) (funext fun a => Fin.ext ?_)
  match a with
  | ⟨0, _⟩ => show win3_0.index t (0 : Fin 3) * 1 + 1 * 0 = n.val; omega
  | ⟨1, _⟩ => show win3_0.index t (1 : Fin 3) * 3136 + 1 * p.val = p.val; omega
  | ⟨2, _⟩ => show win3_0.index t (2 : Fin 3) * 64 + 1 * k.val = k.val; omega

/-- The partial totals' block at every point is the whole array. -/
theorem blk_stats (c : Dev nD) (t : Fin cfg3.N) :
    (Gen.iblk3 V c 1 t : Vec Ideal S8x2x256 .f32) = (V c main_v15_1 : S8x2x256.Idx → EReal) := by
  obtain ⟨-, -, -, e0, e1, e2, -⟩ := idx_facts t
  funext y
  unfold Gen.iblk3
  rw [View.read_apply]
  show (V c main_v15_1 : S8x2x256.Idx → EReal) _ = (V c main_v15_1 : S8x2x256.Idx → EReal) y
  refine congrArg (V c main_v15_1 : S8x2x256.Idx → EReal) (funext fun a => Fin.ext ?_)
  match a with
  | ⟨0, _⟩ => show win3_1.index t (0 : Fin 3) * 8 + 1 * (y 0).val = (y 0).val; omega
  | ⟨1, _⟩ => show win3_1.index t (1 : Fin 3) * 2 + 1 * (y 1).val = (y 1).val; omega
  | ⟨2, _⟩ => show win3_1.index t (2 : Fin 3) * 256 + 1 * (y 2).val = (y 2).val; omega

/-- The gain row's block at every point is the whole row. -/
theorem blk_gain (c : Dev nD) (t : Fin cfg3.N) :
    (Gen.iblk3 V c 2 t : Vec Ideal S1x256 .f32) = (V c main_arg8 : S1x256.Idx → EReal) := by
  obtain ⟨-, -, -, -, -, -, e0, e1, -⟩ := idx_facts t
  funext y
  unfold Gen.iblk3
  rw [View.read_apply]
  show (V c main_arg8 : S1x256.Idx → EReal) _ = (V c main_arg8 : S1x256.Idx → EReal) y
  refine congrArg (V c main_arg8 : S1x256.Idx → EReal) (funext fun a => Fin.ext ?_)
  match a with
  | ⟨0, _⟩ => show win3_2.index t (0 : Fin 2) * 1 + 1 * (y 0).val = (y 0).val; omega
  | ⟨1, _⟩ => show win3_2.index t (1 : Fin 2) * 256 + 1 * (y 1).val = (y 1).val; omega

/-- The bias row's block at every point is the whole row. -/
theorem blk_bias (c : Dev nD) (t : Fin cfg3.N) :
    (Gen.iblk3 V c 3 t : Vec Ideal S1x256 .f32) = (V c main_arg9 : S1x256.Idx → EReal) := by
  obtain ⟨-, -, -, -, -, -, -, -, e0, e1, -⟩ := idx_facts t
  funext y
  unfold Gen.iblk3
  rw [View.read_apply]
  show (V c main_arg9 : S1x256.Idx → EReal) _ = (V c main_arg9 : S1x256.Idx → EReal) y
  refine congrArg (V c main_arg9 : S1x256.Idx → EReal) (funext fun a => Fin.ext ?_)
  match a with
  | ⟨0, _⟩ => show win3_3.index t (0 : Fin 2) * 1 + 1 * (y 0).val = (y 0).val; omega
  | ⟨1, _⟩ => show win3_3.index t (1 : Fin 2) * 256 + 1 * (y 1).val = (y 1).val; omega

/-- The weights' block at every point is the whole matrix. -/
theorem blk_w (c : Dev nD) (t : Fin cfg3.N) :
    (Gen.iblk3 V c 4 t : Vec Ideal S64x256 .f32) = (V c main_arg3 : S64x256.Idx → EReal) := by
  obtain ⟨-, -, -, -, -, -, -, -, -, -, e0, e1, -⟩ := idx_facts t
  funext y
  unfold Gen.iblk3
  rw [View.read_apply]
  show (V c main_arg3 : S64x256.Idx → EReal) _ = (V c main_arg3 : S64x256.Idx → EReal) y
  refine congrArg (V c main_arg3 : S64x256.Idx → EReal) (funext fun a => Fin.ext ?_)
  match a with
  | ⟨0, _⟩ => show win3_4.index t (0 : Fin 2) * 64 + 1 * (y 0).val = (y 0).val; omega
  | ⟨1, _⟩ => show win3_4.index t (1 : Fin 2) * 256 + 1 * (y 1).val = (y 1).val; omega

/-- The residual's block at point t is the rows of image t. -/
theorem blk_res (c : Dev nD) (t : Fin cfg3.N) (n : Fin 8) (hn : n.val = t.val) (p : Fin 3136) (q : Fin 256) :
    (Gen.iblk3 V c 5 t : Vec Ideal S3136x256 .f32) (ix2 p q)
      = (V c main_v1 : S25088x256.Idx → EReal) (ix2 (row n p) q) := by
  obtain ⟨-, -, -, -, -, -, -, -, -, -, -, -, e0, e1, -⟩ := idx_facts t
  unfold Gen.iblk3
  rw [View.read_apply]
  show (V c main_v1 : S25088x256.Idx → EReal) _ = (V c main_v1 : S25088x256.Idx → EReal) _
  refine congrArg (V c main_v1 : S25088x256.Idx → EReal) (funext fun a => Fin.ext ?_)
  match a with
  | ⟨0, _⟩ => show win3_5.index t (0 : Fin 2) * 3136 + 1 * p.val = n.val * 3136 + p.val; rw [e0, hn]; omega
  | ⟨1, _⟩ => show win3_5.index t (1 : Fin 2) * 256 + 1 * q.val = q.val; omega

/-- The image, and the row inside its image, of an index of the matrix of all pixels. -/
def imgOf (i : S25088x256.Idx) : Fin 8 := ⟨(i 0).val / 3136, by have h : (i 0).val < 25088 := (i 0).isLt; omega⟩
def rowOf (i : S25088x256.Idx) : Fin 3136 := ⟨(i 0).val % 3136, Nat.mod_lt _ (by decide)⟩

/-- What the output array holds after the region, as ONE function of the arrays the region finds: at a row of the
    matrix of all pixels, the rectified normalised product for that row's image plus the residual. -/
def outAll (c : Dev nD) : S25088x256.Idx → EReal := fun i =>
  res (mm (cur3 (V c main_v15_0 : S8x3136x64.Idx → EReal) (imgOf i)) (cur2 (V c main_arg3 : S64x256.Idx → EReal)))
    (scOf (cur2 (V c main_arg8 : S1x256.Idx → EReal)) (cur3 (V c main_v15_1 : S8x2x256.Idx → EReal)))
    (shOf (cur2 (V c main_arg9 : S1x256.Idx → EReal)) (cur2 (V c main_arg8 : S1x256.Idx → EReal)) (cur3 (V c main_v15_1 : S8x2x256.Idx → EReal)))
    (img (cur2 (V c main_v1 : S25088x256.Idx → EReal)) (imgOf i)) (rowOf i) (i 1)

/-- That function at an index whose first coordinate is row r of image n and whose second is q. -/
theorem outAll_at (c : Dev nD) (i : S25088x256.Idx) (n : Fin 8) (r : Fin 3136) (q : Fin 256)
    (h0 : (i 0).val = n.val * 3136 + r.val) (h1 : (i 1).val = q.val) :
    outAll V c i
      = res (mm (cur3 (V c main_v15_0 : S8x3136x64.Idx → EReal) n) (cur2 (V c main_arg3 : S64x256.Idx → EReal)))
          (scOf (cur2 (V c main_arg8 : S1x256.Idx → EReal)) (cur3 (V c main_v15_1 : S8x2x256.Idx → EReal)))
          (shOf (cur2 (V c main_arg9 : S1x256.Idx → EReal)) (cur2 (V c main_arg8 : S1x256.Idx → EReal)) (cur3 (V c main_v15_1 : S8x2x256.Idx → EReal)))
          (img (cur2 (V c main_v1 : S25088x256.Idx → EReal)) n) r q := by
  have hn : imgOf i = n := Fin.ext (by show (i 0).val / 3136 = n.val; have := r.isLt; omega)
  have hr : rowOf i = r := Fin.ext (by show (i 0).val % 3136 = r.val; have := r.isLt; omega)
  have hq : (i 1 : Fin 256) = q := Fin.ext h1
  unfold outAll
  rw [hn, hr, hq]

/-- WHAT POINT t WRITES BACK is block t of that function. -/
theorem flushed_eq (c : Dev nD) (t : Fin cfg3.N) :
    (Gen.dat3 V c).flushed 6 t = ((cfg3.win 6).blk t).view.read (Elt Ideal) (outAll V c) := by
  have hN : cfg3.N = 8 := Gen.N_3
  obtain ⟨-, -, -, -, -, -, -, -, -, -, -, -, -, -, e0, e1⟩ := idx_facts t
  show (cfg3.win 6).cut (grid3.coords t) ((Gen.dat3 V c).after 6 t) = _
  rw [Gen.after3_6]
  unfold Gen.out3_6
  rw [View.canon_unit_zero zeros2]
  simp only [View.ld_unit_zero (S := S8x2x256) zeros3, View.ld_unit_zero (S := S1x256) zeros2,
    View.ld_unit_zero (S := S1x3136x64) zeros3, View.ld_unit_zero (S := S64x256) zeros2,
    View.ld_unit_zero (S := S3136x256) zeros2]
  funext j
  show Gen.k3_pay1 (Gen.iblk3 V c 1 t) (Gen.iblk3 V c 2 t) (Gen.iblk3 V c 3 t) (Gen.iblk3 V c 0 t) (Gen.iblk3 V c 4 t)
      (Gen.iblk3 V c 5 t) j = outAll V c (((cfg3.win 6).blk t).view.emb j)
  have hj0 : (j 0).val < 3136 := (j 0).isLt
  have hj1 : (j 1).val < 256 := (j 1).isLt
  have ht : t.val < 8 := hN ▸ t.isLt
  refine (pay_idx (Gen.iblk3 V c 0 t) (Gen.iblk3 V c 1 t) (Gen.iblk3 V c 2 t) (Gen.iblk3 V c 3 t) (Gen.iblk3 V c 4 t)
    (Gen.iblk3 V c 5 t) j).trans ?_
  have hact : (fun p k => (Gen.iblk3 V c 0 t : Vec Ideal S1x3136x64 .bf16) (ix3 (0 : Fin 1) p k))
      = cur3 (V c main_v15_0 : S8x3136x64.Idx → EReal) ⟨t.val, ht⟩ :=
    funext fun p => funext fun k => blk_act V c t ⟨t.val, ht⟩ rfl p k
  have hres : cur2 (Gen.iblk3 V c 5 t : Vec Ideal S3136x256 .f32)
      = img (cur2 (V c main_v1 : S25088x256.Idx → EReal)) ⟨t.val, ht⟩ :=
    funext fun p => funext fun q => blk_res V c t ⟨t.val, ht⟩ rfl p q
  rw [hact, hres, blk_stats V c t, blk_gain V c t, blk_bias V c t, blk_w V c t]
  refine (outAll_at V c _ ⟨t.val, ht⟩ (j 0) (j 1) ?_ ?_).symm
  · show win3_6.index t (0 : Fin 2) * 3136 + 1 * (j 0).val = t.val * 3136 + (j 0).val; rw [e0]; omega
  · show win3_6.index t (1 : Fin 2) * 256 + 1 * (j 1).val = (j 1).val; omega

/-- An index of the array is in point t's block iff each coordinate is in the block's range on its axis. -/
theorem mem_blk (t : Fin cfg3.N) (i : S25088x256.Idx) :
    i ∈ ((cfg3.win 6).blk t).view.set ↔ ∀ a : Fin 2, win3_6.index t a * S3136x256.size a ≤ (i a).val
      ∧ (i a).val < win3_6.index t a * S3136x256.size a + S3136x256.size a := by
  show i ∈ ((View.whole main_v16).slice (win3_6.rect t)).set ↔ _
  rw [View.set_slice_whole, Rect.mem_set_unit]
  exact Iff.rfl

/-- The eight blocks fill the array: the row of image n lies in point n's block. -/
theorem cover (i : S25088x256.Idx) :
    ∃ t : Fin cfg3.N, (cfg3.win 6).flush t = true ∧ i ∈ ((cfg3.win 6).blk t).view.set := by
  have hN : cfg3.N = 8 := Gen.N_3
  have hi0 : (i 0).val < 25088 := (i 0).isLt
  have hi1 : (i 1).val < 256 := (i 1).isLt
  have ht : (i 0).val / 3136 < cfg3.N := by rw [hN]; omega
  obtain ⟨-, -, -, -, -, -, -, -, -, -, -, -, -, -, e0, e1⟩ := idx_facts ⟨(i 0).val / 3136, ht⟩
  refine ⟨⟨(i 0).val / 3136, ht⟩, Gen.flush3_6 _, ?_⟩
  rw [mem_blk]
  intro a
  match a with
  | ⟨0, _⟩ =>
    show win3_6.index ⟨(i 0).val / 3136, ht⟩ (0 : Fin 2) * 3136 ≤ (i 0).val
      ∧ (i 0).val < win3_6.index ⟨(i 0).val / 3136, ht⟩ (0 : Fin 2) * 3136 + 3136
    rw [e0]; show (i 0).val / 3136 * 3136 ≤ (i 0).val ∧ (i 0).val < (i 0).val / 3136 * 3136 + 3136; omega
  | ⟨1, _⟩ =>
    show win3_6.index ⟨(i 0).val / 3136, ht⟩ (1 : Fin 2) * 256 ≤ (i 1).val
      ∧ (i 1).val < win3_6.index ⟨(i 0).val / 3136, ht⟩ (1 : Fin 2) * 256 + 256
    rw [e1]; omega

/-- THE ARRAY after the region is that function. -/
theorem final (c : Dev nD) : (Gen.dat3 V c).arrAt 6 cfg3.N = outAll V c :=
  (Gen.dat3 V c).arrAt_eq_of_cover 6 (outAll V c) (fun t _ => flushed_eq V c t) cover

end Region3

/-- Region 3 (one image per grid point): the last 1x1 product recomputed from the stored activation, normalised,
    the residual added, rectified. -/
theorem out_eq (c : Dev nD) (n : Fin 8) (r : Fin 3136) (q : Fin 256) :
    ((Gen.dat3 V c).arrAt 6 cfg3.N : S25088x256.Idx → EReal) (ix2 (row n r) q)
      = res (mm (cur3 (V c main_v15_0 : S8x3136x64.Idx → EReal) n) (cur2 (V c main_arg3 : S64x256.Idx → EReal)))
          (scOf (cur2 (V c main_arg8 : S1x256.Idx → EReal)) (cur3 (V c main_v15_1 : S8x2x256.Idx → EReal)))
          (shOf (cur2 (V c main_arg9 : S1x256.Idx → EReal)) (cur2 (V c main_arg8 : S1x256.Idx → EReal)) (cur3 (V c main_v15_1 : S8x2x256.Idx → EReal)))
          (img (cur2 (V c main_v1 : S25088x256.Idx → EReal)) n) r q := by
  rw [Region3.final V c]
  exact Region3.outAll_at V c _ n r q rfl rfl

end Cert.KernelIdeal.Val
end
-- ==== Proof.KMask.lean ====
import proofs.«118062_g2000700299631556_pallasbulk_725_21_alg».proof.Proof.Gen.KernelIdeal.Frame
import proofs.«118062_g2000700299631556_pallasbulk_725_21_alg».proof.Proof.Spec
import Idealize.ShloMosaic.Lib.Pipeline.Value
import Idealize.ShloMosaic.Lib.Affine

noncomputable section
namespace Cert.KernelIdeal.Val
open Idealize.ShloMosaic Idealize.ShloMosaic.TcCoe Idealize.SL.Sem Idealize.ShloMosaic.ValueIdx
open Cert.KernelIdeal Cert.Bneck
open scoped BigOperators

variable (m : (ℓ : Loc nD τ sig) → Buf (Elt Ideal) ℓ) (ρ : Dev nD → PrngReg)

namespace Mask

/-! ## The arithmetic on one pixel number

The host's remainder function on a word x with the divisor 56: the divisor made nonzero (it is 56), the truncating
remainder R, and R corrected by the divisor when R is nonzero and of the other sign than the divisor. -/

/-- The sign-corrected remainder by 56 of one 32-bit word, operation by operation. -/
def remWord (x : BitVec 32) : BitVec 32 :=
  Scalar.select
    (IntOp.andi
      (IntOp.cmpi .ne (IntOp.cmpi .slt (IntOp.remsi .host x (Scalar.select (IntOp.cmpi .eq 56#32 0#32) 1#32 56#32)) 0#32)
        (IntOp.cmpi .slt (Scalar.select (IntOp.cmpi .eq 56#32 0#32) 1#32 56#32) 0#32))
      (IntOp.cmpi .ne (IntOp.remsi .host x (Scalar.select (IntOp.cmpi .eq 56#32 0#32) 1#32 56#32)) 0#32))
    (IntOp.addi (IntOp.remsi .host x (Scalar.select (IntOp.cmpi .eq 56#32 0#32) 1#32 56#32))
      (Scalar.select (IntOp.cmpi .eq 56#32 0#32) 1#32 56#32))
    (IntOp.remsi .host x (Scalar.select (IntOp.cmpi .eq 56#32 0#32) 1#32 56#32))

/-- A small natural number as a word reads back the same, unsigned and signed. -/
theorem toNat_small (s : Nat) (hs : s < 3136) : (BitVec.ofNat 32 s).toNat = s := by
  rw [BitVec.toNat_ofNat]; omega
theorem toInt_small (s : Nat) (hs : s < 3136) : (BitVec.ofNat 32 s).toInt = (s : Int) := by
  rw [BitVec.toInt_eq_toNat_of_lt (by rw [toNat_small s hs]; omega), toNat_small s hs]

/-- On a pixel number the remainder word is the pixel number modulo 56: the truncating remainder of a nonnegative word
    by a positive one is the natural-number remainder, it is not negative, and so it is not corrected. -/
theorem remWord_eq (r : Nat) (hr : r < 3136) : remWord (BitVec.ofNat 32 r) = BitVec.ofNat 32 (r % 56) := by
  have hD : (Scalar.select (IntOp.cmpi .eq 56#32 0#32) 1#32 56#32 : BitVec 32) = 56#32 := by decide
  have hlt : r % 56 < 3136 := by omega
  have hR : IntOp.remsi .host (BitVec.ofNat 32 r) 56#32 = BitVec.ofNat 32 (r % 56) := by
    apply BitVec.eq_of_toNat_eq
    have h := IntOp.toNat_remsi .host (x := BitVec.ofNat 32 r) (by rw [toNat_small r hr]; omega) 56 (by omega) (by omega)
    rw [toNat_small r hr] at h
    rw [toNat_small _ hlt]; exact h
  have h1 : IntOp.cmpi .slt (BitVec.ofNat 32 (r % 56)) 0#32 = 0#1 := by
    apply eq_zero_of_ne_one
    rw [IntOp.cmpi_slt, toInt_small _ hlt, show (0#32 : BitVec 32).toInt = 0 from by decide]
    omega
  have h2 : IntOp.cmpi .slt (56#32 : BitVec 32) 0#32 = 0#1 := by decide
  have h3 : ∀ b : BitVec 1, IntOp.andi (IntOp.cmpi .ne (0#1 : BitVec 1) 0#1) b = 0#1 := by decide
  unfold remWord
  rw [hD, hR, h1, h2, h3, select_zero]

/-- The two comparisons of the mask on a remainder below 56. -/
theorem sgt_zero (s : Nat) (hs : s < 56) : IntOp.cmpi .sgt (BitVec.ofNat 32 s) 0#32 = if s = 0 then 0#1 else 1#1 := by
  have hlt : s < 3136 := by omega
  split
  · next h => subst h; decide
  · next h =>
    rw [IntOp.cmpi_sgt, toInt_small _ hlt, show (0#32 : BitVec 32).toInt = 0 from by decide]
    omega
theorem slt_55 (s : Nat) (hs : s < 56) : IntOp.cmpi .slt (BitVec.ofNat 32 s) 55#32 = if s = 55 then 0#1 else 1#1 := by
  have hlt : s < 3136 := by omega
  split
  · next h => subst h; decide
  · next h =>
    rw [IntOp.cmpi_slt, toInt_small _ hlt, show (55#32 : BitVec 32).toInt = 55 from by decide]
    omega

/-- A truth value converted to a float is 0 or 1. -/
theorem uitofp_bit (P : Prop) [Decidable P] :
    (FloatOps.uitofp (F := Ideal) .f32 (if P then (0#1 : BitVec 1) else 1#1) : EReal) = if P then 0 else 1 := by
  split
  · show (((0#1 : BitVec 1).toNat : ℝ) : EReal) = 0
    simp
  · show (((1#1 : BitVec 1).toNat : ℝ) : EReal) = 1
    simp

/-! ## The mask's term read at an index -/

/-- The two truth columns joined along the second axis and converted, at row r and column j: column 0 is the first
    comparison of the remainder buffer at pixel r, column 1 the second. -/
theorem mask_at (V4 : S3136.Idx → BitVec 32) (r : Fin 3136) (j : Fin 2) :
    (uitofp (F := Ideal) .f32 (concatenate S3136x2 1
        [⟨S3136x1, broadcastInDim S3136x1 ![0] Gen.bcast_S3136_S3136x1_0
            (cmpi .sgt V4 (broadcastInDim S3136 ![] Gen.bcast_S_S3136 (constantI S_ 32 0#32)))⟩,
         ⟨S3136x1, broadcastInDim S3136x1 ![0] Gen.bcast_S3136_S3136x1_0
            (cmpi .slt V4 (broadcastInDim S3136 ![] Gen.bcast_S_S3136 (constantI S_ 32 55#32)))⟩]
        Gen.concatenates_S3136x1_S3136x1_S3136x2_d1) : S3136x2.Idx → EReal) (ix2 r j)
      = if j.val = 0 then (FloatOps.uitofp (F := Ideal) .f32 (IntOp.cmpi .sgt (V4 (ix1 r)) 0#32) : EReal)
        else (FloatOps.uitofp (F := Ideal) .f32 (IntOp.cmpi .slt (V4 (ix1 r)) 55#32) : EReal) := by
  match j with
  | ⟨0, _⟩ =>
    rw [if_pos rfl]
    refine congrArg (FloatOps.uitofp (F := Ideal) .f32) ?_
    refine (concatenate_pair_apply_left (t := S3136x2) (s₁ := S3136x1) (s₂ := S3136x1) _ _ _ _ (ix2 r (0 : Fin 2)) rfl (ix2 r (0 : Fin 1)) ?_).trans ?_
    · intro b; match b with | ⟨0, _⟩ => rfl | ⟨1, _⟩ => rfl
    · refine (broadcastInDim_apply _ _ _ _ (ix1 r) ?_).trans rfl
      intro a; match a with | ⟨0, _⟩ => rfl
  | ⟨1, _⟩ =>
    rw [if_neg (Nat.succ_ne_zero 0)]
    refine congrArg (FloatOps.uitofp (F := Ideal) .f32) ?_
    refine (concatenate_pair_apply_right (t := S3136x2) (s₁ := S3136x1) (s₂ := S3136x1) _ _ _ _ (ix2 r (1 : Fin 2)) rfl rfl (ix2 r (0 : Fin 1)) ?_ ?_).trans ?_
    · intro b hb; match b, hb with | ⟨0, _⟩, _ => rfl | ⟨1, _⟩, hb => exact absurd rfl hb
    · rfl
    · refine (broadcastInDim_apply _ _ _ _ (ix1 r) ?_).trans rfl
      intro a; match a with | ⟨0, _⟩ => rfl

/-! ## The host operations, stretch by stretch, from arbitrary contents

Each stretch of host operations is read at the one buffer needed, as the operations' functions applied to the
contents before the stretch. -/

/-- The first stretch leaves the pixel numbers and the divisor 56. -/
theorem st0a (X : Valuation τ sig (Elt Ideal)) :
    (StableHlo.after Gen.hostOps0 X (Proc.devRef .tc main_v3) : S3136.Idx → BitVec 32) = iotaInDim S3136 32 0 := by
  simp only [Gen.hostOps0]
  after_results
theorem st0b (X : Valuation τ sig (Elt Ideal)) :
    (StableHlo.after Gen.hostOps0 X (Proc.devRef .tc main_c) : S_.Idx → BitVec 32) = constantI S_ 32 56#32 := by
  simp only [Gen.hostOps0]
  after_results

set_option maxHeartbeats 1000000 in
/-- The remainder function's stretch at its result buffer: the truncating remainder by the divisor made nonzero,
    corrected by the divisor where it is nonzero and of the other sign. -/
theorem st1 (X : Valuation τ sig (Elt Ideal)) :
    (StableHlo.after Gen.hostOps0_1 X (Proc.devRef .tc main_v4) : S3136.Idx → BitVec 32)
      = select (andi (cmpi .ne (cmpi .slt (Host.remsi (X (Proc.devRef .tc main_v3) : S3136.Idx → BitVec 32) (broadcastInDim S3136 ![] Gen.bcast_S_S3136 (select (cmpi .eq (X (Proc.devRef .tc main_c) : S_.Idx → BitVec 32) (constantI S_ 32 0#32)) (constantI S_ 32 1#32) (X (Proc.devRef .tc main_c) : S_.Idx → BitVec 32) : S_.Idx → BitVec 32)) : S3136.Idx → BitVec 32) (broadcastInDim S3136 ![] Gen.bcast_S_S3136 (constantI S_ 32 0#32)))
                            (broadcastInDim S3136 ![] Gen.bcast_S_S3136 (cmpi .slt (select (cmpi .eq (X (Proc.devRef .tc main_c) : S_.Idx → BitVec 32) (constantI S_ 32 0#32)) (constantI S_ 32 1#32) (X (Proc.devRef .tc main_c) : S_.Idx → BitVec 32) : S_.Idx → BitVec 32) (constantI S_ 32 0#32))))
                  (cmpi .ne (Host.remsi (X (Proc.devRef .tc main_v3) : S3136.Idx → BitVec 32) (broadcastInDim S3136 ![] Gen.bcast_S_S3136 (select (cmpi .eq (X (Proc.devRef .tc main_c) : S_.Idx → BitVec 32) (constantI S_ 32 0#32)) (constantI S_ 32 1#32) (X (Proc.devRef .tc main_c) : S_.Idx → BitVec 32) : S_.Idx → BitVec 32)) : S3136.Idx → BitVec 32) (broadcastInDim S3136 ![] Gen.bcast_S_S3136 (constantI S_ 32 0#32))))
            (addi (Host.remsi (X (Proc.devRef .tc main_v3) : S3136.Idx → BitVec 32) (broadcastInDim S3136 ![] Gen.bcast_S_S3136 (select (cmpi .eq (X (Proc.devRef .tc main_c) : S_.Idx → BitVec 32) (constantI S_ 32 0#32)) (constantI S_ 32 1#32) (X (Proc.devRef .tc main_c) : S_.Idx → BitVec 32) : S_.Idx → BitVec 32)) : S3136.Idx → BitVec 32) (broadcastInDim S3136 ![] Gen.bcast_S_S3136 (select (cmpi .eq (X (Proc.devRef .tc main_c) : S_.Idx → BitVec 32) (constantI S_ 32 0#32)) (constantI S_ 32 1#32) (X (Proc.devRef .tc main_c) : S_.Idx → BitVec 32) : S_.Idx → BitVec 32))) (Host.remsi (X (Proc.devRef .tc main_v3) : S3136.Idx → BitVec 32) (broadcastInDim S3136 ![] Gen.bcast_S_S3136 (select (cmpi .eq (X (Proc.devRef .tc main_c) : S_.Idx → BitVec 32) (constantI S_ 32 0#32)) (constantI S_ 32 1#32) (X (Proc.devRef .tc main_c) : S_.Idx → BitVec 32) : S_.Idx → BitVec 32)) : S3136.Idx → BitVec 32) := by
  simp only [StableHlo.after_cons, StableHlo.after_nil]
  rfl

/-- The last stretch at the mask's buffer: the two comparisons of the remainder buffer, each broadcast to a column, the
    columns joined and converted. -/
theorem st2 (X : Valuation τ sig (Elt Ideal)) :
    (StableHlo.after Gen.hostOps0_2 X (Proc.devRef .tc main_v12) : S3136x2.Idx → EReal)
      = uitofp (F := Ideal) .f32 (concatenate S3136x2 1
          [⟨S3136x1, broadcastInDim S3136x1 ![0] Gen.bcast_S3136_S3136x1_0
              (cmpi .sgt (X (Proc.devRef .tc main_v4) : S3136.Idx → BitVec 32) (broadcastInDim S3136 ![] Gen.bcast_S_S3136 (constantI S_ 32 0#32)))⟩,
           ⟨S3136x1, broadcastInDim S3136x1 ![0] Gen.bcast_S3136_S3136x1_0
              (cmpi .slt (X (Proc.devRef .tc main_v4) : S3136.Idx → BitVec 32) (broadcastInDim S3136 ![] Gen.bcast_S_S3136 (constantI S_ 32 55#32)))⟩]
          Gen.concatenates_S3136x1_S3136x1_S3136x2_d1) := by
  simp only [Gen.hostOps0_2]
  after_results

/-- The remainder buffer at pixel r, after the first two stretches, is the remainder word of the pixel number. -/
theorem rem_at (X : Valuation τ sig (Elt Ideal)) (r : Fin 3136) :
    (StableHlo.after Gen.hostOps0_1 (StableHlo.after Gen.hostOps0 X) (Proc.devRef .tc main_v4) : S3136.Idx → BitVec 32) (ix1 r)
      = remWord (BitVec.ofNat 32 r.val) := by
  rw [st1, st0a, st0b]
  rfl

end Mask

/-- The edge mask the host builds before the first region (pixel number modulo 56 by the host's remainder function,
    compared with 0 and with 55, the two truth columns joined and converted to floats) is Spec's edge mask. -/
theorem cm_eq (c : Dev nD) (r : Fin 3136) (j : Fin 2) :
    (Gen.V3 m ρ c main_v12 : S3136x2.Idx → EReal) (ix2 r j) = edge r j := by
  show (StableHlo.after Gen.hostOps0_2 (StableHlo.after Gen.hostOps0_1 (StableHlo.after Gen.hostOps0 (Gen.W0 m ρ c)))
    (Proc.devRef .tc main_v12) : S3136x2.Idx → EReal) (ix2 r j) = _
  have hs : r.val % 56 < 56 := Nat.mod_lt _ (by decide)
  rw [Mask.st2, Mask.mask_at, Mask.rem_at, Mask.remWord_eq r.val r.isLt, Mask.sgt_zero _ hs, Mask.slt_55 _ hs,
    Mask.uitofp_bit, Mask.uitofp_bit]
  rfl

end Cert.KernelIdeal.Val
end
-- ==== Proof.Pipe.lean ====
/-
  The block as ONE function of its argument arrays, over the matrix of all 25088 pixel rows: each normalisation takes
  its column totals over all rows, and the 3x3 convolution is taken image by image with the taps moved and then masked.
  Both programs are shown to compute this function.
-/
import proofs.«118062_g2000700299631556_pallasbulk_725_21_alg».proof.Proof.Spec

noncomputable section
namespace Cert.Bneck
open Idealize.ShloMosaic Idealize.ShloMosaic.ValueIdx
open scoped BigOperators

/-- The image and the pixel of a row of the matrix of all pixels; the tile and the row within the tile. -/
def imgOf (m : Fin 25088) : Fin 8 := ⟨m.val / 3136, by have := m.isLt; omega⟩
def pixOf (m : Fin 25088) : Fin 3136 := ⟨m.val % 3136, Nat.mod_lt _ (by decide)⟩
def tileOf (m : Fin 25088) : Fin 98 := ⟨m.val / 256, by have := m.isLt; omega⟩
def offOf (m : Fin 25088) : Fin 256 := ⟨m.val % 256, Nat.mod_lt _ (by decide)⟩

theorem row_imgOf_pixOf (m : Fin 25088) : row (imgOf m) (pixOf m) = m := by
  apply Fin.ext; show m.val / 3136 * 3136 + m.val % 3136 = m.val; omega
theorem trow_tileOf_offOf (m : Fin 25088) : trow (tileOf m) (offOf m) = m := by
  apply Fin.ext; show m.val / 256 * 256 + m.val % 256 = m.val; omega
theorem imgOf_row (n : Fin 8) (r : Fin 3136) : imgOf (row n r) = n := by
  apply Fin.ext; show (n.val * 3136 + r.val) / 3136 = n.val; have := r.isLt; omega
theorem pixOf_row (n : Fin 8) (r : Fin 3136) : pixOf (row n r) = r := by
  apply Fin.ext; show (n.val * 3136 + r.val) % 3136 = r.val; have := r.isLt; omega

/-- A matrix given by its entries, as an array over the two-axis index. -/
def unc2 {a b : ℕ} (f : Fin a → Fin b → EReal) : (⟨2, ![a, b]⟩ : Shape).Idx → EReal := fun i => f (i 0) (i 1)
theorem unc2_ix2 {a b : ℕ} (f : Fin a → Fin b → EReal) (p : Fin a) (q : Fin b) : unc2 f (ix2 p q) = f p q := rfl

/-- A normalisation's scale and shift from the column totals over ALL rows. -/
def bnSc {C : ℕ} (G : Fin 1 → Fin C → EReal) (Y : Fin 25088 → Fin C → EReal) (q : Fin C) : EReal :=
  scaleOf (G 0 q) (tot Y q) (totSq Y q)
def bnSh {C : ℕ} (B G : Fin 1 → Fin C → EReal) (Y : Fin 25088 → Fin C → EReal) (q : Fin C) : EReal :=
  shiftOf (B 0 q) (G 0 q) (tot Y q) (totSq Y q)

section
variable (X : Fin 25088 → Fin 256 → EReal) (W1 : Fin 256 → Fin 64 → EReal) (W2 : Fin 576 → Fin 64 → EReal)
  (W3 : Fin 64 → Fin 256 → EReal) (G1 B1 G2 B2 : Fin 1 → Fin 64 → EReal) (G3 B3 : Fin 1 → Fin 256 → EReal)

def y1 : Fin 25088 → Fin 64 → EReal := mm X W1
def a1 : Fin 25088 → Fin 64 → EReal := act (y1 X W1) (bnSc G1 (y1 X W1)) (bnSh B1 G1 (y1 X W1))
/-- The 3x3 convolution of image n. -/
def y2img (n : Fin 8) : Fin 3136 → Fin 64 → EReal := conv (slabMoveMask (img (a1 X W1 G1 B1) n) edge) W2
def y2 : Fin 25088 → Fin 64 → EReal := fun m q => y2img X W1 W2 G1 B1 (imgOf m) (pixOf m) q
def a2 : Fin 25088 → Fin 64 → EReal :=
  act (y2 X W1 W2 G1 B1) (bnSc G2 (y2 X W1 W2 G1 B1)) (bnSh B2 G2 (y2 X W1 W2 G1 B1))
def y3 : Fin 25088 → Fin 256 → EReal := mm (a2 X W1 W2 G1 B1 G2 B2) W3
def out : Fin 25088 → Fin 256 → EReal :=
  res (y3 X W1 W2 W3 G1 B1 G2 B2) (bnSc G3 (y3 X W1 W2 W3 G1 B1 G2 B2)) (bnSh B3 G3 (y3 X W1 W2 W3 G1 B1 G2 B2)) X

theorem y2_row (n : Fin 8) (r : Fin 3136) (q : Fin 64) :
    y2 X W1 W2 G1 B1 (row n r) q = y2img X W1 W2 G1 B1 n r q := by
  unfold y2; rw [imgOf_row, pixOf_row]
end

end Cert.Bneck
end
-- ==== Proof.LibSumBlocks.lean ====
/-
  A sum over consecutive blocks is the sum over the whole range.

  For a function f on the natural numbers with values in an additive commutative monoid, adding up, block by
  block, the n values f (n * kb), ..., f (n * kb + n - 1) of each of the B blocks kb = 0, ..., B - 1 gives the
  sum of f over all of 0, ..., B * n - 1.
-/
import Mathlib.Algebra.BigOperators.Fin

namespace Cert.Hamming

/-- The sum over `B` consecutive blocks of length `n` (block `kb` holding the arguments `n * kb + j`, `j < n`)
is the sum over the whole range `0, ..., B * n - 1`. -/
theorem sum_blocks {M : Type*} [AddCommMonoid M] (B n : ℕ) (f : ℕ → M) :
    ∑ kb ∈ Finset.range B, ∑ j : Fin n, f (n * kb + j.val) = ∑ d : Fin (B * n), f d.val := by
  rw [Fin.sum_univ_eq_sum_range (fun d => f d) (B * n)]
  induction B with
  | zero => simp
  | succ B ih =>
    rw [Finset.sum_range_succ, ih, Nat.succ_mul, Finset.sum_range_add,
      Fin.sum_univ_eq_sum_range (fun j => f (n * B + j)) n, Nat.mul_comm n B]

/-- Ten blocks of length 1024 make up the range `0, ..., 10239`. -/
theorem sum_blocks_10_1024 {M : Type*} [AddCommMonoid M] (f : ℕ → M) :
    ∑ kb ∈ Finset.range 10, ∑ j : Fin 1024, f (1024 * kb + j.val) = ∑ d : Fin 10240, f d.val :=
  sum_blocks 10 1024 f

end Cert.Hamming
-- ==== Proof.Bridge.lean ====
/-
  The two arrangements of the block agree.

  (1) Column totals (and column totals of squares) of a matrix over all 25088 pixel rows may be taken image by image
      (8 images of 3136 rows) or tile by tile (98 tiles of 256 rows): a finite sum in a commutative monoid regrouped.
  (2) With the edge mask of Spec (zero on the first pixel of an image row in column 0, on the last in column 1), a
      lateral tap of the 3x3 window masked at the SOURCE pixel and then moved equals the tap moved and then masked at
      the DESTINATION pixel: moving by a whole number of image rows does not change a pixel's place within its row,
      a product with the mask value 0 is 0 and with 1 is the factor itself, and the zero word denotes 0.
-/
import proofs.«118062_g2000700299631556_pallasbulk_725_21_alg».proof.Proof.Spec
import proofs.«118062_g2000700299631556_pallasbulk_725_21_alg».proof.Proof.LibSumBlocks

noncomputable section
namespace Cert.Bneck
open Idealize.ShloMosaic Idealize.ShloMosaic.ValueIdx
open scoped BigOperators

/-- A sum over a range of B * n indices may be taken block by block: the pair (b, j) names the index b * n + j. -/
theorem sum_blocks_fin {M : Type*} [AddCommMonoid M] (B n N : ℕ) (hN : B * n = N) (g : Fin N → M)
    (idx : Fin B → Fin n → Fin N) (hidx : ∀ b j, (idx b j).val = b.val * n + j.val) :
    ∑ b : Fin B, ∑ j : Fin n, g (idx b j) = ∑ d : Fin N, g d := by
  subst hN
  rw [← Fintype.sum_prod_type' (f := fun b j => g (idx b j)), ← finProdFinEquiv.sum_comp g]
  refine Fintype.sum_congr _ _ (fun x => ?_)
  congr 1
  apply Fin.ext
  rw [hidx]
  simp [finProdFinEquiv, Nat.mul_comm, Nat.add_comm]

theorem sum_img_tot {C : ℕ} (Y : Fin 25088 → Fin C → EReal) (q : Fin C) :
    ∑ n : Fin 8, tot (img Y n) q = tot Y q := by
  unfold tot img
  exact sum_blocks_fin 8 3136 25088 (by norm_num) (fun d => Y d q) row (fun _ _ => rfl)

theorem sum_img_totSq {C : ℕ} (Y : Fin 25088 → Fin C → EReal) (q : Fin C) :
    ∑ n : Fin 8, totSq (img Y n) q = totSq Y q := by
  unfold totSq img
  exact sum_blocks_fin 8 3136 25088 (by norm_num) (fun d => Y d q * Y d q) row (fun _ _ => rfl)

theorem sum_tile_tot {C : ℕ} (Y : Fin 25088 → Fin C → EReal) (q : Fin C) :
    ∑ i : Fin 98, tot (tile Y i) q = tot Y q := by
  unfold tot tile
  exact sum_blocks_fin 98 256 25088 (by norm_num) (fun d => Y d q) trow (fun _ _ => rfl)

theorem sum_tile_totSq {C : ℕ} (Y : Fin 25088 → Fin C → EReal) (q : Fin C) :
    ∑ i : Fin 98, totSq (tile Y i) q = totSq Y q := by
  unfold totSq tile
  exact sum_blocks_fin 98 256 25088 (by norm_num) (fun d => Y d q * Y d q) trow (fun _ _ => rfl)

/-- The zero word denotes 0. -/
theorem z0_eq : z0 = 0 := by
  simp [Ideal.ofBits, Ideal.ieee]

/-- The two columns of the edge mask read at a pixel. -/
theorem edge_zero (r : Fin 3136) : edge r 0 = if r.val % 56 = 0 then 0 else 1 := by
  simp [edge]
theorem edge_one (r : Fin 3136) : edge r 1 = if r.val % 56 = 55 then 0 else 1 := by
  simp [edge]

/-- Two rows with the same number are the same row. -/
theorem A_congr (A : Fin 3136 → Fin 64 → EReal) {a b : ℕ} (ha : a < 3136) (hb : b < 3136) (h : a = b)
    (c : Fin 64) : A ⟨a, ha⟩ c = A ⟨b, hb⟩ c := by
  subst h; rfl

theorem slab_eq (A : Fin 3136 → Fin 64 → EReal) (tap : ℕ) (htap : tap < 9) (r : Fin 3136) (c : Fin 64) :
    slabMaskMove A edge tap r c = slabMoveMask A edge tap r c := by
  -- Tap by tap. The three vertical taps are the same term on both sides. For a lateral tap, split on whether each
  -- move stays inside the image and on the two mask values. Where every move stays inside, both sides read the same
  -- source pixel s = r - 1 or r + 1 moved by a multiple of 56, and s is last (first) in its image row exactly when
  -- the destination r is first (last) in its own, so the two mask values agree. Elsewhere one side is the zero word
  -- and the other a product with the mask value 0, or the case is impossible by arithmetic modulo 56.
  have hr := r.isLt
  interval_cases tap
  all_goals first
    | rfl
    | (simp only [slabMaskMove, slabMoveMask, down, up, masked, edge_zero, edge_one, z0_eq]
       split_ifs
       all_goals first
         | omega
         | rfl
         | (simp only [mul_one, mul_zero, zero_mul]; done)
         | (simp only [mul_one, mul_zero, zero_mul]; exact A_congr A _ _ (by omega) c))

theorem conv_eq (A : Fin 3136 → Fin 64 → EReal) (W : Fin 576 → Fin 64 → EReal) (r : Fin 3136) (q : Fin 64) :
    conv (slabMaskMove A edge) W r q = conv (slabMoveMask A edge) W r q := by
  unfold conv patch
  refine Finset.sum_congr rfl (fun k _ => ?_)
  have hk : k.val / 64 < 9 := by have := k.isLt; omega
  rw [slab_eq A _ hk r _]

end Cert.Bneck
end
-- ==== Proof.Arrange.lean ====
/-
  How the pieces of the two arrangements sit inside the one function of Pipe: an image's (or a tile's) share of a
  matrix product, of a rectified affine map and of the last step is the image (the tile) of the whole matrix's; the
  partial column totals add up to the column totals over all rows, so the scale and shift rows computed from 8
  per-image partials or from 98 per-tile partials are those of the whole matrix.
-/
import proofs.«118062_g2000700299631556_pallasbulk_725_21_alg».proof.Proof.Pipe
import proofs.«118062_g2000700299631556_pallasbulk_725_21_alg».proof.Proof.Bridge

noncomputable section
namespace Cert.Bneck
open Idealize.ShloMosaic Idealize.ShloMosaic.ValueIdx
open scoped BigOperators

theorem act_img {C : ℕ} (Y : Fin 25088 → Fin C → EReal) (sc sh : Fin C → EReal) (n : Fin 8) :
    act (img Y n) sc sh = img (act Y sc sh) n := rfl
theorem mm_img {K C : ℕ} (A : Fin 25088 → Fin K → EReal) (W : Fin K → Fin C → EReal) (n : Fin 8) :
    mm (img A n) W = img (mm A W) n := rfl
theorem res_img {C : ℕ} (Y : Fin 25088 → Fin C → EReal) (sc sh : Fin C → EReal) (X : Fin 25088 → Fin C → EReal) (n : Fin 8) :
    res (img Y n) sc sh (img X n) = img (res Y sc sh X) n := rfl

theorem scOf_img {C : ℕ} (G : Fin 1 → Fin C → EReal) (ST : Fin 8 → Fin 2 → Fin C → EReal) (Y : Fin 25088 → Fin C → EReal)
    (h0 : ∀ n q, ST n 0 q = tot (img Y n) q) (h1 : ∀ n q, ST n 1 q = totSq (img Y n) q) : scOf G ST = bnSc G Y := by
  funext q
  unfold scOf bnSc
  simp only [h0, h1, sum_img_tot, sum_img_totSq]
theorem shOf_img {C : ℕ} (B G : Fin 1 → Fin C → EReal) (ST : Fin 8 → Fin 2 → Fin C → EReal) (Y : Fin 25088 → Fin C → EReal)
    (h0 : ∀ n q, ST n 0 q = tot (img Y n) q) (h1 : ∀ n q, ST n 1 q = totSq (img Y n) q) : shOf B G ST = bnSh B G Y := by
  funext q
  unfold shOf bnSh
  simp only [h0, h1, sum_img_tot, sum_img_totSq]
theorem scOf_tile {C : ℕ} (G : Fin 1 → Fin C → EReal) (ST : Fin 98 → Fin 2 → Fin C → EReal) (Y : Fin 25088 → Fin C → EReal)
    (h0 : ∀ i q, ST i 0 q = tot (tile Y i) q) (h1 : ∀ i q, ST i 1 q = totSq (tile Y i) q) : scOf G ST = bnSc G Y := by
  funext q
  unfold scOf bnSc
  simp only [h0, h1, sum_tile_tot, sum_tile_totSq]
theorem shOf_tile {C : ℕ} (B G : Fin 1 → Fin C → EReal) (ST : Fin 98 → Fin 2 → Fin C → EReal) (Y : Fin 25088 → Fin C → EReal)
    (h0 : ∀ i q, ST i 0 q = tot (tile Y i) q) (h1 : ∀ i q, ST i 1 q = totSq (tile Y i) q) : shOf B G ST = bnSh B G Y := by
  funext q
  unfold shOf bnSh
  simp only [h0, h1, sum_tile_tot, sum_tile_totSq]

/-- With the edge mask the two orders of masking and moving give one convolution. -/
theorem conv_edge (A : Fin 3136 → Fin 64 → EReal) (W : Fin 576 → Fin 64 → EReal) :
    conv (slabMaskMove A edge) W = conv (slabMoveMask A edge) W := by
  funext r q; exact conv_eq A W r q

section
variable (X : Fin 25088 → Fin 256 → EReal) (W1 : Fin 256 → Fin 64 → EReal) (W2 : Fin 576 → Fin 64 → EReal)
  (W3 : Fin 64 → Fin 256 → EReal) (G1 B1 G2 B2 : Fin 1 → Fin 64 → EReal) (G3 B3 : Fin 1 → Fin 256 → EReal)

theorem img_y2 (n : Fin 8) : img (y2 X W1 W2 G1 B1) n = y2img X W1 W2 G1 B1 n := by
  funext r q; exact y2_row X W1 W2 G1 B1 n r q
end

end Cert.Bneck
end
-- ==== Proof.KChain.lean ====
/-
  The first program region by region: what each region leaves, as the one function of Pipe read at a pixel row.
  Region 0 leaves the first product and its per-image totals; region 1 the 3x3 convolution of the rectified
  normalised product (its taps masked then moved, which with the edge mask is the taps moved then masked) and its
  per-image totals; region 2 the second rectified normalised activation and the per-image totals of its product with
  the last weights; region 3 the block's result. Per-image totals add up to the totals over all rows.
-/
import proofs.«118062_g2000700299631556_pallasbulk_725_21_alg».proof.Proof.Gen.KernelIdeal.Frame
import proofs.«118062_g2000700299631556_pallasbulk_725_21_alg».proof.Proof.KHost
import proofs.«118062_g2000700299631556_pallasbulk_725_21_alg».proof.Proof.K0
import proofs.«118062_g2000700299631556_pallasbulk_725_21_alg».proof.Proof.K1
import proofs.«118062_g2000700299631556_pallasbulk_725_21_alg».proof.Proof.K2
import proofs.«118062_g2000700299631556_pallasbulk_725_21_alg».proof.Proof.K3
import proofs.«118062_g2000700299631556_pallasbulk_725_21_alg».proof.Proof.KMask
import proofs.«118062_g2000700299631556_pallasbulk_725_21_alg».proof.Proof.Arrange
import Idealize.ShloMosaic.Lib.StableHlo.Run

set_option maxRecDepth 16384
noncomputable section
namespace Cert.KernelIdeal.Val
open Idealize.ShloMosaic Idealize.ShloMosaic.TcCoe Idealize.SL.Sem Idealize.ShloMosaic.ValueIdx
open Cert.KernelIdeal Cert.Bneck

variable (m : (ℓ : Loc nD τ sig) → Buf (Elt Ideal) ℓ) (ρ : Dev nD → PrngReg) (c : Dev nD)

/-- The argument arrays read through their coordinates. -/
abbrev aX : Fin 25088 → Fin 256 → EReal := cur2 (xArr m c)
abbrev aW1 : Fin 256 → Fin 64 → EReal := cur2 (m ((c : Thread nD τ).loc main_arg1) : S256x64.Idx → EReal)
abbrev aW2 : Fin 576 → Fin 64 → EReal := cur2 (w2Arr m c)
abbrev aW3 : Fin 64 → Fin 256 → EReal := cur2 (m ((c : Thread nD τ).loc main_arg3) : S64x256.Idx → EReal)
abbrev aG1 : Fin 1 → Fin 64 → EReal := cur2 (m ((c : Thread nD τ).loc main_arg4) : S1x64.Idx → EReal)
abbrev aB1 : Fin 1 → Fin 64 → EReal := cur2 (m ((c : Thread nD τ).loc main_arg5) : S1x64.Idx → EReal)
abbrev aG2 : Fin 1 → Fin 64 → EReal := cur2 (m ((c : Thread nD τ).loc main_arg6) : S1x64.Idx → EReal)
abbrev aB2 : Fin 1 → Fin 64 → EReal := cur2 (m ((c : Thread nD τ).loc main_arg7) : S1x64.Idx → EReal)
abbrev aG3 : Fin 1 → Fin 256 → EReal := cur2 (m ((c : Thread nD τ).loc main_arg8) : S1x256.Idx → EReal)
abbrev aB3 : Fin 1 → Fin 256 → EReal := cur2 (m ((c : Thread nD τ).loc main_arg9) : S1x256.Idx → EReal)

/-! ## Region 0 -/

theorem y1_at4 (n : Fin 8) (r : Fin 3136) (q : Fin 64) :
    (Gen.V4 m ρ c main_v13_0 : S8x3136x64.Idx → EReal) (ix3 n r q) = y1 (aX m c) (aW1 m c) (row n r) q := by
  have h := y1_eq (Gen.V3 m ρ) c n r q
  rw [x_at3, arg1_at3] at h
  have e : (Gen.V4 m ρ c main_v13_0 : S8x3136x64.Idx → EReal) = ((Gen.dat0 (Gen.V3 m ρ) c).arrAt 2 cfg0.N : S8x3136x64.Idx → EReal) :=
    Gen.W4_arr m ρ c 2
  rw [e]; exact h

theorem st1_at4 (n : Fin 8) (q : Fin 64) :
    cur3 (Gen.V4 m ρ c main_v13_1 : S8x2x64.Idx → EReal) n 0 q = tot (img (y1 (aX m c) (aW1 m c)) n) q
    ∧ cur3 (Gen.V4 m ρ c main_v13_1 : S8x2x64.Idx → EReal) n 1 q = totSq (img (y1 (aX m c) (aW1 m c)) n) q := by
  have h := st1_eq (Gen.V3 m ρ) c n q
  rw [x_at3, arg1_at3] at h
  have e : (Gen.V4 m ρ c main_v13_1 : S8x2x64.Idx → EReal) = ((Gen.dat0 (Gen.V3 m ρ) c).arrAt 3 cfg0.N : S8x2x64.Idx → EReal) :=
    Gen.W4_arr m ρ c 3
  rw [e]; exact h

/-! ## Region 1 -/

theorem a1_at4 (n : Fin 8) :
    Cert.KernelIdeal.Val.a1 (Gen.V4 m ρ) c n = img (Cert.Bneck.a1 (aX m c) (aW1 m c) (aG1 m c) (aB1 m c)) n := by
  have hy : cur3 (Gen.V4 m ρ c main_v13_0 : S8x3136x64.Idx → EReal) n = img (y1 (aX m c) (aW1 m c)) n := by
    funext r q; exact y1_at4 m ρ c n r q
  have hst0 : ∀ n q, cur3 (Gen.V4 m ρ c main_v13_1 : S8x2x64.Idx → EReal) n 0 q = tot (img (y1 (aX m c) (aW1 m c)) n) q :=
    fun n q => (st1_at4 m ρ c n q).1
  have hst1 : ∀ n q, cur3 (Gen.V4 m ρ c main_v13_1 : S8x2x64.Idx → EReal) n 1 q = totSq (img (y1 (aX m c) (aW1 m c)) n) q :=
    fun n q => (st1_at4 m ρ c n q).2
  show act (cur3 (Gen.V4 m ρ c main_v13_0 : S8x3136x64.Idx → EReal) n)
      (scOf (cur2 (Gen.V4 m ρ c main_arg4 : S1x64.Idx → EReal)) (cur3 (Gen.V4 m ρ c main_v13_1 : S8x2x64.Idx → EReal)))
      (shOf (cur2 (Gen.V4 m ρ c main_arg5 : S1x64.Idx → EReal)) (cur2 (Gen.V4 m ρ c main_arg4 : S1x64.Idx → EReal)) (cur3 (Gen.V4 m ρ c main_v13_1 : S8x2x64.Idx → EReal))) = _
  rw [hy, arg4_at4, arg4_at3, arg5_at4, arg5_at3, scOf_img _ _ _ hst0 hst1, shOf_img _ _ _ _ hst0 hst1]
  rfl

theorem cm_at4 : cur2 (Gen.V4 m ρ c main_v12 : S3136x2.Idx → EReal) = edge := by
  funext r j
  show (Gen.V4 m ρ c main_v12 : S3136x2.Idx → EReal) (ix2 r j) = _
  rw [v12_at4]; exact cm_eq m ρ c r j

theorem y2_at5 (n : Fin 8) (r : Fin 3136) (q : Fin 64) :
    (Gen.V5 m ρ c main_v14_0 : S8x3136x64.Idx → EReal) (ix3 n r q)
      = y2 (aX m c) (aW1 m c) (aW2 m c) (aG1 m c) (aB1 m c) (row n r) q := by
  have h := y2_eq (Gen.V4 m ρ) c n r q
  rw [a1_at4, cm_at4, v2_at4, w2_at3, conv_edge] at h
  have e : (Gen.V5 m ρ c main_v14_0 : S8x3136x64.Idx → EReal) = ((Gen.dat1 (Gen.V4 m ρ) c).arrAt 6 cfg1.N : S8x3136x64.Idx → EReal) :=
    Gen.W5_arr m ρ c 6
  rw [e, y2_row]; exact h

theorem st2_at5 (n : Fin 8) (q : Fin 64) :
    cur3 (Gen.V5 m ρ c main_v14_1 : S8x2x64.Idx → EReal) n 0 q = tot (img (y2 (aX m c) (aW1 m c) (aW2 m c) (aG1 m c) (aB1 m c)) n) q
    ∧ cur3 (Gen.V5 m ρ c main_v14_1 : S8x2x64.Idx → EReal) n 1 q = totSq (img (y2 (aX m c) (aW1 m c) (aW2 m c) (aG1 m c) (aB1 m c)) n) q := by
  have h := st2_eq (Gen.V4 m ρ) c n q
  rw [a1_at4, cm_at4, v2_at4, w2_at3, conv_edge] at h
  have e : (Gen.V5 m ρ c main_v14_1 : S8x2x64.Idx → EReal) = ((Gen.dat1 (Gen.V4 m ρ) c).arrAt 7 cfg1.N : S8x2x64.Idx → EReal) :=
    Gen.W5_arr m ρ c 7
  rw [e, img_y2]; exact h

/-! ## Region 2 -/

theorem a2_img_at5 (n : Fin 8) :
    Cert.KernelIdeal.Val.a2 (Gen.V5 m ρ) c n = img (Cert.Bneck.a2 (aX m c) (aW1 m c) (aW2 m c) (aG1 m c) (aB1 m c) (aG2 m c) (aB2 m c)) n := by
  have hy : cur3 (Gen.V5 m ρ c main_v14_0 : S8x3136x64.Idx → EReal) n = img (y2 (aX m c) (aW1 m c) (aW2 m c) (aG1 m c) (aB1 m c)) n := by
    funext r q; exact y2_at5 m ρ c n r q
  have hst0 : ∀ n q, cur3 (Gen.V5 m ρ c main_v14_1 : S8x2x64.Idx → EReal) n 0 q = tot (img (y2 (aX m c) (aW1 m c) (aW2 m c) (aG1 m c) (aB1 m c)) n) q :=
    fun n q => (st2_at5 m ρ c n q).1
  have hst1 : ∀ n q, cur3 (Gen.V5 m ρ c main_v14_1 : S8x2x64.Idx → EReal) n 1 q = totSq (img (y2 (aX m c) (aW1 m c) (aW2 m c) (aG1 m c) (aB1 m c)) n) q :=
    fun n q => (st2_at5 m ρ c n q).2
  show act (cur3 (Gen.V5 m ρ c main_v14_0 : S8x3136x64.Idx → EReal) n)
      (scOf (cur2 (Gen.V5 m ρ c main_arg6 : S1x64.Idx → EReal)) (cur3 (Gen.V5 m ρ c main_v14_1 : S8x2x64.Idx → EReal)))
      (shOf (cur2 (Gen.V5 m ρ c main_arg7 : S1x64.Idx → EReal)) (cur2 (Gen.V5 m ρ c main_arg6 : S1x64.Idx → EReal)) (cur3 (Gen.V5 m ρ c main_v14_1 : S8x2x64.Idx → EReal))) = _
  rw [hy, arg6_at5, arg6_at4, arg6_at3, arg7_at5, arg7_at4, arg7_at3, scOf_img _ _ _ hst0 hst1, shOf_img _ _ _ _ hst0 hst1]
  rfl

theorem a2_at6 (n : Fin 8) (r : Fin 3136) (q : Fin 64) :
    (Gen.V6 m ρ c main_v15_0 : S8x3136x64.Idx → EReal) (ix3 n r q) = Cert.Bneck.a2 (aX m c) (aW1 m c) (aW2 m c) (aG1 m c) (aB1 m c) (aG2 m c) (aB2 m c) (row n r) q := by
  have h := a2_eq (Gen.V5 m ρ) c n r q
  rw [a2_img_at5] at h
  have e : (Gen.V6 m ρ c main_v15_0 : S8x3136x64.Idx → EReal) = ((Gen.dat2 (Gen.V5 m ρ) c).arrAt 5 cfg2.N : S8x3136x64.Idx → EReal) :=
    Gen.W6_arr m ρ c 5
  rw [e]; exact h

theorem st3_at6 (n : Fin 8) (q : Fin 256) :
    cur3 (Gen.V6 m ρ c main_v15_1 : S8x2x256.Idx → EReal) n 0 q = tot (img (y3 (aX m c) (aW1 m c) (aW2 m c) (aW3 m c) (aG1 m c) (aB1 m c) (aG2 m c) (aB2 m c)) n) q
    ∧ cur3 (Gen.V6 m ρ c main_v15_1 : S8x2x256.Idx → EReal) n 1 q = totSq (img (y3 (aX m c) (aW1 m c) (aW2 m c) (aW3 m c) (aG1 m c) (aB1 m c) (aG2 m c) (aB2 m c)) n) q := by
  have h := st3_eq (Gen.V5 m ρ) c n q
  rw [a2_img_at5, arg3_at5, arg3_at4, arg3_at3, mm_img] at h
  have e : (Gen.V6 m ρ c main_v15_1 : S8x2x256.Idx → EReal) = ((Gen.dat2 (Gen.V5 m ρ) c).arrAt 6 cfg2.N : S8x2x256.Idx → EReal) :=
    Gen.W6_arr m ρ c 6
  rw [e]; exact h

/-! ## Region 3 and the result -/

theorem out_at7 (n : Fin 8) (r : Fin 3136) (q : Fin 256) :
    (Gen.W7 m ρ c (Proc.devRef .tc main_v16) : S25088x256.Idx → EReal) (ix2 (row n r) q) = out (aX m c) (aW1 m c) (aW2 m c) (aW3 m c) (aG1 m c) (aB1 m c) (aG2 m c) (aB2 m c) (aG3 m c) (aB3 m c) (row n r) q := by
  have h := out_eq (Gen.V6 m ρ) c n r q
  have hA : cur3 (Gen.V6 m ρ c main_v15_0 : S8x3136x64.Idx → EReal) n = img (Cert.Bneck.a2 (aX m c) (aW1 m c) (aW2 m c) (aG1 m c) (aB1 m c) (aG2 m c) (aB2 m c)) n := by
    funext r q; exact a2_at6 m ρ c n r q
  have hst0 : ∀ n q, cur3 (Gen.V6 m ρ c main_v15_1 : S8x2x256.Idx → EReal) n 0 q = tot (img (y3 (aX m c) (aW1 m c) (aW2 m c) (aW3 m c) (aG1 m c) (aB1 m c) (aG2 m c) (aB2 m c)) n) q :=
    fun n q => (st3_at6 m ρ c n q).1
  have hst1 : ∀ n q, cur3 (Gen.V6 m ρ c main_v15_1 : S8x2x256.Idx → EReal) n 1 q = totSq (img (y3 (aX m c) (aW1 m c) (aW2 m c) (aW3 m c) (aG1 m c) (aB1 m c) (aG2 m c) (aB2 m c)) n) q :=
    fun n q => (st3_at6 m ρ c n q).2
  rw [hA, arg3_at6, arg3_at5, arg3_at4, arg3_at3, arg8_at6, arg8_at5, arg8_at4, arg8_at3, arg9_at6, arg9_at5, arg9_at4, arg9_at3,
    x_at6, x_at5, x_at4, x_at3, scOf_img _ _ _ hst0 hst1, shOf_img _ _ _ _ hst0 hst1, mm_img, res_img] at h
  have e : (Gen.W7 m ρ c (Proc.devRef .tc main_v16) : S25088x256.Idx → EReal) = ((Gen.dat3 (Gen.V6 m ρ) c).arrAt 6 cfg3.N : S25088x256.Idx → EReal) :=
    Gen.W7_arr m ρ c 6
  rw [e]; exact h

/-- The last region's output array is the block's function of the argument arrays. -/
theorem v16_eq : (Gen.W7 m ρ c (Proc.devRef .tc main_v16) : S25088x256.Idx → EReal) = unc2 (out (aX m c) (aW1 m c) (aW2 m c) (aW3 m c) (aG1 m c) (aB1 m c) (aG2 m c) (aB2 m c) (aG3 m c) (aB3 m c)) := by
  funext i
  obtain ⟨p, q, rfl⟩ : ∃ (p : Fin 25088) (q : Fin 256), i = ix2 p q := ⟨i 0, i 1, eq_ix2 i⟩
  have h := out_at7 m ρ c (Cert.Bneck.imgOf p) (Cert.Bneck.pixOf p) q
  rw [Cert.Bneck.row_imgOf_pixOf] at h
  exact h

/-- The program's tail: the pixel matrix reshaped to images and transposed back to channels-first. -/
abbrev tail (A : S25088x256.Idx → EReal) : S8x256x56x56.Idx → EReal :=
  transpose S8x256x56x56 [0, 3, 1, 2] (shapeCast S8x56x56x256 A Gen.shapeCasts_S25088x256_S8x56x56x256) Gen.transposes_S8x56x56x256_S8x256x56x56_0_3_1_2

/-- The result array at the last boundary. -/
theorem result_eq : (Gen.W8 m ρ c (Proc.devRef .tc main_v18) : S8x256x56x56.Idx → EReal) = tail (unc2 (out (aX m c) (aW1 m c) (aW2 m c) (aW3 m c) (aG1 m c) (aB1 m c) (aG2 m c) (aB2 m c) (aG3 m c) (aB3 m c))) := by
  rw [← v16_eq m ρ c]
  show StableHlo.after Gen.hostOps4 (Gen.W7 m ρ c) (Proc.devRef .tc main_v18) = _
  simp only [Gen.hostOps4]
  after_results
  rfl

end Cert.KernelIdeal.Val
end
-- ==== Proof.LibFlatten.lean ====
/-
  Flattening the two leading axes of a three-axis array, and a row block repeated along a new middle axis, read at an
  index, for any element type and extents.

  * an `[a, b, c]` array viewed as `[n, c]` (`n = a * b`) has, in row `p * b + k`, the entries `(p, k, ·)`; and back;
  * an `[a, c]` array given a unit middle axis and repeated `b` times along it reads `(p, o)` at `(p, k, o)`;
  * a `[1, c]` row given a second unit axis and repeated over `[a, b, c]` reads `(0, o)` at `(p, k, o)`.
  Names no program.
-/
import Idealize.ShloMosaic.Lib.Pipeline.Value
import Idealize.ShloMosaic.Lib.ValueIdx
import Idealize.ShloMosaic.Lib.ValueLayout

namespace Cert.LibFlatten

open Idealize.ShloMosaic Idealize.ShloMosaic.ValueIdx

variable {α : Type}

/-- `[a, b, c]` viewed as `[n, c]`: row `r = p * b + k` holds the entries `(p, k, ·)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (k : Fin b) (d : Fin c) (r : Fin n)
    (hr : r.val = p.val * b + k.val) :
    shapeCast ⟨2, ![n, c]⟩ x h (ix2 r d) = x (ix3 p k d) :=
  shapeCast_apply x h _ _ (by
    rw [Shape.rowMajor_val_two, Shape.rowMajor_val_three]
    show (p.val * b + k.val) * c + d.val = r.val * c + d.val
    rw [hr])

/-- `[n, c]` viewed as `[a, b, c]`: the entry `(p, k, d)` is row `r = p * b + k`, column `d`. -/
theorem shapeCast_nc_abc_apply {a b c n : ℕ} (x : (⟨2, ![n, c]⟩ : Shape).Idx → α)
    (h : (⟨2, ![n, c]⟩ : Shape).ShapeCasts ⟨3, ![a, b, c]⟩) (p : Fin a) (k : Fin b) (d : Fin c) (r : Fin n)
    (hr : r.val = p.val * b + k.val) :
    shapeCast ⟨3, ![a, b, c]⟩ x h (ix3 p k d) = x (ix2 r d) :=
  shapeCast_apply x h _ _ (by
    rw [Shape.rowMajor_val_two, Shape.rowMajor_val_three]
    show r.val * c + d.val = (p.val * b + k.val) * c + d.val
    rw [hr])

/-- An `[a, c]` array given a unit middle axis and repeated along it reads `(p, o)` at `(p, k, o)`. -/
theorem rows_repeat_apply {a b c : ℕ} (x : (⟨2, ![a, c]⟩ : Shape).Idx → α)
    (hc : (⟨2, ![a, c]⟩ : Shape).ShapeCasts ⟨3, ![a, 1, c]⟩)
    (hb : (⟨3, ![a, 1, c]⟩ : Shape).Broadcasts ⟨3, ![a, b, c]⟩) (p : Fin a) (k : Fin b) (o : Fin c) :
    broadcastTo ⟨3, ![a, b, c]⟩ (shapeCast ⟨3, ![a, 1, c]⟩ x hc) hb (ix3 p k o) = x (ix2 p o) := by
  refine (broadcastTo_apply _ hb (ix3 p k o) (ix3 p (0 : Fin 1) o) fun ax => ?_).trans ?_
  · match ax with
    | ⟨0, _⟩ =>
      show p.val = if a = 1 then 0 else p.val
      split
      · have := p.isLt; omega
      · rfl
    | ⟨1, _⟩ => rfl
    | ⟨2, _⟩ =>
      show o.val = if c = 1 then 0 else o.val
      split
      · have := o.isLt; omega
      · rfl
  · exact shapeCast_apply x hc _ _ (by
      rw [Shape.rowMajor_val_two, Shape.rowMajor_val_three]
      show p.val * c + o.val = (p.val * 1 + 0) * c + o.val
      rw [Nat.mul_one, Nat.add_zero])

/-- A `[1, c]` row given a second unit axis and repeated over `[a, b, c]` reads `(0, o)` at `(p, k, o)`. -/
theorem row_spread_apply {a b c : ℕ} (x : (⟨2, ![1, c]⟩ : Shape).Idx → α)
    (hc : (⟨2, ![1, c]⟩ : Shape).ShapeCasts ⟨3, ![1, 1, c]⟩)
    (hb : (⟨3, ![1, 1, c]⟩ : Shape).Broadcasts ⟨3, ![a, b, c]⟩) (p : Fin a) (k : Fin b) (o : Fin c) :
    broadcastTo ⟨3, ![a, b, c]⟩ (shapeCast ⟨3, ![1, 1, c]⟩ x hc) hb (ix3 p k o) = x (ix2 (0 : Fin 1) o) := by
  refine (broadcastTo_apply _ hb (ix3 p k o) (ix3 (0 : Fin 1) (0 : Fin 1) o) fun ax => ?_).trans ?_
  · match ax with
    | ⟨0, _⟩ => rfl
    | ⟨1, _⟩ => rfl
    | ⟨2, _⟩ =>
      show o.val = if c = 1 then 0 else o.val
      split
      · have := o.isLt; omega
      · rfl
  · exact shapeCast_apply x hc _ _ (by
      rw [Shape.rowMajor_val_two, Shape.rowMajor_val_three]
      show 0 * c + o.val = (0 * 1 + 0) * c + o.val
      rfl)

end Cert.LibFlatten
-- ==== Proof.RHost.lean ====
/-
  The second program's buffers at the entry of each of its four regions, read back: the pixel matrix is the transposed
  input reshaped, the 576 x 64 weights are the 3x3 weights reshaped, the first product is handed to the convolution
  image by image and the convolution's result back row by row (two reshapes between the flat and the per-image
  layout), and a stretch of host operations or a region leaves an array it does not write as it was.
-/
import proofs.«118062_g2000700299631556_pallasbulk_725_21_alg».proof.Proof.Gen.ReferenceIdeal.Frame
import proofs.«118062_g2000700299631556_pallasbulk_725_21_alg».proof.Proof.Spec
import proofs.«118062_g2000700299631556_pallasbulk_725_21_alg».proof.Proof.LibFlatten
import Idealize.ShloMosaic.Lib.StableHlo.Run

set_option maxRecDepth 16384
noncomputable section
namespace Cert.ReferenceIdeal.Val
open Idealize.ShloMosaic Idealize.ShloMosaic.TcCoe Idealize.SL.Sem Idealize.ShloMosaic.ValueIdx
open Cert.ReferenceIdeal Cert.Bneck

/-- A stretch of host operations leaves a buffer none of them writes as it was. -/
macro "host_kept " ops:ident : tactic => `(tactic| exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg)

/-- The pixel matrix: the input transposed to channels-last and reshaped to one row per pixel. -/
abbrev xArr (c : Dev nD) : S25088x256.Idx → EReal :=
  shapeCast S25088x256 (transpose S8x56x56x256 [0, 2, 3, 1] (m ((c : Thread nD τ).loc main_arg0)) Gen.transposes_S8x256x56x56_S8x56x56x256_0_2_3_1) Gen.shapeCasts_S8x56x56x256_S25088x256
/-- The 3x3 weights as a 576 x 64 matrix. -/
abbrev w2Arr (c : Dev nD) : S576x64.Idx → EReal :=
  shapeCast S576x64 (m ((c : Thread nD τ).loc main_arg2)) Gen.shapeCasts_S9x64x64_S576x64

/-! ## Up to region 0 -/

theorem x_at1 (c : Dev nD) : (Gen.V1 m ρ c main_v1 : S25088x256.Idx → EReal) = xArr m c := by
  show StableHlo.after Gen.hostOps0 (Gen.W0 m ρ c) (Proc.devRef .tc main_v1) = _
  simp only [Gen.hostOps0]
  after_results
  rfl

macro "arg_at1" : tactic => `(tactic| (
  show StableHlo.after Gen.hostOps0 (Gen.W0 _ _ _) _ = _
  refine Eq.trans (by host_kept Gen.hostOps0) ?_
  rfl))
theorem arg1_at1 (c : Dev nD) : Gen.V1 m ρ c main_arg1 = m ((c : Thread nD τ).loc main_arg1) := by arg_at1
theorem arg2_at1 (c : Dev nD) : Gen.V1 m ρ c main_arg2 = m ((c : Thread nD τ).loc main_arg2) := by arg_at1
theorem arg3_at1 (c : Dev nD) : Gen.V1 m ρ c main_arg3 = m ((c : Thread nD τ).loc main_arg3) := by arg_at1
theorem arg4_at1 (c : Dev nD) : Gen.V1 m ρ c main_arg4 = m ((c : Thread nD τ).loc main_arg4) := by arg_at1
theorem arg5_at1 (c : Dev nD) : Gen.V1 m ρ c main_arg5 = m ((c : Thread nD τ).loc main_arg5) := by arg_at1
theorem arg6_at1 (c : Dev nD) : Gen.V1 m ρ c main_arg6 = m ((c : Thread nD τ).loc main_arg6) := by arg_at1
theorem arg7_at1 (c : Dev nD) : Gen.V1 m ρ c main_arg7 = m ((c : Thread nD τ).loc main_arg7) := by arg_at1
theorem arg8_at1 (c : Dev nD) : Gen.V1 m ρ c main_arg8 = m ((c : Thread nD τ).loc main_arg8) := by arg_at1
theorem arg9_at1 (c : Dev nD) : Gen.V1 m ρ c main_arg9 = m ((c : Thread nD τ).loc main_arg9) := by arg_at1

/-! ## Region 0 (arrays: the pixel matrix, the first weights, its two outputs) -/
theorem x_at2 (c : Dev nD) : Gen.V2 m ρ c main_v1 = Gen.V1 m ρ c main_v1 :=
  (Gen.W2_arr m ρ c 0).trans (((Gen.dat0 (Gen.V1 m ρ) c).arrAt_in 0 rfl _).trans (Gen.A_eq0 (Gen.V1 m ρ) c 0))
theorem arg2_at2 (c : Dev nD) : Gen.V2 m ρ c main_arg2 = Gen.V1 m ρ c main_arg2 := Gen.W2_of_ne m ρ c main_arg2 (by decide)
theorem arg3_at2 (c : Dev nD) : Gen.V2 m ρ c main_arg3 = Gen.V1 m ρ c main_arg3 := Gen.W2_of_ne m ρ c main_arg3 (by decide)
theorem arg4_at2 (c : Dev nD) : Gen.V2 m ρ c main_arg4 = Gen.V1 m ρ c main_arg4 := Gen.W2_of_ne m ρ c main_arg4 (by decide)
theorem arg5_at2 (c : Dev nD) : Gen.V2 m ρ c main_arg5 = Gen.V1 m ρ c main_arg5 := Gen.W2_of_ne m ρ c main_arg5 (by decide)
theorem arg6_at2 (c : Dev nD) : Gen.V2 m ρ c main_arg6 = Gen.V1 m ρ c main_arg6 := Gen.W2_of_ne m ρ c main_arg6 (by decide)
theorem arg7_at2 (c : Dev nD) : Gen.V2 m ρ c main_arg7 = Gen.V1 m ρ c main_arg7 := Gen.W2_of_ne m ρ c main_arg7 (by decide)
theorem arg8_at2 (c : Dev nD) : Gen.V2 m ρ c main_arg8 = Gen.V1 m ρ c main_arg8 := Gen.W2_of_ne m ρ c main_arg8 (by decide)
theorem arg9_at2 (c : Dev nD) : Gen.V2 m ρ c main_arg9 = Gen.V1 m ρ c main_arg9 := Gen.W2_of_ne m ρ c main_arg9 (by decide)

/-! ## The three stretches before region 1 -/

/-- A buffer none of the three stretches writes. -/
macro "kept_2_5" : tactic => `(tactic| (
  show StableHlo.after Gen.hostOps1_2 (StableHlo.after Gen.hostOps1_1 (StableHlo.after Gen.hostOps1 (Gen.W2 _ _ _))) _ = _
  refine Eq.trans (by host_kept Gen.hostOps1_2) ?_
  refine Eq.trans (by host_kept Gen.hostOps1_1) ?_
  host_kept Gen.hostOps1))
theorem x_at5 (c : Dev nD) : Gen.V5 m ρ c main_v1 = Gen.V2 m ρ c main_v1 := by kept_2_5
theorem arg3_at5 (c : Dev nD) : Gen.V5 m ρ c main_arg3 = Gen.V2 m ρ c main_arg3 := by kept_2_5
theorem arg6_at5 (c : Dev nD) : Gen.V5 m ρ c main_arg6 = Gen.V2 m ρ c main_arg6 := by kept_2_5
theorem arg7_at5 (c : Dev nD) : Gen.V5 m ρ c main_arg7 = Gen.V2 m ρ c main_arg7 := by kept_2_5
theorem arg8_at5 (c : Dev nD) : Gen.V5 m ρ c main_arg8 = Gen.V2 m ρ c main_arg8 := by kept_2_5
theorem arg9_at5 (c : Dev nD) : Gen.V5 m ρ c main_arg9 = Gen.V2 m ρ c main_arg9 := by kept_2_5

theorem w2_at5 (c : Dev nD) : (Gen.V5 m ρ c main_v36 : S576x64.Idx → EReal) = w2Arr m c := by
  have k : Gen.W4 m ρ c (Proc.devRef .tc main_arg2) = m ((c : Thread nD τ).loc main_arg2) := by
    show StableHlo.after Gen.hostOps1_1 (StableHlo.after Gen.hostOps1 (Gen.W2 m ρ c)) _ = _
    refine Eq.trans (by host_kept Gen.hostOps1_1) ?_
    refine Eq.trans (by host_kept Gen.hostOps1) ?_
    exact (arg2_at2 m ρ c).trans (arg2_at1 m ρ c)
  unfold w2Arr
  rw [← k]
  show StableHlo.after Gen.hostOps1_2 (Gen.W4 m ρ c) (Proc.devRef .tc main_v36) = _
  generalize Gen.W4 m ρ c = W
  simp only [Gen.hostOps1_2]
  after_results
  rfl

/-- The first product handed to the convolution: row r of image n is row n * 3136 + r of the flat matrix. -/
theorem y1r_at5 (c : Dev nD) (n : Fin 8) (r : Fin 3136) (q : Fin 64) :
    (Gen.V5 m ρ c main_v37 : S8x3136x64.Idx → EReal) (ix3 n r q) = (Gen.V2 m ρ c main_v2_0 : S25088x64.Idx → EReal) (ix2 (row n r) q) := by
  have k : Gen.W4 m ρ c (Proc.devRef .tc main_v2_0) = Gen.W2 m ρ c (Proc.devRef .tc main_v2_0) := by
    show StableHlo.after Gen.hostOps1_1 (StableHlo.after Gen.hostOps1 (Gen.W2 m ρ c)) _ = _
    refine Eq.trans (by host_kept Gen.hostOps1_1) ?_
    host_kept Gen.hostOps1
  have e : (Gen.V5 m ρ c main_v37 : S8x3136x64.Idx → EReal)
      = shapeCast S8x3136x64 (Gen.W4 m ρ c (Proc.devRef .tc main_v2_0) : S25088x64.Idx → EReal) Gen.shapeCasts_S25088x64_S8x3136x64 := by
    show StableHlo.after Gen.hostOps1_2 (Gen.W4 m ρ c) (Proc.devRef .tc main_v37) = _
    generalize Gen.W4 m ρ c = W
    simp only [Gen.hostOps1_2]
    after_results
    rfl
  rw [e, k]
  exact Cert.LibFlatten.shapeCast_nc_abc_apply _ _ n r q (row n r) rfl

/-! ## Region 1 (arrays: the first product by images, scale 1, shift 1, the mask, the 576 x 64 weights, its outputs) -/
theorem x_at6 (c : Dev nD) : Gen.V6 m ρ c main_v1 = Gen.V5 m ρ c main_v1 := Gen.W6_of_ne m ρ c main_v1 (by decide)
theorem arg3_at6 (c : Dev nD) : Gen.V6 m ρ c main_arg3 = Gen.V5 m ρ c main_arg3 := Gen.W6_of_ne m ρ c main_arg3 (by decide)
theorem arg6_at6 (c : Dev nD) : Gen.V6 m ρ c main_arg6 = Gen.V5 m ρ c main_arg6 := Gen.W6_of_ne m ρ c main_arg6 (by decide)
theorem arg7_at6 (c : Dev nD) : Gen.V6 m ρ c main_arg7 = Gen.V5 m ρ c main_arg7 := Gen.W6_of_ne m ρ c main_arg7 (by decide)
theorem arg8_at6 (c : Dev nD) : Gen.V6 m ρ c main_arg8 = Gen.V5 m ρ c main_arg8 := Gen.W6_of_ne m ρ c main_arg8 (by decide)
theorem arg9_at6 (c : Dev nD) : Gen.V6 m ρ c main_arg9 = Gen.V5 m ρ c main_arg9 := Gen.W6_of_ne m ρ c main_arg9 (by decide)

/-! ## The stretch before region 2 -/
macro "kept_6_7" : tactic => `(tactic| (
  show StableHlo.after Gen.hostOps2 (Gen.W6 _ _ _) _ = _
  host_kept Gen.hostOps2))
theorem x_at7 (c : Dev nD) : Gen.V7 m ρ c main_v1 = Gen.V6 m ρ c main_v1 := by kept_6_7
theorem arg3_at7 (c : Dev nD) : Gen.V7 m ρ c main_arg3 = Gen.V6 m ρ c main_arg3 := by kept_6_7
theorem arg8_at7 (c : Dev nD) : Gen.V7 m ρ c main_arg8 = Gen.V6 m ρ c main_arg8 := by kept_6_7
theorem arg9_at7 (c : Dev nD) : Gen.V7 m ρ c main_arg9 = Gen.V6 m ρ c main_arg9 := by kept_6_7

/-- The convolution's result handed on row by row: row n * 3136 + r of the flat matrix is row r of image n. -/
theorem y2r_at7 (c : Dev nD) (n : Fin 8) (r : Fin 3136) (q : Fin 64) :
    (Gen.V7 m ρ c main_v62 : S25088x64.Idx → EReal) (ix2 (row n r) q) = (Gen.V6 m ρ c main_v38_0 : S8x3136x64.Idx → EReal) (ix3 n r q) := by
  have e : (Gen.V7 m ρ c main_v62 : S25088x64.Idx → EReal)
      = shapeCast S25088x64 (Gen.W6 m ρ c (Proc.devRef .tc main_v38_0) : S8x3136x64.Idx → EReal) Gen.shapeCasts_S8x3136x64_S25088x64 := by
    show StableHlo.after Gen.hostOps2 (Gen.W6 m ρ c) (Proc.devRef .tc main_v62) = _
    generalize Gen.W6 m ρ c = W
    simp only [Gen.hostOps2]
    after_results
    rfl
  rw [e]
  exact Cert.LibFlatten.shapeCast_abc_nc_apply _ _ n r q (row n r) rfl

/-! ## Region 2 (arrays: the convolution's result, scale 2, shift 2, the last weights, its two outputs) -/
theorem x_at8 (c : Dev nD) : Gen.V8 m ρ c main_v1 = Gen.V7 m ρ c main_v1 := Gen.W8_of_ne m ρ c main_v1 (by decide)
theorem arg8_at8 (c : Dev nD) : Gen.V8 m ρ c main_arg8 = Gen.V7 m ρ c main_arg8 := Gen.W8_of_ne m ρ c main_arg8 (by decide)
theorem arg9_at8 (c : Dev nD) : Gen.V8 m ρ c main_arg9 = Gen.V7 m ρ c main_arg9 := Gen.W8_of_ne m ρ c main_arg9 (by decide)

/-! ## The stretch before region 3 -/
macro "kept_8_9" : tactic => `(tactic| (
  show StableHlo.after Gen.hostOps3 (Gen.W8 _ _ _) _ = _
  host_kept Gen.hostOps3))
theorem x_at9 (c : Dev nD) : Gen.V9 m ρ c main_v1 = Gen.V8 m ρ c main_v1 := by kept_8_9
theorem y3_at9 (c : Dev nD) : Gen.V9 m ρ c main_v63_0 = Gen.V8 m ρ c main_v63_0 := by kept_8_9

end Cert.ReferenceIdeal.Val
end
-- ==== Proof.R0.lean ====
import proofs.«118062_g2000700299631556_pallasbulk_725_21_alg».proof.Proof.Gen.ReferenceIdeal.Frame
import proofs.«118062_g2000700299631556_pallasbulk_725_21_alg».proof.Proof.Spec
import proofs.«118062_g2000700299631556_pallasbulk_725_21_alg».proof.Proof.LibMatmulAt
import proofs.«118062_g2000700299631556_pallasbulk_725_21_alg».proof.Proof.LibColReduce
import proofs.«118062_g2000700299631556_pallasbulk_725_21_alg».proof.Proof.LibRowShift
import Idealize.ShloMosaic.Lib.ValueLayout
import Idealize.ShloMosaic.Lib.Pipeline.Value

noncomputable section
namespace Cert.ReferenceIdeal.Val
open Idealize.ShloMosaic Idealize.ShloMosaic.TcCoe Idealize.SL.Sem Idealize.ShloMosaic.ValueIdx
open Cert.ReferenceIdeal Cert.Bneck
open scoped BigOperators

variable (V : (c : Dev nD) → (b : Ref sig .tc) → Buf (Elt Ideal) ((c : Thread nD τ).loc b))

namespace Reg0

theorem hz2 : (![0, 0] : Fin 2 → Nat) = fun _ => 0 := funext fun a => by fin_cases a <;> rfl
theorem hz3 : (![0, 0, 0] : Fin 3 → Nat) = fun _ => 0 := funext fun a => by fin_cases a <;> rfl

/-- The product payload at (p, q): the sum over k of the left block at (p, k) times the right block at (k, q). -/
theorem pay1_apply (x0 : Vec Ideal S256x256 .f32) (x1 : Vec Ideal S256x64 .f32) (p : Fin 256) (q : Fin 64) :
    (Gen.k0_pay1 x0 x1 : S256x64.Idx → EReal) (ix2 p q)
      = ∑ k : Fin 256, (x0 : S256x256.Idx → EReal) (ix2 p k) * (x1 : S256x64.Idx → EReal) (ix2 k q) := by
  unfold Gen.k0_pay1
  rw [shapeCast_self]
  exact Cert.LibMatmulAt.matmul_zero_apply _ rfl rfl rfl rfl rfl rfl none x0 x1 p q

/-- The totals payload, row 0: the column totals of the product payload. -/
theorem pay2_apply0 (x0 : Vec Ideal S256x256 .f32) (x1 : Vec Ideal S256x64 .f32) (q : Fin 64) :
    (Gen.k0_pay2 x0 x1 : S1x2x64.Idx → EReal) (ix3 (0 : Fin 1) (0 : Fin 2) q)
      = ∑ r : Fin 256, (Gen.k0_pay1 x0 x1 : S256x64.Idx → EReal) (ix2 r q) := by
  unfold Gen.k0_pay2
  rw [shapeCast_ab_1ab_apply]
  refine (Cert.RowShift.stack_head_apply _ _ _ (0 : Fin 2) q rfl).trans ?_
  rw [shapeCast_a_1a_apply]
  exact Cert.LibColReduce.colSum_f32 _ _ _ _ q

/-- The totals payload, row 1: the column totals of the squares of the product payload. -/
theorem pay2_apply1 (x0 : Vec Ideal S256x256 .f32) (x1 : Vec Ideal S256x64 .f32) (q : Fin 64) :
    (Gen.k0_pay2 x0 x1 : S1x2x64.Idx → EReal) (ix3 (0 : Fin 1) (1 : Fin 2) q)
      = ∑ r : Fin 256, (Gen.k0_pay1 x0 x1 : S256x64.Idx → EReal) (ix2 r q) * (Gen.k0_pay1 x0 x1 : S256x64.Idx → EReal) (ix2 r q) := by
  unfold Gen.k0_pay2
  rw [shapeCast_ab_1ab_apply]
  refine (Cert.RowShift.stack_tail_apply _ _ _ (1 : Fin 2) q (0 : Fin 1) rfl).trans ?_
  rw [shapeCast_a_1a_apply]
  refine (Cert.LibColReduce.colSum_f32 _ _ _ _ q).trans ?_
  rfl

/-- The index maps at grid point t: windows 0, 2 and 3 move with t along their first axis, window 1 stays. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Window 0's block at point t is rows 256 t … 256 t + 255 of the left array. -/
theorem blkA_apply (c : Dev nD) (t : Fin cfg0.N) (x : S256x256.Idx) (i : S25088x256.Idx)
    (h0 : (i 0).val = t.val * 256 + (x 0).val) (h1 : (i 1).val = (x 1).val) :
    (Gen.iblk0 V c 0 t : Vec Ideal S256x256 .f32) x = (V c main_v1 : S25088x256.Idx → EReal) i := by
  obtain ⟨e0, e1, -⟩ := idx_facts0 t
  unfold Gen.iblk0
  rw [View.read_apply]
  show V c main_v1 _ = V c main_v1 _
  congr 1
  funext a
  apply Fin.ext
  match a with
  | ⟨0, _⟩ => show win0_0.index t (0 : Fin 2) * 256 + 1 * (x 0).val = (i 0).val; rw [e0, h0]; omega
  | ⟨1, _⟩ => show win0_0.index t (1 : Fin 2) * 256 + 1 * (x 1).val = (i 1).val; rw [e1, h1]; omega

/-- Window 1's block at every point is the whole right array. -/
theorem blkB_apply (c : Dev nD) (t : Fin cfg0.N) (x : S256x64.Idx) :
    (Gen.iblk0 V c 1 t : Vec Ideal S256x64 .f32) x = (V c main_arg1 : S256x64.Idx → EReal) x := by
  obtain ⟨-, -, e2, e3, -⟩ := idx_facts0 t
  unfold Gen.iblk0
  rw [View.read_apply]
  show V c main_arg1 _ = V c main_arg1 _
  congr 1
  funext a
  apply Fin.ext
  match a with
  | ⟨0, _⟩ => show win0_1.index t (0 : Fin 2) * 256 + 1 * (x 0).val = (x 0).val; rw [e2]; omega
  | ⟨1, _⟩ => show win0_1.index t (1 : Fin 2) * 64 + 1 * (x 1).val = (x 1).val; rw [e3]; omega

/-- The product payload of point t's blocks at (p, q) is the product of the two arrays at row p of tile t. -/
theorem pay1_blk (c : Dev nD) (t : Fin cfg0.N) (ht : t.val < 98) (p : Fin 256) (q : Fin 64) :
    (Gen.k0_pay1 (Gen.iblk0 V c 0 t) (Gen.iblk0 V c 1 t) : S256x64.Idx → EReal) (ix2 p q)
      = mm (cur2 (V c main_v1 : S25088x256.Idx → EReal)) (cur2 (V c main_arg1 : S256x64.Idx → EReal)) (trow ⟨t.val, ht⟩ p) q := by
  refine (pay1_apply _ _ p q).trans ?_
  unfold mm
  refine Finset.sum_congr rfl fun k _ => ?_
  exact congrArg₂ (· * ·) (blkA_apply V c t (ix2 p k) (ix2 (trow ⟨t.val, ht⟩ p) k) rfl rfl) (blkB_apply V c t (ix2 k q))

/-- The product of the two arrays as one function of the index of the [25088, 64] array. -/
def prodArr (A : S25088x256.Idx → EReal) (B : S256x64.Idx → EReal) : S25088x64.Idx → EReal :=
  fun j => mm (cur2 A) (cur2 B) ⟨(j 0).val, idx2_lt0 j⟩ ⟨(j 1).val, idx2_lt1 j⟩

theorem lt98 (t : Fin cfg0.N) : t.val < 98 := lt_of_lt_of_eq t.isLt Gen.N_0

/-- What point t writes back through window 2 is block t of the product of the two arrays. -/
theorem flushed2_eq (c : Dev nD) (t : Fin cfg0.N) :
    (Gen.dat0 V c).flushed 2 t
      = ((cfg0.win 2).blk t).view.read (Elt Ideal) (prodArr (V c main_v1) (V c main_arg1)) := by
  have ht : t.val < 98 := lt98 t
  obtain ⟨-, -, -, -, e4, e5, -⟩ := idx_facts0 t
  show (cfg0.win 2).cut (grid0.coords t) ((Gen.dat0 V c).after 2 t) = _
  rw [Gen.after0_2]
  unfold Gen.out0_2
  rw [View.canon_unit_zero hz2]
  simp only [View.ld_unit_zero (S := S256x256) hz2, View.ld_unit_zero (S := S256x64) hz2]
  funext j
  have hp : (j 0).val < 256 := (j 0).isLt
  have hq : (j 1).val < 64 := (j 1).isLt
  refine Eq.trans (b := mm (cur2 (V c main_v1 : S25088x256.Idx → EReal)) (cur2 (V c main_arg1 : S256x64.Idx → EReal)) (trow ⟨t.val, ht⟩ ⟨(j 0).val, hp⟩) ⟨(j 1).val, hq⟩) ?_ ?_
  · refine Eq.trans ?_ (pay1_blk V c t ht ⟨(j 0).val, hp⟩ ⟨(j 1).val, hq⟩)
    show Gen.k0_pay1 _ _ _ = Gen.k0_pay1 _ _ _
    congr 1
    funext a
    match a with
    | ⟨0, _⟩ => rfl
    | ⟨1, _⟩ => rfl
  · rw [View.read_apply]
    show _ = prodArr (V c main_v1) (V c main_arg1) (((cfg0.win 2).blk t).view.emb j)
    unfold prodArr
    exact congrArg₂ (mm (cur2 (V c main_v1 : S25088x256.Idx → EReal)) (cur2 (V c main_arg1 : S256x64.Idx → EReal)))
      (Fin.ext (by
        show t.val * 256 + (j 0).val = win0_2.index t (0 : Fin 2) * 256 + 1 * (j 0).val
        rw [e4]; omega))
      (Fin.ext (by
        show (j 1).val = win0_2.index t (1 : Fin 2) * 64 + 1 * (j 1).val
        rw [e5]; omega))

/-- The per-tile column totals (row 0) and column totals of squares (row 1) of the product, as one function of the
    index of the [98, 2, 64] array. -/
def statArr (A : S25088x256.Idx → EReal) (B : S256x64.Idx → EReal) : S98x2x64.Idx → EReal :=
  fun j => if (j 1).val = 0
    then tot (tile (mm (cur2 A) (cur2 B)) ⟨(j 0).val, (j 0).isLt⟩) ⟨(j 2).val, (j 2).isLt⟩
    else totSq (tile (mm (cur2 A) (cur2 B)) ⟨(j 0).val, (j 0).isLt⟩) ⟨(j 2).val, (j 2).isLt⟩

theorem statArr_apply0 (A : S25088x256.Idx → EReal) (B : S256x64.Idx → EReal) (i : Fin 98) (q : Fin 64)
    (j : S98x2x64.Idx) (h0 : (j 0).val = i.val) (h1 : (j 1).val = 0) (h2 : (j 2).val = q.val) :
    statArr A B j = tot (tile (mm (cur2 A) (cur2 B)) i) q := by
  unfold statArr
  rw [if_pos h1]
  exact congrArg₂ (fun a b => tot (tile (mm (cur2 A) (cur2 B)) a) b) (Fin.ext h0) (Fin.ext h2)

theorem statArr_apply1 (A : S25088x256.Idx → EReal) (B : S256x64.Idx → EReal) (i : Fin 98) (q : Fin 64)
    (j : S98x2x64.Idx) (h0 : (j 0).val = i.val) (h1 : (j 1).val = 1) (h2 : (j 2).val = q.val) :
    statArr A B j = totSq (tile (mm (cur2 A) (cur2 B)) i) q := by
  unfold statArr
  rw [if_neg (by rw [h1]; exact Nat.one_ne_zero)]
  exact congrArg₂ (fun a b => totSq (tile (mm (cur2 A) (cur2 B)) a) b) (Fin.ext h0) (Fin.ext h2)

/-- Row 0 of the totals payload of point t's blocks: the column totals of tile t of the product. -/
theorem pay2_blk0 (c : Dev nD) (t : Fin cfg0.N) (ht : t.val < 98) (q : Fin 64) :
    (Gen.k0_pay2 (Gen.iblk0 V c 0 t) (Gen.iblk0 V c 1 t) : S1x2x64.Idx → EReal) (ix3 (0 : Fin 1) (0 : Fin 2) q)
      = tot (tile (mm (cur2 (V c main_v1 : S25088x256.Idx → EReal)) (cur2 (V c main_arg1 : S256x64.Idx → EReal))) ⟨t.val, ht⟩) q := by
  refine (pay2_apply0 _ _ q).trans ?_
  show _ = ∑ r : Fin 256, mm (cur2 (V c main_v1 : S25088x256.Idx → EReal)) (cur2 (V c main_arg1 : S256x64.Idx → EReal)) (trow ⟨t.val, ht⟩ r) q
  exact Finset.sum_congr rfl fun r _ => pay1_blk V c t ht r q

/-- Row 1 of the totals payload of point t's blocks: the column totals of squares of tile t of the product. -/
theorem pay2_blk1 (c : Dev nD) (t : Fin cfg0.N) (ht : t.val < 98) (q : Fin 64) :
    (Gen.k0_pay2 (Gen.iblk0 V c 0 t) (Gen.iblk0 V c 1 t) : S1x2x64.Idx → EReal) (ix3 (0 : Fin 1) (1 : Fin 2) q)
      = totSq (tile (mm (cur2 (V c main_v1 : S25088x256.Idx → EReal)) (cur2 (V c main_arg1 : S256x64.Idx → EReal))) ⟨t.val, ht⟩) q := by
  refine (pay2_apply1 _ _ q).trans ?_
  show _ = ∑ r : Fin 256, mm (cur2 (V c main_v1 : S25088x256.Idx → EReal)) (cur2 (V c main_arg1 : S256x64.Idx → EReal)) (trow ⟨t.val, ht⟩ r) q
      * mm (cur2 (V c main_v1 : S25088x256.Idx → EReal)) (cur2 (V c main_arg1 : S256x64.Idx → EReal)) (trow ⟨t.val, ht⟩ r) q
  exact Finset.sum_congr rfl fun r _ => congrArg₂ (· * ·) (pay1_blk V c t ht r q) (pay1_blk V c t ht r q)

/-- What point t writes back through window 3 is block t of the array of per-tile totals. -/
theorem flushed3_eq (c : Dev nD) (t : Fin cfg0.N) :
    (Gen.dat0 V c).flushed 3 t
      = ((cfg0.win 3).blk t).view.read (Elt Ideal) (statArr (V c main_v1) (V c main_arg1)) := by
  have ht : t.val < 98 := lt98 t
  obtain ⟨-, -, -, -, -, -, e6, e7, e8⟩ := idx_facts0 t
  show (cfg0.win 3).cut (grid0.coords t) ((Gen.dat0 V c).after 3 t) = _
  rw [Gen.after0_3]
  unfold Gen.out0_3
  rw [View.canon_unit_zero hz3]
  simp only [View.ld_unit_zero (S := S256x256) hz2, View.ld_unit_zero (S := S256x64) hz2]
  funext j
  have hu : (j 0).val < 1 := (j 0).isLt
  have hs : (j 1).val < 2 := (j 1).isLt
  have hq : (j 2).val < 64 := (j 2).isLt
  rw [View.read_apply]
  show Gen.k0_pay2 (Gen.iblk0 V c 0 t) (Gen.iblk0 V c 1 t) ((win0 3).xinj (grid0.coords t) j)
    = statArr (V c main_v1) (V c main_arg1) (((cfg0.win 3).blk t).view.emb j)
  have hE0 : ((((cfg0.win 3).blk t).view.emb j) 0).val = t.val := by
    show win0_3.index t (0 : Fin 3) * 1 + 1 * (j 0).val = t.val
    rw [e6]; omega
  have hE1 : ((((cfg0.win 3).blk t).view.emb j) 1).val = (j 1).val := by
    show win0_3.index t (1 : Fin 3) * 2 + 1 * (j 1).val = (j 1).val
    rw [e7]; omega
  have hE2 : ((((cfg0.win 3).blk t).view.emb j) 2).val = (j 2).val := by
    show win0_3.index t (2 : Fin 3) * 64 + 1 * (j 2).val = (j 2).val
    rw [e8]; omega
  by_cases h : (j 1).val = 0
  · have hL : (win0 3).xinj (grid0.coords t) j = ix3 (0 : Fin 1) (0 : Fin 2) (⟨(j 2).val, hq⟩ : Fin 64) :=
      funext fun a => Fin.ext (by
        match a with
        | ⟨0, _⟩ => show (j 0).val = 0; omega
        | ⟨1, _⟩ => exact h
        | ⟨2, _⟩ => rfl)
    refine Eq.trans (congrArg (Gen.k0_pay2 (Gen.iblk0 V c 0 t) (Gen.iblk0 V c 1 t)) hL) ?_
    refine (pay2_blk0 V c t ht _).trans ?_
    exact (statArr_apply0 _ _ ⟨t.val, ht⟩ ⟨(j 2).val, hq⟩ _ hE0 (hE1.trans h) hE2).symm
  · have h' : (j 1).val = 1 := by omega
    have hL : (win0 3).xinj (grid0.coords t) j = ix3 (0 : Fin 1) (1 : Fin 2) (⟨(j 2).val, hq⟩ : Fin 64) :=
      funext fun a => Fin.ext (by
        match a with
        | ⟨0, _⟩ => show (j 0).val = 0; omega
        | ⟨1, _⟩ => exact h'
        | ⟨2, _⟩ => rfl)
    refine Eq.trans (congrArg (Gen.k0_pay2 (Gen.iblk0 V c 0 t) (Gen.iblk0 V c 1 t)) hL) ?_
    refine (pay2_blk1 V c t ht _).trans ?_
    exact (statArr_apply1 _ _ ⟨t.val, ht⟩ ⟨(j 2).val, hq⟩ _ hE0 (hE1.trans h') hE2).symm

/-- An index of the product array is in point t's block of window 2 iff each coordinate is in the block's range. -/
theorem mem_blk2 (t : Fin cfg0.N) (i : S25088x64.Idx) :
    i ∈ ((cfg0.win 2).blk t).view.set ↔ ∀ a : Fin 2, win0_2.index t a * S256x64.size a ≤ (i a).val
      ∧ (i a).val < win0_2.index t a * S256x64.size a + S256x64.size a := by
  show i ∈ ((View.whole main_v2_0).slice (win0_2.rect t)).set ↔ _
  rw [View.set_slice_whole, Rect.mem_set_unit]
  exact Iff.rfl

/-- An index of the totals array is in point t's block of window 3 iff each coordinate is in the block's range. -/
theorem mem_blk3 (t : Fin cfg0.N) (i : S98x2x64.Idx) :
    i ∈ ((cfg0.win 3).blk t).view.set ↔ ∀ a : Fin 3, win0_3.index t a * S1x2x64.size a ≤ (i a).val
      ∧ (i a).val < win0_3.index t a * S1x2x64.size a + S1x2x64.size a := by
  show i ∈ ((View.whole main_v2_1).slice (win0_3.rect t)).set ↔ _
  rw [View.set_slice_whole, Rect.mem_set_unit]
  exact Iff.rfl

/-- Tile i as a grid point. -/
def pt (i : Fin 98) : Fin cfg0.N := ⟨i.val, lt_of_lt_of_eq i.isLt Gen.N_0.symm⟩

/-- Row r of tile i, column q, lies in point i's block of window 2. -/
theorem mem2 (i : Fin 98) (r : Fin 256) (q : Fin 64) :
    (ix2 (trow i r) q : S25088x64.Idx) ∈ ((cfg0.win 2).blk (pt i)).view.set := by
  obtain ⟨-, -, -, -, e4, e5, -⟩ := idx_facts0 (pt i)
  have e4' : win0_2.index (pt i) (0 : Fin 2) = i.val := e4
  have hr := r.isLt
  have hq := q.isLt
  rw [mem_blk2]
  intro a
  match a with
  | ⟨0, _⟩ =>
    show win0_2.index (pt i) (0 : Fin 2) * 256 ≤ i.val * 256 + r.val
      ∧ i.val * 256 + r.val < win0_2.index (pt i) (0 : Fin 2) * 256 + 256
    rw [e4']; omega
  | ⟨1, _⟩ =>
    show win0_2.index (pt i) (1 : Fin 2) * 64 ≤ q.val ∧ q.val < win0_2.index (pt i) (1 : Fin 2) * 64 + 64
    rw [e5]; omega

/-- Entry (i, s, q) of the totals array lies in point i's block of window 3. -/
theorem mem3 (i : Fin 98) (s : Fin 2) (q : Fin 64) :
    (ix3 i s q : S98x2x64.Idx) ∈ ((cfg0.win 3).blk (pt i)).view.set := by
  obtain ⟨-, -, -, -, -, -, e6, e7, e8⟩ := idx_facts0 (pt i)
  have e6' : win0_3.index (pt i) (0 : Fin 3) = i.val := e6
  have hs := s.isLt
  have hq := q.isLt
  rw [mem_blk3]
  intro a
  match a with
  | ⟨0, _⟩ =>
    show win0_3.index (pt i) (0 : Fin 3) * 1 ≤ i.val ∧ i.val < win0_3.index (pt i) (0 : Fin 3) * 1 + 1
    rw [e6']; omega
  | ⟨1, _⟩ =>
    show win0_3.index (pt i) (1 : Fin 3) * 2 ≤ s.val ∧ s.val < win0_3.index (pt i) (1 : Fin 3) * 2 + 2
    rw [e7]; omega
  | ⟨2, _⟩ =>
    show win0_3.index (pt i) (2 : Fin 3) * 64 ≤ q.val ∧ q.val < win0_3.index (pt i) (2 : Fin 3) * 64 + 64
    rw [e8]; omega

end Reg0

/-- Region 0 (the first 1x1 convolution, one 256-row tile per grid point): the stored product. -/
theorem y1_eq (c : Dev nD) (i : Fin 98) (r : Fin 256) (q : Fin 64) :
    ((Gen.dat0 V c).arrAt 2 cfg0.N : S25088x64.Idx → EReal) (ix2 (trow i r) q)
      = mm (cur2 (V c main_v1 : S25088x256.Idx → EReal)) (cur2 (V c main_arg1 : S256x64.Idx → EReal)) (trow i r) q := by
  exact ((Gen.dat0 V c).arrAt_apply_of_mem 2 (Reg0.prodArr (V c main_v1) (V c main_arg1))
    (fun t _ => Reg0.flushed2_eq V c t) cfg0.N (Reg0.pt i) (ix2 (trow i r) q) (Reg0.pt i).isLt (Gen.flush0_2 (Reg0.pt i)) (Reg0.mem2 i r q)).trans rfl

/-- Region 0: each tile's column totals and column totals of squares of the product. -/
theorem st1_eq (c : Dev nD) (i : Fin 98) (q : Fin 64) :
    ((Gen.dat0 V c).arrAt 3 cfg0.N : S98x2x64.Idx → EReal) (ix3 i 0 q)
        = tot (tile (mm (cur2 (V c main_v1 : S25088x256.Idx → EReal)) (cur2 (V c main_arg1 : S256x64.Idx → EReal))) i) q
    ∧ ((Gen.dat0 V c).arrAt 3 cfg0.N : S98x2x64.Idx → EReal) (ix3 i 1 q)
        = totSq (tile (mm (cur2 (V c main_v1 : S25088x256.Idx → EReal)) (cur2 (V c main_arg1 : S256x64.Idx → EReal))) i) q := by
  constructor
  · exact ((Gen.dat0 V c).arrAt_apply_of_mem 3 (Reg0.statArr (V c main_v1) (V c main_arg1))
      (fun t _ => Reg0.flushed3_eq V c t) cfg0.N (Reg0.pt i) (ix3 i 0 q) (Reg0.pt i).isLt (Gen.flush0_3 (Reg0.pt i)) (Reg0.mem3 i 0 q)).trans
      (Reg0.statArr_apply0 _ _ i q _ rfl rfl rfl)
  · exact ((Gen.dat0 V c).arrAt_apply_of_mem 3 (Reg0.statArr (V c main_v1) (V c main_arg1))
      (fun t _ => Reg0.flushed3_eq V c t) cfg0.N (Reg0.pt i) (ix3 i 1 q) (Reg0.pt i).isLt (Gen.flush0_3 (Reg0.pt i)) (Reg0.mem3 i 1 q)).trans
      (Reg0.statArr_apply1 _ _ i q _ rfl rfl rfl)

end Cert.ReferenceIdeal.Val
end
-- ==== Proof.R1a.lean ====
/-
  Matrices cut and joined by rows and by columns, read at an entry (row, column). For any extents and element type.

  * Two row blocks stacked: a row above the first block's height reads the first block, a row below reads the second
    block at the row less that height.
  * A block of consecutive rows cut out of a matrix reads the matrix at the row plus the offset.
  * One column cut out of a matrix and stretched along the lanes reads, at (r, c), the matrix at (r, that column).
  * Nine blocks of 64 columns joined side by side: column k reads block k / 64 at column k % 64.
-/
import Idealize.ShloMosaic.Lib.Pipeline.Value
import Idealize.ShloMosaic.Lib.ValueIdx
import Idealize.ShloMosaic.Lib.ValueLayout

namespace Cert.Stacked

open Idealize.ShloMosaic Idealize.ShloMosaic.ValueIdx

variable {α : Type}

/-- Two row blocks stacked, read in a row of the upper block. -/
theorem stack_upper_apply {D R N C : Nat} (top : (⟨2, ![D, C]⟩ : Shape).Idx → α) (bot : (⟨2, ![R, C]⟩ : Shape).Idx → α)
    (h : Shape.Concatenates [(⟨2, ![D, C]⟩ : Shape), (⟨2, ![R, C]⟩ : Shape)] (⟨2, ![N, C]⟩ : Shape) (0 : Fin 2))
    (r : Fin N) (c : Fin C) (r' : Fin D) (hr : r'.val = r.val) :
    concatenate (⟨2, ![N, C]⟩ : Shape) (0 : Fin 2) [⟨(⟨2, ![D, C]⟩ : Shape), top⟩, ⟨(⟨2, ![R, C]⟩ : Shape), bot⟩] h (ix2 r c)
      = top (ix2 r' c) :=
  concatenate_pair_apply_left (0 : Fin 2) top bot h (ix2 r c) rfl (ix2 r' c) (fun b => match b with
    | ⟨0, _⟩ => hr
    | ⟨1, _⟩ => rfl)

/-- Two row blocks stacked, read in a row of the lower block: that block's row less the upper block's height. -/
theorem stack_lower_apply {D R N C : Nat} (top : (⟨2, ![D, C]⟩ : Shape).Idx → α) (bot : (⟨2, ![R, C]⟩ : Shape).Idx → α)
    (h : Shape.Concatenates [(⟨2, ![D, C]⟩ : Shape), (⟨2, ![R, C]⟩ : Shape)] (⟨2, ![N, C]⟩ : Shape) (0 : Fin 2))
    (r : Fin N) (c : Fin C) (r' : Fin R) (hr : r'.val + D = r.val) :
    concatenate (⟨2, ![N, C]⟩ : Shape) (0 : Fin 2) [⟨(⟨2, ![D, C]⟩ : Shape), top⟩, ⟨(⟨2, ![R, C]⟩ : Shape), bot⟩] h (ix2 r c)
      = bot (ix2 r' c) :=
  concatenate_pair_apply_right (0 : Fin 2) top bot h (ix2 r c) rfl rfl (ix2 r' c)
    (fun b hb => match b, hb with
      | ⟨0, _⟩, hb => absurd rfl hb
      | ⟨1, _⟩, _ => rfl)
    hr

/-- Two row blocks stacked, read at any entry. -/
theorem stack_apply {D R N C : Nat} (hN : D + R = N) (top : (⟨2, ![D, C]⟩ : Shape).Idx → α) (bot : (⟨2, ![R, C]⟩ : Shape).Idx → α)
    (h : Shape.Concatenates [(⟨2, ![D, C]⟩ : Shape), (⟨2, ![R, C]⟩ : Shape)] (⟨2, ![N, C]⟩ : Shape) (0 : Fin 2))
    (r : Fin N) (c : Fin C) :
    concatenate (⟨2, ![N, C]⟩ : Shape) (0 : Fin 2) [⟨(⟨2, ![D, C]⟩ : Shape), top⟩, ⟨(⟨2, ![R, C]⟩ : Shape), bot⟩] h (ix2 r c)
      = if hlt : r.val < D then top (ix2 ⟨r.val, hlt⟩ c) else bot (ix2 ⟨r.val - D, by have := r.isLt; omega⟩ c) := by
  by_cases hlt : r.val < D
  · rw [dif_pos hlt]; exact stack_upper_apply top bot h r c ⟨r.val, hlt⟩ rfl
  · rw [dif_neg hlt]
    exact stack_lower_apply top bot h r c ⟨r.val - D, by have := r.isLt; omega⟩ (by show r.val - D + D = r.val; omega)

/-- Rows off, …, off + R - 1 of a matrix, read at (r, c): the matrix at (off + r, c). -/
theorem sliceRows_apply {M R C : Nat} (off : Nat) (x : (⟨2, ![M, C]⟩ : Shape).Idx → α)
    (h : (⟨2, ![M, C]⟩ : Shape).Slices ![off, 0] (⟨2, ![R, C]⟩ : Shape)) (r : Fin R) (c : Fin C) (r' : Fin M)
    (hr : r'.val = off + r.val) :
    extractStridedSlice (⟨2, ![R, C]⟩ : Shape) ![off, 0] x h (ix2 r c) = x (ix2 r' c) :=
  extractStridedSlice_apply ![off, 0] x h (ix2 r c) (ix2 r' c) (fun a => match a with
    | ⟨0, _⟩ => hr
    | ⟨1, _⟩ => (Nat.zero_add c.val).symm)

/-- Column j of a matrix, read at (r, 0): the matrix at (r, j). -/
theorem sliceCol_apply {M K : Nat} (j : Nat) (x : (⟨2, ![M, K]⟩ : Shape).Idx → α)
    (h : (⟨2, ![M, K]⟩ : Shape).Slices ![0, j] (⟨2, ![M, 1]⟩ : Shape)) (r : Fin M) (u : Fin 1) (k : Fin K) (hk : k.val = j) :
    extractStridedSlice (⟨2, ![M, 1]⟩ : Shape) ![0, j] x h (ix2 r u) = x (ix2 r k) :=
  extractStridedSlice_apply ![0, j] x h (ix2 r u) (ix2 r k) (fun a => match a with
    | ⟨0, _⟩ => (Nat.zero_add r.val).symm
    | ⟨1, _⟩ => by
        show k.val = j + u.val
        have := u.isLt; omega)

/-- A column stretched along the lanes: entry (r, c) is the column's entry r. -/
theorem stretchCol_apply {M C : Nat} (v : (⟨2, ![M, 1]⟩ : Shape).Idx → α)
    (h : (⟨2, ![M, 1]⟩ : Shape).Broadcasts (⟨2, ![M, C]⟩ : Shape)) (r : Fin M) (c : Fin C) :
    broadcastTo (⟨2, ![M, C]⟩ : Shape) v h (ix2 r c) = v (ix2 r (0 : Fin 1)) := by
  refine broadcastTo_apply v h (ix2 r c) (ix2 r (0 : Fin 1)) fun ax => ?_
  match ax with
  | ⟨0, _⟩ =>
    show r.val = if M = 1 then 0 else r.val
    split
    · have := r.isLt; omega
    · rfl
  | ⟨1, _⟩ => rfl

/-- Column j of a matrix stretched along the lanes: entry (r, c) is the matrix at (r, j). -/
theorem maskCol_apply {M K C : Nat} (j : Nat) (x : (⟨2, ![M, K]⟩ : Shape).Idx → α)
    (hs : (⟨2, ![M, K]⟩ : Shape).Slices ![0, j] (⟨2, ![M, 1]⟩ : Shape))
    (hb : (⟨2, ![M, 1]⟩ : Shape).Broadcasts (⟨2, ![M, C]⟩ : Shape)) (r : Fin M) (c : Fin C) (k : Fin K) (hk : k.val = j) :
    broadcastTo (⟨2, ![M, C]⟩ : Shape) (extractStridedSlice (⟨2, ![M, 1]⟩ : Shape) ![0, j] x hs) hb (ix2 r c) = x (ix2 r k) :=
  (stretchCol_apply _ hb r c).trans (sliceCol_apply j x hs r 0 k hk)

/-- Nine blocks of 64 columns, given as a list built from a family, joined side by side: column k reads block k / 64
    at column k % 64. -/
theorem join9_ofFn_apply {M : Nat} (f : Fin 9 → ((⟨2, ![M, 64]⟩ : Shape).Idx → α))
    (xs : List ((s : Shape) × (s.Idx → α)))
    (hxs : xs = List.ofFn fun n : Fin 9 => (⟨(⟨2, ![M, 64]⟩ : Shape), f n⟩ : (s : Shape) × (s.Idx → α)))
    (h : Shape.Concatenates (xs.map (·.1)) (⟨2, ![M, 576]⟩ : Shape) (1 : Fin 2)) (r : Fin M) (k : Fin 576) :
    concatenate (⟨2, ![M, 576]⟩ : Shape) (1 : Fin 2) xs h (ix2 r k)
      = f ⟨k.val / 64, by have := k.isLt; omega⟩ (ix2 r ⟨k.val % 64, Nat.mod_lt _ (by decide)⟩) := by
  subst hxs
  exact concatenate_ofFn_apply (t := (⟨2, ![M, 576]⟩ : Shape)) (s₁ := (⟨2, ![M, 64]⟩ : Shape)) (1 : Fin 2) f h rfl 64 rfl (ix2 r k) ⟨k.val / 64, by have := k.isLt; omega⟩ rfl
    (ix2 r ⟨k.val % 64, Nat.mod_lt _ (by decide)⟩) rfl
    (fun b hb => match b, hb with
      | ⟨0, _⟩, _ => rfl
      | ⟨1, _⟩, hb => absurd rfl hb)

/-- Nine blocks of 64 columns, each equal to the member of a family over the naturals with its number, joined side by
    side: column k reads member k / 64 at column k % 64. -/
theorem join9_apply {M : Nat} (f : Nat → ((⟨2, ![M, 64]⟩ : Shape).Idx → α))
    (x0 x1 x2 x3 x4 x5 x6 x7 x8 : (⟨2, ![M, 64]⟩ : Shape).Idx → α)
    (h0 : x0 = f 0) (h1 : x1 = f 1) (h2 : x2 = f 2) (h3 : x3 = f 3) (h4 : x4 = f 4) (h5 : x5 = f 5) (h6 : x6 = f 6)
    (h7 : x7 = f 7) (h8 : x8 = f 8)
    (h : Shape.Concatenates [(⟨2, ![M, 64]⟩ : Shape), ⟨2, ![M, 64]⟩, ⟨2, ![M, 64]⟩, ⟨2, ![M, 64]⟩, ⟨2, ![M, 64]⟩, ⟨2, ![M, 64]⟩,
      ⟨2, ![M, 64]⟩, ⟨2, ![M, 64]⟩, ⟨2, ![M, 64]⟩] (⟨2, ![M, 576]⟩ : Shape) (1 : Fin 2)) (r : Fin M) (k : Fin 576) :
    concatenate (⟨2, ![M, 576]⟩ : Shape) (1 : Fin 2)
        [⟨(⟨2, ![M, 64]⟩ : Shape), x0⟩, ⟨(⟨2, ![M, 64]⟩ : Shape), x1⟩, ⟨(⟨2, ![M, 64]⟩ : Shape), x2⟩, ⟨(⟨2, ![M, 64]⟩ : Shape), x3⟩,
          ⟨(⟨2, ![M, 64]⟩ : Shape), x4⟩, ⟨(⟨2, ![M, 64]⟩ : Shape), x5⟩, ⟨(⟨2, ![M, 64]⟩ : Shape), x6⟩, ⟨(⟨2, ![M, 64]⟩ : Shape), x7⟩,
          ⟨(⟨2, ![M, 64]⟩ : Shape), x8⟩] h (ix2 r k)
      = f (k.val / 64) (ix2 r ⟨k.val % 64, Nat.mod_lt _ (by decide)⟩) := by
  subst h0 h1 h2 h3 h4 h5 h6 h7 h8
  exact join9_ofFn_apply (fun n : Fin 9 => f n.val) _ rfl h r k

end Cert.Stacked
-- ==== Proof.R1b.lean ====
/-
  The 3x3 convolution body at an entry.

  From the loaded blocks: the rectified affine activation at an entry; each of the nine taps (zero rows stacked on a
  block of rows of the activation, or the other way round, the lateral ones times a column of the edge mask) as the tap
  of the moved-then-masked slab; the nine taps joined side by side as the patch matrix; the product with the weights as
  the convolution; and the column totals of the product and of its squares.
-/
import proofs.«118062_g2000700299631556_pallasbulk_725_21_alg».proof.Proof.Gen.ReferenceIdeal.Skeleton
import proofs.«118062_g2000700299631556_pallasbulk_725_21_alg».proof.Proof.Spec
import proofs.«118062_g2000700299631556_pallasbulk_725_21_alg».proof.Proof.R1a
import proofs.«118062_g2000700299631556_pallasbulk_725_21_alg».proof.Proof.LibMatmulAt
import proofs.«118062_g2000700299631556_pallasbulk_725_21_alg».proof.Proof.LibColReduce
import proofs.«118062_g2000700299631556_pallasbulk_725_21_alg».proof.Proof.LibRowShift

noncomputable section

namespace Cert.ReferenceIdeal.Conv

open Idealize.ShloMosaic Idealize.ShloMosaic.ValueIdx
open Cert.ReferenceIdeal Cert.Bneck Cert.Stacked
open scoped BigOperators

/-- A function of (row, column) as an array. -/
abbrev asVec {a b : ℕ} (Y : Fin a → Fin b → EReal) : (⟨2, ![a, b]⟩ : Shape).Idx → EReal := fun i => Y (i 0) (i 1)

/-- An array is the array of its reading by (row, column). -/
theorem asVec_cur2 {a b : ℕ} (x : (⟨2, ![a, b]⟩ : Shape).Idx → EReal) : asVec (cur2 x) = x := by
  funext i
  obtain ⟨p, q, rfl⟩ : ∃ (p : Fin a) (q : Fin b), i = ix2 p q := ⟨i 0, i 1, eq_ix2 i⟩
  rfl

/-! ## The two ways of moving an image's rows, as the body spells them -/

/-- d zero rows stacked on the first R rows of an image: the image's rows moved down by d. -/
theorem downZ_apply {d R : ℕ} (hN : d + R = 3136) (A : Vec Ideal S3136x64 .f32)
    (hs : S3136x64.Slices ![0, 0] (⟨2, ![R, 64]⟩ : Shape))
    (hc : Shape.Concatenates [(⟨2, ![d, 64]⟩ : Shape), (⟨2, ![R, 64]⟩ : Shape)] S3136x64 (0 : Fin 2))
    (r : Fin 3136) (c : Fin 64) :
    concatenate S3136x64 (0 : Fin 2) [⟨(⟨2, ![d, 64]⟩ : Shape), broadcast (⟨2, ![d, 64]⟩ : Shape) z0⟩,
        ⟨(⟨2, ![R, 64]⟩ : Shape), extractStridedSlice (⟨2, ![R, 64]⟩ : Shape) ![0, 0] A hs⟩] hc (ix2 r c)
      = down d (cur2 A) r c := by
  rw [stack_apply hN]
  unfold down
  by_cases h : d ≤ r.val
  · rw [dif_neg (by omega), dif_pos h]
    exact sliceRows_apply 0 A hs _ c _ (by show r.val - d = 0 + (r.val - d); omega)
  · rw [dif_pos (by omega), dif_neg h]
    rfl

/-- The last R rows of an image stacked on d zero rows: the image's rows moved up by d. -/
theorem upZ_apply {d R : ℕ} (hN : R + d = 3136) (A : Vec Ideal S3136x64 .f32)
    (hs : S3136x64.Slices ![d, 0] (⟨2, ![R, 64]⟩ : Shape))
    (hc : Shape.Concatenates [(⟨2, ![R, 64]⟩ : Shape), (⟨2, ![d, 64]⟩ : Shape)] S3136x64 (0 : Fin 2))
    (r : Fin 3136) (c : Fin 64) :
    concatenate S3136x64 (0 : Fin 2) [⟨(⟨2, ![R, 64]⟩ : Shape), extractStridedSlice (⟨2, ![R, 64]⟩ : Shape) ![d, 0] A hs⟩,
        ⟨(⟨2, ![d, 64]⟩ : Shape), broadcast (⟨2, ![d, 64]⟩ : Shape) z0⟩] hc (ix2 r c)
      = up d (cur2 A) r c := by
  rw [stack_apply hN]
  unfold up
  by_cases h : r.val + d < 3136
  · rw [dif_pos (by omega), dif_pos h]
    exact sliceRows_apply d A hs _ c _ (by show r.val + d = d + r.val; omega)
  · rw [dif_neg (by omega), dif_neg h]
    rfl

/-- Column j of the edge mask stretched along the channels, at (r, c): the mask at (r, j). -/
theorem mask_apply (j : ℕ) (k : Fin 2) (hk : k.val = j) (M : Vec Ideal S3136x2 .f32)
    (hs : S3136x2.Slices ![0, j] S3136x1) (hb : S3136x1.Broadcasts S3136x64) (r : Fin 3136) (c : Fin 64) :
    broadcastTo S3136x64 (extractStridedSlice S3136x1 ![0, j] M hs) hb (ix2 r c) = cur2 M r k :=
  maskCol_apply j M hs hb r c k hk

/-! ## The activation -/

/-- The rectified affine activation of the loaded image block, scale row and shift row. -/
abbrev actOf (x0 : Vec Ideal S1x3136x64 .f32) (x1 x2 : Vec Ideal S1x64 .f32) : Fin 3136 → Fin 64 → EReal :=
  act (fun p q => x0 (ix3 (0 : Fin 1) p q)) (fun q => x1 (ix2 (0 : Fin 1) q)) (fun q => x2 (ix2 (0 : Fin 1) q))

/-- The body's first value at an entry is the activation there. -/
theorem pay4_apply (x0 : Vec Ideal S1x3136x64 .f32) (x1 x2 : Vec Ideal S1x64 .f32) (p : Fin 3136) (q : Fin 64) :
    Gen.k1_pay4 x0 x1 x2 (ix2 p q) = actOf x0 x1 x2 p q := by
  unfold Gen.k1_pay4
  simp only [maximumf_apply, addf_apply, mulf_apply, broadcast_apply, shapeCast_self]
  rw [shapeCast_1ab_ab_apply, broadcastTo_1b_ab_apply, broadcastTo_1b_ab_apply]
  rfl

theorem pay4_eq (x0 : Vec Ideal S1x3136x64 .f32) (x1 x2 : Vec Ideal S1x64 .f32) :
    cur2 (Gen.k1_pay4 x0 x1 x2) = actOf x0 x1 x2 :=
  funext fun p => funext fun q => pay4_apply x0 x1 x2 p q

/-- The mask as the body keeps it is the loaded mask. -/
theorem pay5_eq (x3 : Vec Ideal S3136x2 .f32) : Gen.k1_pay5 x3 = x3 := by
  unfold Gen.k1_pay5
  exact shapeCast_self _ _

/-! ## The nine taps -/

/-- Tap t of the moved-then-masked slab of an activation array and a mask array, as an array. -/
abbrev tapVec (A : Vec Ideal S3136x64 .f32) (M : Vec Ideal S3136x2 .f32) (t : ℕ) : Vec Ideal S3136x64 .f32 :=
  asVec (slabMoveMask (cur2 A) (cur2 M) t)

theorem tap0_apply (x0 : Vec Ideal S1x3136x64 .f32) (x1 x2 : Vec Ideal S1x64 .f32) (x3 : Vec Ideal S3136x2 .f32)
    (r : Fin 3136) (c : Fin 64) :
    Gen.k1_pay6 x0 x1 x2 x3 (ix2 r c) = slabMoveMask (cur2 (Gen.k1_pay4 x0 x1 x2)) (cur2 (Gen.k1_pay5 x3)) 0 r c := by
  unfold Gen.k1_pay6
  show (_ : EReal) * _ = down 57 _ r c * _
  exact congr (congrArg HMul.hMul (downZ_apply (d := 57) (R := 3079) rfl (Gen.k1_pay4 x0 x1 x2) _ _ r c))
    (mask_apply 0 0 rfl (Gen.k1_pay5 x3) _ _ r c)

theorem tap1_apply (x0 : Vec Ideal S1x3136x64 .f32) (x1 x2 : Vec Ideal S1x64 .f32) (r : Fin 3136) (c : Fin 64) :
    Gen.k1_pay7 x0 x1 x2 (ix2 r c) = down 56 (cur2 (Gen.k1_pay4 x0 x1 x2)) r c := by
  unfold Gen.k1_pay7
  exact downZ_apply (d := 56) (R := 3080) rfl (Gen.k1_pay4 x0 x1 x2) _ _ r c

theorem tap2_apply (x0 : Vec Ideal S1x3136x64 .f32) (x1 x2 : Vec Ideal S1x64 .f32) (x3 : Vec Ideal S3136x2 .f32)
    (r : Fin 3136) (c : Fin 64) :
    Gen.k1_pay8 x0 x1 x2 x3 (ix2 r c) = slabMoveMask (cur2 (Gen.k1_pay4 x0 x1 x2)) (cur2 (Gen.k1_pay5 x3)) 2 r c := by
  unfold Gen.k1_pay8
  show (_ : EReal) * _ = down 55 _ r c * _
  exact congr (congrArg HMul.hMul (downZ_apply (d := 55) (R := 3081) rfl (Gen.k1_pay4 x0 x1 x2) _ _ r c))
    (mask_apply 1 1 rfl (Gen.k1_pay5 x3) _ _ r c)

theorem tap3_apply (x0 : Vec Ideal S1x3136x64 .f32) (x1 x2 : Vec Ideal S1x64 .f32) (x3 : Vec Ideal S3136x2 .f32)
    (r : Fin 3136) (c : Fin 64) :
    Gen.k1_pay9 x0 x1 x2 x3 (ix2 r c) = slabMoveMask (cur2 (Gen.k1_pay4 x0 x1 x2)) (cur2 (Gen.k1_pay5 x3)) 3 r c := by
  unfold Gen.k1_pay9
  show (_ : EReal) * _ = down 1 _ r c * _
  exact congr (congrArg HMul.hMul (downZ_apply (d := 1) (R := 3135) rfl (Gen.k1_pay4 x0 x1 x2) _ _ r c))
    (mask_apply 0 0 rfl (Gen.k1_pay5 x3) _ _ r c)

theorem tap5_apply (x0 : Vec Ideal S1x3136x64 .f32) (x1 x2 : Vec Ideal S1x64 .f32) (x3 : Vec Ideal S3136x2 .f32)
    (r : Fin 3136) (c : Fin 64) :
    Gen.k1_pay10 x0 x1 x2 x3 (ix2 r c) = slabMoveMask (cur2 (Gen.k1_pay4 x0 x1 x2)) (cur2 (Gen.k1_pay5 x3)) 5 r c := by
  unfold Gen.k1_pay10
  show (_ : EReal) * _ = up 1 _ r c * _
  exact congr (congrArg HMul.hMul (upZ_apply (d := 1) (R := 3135) rfl (Gen.k1_pay4 x0 x1 x2) _ _ r c))
    (mask_apply 1 1 rfl (Gen.k1_pay5 x3) _ _ r c)

/-- The three taps the body forms just before the join, over any activation array A and mask array M. -/
theorem tap6_apply (A : Vec Ideal S3136x64 .f32) (M : Vec Ideal S3136x2 .f32)
    (hs : S3136x64.Slices ![55, 0] S3081x64) (hc : Shape.Concatenates [S3081x64, S55x64] S3136x64 (0 : Fin 2))
    (hs' : S3136x2.Slices ![0, 0] S3136x1) (hb : S3136x1.Broadcasts S3136x64) (r : Fin 3136) (c : Fin 64) :
    mulf (F := Ideal) (φ := .f32) (concatenate S3136x64 (0 : Fin 2) [⟨S3081x64, extractStridedSlice S3081x64 ![55, 0] A hs⟩, ⟨S55x64, broadcast S55x64 z0⟩] hc)
        (broadcastTo S3136x64 (extractStridedSlice S3136x1 ![0, 0] M hs') hb) (ix2 r c)
      = slabMoveMask (cur2 A) (cur2 M) 6 r c := by
  show (_ : EReal) * _ = up 55 _ r c * _
  exact congr (congrArg HMul.hMul (upZ_apply (d := 55) (R := 3081) rfl A hs hc r c)) (mask_apply 0 0 rfl M hs' hb r c)

theorem tap7_apply (A : Vec Ideal S3136x64 .f32)
    (hs : S3136x64.Slices ![56, 0] S3080x64) (hc : Shape.Concatenates [S3080x64, S56x64] S3136x64 (0 : Fin 2))
    (r : Fin 3136) (c : Fin 64) :
    concatenate S3136x64 (0 : Fin 2) [⟨S3080x64, extractStridedSlice S3080x64 ![56, 0] A hs⟩, ⟨S56x64, broadcast S56x64 z0⟩] hc (ix2 r c)
      = up 56 (cur2 A) r c :=
  upZ_apply (d := 56) (R := 3080) rfl A hs hc r c

theorem tap8_apply (A : Vec Ideal S3136x64 .f32) (M : Vec Ideal S3136x2 .f32)
    (hs : S3136x64.Slices ![57, 0] S3079x64) (hc : Shape.Concatenates [S3079x64, S57x64] S3136x64 (0 : Fin 2))
    (hs' : S3136x2.Slices ![0, 1] S3136x1) (hb : S3136x1.Broadcasts S3136x64) (r : Fin 3136) (c : Fin 64) :
    mulf (F := Ideal) (φ := .f32) (concatenate S3136x64 (0 : Fin 2) [⟨S3079x64, extractStridedSlice S3079x64 ![57, 0] A hs⟩, ⟨S57x64, broadcast S57x64 z0⟩] hc)
        (broadcastTo S3136x64 (extractStridedSlice S3136x1 ![0, 1] M hs') hb) (ix2 r c)
      = slabMoveMask (cur2 A) (cur2 M) 8 r c := by
  show (_ : EReal) * _ = up 57 _ r c * _
  exact congr (congrArg HMul.hMul (upZ_apply (d := 57) (R := 3079) rfl A hs hc r c)) (mask_apply 1 1 rfl M hs' hb r c)

/-- A pointwise description of an array by (row, column) is an equation of arrays. -/
theorem eq_asVec {a b : ℕ} (x : (⟨2, ![a, b]⟩ : Shape).Idx → EReal) (Y : Fin a → Fin b → EReal)
    (h : ∀ r c, x (ix2 r c) = Y r c) : x = asVec Y := by
  funext i
  obtain ⟨p, q, rfl⟩ : ∃ (p : Fin a) (q : Fin b), i = ix2 p q := ⟨i 0, i 1, eq_ix2 i⟩
  exact h p q

/-! ## The patch matrix, the product, and its column totals -/

section Product

variable (v11 : Vec Ideal S3136x64 .f32) (v13 : Vec Ideal S3136x2 .f32)
  (v19 v22 v28 v34 v40 : Vec Ideal S3136x64 .f32) (v41 : Vec Ideal S3081x64 .f32) (v42 : Vec Ideal S55x64 .f32)
  (v57 : Vec Ideal S576x64 .f32)

/-- The body's product at an entry: the convolution of the moved-then-masked slab of the activation array v11 and the
    mask array v13 with the weights, when the five lateral or upward taps formed earlier are those of the slab and the
    two pieces of the seventh are the rows from 55 on and 55 zero rows. -/
theorem pay1_core
    (h19 : v19 = tapVec v11 v13 0) (h22 : v22 = tapVec v11 v13 1) (h28 : v28 = tapVec v11 v13 2)
    (h34 : v34 = tapVec v11 v13 3) (h40 : v40 = tapVec v11 v13 5)
    (hs : S3136x64.Slices ![55, 0] S3081x64)
    (h41 : v41 = extractStridedSlice S3081x64 ![55, 0] v11 hs) (h42 : v42 = broadcast S55x64 z0)
    (p : Fin 3136) (q : Fin 64) :
    Gen.k1_pay1 v11 v13 v19 v22 v28 v34 v40 v41 v42 v57 (ix2 p q)
      = conv (slabMoveMask (cur2 v11) (cur2 v13)) (cur2 v57) p q := by
  subst h41 h42
  unfold Gen.k1_pay1
  refine (Cert.LibMatmulAt.matmul_zero_apply dot_S3136x576_S576x64_S3136x64_1_0_0_1_n_n rfl rfl rfl rfl rfl rfl none _ _ p q).trans ?_
  unfold conv
  refine Finset.sum_congr rfl fun k _ => ?_
  refine congr (congrArg HMul.hMul ?_) ?_
  · refine (join9_apply (fun t => tapVec v11 v13 t) _ _ _ _ _ _ _ _ _ h19 h22 h28 h34 (asVec_cur2 v11).symm h40
      (eq_asVec _ _ fun r c => tap6_apply v11 v13 _ _ _ _ r c) (eq_asVec _ _ fun r c => tap7_apply v11 _ _ r c)
      (eq_asVec _ _ fun r c => tap8_apply v11 v13 _ _ _ _ r c) _ p k).trans ?_
    rfl
  · exact congrFun (shapeCast_self v57 _) (ix2 k q)

/-- What the body stores in the first output is its product with a unit axis in front. -/
theorem pay2_apply (u : Fin 1) (p : Fin 3136) (q : Fin 64) :
    Gen.k1_pay2 v11 v13 v19 v22 v28 v34 v40 v41 v42 v57 (ix3 u p q)
      = Gen.k1_pay1 v11 v13 v19 v22 v28 v34 v40 v41 v42 v57 (ix2 p q) := by
  unfold Gen.k1_pay2
  exact shapeCast_ab_1ab_apply _ _ u p q

/-- What the body stores in the second output: row 0 the column totals of its product, row 1 those of its squares. -/
theorem pay3_apply (u : Fin 1) (q : Fin 64) :
    Gen.k1_pay3 v11 v13 v19 v22 v28 v34 v40 v41 v42 v57 (ix3 u (0 : Fin 2) q)
        = ∑ r : Fin 3136, Gen.k1_pay1 v11 v13 v19 v22 v28 v34 v40 v41 v42 v57 (ix2 r q)
    ∧ Gen.k1_pay3 v11 v13 v19 v22 v28 v34 v40 v41 v42 v57 (ix3 u (1 : Fin 2) q)
        = ∑ r : Fin 3136, Gen.k1_pay1 v11 v13 v19 v22 v28 v34 v40 v41 v42 v57 (ix2 r q)
            * Gen.k1_pay1 v11 v13 v19 v22 v28 v34 v40 v41 v42 v57 (ix2 r q) := by
  unfold Gen.k1_pay3
  constructor
  · refine (shapeCast_ab_1ab_apply _ _ u (0 : Fin 2) q).trans ?_
    refine (Cert.RowShift.stack_head_apply _ _ _ (0 : Fin 2) q rfl).trans ?_
    refine (shapeCast_a_1a_apply _ _ (0 : Fin 1) q).trans ?_
    exact Cert.LibColReduce.colSum_f32 _ _ _ _ q
  · refine (shapeCast_ab_1ab_apply _ _ u (1 : Fin 2) q).trans ?_
    refine (Cert.RowShift.stack_tail_apply _ _ _ (1 : Fin 2) q (0 : Fin 1) rfl).trans ?_
    refine (shapeCast_a_1a_apply _ _ (0 : Fin 1) q).trans ?_
    exact Cert.LibColReduce.colSum_f32 _ _ _ _ q

end Product

end Cert.ReferenceIdeal.Conv

end
-- ==== Proof.R1.lean ====
import proofs.«118062_g2000700299631556_pallasbulk_725_21_alg».proof.Proof.Gen.ReferenceIdeal.Frame
import proofs.«118062_g2000700299631556_pallasbulk_725_21_alg».proof.Proof.Spec
import proofs.«118062_g2000700299631556_pallasbulk_725_21_alg».proof.Proof.R1b

noncomputable section
namespace Cert.ReferenceIdeal.Val
open Idealize.ShloMosaic Idealize.ShloMosaic.TcCoe Idealize.SL.Sem Idealize.ShloMosaic.ValueIdx
open Cert.ReferenceIdeal Cert.Bneck
open scoped BigOperators

variable (V : (c : Dev nD) → (b : Ref sig .tc) → Buf (Elt Ideal) ((c : Thread nD τ).loc b))

/-- Region 1's rectified affine input of image n, from the region's own operands (scale and shift rows given). -/
abbrev a1 (c : Dev nD) (n : Fin 8) : Fin 3136 → Fin 64 → EReal :=
  act (cur3 (V c main_v37 : S8x3136x64.Idx → EReal) n) (cur2 (V c main_v24 : S1x64.Idx → EReal) 0) (cur2 (V c main_v25 : S1x64.Idx → EReal) 0)

/-! ## What the body leaves in its two output blocks, from the five loaded blocks -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The product the body forms from the loaded blocks, at an entry: the convolution of the activation. -/
theorem prod_apply (x0 : Vec Ideal S1x3136x64 .f32) (x1 x2 : Vec Ideal S1x64 .f32) (x3 : Vec Ideal S3136x2 .f32)
    (x4 : Vec Ideal S576x64 .f32) (p : Fin 3136) (q : Fin 64) :
    Gen.k1_pay1 (Gen.k1_pay4 x0 x1 x2) (Gen.k1_pay5 x3) (Gen.k1_pay6 x0 x1 x2 x3) (Gen.k1_pay7 x0 x1 x2) (Gen.k1_pay8 x0 x1 x2 x3)
        (Gen.k1_pay9 x0 x1 x2 x3) (Gen.k1_pay10 x0 x1 x2 x3) (Gen.k1_pay11 x0 x1 x2) (Gen.k1_pay12 (F := Ideal)) x4 (ix2 p q)
      = conv (slabMoveMask (Conv.actOf x0 x1 x2) (cur2 x3)) (cur2 x4) p q := by
  refine (Conv.pay1_core _ _ _ _ _ _ _ _ _ x4 (Conv.eq_asVec _ _ (Conv.tap0_apply x0 x1 x2 x3))
    (Conv.eq_asVec _ _ (Conv.tap1_apply x0 x1 x2)) (Conv.eq_asVec _ _ (Conv.tap2_apply x0 x1 x2 x3))
    (Conv.eq_asVec _ _ (Conv.tap3_apply x0 x1 x2 x3)) (Conv.eq_asVec _ _ (Conv.tap5_apply x0 x1 x2 x3))
    Gen.slices_S3136x64_o55_0_S3081x64 rfl rfl p q).trans ?_
  rw [Conv.pay4_eq, Conv.pay5_eq]

/-- The first output block at an entry. -/
theorem out5_apply (x0 : Vec Ideal S1x3136x64 .f32) (x1 x2 : Vec Ideal S1x64 .f32) (x3 : Vec Ideal S3136x2 .f32)
    (x4 : Vec Ideal S576x64 .f32) (u : Fin 1) (p : Fin 3136) (q : Fin 64) :
    Gen.out1_5 x0 x1 x2 x3 x4 (ix3 u p q) = conv (slabMoveMask (Conv.actOf x0 x1 x2) (cur2 x3)) (cur2 x4) p q := by
  unfold Gen.out1_5
  rw [View.canon_unit_zero zeros3]
  simp only [View.ld_unit_zero (S := S1x3136x64) zeros3, View.ld_unit_zero (S := S1x64) zeros2,
    View.ld_unit_zero (S := S3136x2) zeros2, View.ld_unit_zero (S := S576x64) zeros2]
  exact (Conv.pay2_apply _ _ _ _ _ _ _ _ _ _ u p q).trans (prod_apply x0 x1 x2 x3 x4 p q)

/-- The second output block: row 0 the column totals of that convolution, row 1 those of its squares. -/
theorem out6_apply (x0 : Vec Ideal S1x3136x64 .f32) (x1 x2 : Vec Ideal S1x64 .f32) (x3 : Vec Ideal S3136x2 .f32)
    (x4 : Vec Ideal S576x64 .f32) (u : Fin 1) (q : Fin 64) :
    Gen.out1_6 x0 x1 x2 x3 x4 (ix3 u (0 : Fin 2) q) = tot (conv (slabMoveMask (Conv.actOf x0 x1 x2) (cur2 x3)) (cur2 x4)) q
    ∧ Gen.out1_6 x0 x1 x2 x3 x4 (ix3 u (1 : Fin 2) q) = totSq (conv (slabMoveMask (Conv.actOf x0 x1 x2) (cur2 x3)) (cur2 x4)) q := by
  unfold Gen.out1_6
  rw [View.canon_unit_zero zeros3]
  simp only [View.ld_unit_zero (S := S1x3136x64) zeros3, View.ld_unit_zero (S := S1x64) zeros2,
    View.ld_unit_zero (S := S3136x2) zeros2, View.ld_unit_zero (S := S576x64) zeros2]
  obtain ⟨h0, h1⟩ := Conv.pay3_apply (Gen.k1_pay4 x0 x1 x2) (Gen.k1_pay5 x3) (Gen.k1_pay6 x0 x1 x2 x3) (Gen.k1_pay7 x0 x1 x2)
    (Gen.k1_pay8 x0 x1 x2 x3) (Gen.k1_pay9 x0 x1 x2 x3) (Gen.k1_pay10 x0 x1 x2 x3) (Gen.k1_pay11 x0 x1 x2) (Gen.k1_pay12 (F := Ideal)) x4 u q
  refine ⟨h0.trans ?_, h1.trans ?_⟩
  · exact Finset.sum_congr rfl fun r _ => prod_apply x0 x1 x2 x3 x4 r q
  · refine Finset.sum_congr rfl fun r _ => ?_
    rw [prod_apply x0 x1 x2 x3 x4 r q]

/-! ## The windows' blocks as parts of the arrays -/

/-- The printed index maps over the grid: windows 0, 5 and 6 move with the image, windows 1 to 4 stay. -/
theorem idx_facts : ∀ t : Fin cfg1.N,
    (win1_0.index t (0 : Fin 3) = t.val ∧ win1_0.index t (1 : Fin 3) = 0 ∧ win1_0.index t (2 : Fin 3) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 3) = t.val ∧ win1_5.index t (1 : Fin 3) = 0 ∧ win1_5.index t (2 : Fin 3) = 0)
    ∧ (win1_6.index t (0 : Fin 3) = t.val ∧ win1_6.index t (1 : Fin 3) = 0 ∧ win1_6.index t (2 : Fin 3) = 0) :=
  (by decide +kernel : ∀ t : Fin grid1.N, _)

/-- A grid point is one of the eight images. -/
theorem point_lt (t : Fin cfg1.N) : t.val < 8 := by
  have hN : cfg1.N = 8 := Gen.N_1
  have h := t.isLt
  omega

/-- Window 0's block at point t is image t of the input array. -/
theorem blk0_apply (c : Dev nD) (t : Fin cfg1.N) (n : Fin 8) (hn : n.val = t.val) (p : Fin 3136) (q : Fin 64) :
    (Gen.iblk1 V c 0 t : S1x3136x64.Idx → EReal) (ix3 (0 : Fin 1) p q) = (V c main_v37 : S8x3136x64.Idx → EReal) (ix3 n p q) := by
  obtain ⟨⟨e0, e1, e2⟩, -⟩ := idx_facts t
  unfold Gen.iblk1
  rw [View.read_apply]
  show V c main_v37 _ = V c main_v37 _
  congr 1
  funext a
  apply Fin.ext
  match a with
  | ⟨0, _⟩ => show win1_0.index t (0 : Fin 3) * 1 + 1 * 0 = n.val; rw [e0, hn]; omega
  | ⟨1, _⟩ => show win1_0.index t (1 : Fin 3) * 3136 + 1 * p.val = p.val; rw [e1]; omega
  | ⟨2, _⟩ => show win1_0.index t (2 : Fin 3) * 64 + 1 * q.val = q.val; rw [e2]; omega

/-- Windows 1 to 4 hold their whole arrays at every point. -/
theorem blk1_eq (c : Dev nD) (t : Fin cfg1.N) : (Gen.iblk1 V c 1 t : S1x64.Idx → EReal) = V c main_v24 := by
  obtain ⟨-, ⟨e0, e1⟩, -⟩ := idx_facts t
  funext y
  unfold Gen.iblk1
  rw [View.read_apply]
  show V c main_v24 _ = V c main_v24 y
  congr 1
  funext a
  apply Fin.ext
  match a with
  | ⟨0, _⟩ => show win1_1.index t (0 : Fin 2) * 1 + 1 * (y 0).val = (y 0).val; rw [e0]; omega
  | ⟨1, _⟩ => show win1_1.index t (1 : Fin 2) * 64 + 1 * (y 1).val = (y 1).val; rw [e1]; omega

theorem blk2_eq (c : Dev nD) (t : Fin cfg1.N) : (Gen.iblk1 V c 2 t : S1x64.Idx → EReal) = V c main_v25 := by
  obtain ⟨-, -, ⟨e0, e1⟩, -⟩ := idx_facts t
  funext y
  unfold Gen.iblk1
  rw [View.read_apply]
  show V c main_v25 _ = V c main_v25 y
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 64 + 1 * (y 1).val = (y 1).val; rw [e1]; omega

theorem blk3_eq (c : Dev nD) (t : Fin cfg1.N) : (Gen.iblk1 V c 3 t : S3136x2.Idx → EReal) = V c main_v35 := by
  obtain ⟨-, -, -, ⟨e0, e1⟩, -⟩ := idx_facts t
  funext y
  unfold Gen.iblk1
  rw [View.read_apply]
  show V c main_v35 _ = V c main_v35 y
  congr 1
  funext a
  apply Fin.ext
  match a with
  | ⟨0, _⟩ => show win1_3.index t (0 : Fin 2) * 3136 + 1 * (y 0).val = (y 0).val; rw [e0]; omega
  | ⟨1, _⟩ => show win1_3.index t (1 : Fin 2) * 2 + 1 * (y 1).val = (y 1).val; rw [e1]; omega

theorem blk4_eq (c : Dev nD) (t : Fin cfg1.N) : (Gen.iblk1 V c 4 t : S576x64.Idx → EReal) = V c main_v36 := by
  obtain ⟨-, -, -, -, ⟨e0, e1⟩, -⟩ := idx_facts t
  funext y
  unfold Gen.iblk1
  rw [View.read_apply]
  show V c main_v36 _ = V c main_v36 y
  congr 1
  funext a
  apply Fin.ext
  match a with
  | ⟨0, _⟩ => show win1_4.index t (0 : Fin 2) * 576 + 1 * (y 0).val = (y 0).val; rw [e0]; omega
  | ⟨1, _⟩ => show win1_4.index t (1 : Fin 2) * 64 + 1 * (y 1).val = (y 1).val; rw [e1]; omega

/-- The convolution of image n, from the region's operands. -/
abbrev Y1 (c : Dev nD) (n : Fin 8) : Fin 3136 → Fin 64 → EReal :=
  conv (slabMoveMask (a1 V c n) (cur2 (V c main_v35 : S3136x2.Idx → EReal))) (cur2 (V c main_v36 : S576x64.Idx → EReal))

/-- The body's convolution of the blocks at point t is that of image t. -/
theorem conv_blocks (c : Dev nD) (t : Fin cfg1.N) :
    conv (slabMoveMask (Conv.actOf (Gen.iblk1 V c 0 t) (Gen.iblk1 V c 1 t) (Gen.iblk1 V c 2 t)) (cur2 (Gen.iblk1 V c 3 t : S3136x2.Idx → EReal)))
        (cur2 (Gen.iblk1 V c 4 t : S576x64.Idx → EReal))
      = Y1 V c ⟨t.val, point_lt t⟩ := by
  have h0 : (fun p q => (Gen.iblk1 V c 0 t : S1x3136x64.Idx → EReal) (ix3 (0 : Fin 1) p q))
      = cur3 (V c main_v37 : S8x3136x64.Idx → EReal) ⟨t.val, point_lt t⟩ :=
    funext fun p => funext fun q => blk0_apply V c t ⟨t.val, point_lt t⟩ rfl p q
  have h1 : (fun q => (Gen.iblk1 V c 1 t : S1x64.Idx → EReal) (ix2 (0 : Fin 1) q)) = cur2 (V c main_v24 : S1x64.Idx → EReal) 0 :=
    congrArg (fun (x : S1x64.Idx → EReal) => fun q => x (ix2 (0 : Fin 1) q)) (blk1_eq V c t)
  have h2 : (fun q => (Gen.iblk1 V c 2 t : S1x64.Idx → EReal) (ix2 (0 : Fin 1) q)) = cur2 (V c main_v25 : S1x64.Idx → EReal) 0 :=
    congrArg (fun (x : S1x64.Idx → EReal) => fun q => x (ix2 (0 : Fin 1) q)) (blk2_eq V c t)
  have hA : Conv.actOf (Gen.iblk1 V c 0 t) (Gen.iblk1 V c 1 t) (Gen.iblk1 V c 2 t) = a1 V c ⟨t.val, point_lt t⟩ :=
    congr (congr (congrArg (act (M := 3136) (C := 64)) h0) h1) h2
  have h3 : cur2 (Gen.iblk1 V c 3 t : S3136x2.Idx → EReal) = cur2 (V c main_v35 : S3136x2.Idx → EReal) :=
    congrArg cur2 (blk3_eq V c t)
  have h4 : cur2 (Gen.iblk1 V c 4 t : S576x64.Idx → EReal) = cur2 (V c main_v36 : S576x64.Idx → EReal) :=
    congrArg cur2 (blk4_eq V c t)
  rw [hA, h3, h4]

/-! ## The first output array -/

/-- What the first output array ends holding: image by image, the convolution. -/
abbrev G5 (c : Dev nD) : S8x3136x64.Idx → EReal := fun i => Y1 V c (i 0) (i 1) (i 2)

/-- What point t writes back to the first output is block t of that array. -/
theorem flushed5_eq (c : Dev nD) (t : Fin cfg1.N) :
    (Gen.dat1 V c).flushed 5 t = ((cfg1.win 5).blk t).view.read (Elt Ideal) (G5 V c) := by
  show (cfg1.win 5).cut (grid1.coords t) ((Gen.dat1 V c).after 5 t) = _
  rw [Gen.after1_5]
  obtain ⟨-, -, -, -, -, ⟨e0, e1, e2⟩, -⟩ := idx_facts t
  refine funext fun (j : S1x3136x64.Idx) => ?_
  obtain ⟨u, p, q, rfl⟩ : ∃ (u : Fin 1) (p : Fin 3136) (q : Fin 64), j = ix3 u p q := ⟨j 0, j 1, j 2, eq_ix3 j⟩
  show Gen.out1_5 (Gen.iblk1 V c 0 t) (Gen.iblk1 V c 1 t) (Gen.iblk1 V c 2 t) (Gen.iblk1 V c 3 t) (Gen.iblk1 V c 4 t) (ix3 u p q)
    = G5 V c (((cfg1.win 5).blk t).view.emb (ix3 u p q))
  have hemb : ((cfg1.win 5).blk t).view.emb (ix3 u p q) = ix3 (⟨t.val, point_lt t⟩ : Fin 8) p q := by
    funext a
    apply Fin.ext
    match a with
    | ⟨0, _⟩ => show win1_5.index t (0 : Fin 3) * 1 + 1 * u.val = t.val; rw [e0]; have := u.isLt; omega
    | ⟨1, _⟩ => show win1_5.index t (1 : Fin 3) * 3136 + 1 * p.val = p.val; rw [e1]; omega
    | ⟨2, _⟩ => show win1_5.index t (2 : Fin 3) * 64 + 1 * q.val = q.val; rw [e2]; omega
  refine ((out5_apply _ _ _ _ _ u p q).trans ?_).trans (congrArg (G5 V c) hemb).symm
  exact congrFun (congrFun (conv_blocks V c t) p) q

/-- An index of the first output array is in point t's block iff each coordinate is in the block's range. -/
theorem mem_blk5 (t : Fin cfg1.N) (i : S8x3136x64.Idx) :
    i ∈ ((cfg1.win 5).blk t).view.set ↔ ∀ a : Fin 3, win1_5.index t a * S1x3136x64.size a ≤ (i a).val
      ∧ (i a).val < win1_5.index t a * S1x3136x64.size a + S1x3136x64.size a := by
  show i ∈ ((View.whole main_v38_0).slice (win1_5.rect t)).set ↔ _
  rw [View.set_slice_whole, Rect.mem_set_unit]
  exact Iff.rfl

/-- Every index of the first output array is in the block of the point of its image. -/
theorem cover5 (i : S8x3136x64.Idx) : ∃ t : Fin cfg1.N, (cfg1.win 5).flush t = true ∧ i ∈ ((cfg1.win 5).blk t).view.set := by
  have h0 : (i 0).val < 8 := (i 0).isLt
  have h1 : (i 1).val < 3136 := (i 1).isLt
  have h2 : (i 2).val < 64 := (i 2).isLt
  have hN : (i 0).val < cfg1.N := by rw [show cfg1.N = 8 from Gen.N_1]; exact h0
  obtain ⟨-, -, -, -, -, ⟨e0, e1, e2⟩, -⟩ := idx_facts ⟨(i 0).val, hN⟩
  refine ⟨⟨(i 0).val, hN⟩, Gen.flush1_5 _, ?_⟩
  rw [mem_blk5]
  intro a
  match a with
  | ⟨0, _⟩ =>
    show win1_5.index ⟨(i 0).val, hN⟩ (0 : Fin 3) * 1 ≤ (i 0).val ∧ (i 0).val < win1_5.index ⟨(i 0).val, hN⟩ (0 : Fin 3) * 1 + 1
    rw [e0]; show (i 0).val * 1 ≤ (i 0).val ∧ (i 0).val < (i 0).val * 1 + 1; omega
  | ⟨1, _⟩ =>
    show win1_5.index ⟨(i 0).val, hN⟩ (1 : Fin 3) * 3136 ≤ (i 1).val ∧ (i 1).val < win1_5.index ⟨(i 0).val, hN⟩ (1 : Fin 3) * 3136 + 3136
    rw [e1]; omega
  | ⟨2, _⟩ =>
    show win1_5.index ⟨(i 0).val, hN⟩ (2 : Fin 3) * 64 ≤ (i 2).val ∧ (i 2).val < win1_5.index ⟨(i 0).val, hN⟩ (2 : Fin 3) * 64 + 64
    rw [e2]; omega

/-- The first output array after the region. -/
theorem final5 (c : Dev nD) : (Gen.dat1 V c).arrAt 5 cfg1.N = G5 V c :=
  (Gen.dat1 V c).arrAt_eq_of_cover 5 (G5 V c) (fun t _ => flushed5_eq V c t) (fun i => cover5 i)

/-- Region 1 (the 3x3 convolution, one image per grid point): the stored product of the moved-then-masked patch
    matrix with the weights. -/
theorem y2_eq (c : Dev nD) (n : Fin 8) (r : Fin 3136) (q : Fin 64) :
    ((Gen.dat1 V c).arrAt 5 cfg1.N : S8x3136x64.Idx → EReal) (ix3 n r q)
      = conv (slabMoveMask (a1 V c n) (cur2 (V c main_v35 : S3136x2.Idx → EReal))) (cur2 (V c main_v36 : S576x64.Idx → EReal)) r q :=
  congrFun (final5 V c) (ix3 n r q)

/-! ## The second output array -/

/-- What the second output array ends holding: image by image, row 0 the column totals of the convolution and row 1
    those of its squares. -/
abbrev G6 (c : Dev nD) : S8x2x64.Idx → EReal := fun i =>
  if (i 1).val = 0 then tot (Y1 V c (i 0)) (i 2) else totSq (Y1 V c (i 0)) (i 2)

/-- What point t writes back to the second output is block t of that array. -/
theorem flushed6_eq (c : Dev nD) (t : Fin cfg1.N) :
    (Gen.dat1 V c).flushed 6 t = ((cfg1.win 6).blk t).view.read (Elt Ideal) (G6 V c) := by
  show (cfg1.win 6).cut (grid1.coords t) ((Gen.dat1 V c).after 6 t) = _
  rw [Gen.after1_6]
  obtain ⟨-, -, -, -, -, -, ⟨e0, e1, e2⟩⟩ := idx_facts t
  refine funext fun (j : S1x2x64.Idx) => ?_
  obtain ⟨u, s, q, rfl⟩ : ∃ (u : Fin 1) (s : Fin 2) (q : Fin 64), j = ix3 u s q := ⟨j 0, j 1, j 2, eq_ix3 j⟩
  show Gen.out1_6 (Gen.iblk1 V c 0 t) (Gen.iblk1 V c 1 t) (Gen.iblk1 V c 2 t) (Gen.iblk1 V c 3 t) (Gen.iblk1 V c 4 t) (ix3 u s q)
    = G6 V c (((cfg1.win 6).blk t).view.emb (ix3 u s q))
  have hemb : ((cfg1.win 6).blk t).view.emb (ix3 u s q) = ix3 (⟨t.val, point_lt t⟩ : Fin 8) s q := by
    funext a
    apply Fin.ext
    match a with
    | ⟨0, _⟩ => show win1_6.index t (0 : Fin 3) * 1 + 1 * u.val = t.val; rw [e0]; have := u.isLt; omega
    | ⟨1, _⟩ => show win1_6.index t (1 : Fin 3) * 2 + 1 * s.val = s.val; rw [e1]; omega
    | ⟨2, _⟩ => show win1_6.index t (2 : Fin 3) * 64 + 1 * q.val = q.val; rw [e2]; omega
  refine Eq.trans ?_ (congrArg (G6 V c) hemb).symm
  obtain ⟨g0, g1⟩ := out6_apply (Gen.iblk1 V c 0 t) (Gen.iblk1 V c 1 t) (Gen.iblk1 V c 2 t) (Gen.iblk1 V c 3 t) (Gen.iblk1 V c 4 t) u q
  have hY := conv_blocks V c t
  match s with
  | ⟨0, _⟩ => exact g0.trans ((congrArg (fun Y => tot Y q) hY).trans (if_pos rfl).symm)
  | ⟨1, _⟩ => exact g1.trans ((congrArg (fun Y => totSq Y q) hY).trans (if_neg Nat.one_ne_zero).symm)

/-- An index of the second output array is in point t's block iff each coordinate is in the block's range. -/
theorem mem_blk6 (t : Fin cfg1.N) (i : S8x2x64.Idx) :
    i ∈ ((cfg1.win 6).blk t).view.set ↔ ∀ a : Fin 3, win1_6.index t a * S1x2x64.size a ≤ (i a).val
      ∧ (i a).val < win1_6.index t a * S1x2x64.size a + S1x2x64.size a := by
  show i ∈ ((View.whole main_v38_1).slice (win1_6.rect t)).set ↔ _
  rw [View.set_slice_whole, Rect.mem_set_unit]
  exact Iff.rfl

/-- Every index of the second output array is in the block of the point of its image. -/
theorem cover6 (i : S8x2x64.Idx) : ∃ t : Fin cfg1.N, (cfg1.win 6).flush t = true ∧ i ∈ ((cfg1.win 6).blk t).view.set := by
  have h0 : (i 0).val < 8 := (i 0).isLt
  have h1 : (i 1).val < 2 := (i 1).isLt
  have h2 : (i 2).val < 64 := (i 2).isLt
  have hN : (i 0).val < cfg1.N := by rw [show cfg1.N = 8 from Gen.N_1]; exact h0
  obtain ⟨-, -, -, -, -, -, ⟨e0, e1, e2⟩⟩ := idx_facts ⟨(i 0).val, hN⟩
  refine ⟨⟨(i 0).val, hN⟩, Gen.flush1_6 _, ?_⟩
  rw [mem_blk6]
  intro a
  match a with
  | ⟨0, _⟩ =>
    show win1_6.index ⟨(i 0).val, hN⟩ (0 : Fin 3) * 1 ≤ (i 0).val ∧ (i 0).val < win1_6.index ⟨(i 0).val, hN⟩ (0 : Fin 3) * 1 + 1
    rw [e0]; show (i 0).val * 1 ≤ (i 0).val ∧ (i 0).val < (i 0).val * 1 + 1; omega
  | ⟨1, _⟩ =>
    show win1_6.index ⟨(i 0).val, hN⟩ (1 : Fin 3) * 2 ≤ (i 1).val ∧ (i 1).val < win1_6.index ⟨(i 0).val, hN⟩ (1 : Fin 3) * 2 + 2
    rw [e1]; omega
  | ⟨2, _⟩ =>
    show win1_6.index ⟨(i 0).val, hN⟩ (2 : Fin 3) * 64 ≤ (i 2).val ∧ (i 2).val < win1_6.index ⟨(i 0).val, hN⟩ (2 : Fin 3) * 64 + 64
    rw [e2]; omega

/-- The second output array after the region. -/
theorem final6 (c : Dev nD) : (Gen.dat1 V c).arrAt 6 cfg1.N = G6 V c :=
  (Gen.dat1 V c).arrAt_eq_of_cover 6 (G6 V c) (fun t _ => flushed6_eq V c t) (fun i => cover6 i)

/-- Region 1: each image's column totals and column totals of squares of that product. -/
theorem st2_eq (c : Dev nD) (n : Fin 8) (q : Fin 64) :
    ((Gen.dat1 V c).arrAt 6 cfg1.N : S8x2x64.Idx → EReal) (ix3 n 0 q)
        = tot (conv (slabMoveMask (a1 V c n) (cur2 (V c main_v35 : S3136x2.Idx → EReal))) (cur2 (V c main_v36 : S576x64.Idx → EReal))) q
    ∧ ((Gen.dat1 V c).arrAt 6 cfg1.N : S8x2x64.Idx → EReal) (ix3 n 1 q)
        = totSq (conv (slabMoveMask (a1 V c n) (cur2 (V c main_v35 : S3136x2.Idx → EReal))) (cur2 (V c main_v36 : S576x64.Idx → EReal))) q :=
  ⟨(congrFun (final6 V c) (ix3 n 0 q)).trans (if_pos rfl), (congrFun (final6 V c) (ix3 n 1 q)).trans (if_neg Nat.one_ne_zero)⟩

end Cert.ReferenceIdeal.Val
end
-- ==== Proof.R2.lean ====
/-
  Region 2 (the last 1x1 convolution; 98 grid points, point t = tile t of 256 rows).

  The body, on the blocks of its four operands, computes the rectified affine activation of the 256 x 64 tile, its
  product with the 64 x 256 weights, and the column totals of that product and of its squares over the tile's rows.
  First the body's two stored values are read at an index over any four blocks; then each block is read off its array
  (the tiled operand's block at point t is rows 256 t … 256 t + 255, the two rows and the weights are whole); so what
  point t writes back is block t of one function of the region's operands; and every row of tile i lies in point i's block.
-/
import proofs.«118062_g2000700299631556_pallasbulk_725_21_alg».proof.Proof.Gen.ReferenceIdeal.Frame
import proofs.«118062_g2000700299631556_pallasbulk_725_21_alg».proof.Proof.Spec
import proofs.«118062_g2000700299631556_pallasbulk_725_21_alg».proof.Proof.LibMatmulAt
import proofs.«118062_g2000700299631556_pallasbulk_725_21_alg».proof.Proof.LibColReduce
import proofs.«118062_g2000700299631556_pallasbulk_725_21_alg».proof.Proof.LibRowShift
import Idealize.ShloMosaic.Lib.ValueLayout
import Idealize.ShloMosaic.Lib.Pipeline.Value

noncomputable section
namespace Cert.ReferenceIdeal.Region2
open Idealize.ShloMosaic Idealize.ShloMosaic.TcCoe Idealize.SL.Sem Idealize.ShloMosaic.ValueIdx
open Cert.ReferenceIdeal Cert.Bneck
open Cert.ReferenceIdeal.Facts₀ Cert.ReferenceIdeal.Facts
open scoped BigOperators

/-- The product stored by the body, read at (p, q): the sum over the 64 channels of the rectified affine activation
    times the weight. -/
theorem pay1_apply (x0 : Vec Ideal S256x64 .f32) (x1 : Vec Ideal S1x64 .f32) (x2 : Vec Ideal S1x64 .f32)
    (x3 : Vec Ideal S64x256 .f32) (p : Fin 256) (q : Fin 256) :
    Gen.k2_pay1 x0 x1 x2 x3 (ix2 p q)
      = ∑ k : Fin 64, max (x0 (ix2 p k) * x1 (ix2 (0 : Fin 1) k) + x2 (ix2 (0 : Fin 1) k)) z0 * x3 (ix2 k q) := by
  unfold Gen.k2_pay1
  refine (Cert.LibMatmulAt.matmul_zero_apply dot_S256x64_S64x256_S256x256_1_0_0_1_n_n rfl rfl rfl rfl rfl rfl none _ x3 p q).trans ?_
  refine Finset.sum_congr rfl fun k _ => ?_
  rw [maximumf_apply, addf_apply, mulf_apply, shapeCast_self, shapeCast_self, shapeCast_self,
    broadcastTo_1b_ab_apply, broadcastTo_1b_ab_apply, broadcast_apply]
  rfl

/-- Row 0 of the statistics block: the column totals of the product over the tile's 256 rows. -/
theorem pay2_apply0 (x0 : Vec Ideal S256x64 .f32) (x1 : Vec Ideal S1x64 .f32) (x2 : Vec Ideal S1x64 .f32)
    (x3 : Vec Ideal S64x256 .f32) (u : Fin 1) (s : Fin 2) (hs : s.val = 0) (q : Fin 256) :
    Gen.k2_pay2 x0 x1 x2 x3 (ix3 u s q) = ∑ r : Fin 256, Gen.k2_pay1 x0 x1 x2 x3 (ix2 r q) := by
  unfold Gen.k2_pay2
  refine (shapeCast_ab_1ab_apply _ shapeCasts_S2x256_S1x2x256 u s q).trans ?_
  refine (Cert.RowShift.stack_head_apply _ _ concatenates_S1x256_S1x256_S2x256_d0 s q hs).trans ?_
  refine (shapeCast_a_1a_apply _ shapeCasts_S256_S1x256 (0 : Fin 1) q).trans ?_
  exact Cert.LibColReduce.colSum_f32 _ reduces_S256x256_S256 (.inl rfl) rfl q

/-- Row 1 of the statistics block: the column totals of the squares of the product over the tile's 256 rows. -/
theorem pay2_apply1 (x0 : Vec Ideal S256x64 .f32) (x1 : Vec Ideal S1x64 .f32) (x2 : Vec Ideal S1x64 .f32)
    (x3 : Vec Ideal S64x256 .f32) (u : Fin 1) (s : Fin 2) (hs : s.val = 1) (q : Fin 256) :
    Gen.k2_pay2 x0 x1 x2 x3 (ix3 u s q)
      = ∑ r : Fin 256, Gen.k2_pay1 x0 x1 x2 x3 (ix2 r q) * Gen.k2_pay1 x0 x1 x2 x3 (ix2 r q) := by
  unfold Gen.k2_pay2
  refine (shapeCast_ab_1ab_apply _ shapeCasts_S2x256_S1x2x256 u s q).trans ?_
  refine (Cert.RowShift.stack_tail_apply _ _ concatenates_S1x256_S1x256_S2x256_d0 s q (0 : Fin 1) (by rw [hs]; rfl)).trans ?_
  refine (shapeCast_a_1a_apply _ shapeCasts_S256_S1x256 (0 : Fin 1) q).trans ?_
  refine (Cert.LibColReduce.colSum_f32 _ reduces_S256x256_S256 (.inl rfl) rfl q).trans ?_
  rfl

variable (V : (c : Dev nD) → (b : Ref sig .tc) → Buf (Elt Ideal) ((c : Thread nD τ).loc b))

theorem zero2 : (![0, 0] : Fin 2 → Nat) = fun _ => 0 := funext fun a => by fin_cases a <;> rfl
theorem zero3 : (![0, 0, 0] : Fin 3 → Nat) = fun _ => 0 := funext fun a => by fin_cases a <;> rfl

/-- The block index of every window at every grid point: the tiled operand and the two results move with the point
    along their first axis, the two rows and the weights stay at block 0. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 3) = t.val ∧ win2_5.index t (1 : Fin 3) = 0 ∧ win2_5.index t (2 : Fin 3) = 0 :=
  (by decide +kernel : ∀ t : Fin grid2.N, _)

theorem pt_lt (t : Fin cfg2.N) : t.val < 98 := lt_of_lt_of_eq t.isLt Gen.N_2

/-- The tile of the grid point, as a tile number below 98. -/
def tileOf (t : Fin cfg2.N) : Fin 98 := ⟨t.val, pt_lt t⟩

/-- The tiled operand's block at point t is rows 256 t … 256 t + 255 of the array. -/
theorem blk0_apply (c : Dev nD) (t : Fin cfg2.N) (p : Fin 256) (k : Fin 64) :
    (Gen.iblk2 V c 0 t : Vec Ideal S256x64 .f32) (ix2 p k)
      = (V c main_v62 : S25088x64.Idx → EReal) (ix2 (trow (tileOf t) p) k) := by
  obtain ⟨e0, e1, -⟩ := index_facts t
  unfold Gen.iblk2
  rw [View.read_apply]
  show (V c main_v62 : S25088x64.Idx → EReal) _ = _
  congr 1
  funext a
  apply Fin.ext
  match a with
  | ⟨0, _⟩ => show win2_0.index t (0 : Fin 2) * 256 + 1 * p.val = t.val * 256 + p.val; rw [e0]; omega
  | ⟨1, _⟩ => show win2_0.index t (1 : Fin 2) * 64 + 1 * k.val = k.val; rw [e1]; omega

/-- The scale row's block at every point is the whole one-row array. -/
theorem blk1_apply (c : Dev nD) (t : Fin cfg2.N) (k : Fin 64) :
    (Gen.iblk2 V c 1 t : Vec Ideal S1x64 .f32) (ix2 (0 : Fin 1) k)
      = (V c main_v60 : S1x64.Idx → EReal) (ix2 (0 : Fin 1) k) := by
  obtain ⟨-, -, e0, e1, -⟩ := index_facts t
  unfold Gen.iblk2
  rw [View.read_apply]
  show (V c main_v60 : S1x64.Idx → EReal) _ = _
  congr 1
  funext a
  apply Fin.ext
  match a with
  | ⟨0, _⟩ => show win2_1.index t (0 : Fin 2) * 1 + 1 * 0 = 0; rw [e0]
  | ⟨1, _⟩ => show win2_1.index t (1 : Fin 2) * 64 + 1 * k.val = k.val; rw [e1]; omega

/-- The shift row's block at every point is the whole one-row array. -/
theorem blk2_apply (c : Dev nD) (t : Fin cfg2.N) (k : Fin 64) :
    (Gen.iblk2 V c 2 t : Vec Ideal S1x64 .f32) (ix2 (0 : Fin 1) k)
      = (V c main_v61 : S1x64.Idx → EReal) (ix2 (0 : Fin 1) k) := by
  obtain ⟨-, -, -, -, e0, e1, -⟩ := index_facts t
  unfold Gen.iblk2
  rw [View.read_apply]
  show (V c main_v61 : S1x64.Idx → EReal) _ = _
  congr 1
  funext a
  apply Fin.ext
  match a with
  | ⟨0, _⟩ => show win2_2.index t (0 : Fin 2) * 1 + 1 * 0 = 0; rw [e0]
  | ⟨1, _⟩ => show win2_2.index t (1 : Fin 2) * 64 + 1 * k.val = k.val; rw [e1]; omega

/-- The weights' block at every point is the whole weight matrix. -/
theorem blk3_apply (c : Dev nD) (t : Fin cfg2.N) (k : Fin 64) (q : Fin 256) :
    (Gen.iblk2 V c 3 t : Vec Ideal S64x256 .f32) (ix2 k q)
      = (V c main_arg3 : S64x256.Idx → EReal) (ix2 k q) := by
  obtain ⟨-, -, -, -, -, -, e0, e1, -⟩ := index_facts t
  unfold Gen.iblk2
  rw [View.read_apply]
  show (V c main_arg3 : S64x256.Idx → EReal) _ = _
  congr 1
  funext a
  apply Fin.ext
  match a with
  | ⟨0, _⟩ => show win2_3.index t (0 : Fin 2) * 64 + 1 * k.val = k.val; rw [e0]; omega
  | ⟨1, _⟩ => show win2_3.index t (1 : Fin 2) * 256 + 1 * q.val = q.val; rw [e1]; omega

/-- Region 2's rectified affine input over all pixels, from the region's own operands. -/
abbrev act2 (c : Dev nD) : Fin 25088 → Fin 64 → EReal :=
  act (cur2 (V c main_v62 : S25088x64.Idx → EReal)) (cur2 (V c main_v60 : S1x64.Idx → EReal) 0) (cur2 (V c main_v61 : S1x64.Idx → EReal) 0)

/-- The product of the activation with the weights over all pixels. -/
abbrev prod2 (c : Dev nD) : Fin 25088 → Fin 256 → EReal :=
  mm (act2 V c) (cur2 (V c main_arg3 : S64x256.Idx → EReal))

/-- The body's product at point t, entry (p, q), is the whole-array product at row p of tile t. -/
theorem pay1_blk (c : Dev nD) (t : Fin cfg2.N) (p : Fin 256) (q : Fin 256) :
    Gen.k2_pay1 (Gen.iblk2 V c 0 t) (Gen.iblk2 V c 1 t) (Gen.iblk2 V c 2 t) (Gen.iblk2 V c 3 t) (ix2 p q)
      = prod2 V c (trow (tileOf t) p) q := by
  refine (pay1_apply _ _ _ _ p q).trans ?_
  refine Finset.sum_congr rfl fun k _ => ?_
  rw [blk0_apply, blk1_apply, blk2_apply, blk3_apply]
  rfl

/-- What the product's array ends holding. -/
def G4 (c : Dev nD) : S25088x256.Idx → EReal := fun i => prod2 V c ⟨(i 0).val, idx2_lt0 i⟩ ⟨(i 1).val, idx2_lt1 i⟩

theorem flushed4_eq (c : Dev nD) (t : Fin cfg2.N) :
    (Gen.dat2 V c).flushed 4 t = ((cfg2.win 4).blk t).view.read (Elt Ideal) (G4 V c) := by
  obtain ⟨-, -, -, -, -, -, -, -, e0, e1, -⟩ := index_facts t
  show (cfg2.win 4).cut (grid2.coords t) ((Gen.dat2 V c).after 4 t) = _
  rw [Gen.after2_4]
  unfold Gen.out2_4
  rw [View.canon_unit_zero zero2]
  simp only [View.ld_unit_zero (S := S256x64) zero2, View.ld_unit_zero (S := S1x64) zero2, View.ld_unit_zero (S := S64x256) zero2]
  funext j
  show Gen.k2_pay1 (Gen.iblk2 V c 0 t) (Gen.iblk2 V c 1 t) (Gen.iblk2 V c 2 t) (Gen.iblk2 V c 3 t) j = G4 V c (((cfg2.win 4).blk t).view.emb j)
  obtain ⟨p, q, rfl⟩ : ∃ (p : Fin 256) (q : Fin 256), j = ix2 p q := ⟨j 0, j 1, eq_ix2 j⟩
  refine (pay1_blk V c t p q).trans ?_
  unfold G4
  refine congrArg₂ (prod2 V c) (Fin.ext ?_) (Fin.ext ?_)
  · show t.val * 256 + p.val = win2_4.index t (0 : Fin 2) * 256 + 1 * p.val
    rw [e0]; omega
  · show q.val = win2_4.index t (1 : Fin 2) * 256 + 1 * q.val
    rw [e1]; omega

/-- An index of the product's array is in point t's block iff each coordinate is in the block's range on its axis. -/
theorem mem_blk4 (t : Fin cfg2.N) (i : S25088x256.Idx) :
    i ∈ ((cfg2.win 4).blk t).view.set ↔ ∀ a : Fin 2, win2_4.index t a * S256x256.size a ≤ (i a).val ∧ (i a).val < win2_4.index t a * S256x256.size a + S256x256.size a := by
  show i ∈ ((View.whole main_v63_0).slice (win2_4.rect t)).set ↔ _
  rw [View.set_slice_whole, Rect.mem_set_unit]
  exact Iff.rfl

/-- The grid point of tile i. -/
def ptOf (i : Fin 98) : Fin cfg2.N := ⟨i.val, lt_of_lt_of_eq i.isLt Gen.N_2.symm⟩

/-- The product's array after the run, at row r of tile i. -/
theorem arr4_apply (c : Dev nD) (i : Fin 98) (r : Fin 256) (q : Fin 256) :
    ((Gen.dat2 V c).arrAt 4 cfg2.N : S25088x256.Idx → EReal) (ix2 (trow i r) q) = prod2 V c (trow i r) q := by
  obtain ⟨-, -, -, -, -, -, -, -, e0, e1, -⟩ := index_facts (ptOf i)
  refine ((Gen.dat2 V c).arrAt_apply_of_mem 4 (G4 V c) (fun t _ => flushed4_eq V c t) cfg2.N (ptOf i) (ix2 (trow i r) q)
    (ptOf i).isLt (Gen.flush2_4 _) ?_).trans rfl
  rw [mem_blk4]
  intro a
  match a with
  | ⟨0, _⟩ =>
    show win2_4.index (ptOf i) (0 : Fin 2) * 256 ≤ i.val * 256 + r.val ∧ i.val * 256 + r.val < win2_4.index (ptOf i) (0 : Fin 2) * 256 + 256
    rw [e0]; show i.val * 256 ≤ i.val * 256 + r.val ∧ i.val * 256 + r.val < i.val * 256 + 256
    have := r.isLt; omega
  | ⟨1, _⟩ =>
    show win2_4.index (ptOf i) (1 : Fin 2) * 256 ≤ q.val ∧ q.val < win2_4.index (ptOf i) (1 : Fin 2) * 256 + 256
    rw [e1]; have := q.isLt; omega

/-- What the statistics array ends holding: row 0 of tile i the column totals of the tile's product, row 1 the column
    totals of its squares. -/
def G5 (c : Dev nD) : S98x2x256.Idx → EReal := fun i =>
  if (i 1).val = 0 then tot (tile (prod2 V c) ⟨(i 0).val, (i 0).isLt⟩) ⟨(i 2).val, (i 2).isLt⟩
  else totSq (tile (prod2 V c) ⟨(i 0).val, (i 0).isLt⟩) ⟨(i 2).val, (i 2).isLt⟩

theorem flushed5_eq (c : Dev nD) (t : Fin cfg2.N) :
    (Gen.dat2 V c).flushed 5 t = ((cfg2.win 5).blk t).view.read (Elt Ideal) (G5 V c) := by
  obtain ⟨-, -, -, -, -, -, -, -, -, -, e0, e1, e2⟩ := index_facts t
  show (cfg2.win 5).cut (grid2.coords t) ((Gen.dat2 V c).after 5 t) = _
  rw [Gen.after2_5]
  unfold Gen.out2_5
  rw [View.canon_unit_zero zero3]
  simp only [View.ld_unit_zero (S := S256x64) zero2, View.ld_unit_zero (S := S1x64) zero2, View.ld_unit_zero (S := S64x256) zero2]
  funext j
  show Gen.k2_pay2 (Gen.iblk2 V c 0 t) (Gen.iblk2 V c 1 t) (Gen.iblk2 V c 2 t) (Gen.iblk2 V c 3 t) j = G5 V c (((cfg2.win 5).blk t).view.emb j)
  obtain ⟨u, s, q, rfl⟩ : ∃ (u : Fin 1) (s : Fin 2) (q : Fin 256), j = ix3 u s q := ⟨j 0, j 1, j 2, eq_ix3 j⟩
  have hu : u.val = 0 := by omega
  have h0 : (⟨((((cfg2.win 5).blk t).view.emb (ix3 u s q)) 0).val, ((((cfg2.win 5).blk t).view.emb (ix3 u s q)) 0).isLt⟩ : Fin 98) = tileOf t :=
    Fin.ext (by show win2_5.index t (0 : Fin 3) * 1 + 1 * u.val = t.val; rw [e0, hu]; omega)
  have h2 : (⟨((((cfg2.win 5).blk t).view.emb (ix3 u s q)) 2).val, ((((cfg2.win 5).blk t).view.emb (ix3 u s q)) 2).isLt⟩ : Fin 256) = q :=
    Fin.ext (by show win2_5.index t (2 : Fin 3) * 256 + 1 * q.val = q.val; rw [e2]; omega)
  have h1 : ((((cfg2.win 5).blk t).view.emb (ix3 u s q)) 1).val = s.val := by
    show win2_5.index t (1 : Fin 3) * 2 + 1 * s.val = s.val; rw [e1]; omega
  unfold G5
  rw [h0, h2, h1]
  by_cases hs : s.val = 0
  · rw [if_pos hs]
    refine (pay2_apply0 _ _ _ _ u s hs q).trans ?_
    exact Finset.sum_congr rfl fun r _ => pay1_blk V c t r q
  · rw [if_neg hs]
    refine (pay2_apply1 _ _ _ _ u s (by have := s.isLt; omega) q).trans ?_
    refine Finset.sum_congr rfl fun r _ => ?_
    rw [pay1_blk V c t r q]
    rfl

/-- An index of the statistics array is in point t's block iff each coordinate is in the block's range on its axis. -/
theorem mem_blk5 (t : Fin cfg2.N) (i : S98x2x256.Idx) :
    i ∈ ((cfg2.win 5).blk t).view.set ↔ ∀ a : Fin 3, win2_5.index t a * S1x2x256.size a ≤ (i a).val ∧ (i a).val < win2_5.index t a * S1x2x256.size a + S1x2x256.size a := by
  show i ∈ ((View.whole main_v63_1).slice (win2_5.rect t)).set ↔ _
  rw [View.set_slice_whole, Rect.mem_set_unit]
  exact Iff.rfl

/-- The statistics array after the run, at tile i, row s. -/
theorem arr5_apply (c : Dev nD) (i : Fin 98) (s : Fin 2) (q : Fin 256) :
    ((Gen.dat2 V c).arrAt 5 cfg2.N : S98x2x256.Idx → EReal) (ix3 i s q) = G5 V c (ix3 i s q) := by
  obtain ⟨-, -, -, -, -, -, -, -, -, -, e0, e1, e2⟩ := index_facts (ptOf i)
  refine (Gen.dat2 V c).arrAt_apply_of_mem 5 (G5 V c) (fun t _ => flushed5_eq V c t) cfg2.N (ptOf i) (ix3 i s q)
    (ptOf i).isLt (Gen.flush2_5 _) ?_
  rw [mem_blk5]
  intro a
  match a with
  | ⟨0, _⟩ =>
    show win2_5.index (ptOf i) (0 : Fin 3) * 1 ≤ i.val ∧ i.val < win2_5.index (ptOf i) (0 : Fin 3) * 1 + 1
    rw [e0]; show i.val * 1 ≤ i.val ∧ i.val < i.val * 1 + 1
    omega
  | ⟨1, _⟩ =>
    show win2_5.index (ptOf i) (1 : Fin 3) * 2 ≤ s.val ∧ s.val < win2_5.index (ptOf i) (1 : Fin 3) * 2 + 2
    rw [e1]; have := s.isLt; omega
  | ⟨2, _⟩ =>
    show win2_5.index (ptOf i) (2 : Fin 3) * 256 ≤ q.val ∧ q.val < win2_5.index (ptOf i) (2 : Fin 3) * 256 + 256
    rw [e2]; have := q.isLt; omega

/-- Row 0 of tile i of the statistics array: the column totals of the tile's product. -/
theorem arr5_row0 (c : Dev nD) (i : Fin 98) (q : Fin 256) :
    ((Gen.dat2 V c).arrAt 5 cfg2.N : S98x2x256.Idx → EReal) (ix3 i 0 q) = tot (tile (prod2 V c) i) q := by
  rw [arr5_apply]
  unfold G5
  exact if_pos rfl

/-- Row 1 of tile i of the statistics array: the column totals of the squares of the tile's product. -/
theorem arr5_row1 (c : Dev nD) (i : Fin 98) (q : Fin 256) :
    ((Gen.dat2 V c).arrAt 5 cfg2.N : S98x2x256.Idx → EReal) (ix3 i 1 q) = totSq (tile (prod2 V c) i) q := by
  rw [arr5_apply]
  unfold G5
  exact if_neg Nat.one_ne_zero

end Cert.ReferenceIdeal.Region2

namespace Cert.ReferenceIdeal.Val
open Idealize.ShloMosaic Idealize.ShloMosaic.TcCoe Idealize.SL.Sem Idealize.ShloMosaic.ValueIdx
open Cert.ReferenceIdeal Cert.Bneck
open scoped BigOperators

variable (V : (c : Dev nD) → (b : Ref sig .tc) → Buf (Elt Ideal) ((c : Thread nD τ).loc b))

/-- Region 2's rectified affine input over all pixels, from the region's own operands. -/
abbrev a2 (c : Dev nD) : Fin 25088 → Fin 64 → EReal :=
  act (cur2 (V c main_v62 : S25088x64.Idx → EReal)) (cur2 (V c main_v60 : S1x64.Idx → EReal) 0) (cur2 (V c main_v61 : S1x64.Idx → EReal) 0)

/-- Region 2 (the last 1x1 convolution, one 256-row tile per grid point): the stored product. -/
theorem y3_eq (c : Dev nD) (i : Fin 98) (r : Fin 256) (q : Fin 256) :
    ((Gen.dat2 V c).arrAt 4 cfg2.N : S25088x256.Idx → EReal) (ix2 (trow i r) q)
      = mm (a2 V c) (cur2 (V c main_arg3 : S64x256.Idx → EReal)) (trow i r) q := by
  exact Region2.arr4_apply V c i r q

/-- Region 2: each tile's column totals and column totals of squares of the product. -/
theorem st3_eq (c : Dev nD) (i : Fin 98) (q : Fin 256) :
    ((Gen.dat2 V c).arrAt 5 cfg2.N : S98x2x256.Idx → EReal) (ix3 i 0 q)
        = tot (tile (mm (a2 V c) (cur2 (V c main_arg3 : S64x256.Idx → EReal))) i) q
    ∧ ((Gen.dat2 V c).arrAt 5 cfg2.N : S98x2x256.Idx → EReal) (ix3 i 1 q)
        = totSq (tile (mm (a2 V c) (cur2 (V c main_arg3 : S64x256.Idx → EReal))) i) q := by
  exact ⟨Region2.arr5_row0 V c i q, Region2.arr5_row1 V c i q⟩

end Cert.ReferenceIdeal.Val
end
-- ==== Proof.R3.lean ====
import proofs.«118062_g2000700299631556_pallasbulk_725_21_alg».proof.Proof.Gen.ReferenceIdeal.Frame
import proofs.«118062_g2000700299631556_pallasbulk_725_21_alg».proof.Proof.Spec
import Idealize.ShloMosaic.Lib.ValueLayout
import Idealize.ShloMosaic.Lib.Pipeline.Value

noncomputable section
namespace Cert.ReferenceIdeal.Val
open Idealize.ShloMosaic Idealize.ShloMosaic.TcCoe Idealize.SL.Sem Idealize.ShloMosaic.ValueIdx
open Cert.ReferenceIdeal Cert.Bneck
open scoped BigOperators

variable (V : (c : Dev nD) → (b : Ref sig .tc) → Buf (Elt Ideal) ((c : Thread nD τ).loc b))

namespace Reg3

theorem hz3_2 : (![0, 0] : Fin 2 → Nat) = fun _ => 0 := funext fun a => by fin_cases a <;> rfl

/-- The body's payload at (p, q): the rectified sum of the affine map of the first block and the residual block. -/
theorem pay3_apply (x0 : Vec Ideal S256x256 .f32) (x1 : Vec Ideal S1x256 .f32) (x2 : Vec Ideal S1x256 .f32)
    (x3 : Vec Ideal S256x256 .f32) (p : Fin 256) (q : Fin 256) :
    (Gen.k3_pay1 x0 x1 x2 x3 : S256x256.Idx → EReal) (ix2 p q)
      = max ((x0 : S256x256.Idx → EReal) (ix2 p q) * (x1 : S1x256.Idx → EReal) (ix2 (0 : Fin 1) q)
          + (x2 : S1x256.Idx → EReal) (ix2 (0 : Fin 1) q) + (x3 : S256x256.Idx → EReal) (ix2 p q)) z0 := by
  unfold Gen.k3_pay1
  simp only [shapeCast_self]
  rw [maximumf_apply, addf_apply, addf_apply, mulf_apply, broadcast_apply, broadcastTo_1b_ab_apply,
    broadcastTo_1b_ab_apply]
  rfl

/-- The index maps at grid point t: windows 0, 3 and 4 move with t along their first axis, windows 1 and 2 stay. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

theorem lt98_3 (t : Fin cfg3.N) : t.val < 98 := lt_of_lt_of_eq t.isLt Gen.N_3

/-- Window 0's block at point t is rows 256 t … 256 t + 255 of the normalised array. -/
theorem blkY_apply (c : Dev nD) (t : Fin cfg3.N) (x : S256x256.Idx) (i : S25088x256.Idx)
    (h0 : (i 0).val = t.val * 256 + (x 0).val) (h1 : (i 1).val = (x 1).val) :
    (Gen.iblk3 V c 0 t : Vec Ideal S256x256 .f32) x = (V c main_v63_0 : S25088x256.Idx → EReal) i := by
  obtain ⟨e0, e1, -⟩ := idx_facts3 t
  unfold Gen.iblk3
  rw [View.read_apply]
  show V c main_v63_0 _ = V c main_v63_0 _
  congr 1
  funext a
  apply Fin.ext
  match a with
  | ⟨0, _⟩ => show win3_0.index t (0 : Fin 2) * 256 + 1 * (x 0).val = (i 0).val; rw [e0, h0]; omega
  | ⟨1, _⟩ => show win3_0.index t (1 : Fin 2) * 256 + 1 * (x 1).val = (i 1).val; rw [e1, h1]; omega

/-- Window 3's block at point t is rows 256 t … 256 t + 255 of the residual array. -/
theorem blkX_apply (c : Dev nD) (t : Fin cfg3.N) (x : S256x256.Idx) (i : S25088x256.Idx)
    (h0 : (i 0).val = t.val * 256 + (x 0).val) (h1 : (i 1).val = (x 1).val) :
    (Gen.iblk3 V c 3 t : Vec Ideal S256x256 .f32) x = (V c main_v1 : S25088x256.Idx → EReal) i := by
  obtain ⟨-, -, -, -, -, -, e6, e7, -⟩ := idx_facts3 t
  unfold Gen.iblk3
  rw [View.read_apply]
  show V c main_v1 _ = V c main_v1 _
  congr 1
  funext a
  apply Fin.ext
  match a with
  | ⟨0, _⟩ => show win3_3.index t (0 : Fin 2) * 256 + 1 * (x 0).val = (i 0).val; rw [e6, h0]; omega
  | ⟨1, _⟩ => show win3_3.index t (1 : Fin 2) * 256 + 1 * (x 1).val = (i 1).val; rw [e7, h1]; omega

/-- Window 1's block at every point is the whole one-row scale array. -/
theorem blkSc_apply (c : Dev nD) (t : Fin cfg3.N) (x : S1x256.Idx) :
    (Gen.iblk3 V c 1 t : Vec Ideal S1x256 .f32) x = (V c main_v85 : S1x256.Idx → EReal) x := by
  obtain ⟨-, -, e2, e3, -⟩ := idx_facts3 t
  unfold Gen.iblk3
  rw [View.read_apply]
  show V c main_v85 _ = V c main_v85 _
  congr 1
  funext a
  apply Fin.ext
  match a with
  | ⟨0, _⟩ => show win3_1.index t (0 : Fin 2) * 1 + 1 * (x 0).val = (x 0).val; rw [e2]; omega
  | ⟨1, _⟩ => show win3_1.index t (1 : Fin 2) * 256 + 1 * (x 1).val = (x 1).val; rw [e3]; omega

/-- Window 2's block at every point is the whole one-row shift array. -/
theorem blkSh_apply (c : Dev nD) (t : Fin cfg3.N) (x : S1x256.Idx) :
    (Gen.iblk3 V c 2 t : Vec Ideal S1x256 .f32) x = (V c main_v86 : S1x256.Idx → EReal) x := by
  obtain ⟨-, -, -, -, e4, e5, -⟩ := idx_facts3 t
  unfold Gen.iblk3
  rw [View.read_apply]
  show V c main_v86 _ = V c main_v86 _
  congr 1
  funext a
  apply Fin.ext
  match a with
  | ⟨0, _⟩ => show win3_2.index t (0 : Fin 2) * 1 + 1 * (x 0).val = (x 0).val; rw [e4]; omega
  | ⟨1, _⟩ => show win3_2.index t (1 : Fin 2) * 256 + 1 * (x 1).val = (x 1).val; rw [e5]; omega

/-- The payload of point t's blocks at (p, q) is the block's last step at row p of tile t. -/
theorem pay3_blk (c : Dev nD) (t : Fin cfg3.N) (ht : t.val < 98) (p : Fin 256) (q : Fin 256) :
    (Gen.k3_pay1 (Gen.iblk3 V c 0 t) (Gen.iblk3 V c 1 t) (Gen.iblk3 V c 2 t) (Gen.iblk3 V c 3 t) : S256x256.Idx → EReal) (ix2 p q)
      = res (cur2 (V c main_v63_0 : S25088x256.Idx → EReal)) (cur2 (V c main_v85 : S1x256.Idx → EReal) 0)
          (cur2 (V c main_v86 : S1x256.Idx → EReal) 0) (cur2 (V c main_v1 : S25088x256.Idx → EReal)) (trow ⟨t.val, ht⟩ p) q := by
  refine (pay3_apply _ _ _ _ p q).trans ?_
  unfold res
  rw [blkY_apply V c t (ix2 p q) (ix2 (trow ⟨t.val, ht⟩ p) q) rfl rfl,
    blkX_apply V c t (ix2 p q) (ix2 (trow ⟨t.val, ht⟩ p) q) rfl rfl, blkSc_apply V c t, blkSh_apply V c t]

/-- The block's last step as one function of the index of the [25088, 256] array. -/
def resArr (Y : S25088x256.Idx → EReal) (Sc Sh : S1x256.Idx → EReal) (X : S25088x256.Idx → EReal) :
    S25088x256.Idx → EReal :=
  fun j => res (cur2 Y) (cur2 Sc 0) (cur2 Sh 0) (cur2 X) ⟨(j 0).val, idx2_lt0 j⟩ ⟨(j 1).val, idx2_lt1 j⟩

/-- What point t writes back through window 4 is block t of that function of the four arrays. -/
theorem flushed4_eq (c : Dev nD) (t : Fin cfg3.N) :
    (Gen.dat3 V c).flushed 4 t
      = ((cfg3.win 4).blk t).view.read (Elt Ideal)
          (resArr (V c main_v63_0) (V c main_v85) (V c main_v86) (V c main_v1)) := by
  have ht : t.val < 98 := lt98_3 t
  obtain ⟨-, -, -, -, -, -, -, -, e8, e9⟩ := idx_facts3 t
  show (cfg3.win 4).cut (grid3.coords t) ((Gen.dat3 V c).after 4 t) = _
  rw [Gen.after3_4]
  unfold Gen.out3_4
  rw [View.canon_unit_zero hz3_2]
  simp only [View.ld_unit_zero (S := S256x256) hz3_2, View.ld_unit_zero (S := S1x256) hz3_2]
  funext j
  have hp : (j 0).val < 256 := (j 0).isLt
  have hq : (j 1).val < 256 := (j 1).isLt
  refine Eq.trans (b := res (cur2 (V c main_v63_0 : S25088x256.Idx → EReal)) (cur2 (V c main_v85 : S1x256.Idx → EReal) 0)
      (cur2 (V c main_v86 : S1x256.Idx → EReal) 0) (cur2 (V c main_v1 : S25088x256.Idx → EReal))
      (trow ⟨t.val, ht⟩ ⟨(j 0).val, hp⟩) ⟨(j 1).val, hq⟩) ?_ ?_
  · refine Eq.trans ?_ (pay3_blk V c t ht ⟨(j 0).val, hp⟩ ⟨(j 1).val, hq⟩)
    show Gen.k3_pay1 _ _ _ _ _ = Gen.k3_pay1 _ _ _ _ _
    congr 1
    funext a
    match a with
    | ⟨0, _⟩ => rfl
    | ⟨1, _⟩ => rfl
  · rw [View.read_apply]
    show _ = resArr (V c main_v63_0) (V c main_v85) (V c main_v86) (V c main_v1) (((cfg3.win 4).blk t).view.emb j)
    unfold resArr
    exact congrArg₂ (res (cur2 (V c main_v63_0 : S25088x256.Idx → EReal)) (cur2 (V c main_v85 : S1x256.Idx → EReal) 0)
        (cur2 (V c main_v86 : S1x256.Idx → EReal) 0) (cur2 (V c main_v1 : S25088x256.Idx → EReal)))
      (Fin.ext (by
        show t.val * 256 + (j 0).val = win3_4.index t (0 : Fin 2) * 256 + 1 * (j 0).val
        rw [e8]; omega))
      (Fin.ext (by
        show (j 1).val = win3_4.index t (1 : Fin 2) * 256 + 1 * (j 1).val
        rw [e9]; omega))

/-- An index of the output array is in point t's block of window 4 iff each coordinate is in the block's range. -/
theorem mem_blk4 (t : Fin cfg3.N) (i : S25088x256.Idx) :
    i ∈ ((cfg3.win 4).blk t).view.set ↔ ∀ a : Fin 2, win3_4.index t a * S256x256.size a ≤ (i a).val
      ∧ (i a).val < win3_4.index t a * S256x256.size a + S256x256.size a := by
  show i ∈ ((View.whole main_v87).slice (win3_4.rect t)).set ↔ _
  rw [View.set_slice_whole, Rect.mem_set_unit]
  exact Iff.rfl

/-- Tile i as a grid point. -/
def pt3 (i : Fin 98) : Fin cfg3.N := ⟨i.val, lt_of_lt_of_eq i.isLt Gen.N_3.symm⟩

/-- Row r of tile i, column q, lies in point i's block of window 4. -/
theorem mem4 (i : Fin 98) (r : Fin 256) (q : Fin 256) :
    (ix2 (trow i r) q : S25088x256.Idx) ∈ ((cfg3.win 4).blk (pt3 i)).view.set := by
  obtain ⟨-, -, -, -, -, -, -, -, e8, e9⟩ := idx_facts3 (pt3 i)
  have e8' : win3_4.index (pt3 i) (0 : Fin 2) = i.val := e8
  have hr := r.isLt
  have hq := q.isLt
  rw [mem_blk4]
  intro a
  match a with
  | ⟨0, _⟩ =>
    show win3_4.index (pt3 i) (0 : Fin 2) * 256 ≤ i.val * 256 + r.val
      ∧ i.val * 256 + r.val < win3_4.index (pt3 i) (0 : Fin 2) * 256 + 256
    rw [e8']; omega
  | ⟨1, _⟩ =>
    show win3_4.index (pt3 i) (1 : Fin 2) * 256 ≤ q.val ∧ q.val < win3_4.index (pt3 i) (1 : Fin 2) * 256 + 256
    rw [e9]; omega

end Reg3

/-- Region 3 (one 256-row tile per grid point): the affine map of the stored product plus the residual, rectified. -/
theorem out_eq (c : Dev nD) (i : Fin 98) (r : Fin 256) (q : Fin 256) :
    ((Gen.dat3 V c).arrAt 4 cfg3.N : S25088x256.Idx → EReal) (ix2 (trow i r) q)
      = res (cur2 (V c main_v63_0 : S25088x256.Idx → EReal)) (cur2 (V c main_v85 : S1x256.Idx → EReal) 0) (cur2 (V c main_v86 : S1x256.Idx → EReal) 0)
          (cur2 (V c main_v1 : S25088x256.Idx → EReal)) (trow i r) q := by
  exact ((Gen.dat3 V c).arrAt_apply_of_mem 4 (Reg3.resArr (V c main_v63_0) (V c main_v85) (V c main_v86) (V c main_v1))
    (fun t _ => Reg3.flushed4_eq V c t) cfg3.N (Reg3.pt3 i) (ix2 (trow i r) q) (Reg3.pt3 i).isLt (Gen.flush3_4 (Reg3.pt3 i)) (Reg3.mem4 i r q)).trans rfl

end Cert.ReferenceIdeal.Val
end
-- ==== Proof.RMask.lean ====
import proofs.«118062_g2000700299631556_pallasbulk_725_21_alg».proof.Proof.Gen.ReferenceIdeal.Frame
import proofs.«118062_g2000700299631556_pallasbulk_725_21_alg».proof.Proof.Spec
import Idealize.ShloMosaic.Lib.Pipeline.Value
import Idealize.ShloMosaic.Lib.Affine

noncomputable section
namespace Cert.ReferenceIdeal.Val
open Idealize.ShloMosaic Idealize.ShloMosaic.TcCoe Idealize.SL.Sem Idealize.ShloMosaic.ValueIdx
open Cert.ReferenceIdeal Cert.Bneck
open scoped BigOperators

variable (m : (ℓ : Loc nD τ sig) → Buf (Elt Ideal) ℓ) (ρ : Dev nD → PrngReg)

namespace Mask

/-! ## The arithmetic on one pixel number

The host's remainder function on a word x with the divisor 56: the divisor made nonzero (it is 56), the truncating
remainder R, and R corrected by the divisor when R is nonzero and of the other sign than the divisor. -/

/-- The sign-corrected remainder by 56 of one 32-bit word, operation by operation. -/
def remWord (x : BitVec 32) : BitVec 32 :=
  Scalar.select
    (IntOp.andi
      (IntOp.cmpi .ne (IntOp.cmpi .slt (IntOp.remsi .host x (Scalar.select (IntOp.cmpi .eq 56#32 0#32) 1#32 56#32)) 0#32)
        (IntOp.cmpi .slt (Scalar.select (IntOp.cmpi .eq 56#32 0#32) 1#32 56#32) 0#32))
      (IntOp.cmpi .ne (IntOp.remsi .host x (Scalar.select (IntOp.cmpi .eq 56#32 0#32) 1#32 56#32)) 0#32))
    (IntOp.addi (IntOp.remsi .host x (Scalar.select (IntOp.cmpi .eq 56#32 0#32) 1#32 56#32))
      (Scalar.select (IntOp.cmpi .eq 56#32 0#32) 1#32 56#32))
    (IntOp.remsi .host x (Scalar.select (IntOp.cmpi .eq 56#32 0#32) 1#32 56#32))

/-- A small natural number as a word reads back the same, unsigned and signed. -/
theorem toNat_small (s : Nat) (hs : s < 3136) : (BitVec.ofNat 32 s).toNat = s := by
  rw [BitVec.toNat_ofNat]; omega
theorem toInt_small (s : Nat) (hs : s < 3136) : (BitVec.ofNat 32 s).toInt = (s : Int) := by
  rw [BitVec.toInt_eq_toNat_of_lt (by rw [toNat_small s hs]; omega), toNat_small s hs]

/-- On a pixel number the remainder word is the pixel number modulo 56: the truncating remainder of a nonnegative word
    by a positive one is the natural-number remainder, it is not negative, and so it is not corrected. -/
theorem remWord_eq (r : Nat) (hr : r < 3136) : remWord (BitVec.ofNat 32 r) = BitVec.ofNat 32 (r % 56) := by
  have hD : (Scalar.select (IntOp.cmpi .eq 56#32 0#32) 1#32 56#32 : BitVec 32) = 56#32 := by decide
  have hlt : r % 56 < 3136 := by omega
  have hR : IntOp.remsi .host (BitVec.ofNat 32 r) 56#32 = BitVec.ofNat 32 (r % 56) := by
    apply BitVec.eq_of_toNat_eq
    have h := IntOp.toNat_remsi .host (x := BitVec.ofNat 32 r) (by rw [toNat_small r hr]; omega) 56 (by omega) (by omega)
    rw [toNat_small r hr] at h
    rw [toNat_small _ hlt]; exact h
  have h1 : IntOp.cmpi .slt (BitVec.ofNat 32 (r % 56)) 0#32 = 0#1 := by
    apply eq_zero_of_ne_one
    rw [IntOp.cmpi_slt, toInt_small _ hlt, show (0#32 : BitVec 32).toInt = 0 from by decide]
    omega
  have h2 : IntOp.cmpi .slt (56#32 : BitVec 32) 0#32 = 0#1 := by decide
  have h3 : ∀ b : BitVec 1, IntOp.andi (IntOp.cmpi .ne (0#1 : BitVec 1) 0#1) b = 0#1 := by decide
  unfold remWord
  rw [hD, hR, h1, h2, h3, select_zero]

/-- The two comparisons of the mask on a remainder below 56. -/
theorem sgt_zero (s : Nat) (hs : s < 56) : IntOp.cmpi .sgt (BitVec.ofNat 32 s) 0#32 = if s = 0 then 0#1 else 1#1 := by
  have hlt : s < 3136 := by omega
  split
  · next h => subst h; decide
  · next h =>
    rw [IntOp.cmpi_sgt, toInt_small _ hlt, show (0#32 : BitVec 32).toInt = 0 from by decide]
    omega
theorem slt_55 (s : Nat) (hs : s < 56) : IntOp.cmpi .slt (BitVec.ofNat 32 s) 55#32 = if s = 55 then 0#1 else 1#1 := by
  have hlt : s < 3136 := by omega
  split
  · next h => subst h; decide
  · next h =>
    rw [IntOp.cmpi_slt, toInt_small _ hlt, show (55#32 : BitVec 32).toInt = 55 from by decide]
    omega

/-- A truth value converted to a float is 0 or 1. -/
theorem uitofp_bit (P : Prop) [Decidable P] :
    (FloatOps.uitofp (F := Ideal) .f32 (if P then (0#1 : BitVec 1) else 1#1) : EReal) = if P then 0 else 1 := by
  split
  · show (((0#1 : BitVec 1).toNat : ℝ) : EReal) = 0
    simp
  · show (((1#1 : BitVec 1).toNat : ℝ) : EReal) = 1
    simp

/-! ## The mask's term read at an index -/

/-- The two truth columns joined along the second axis and converted, at row r and column j: column 0 is the first
    comparison of the remainder buffer at pixel r, column 1 the second. -/
theorem mask_at (V4 : S3136.Idx → BitVec 32) (r : Fin 3136) (j : Fin 2) :
    (uitofp (F := Ideal) .f32 (concatenate S3136x2 1
        [⟨S3136x1, broadcastInDim S3136x1 ![0] Gen.bcast_S3136_S3136x1_0
            (cmpi .sgt V4 (broadcastInDim S3136 ![] Gen.bcast_S_S3136 (constantI S_ 32 0#32)))⟩,
         ⟨S3136x1, broadcastInDim S3136x1 ![0] Gen.bcast_S3136_S3136x1_0
            (cmpi .slt V4 (broadcastInDim S3136 ![] Gen.bcast_S_S3136 (constantI S_ 32 55#32)))⟩]
        Gen.concatenates_S3136x1_S3136x1_S3136x2_d1) : S3136x2.Idx → EReal) (ix2 r j)
      = if j.val = 0 then (FloatOps.uitofp (F := Ideal) .f32 (IntOp.cmpi .sgt (V4 (ix1 r)) 0#32) : EReal)
        else (FloatOps.uitofp (F := Ideal) .f32 (IntOp.cmpi .slt (V4 (ix1 r)) 55#32) : EReal) := by
  match j with
  | ⟨0, _⟩ =>
    rw [if_pos rfl]
    refine congrArg (FloatOps.uitofp (F := Ideal) .f32) ?_
    refine (concatenate_pair_apply_left (t := S3136x2) (s₁ := S3136x1) (s₂ := S3136x1) _ _ _ _ (ix2 r (0 : Fin 2)) rfl (ix2 r (0 : Fin 1)) ?_).trans ?_
    · intro b; match b with | ⟨0, _⟩ => rfl | ⟨1, _⟩ => rfl
    · refine (broadcastInDim_apply _ _ _ _ (ix1 r) ?_).trans rfl
      intro a; match a with | ⟨0, _⟩ => rfl
  | ⟨1, _⟩ =>
    rw [if_neg (Nat.succ_ne_zero 0)]
    refine congrArg (FloatOps.uitofp (F := Ideal) .f32) ?_
    refine (concatenate_pair_apply_right (t := S3136x2) (s₁ := S3136x1) (s₂ := S3136x1) _ _ _ _ (ix2 r (1 : Fin 2)) rfl rfl (ix2 r (0 : Fin 1)) ?_ ?_).trans ?_
    · intro b hb; match b, hb with | ⟨0, _⟩, _ => rfl | ⟨1, _⟩, hb => exact absurd rfl hb
    · rfl
    · refine (broadcastInDim_apply _ _ _ _ (ix1 r) ?_).trans rfl
      intro a; match a with | ⟨0, _⟩ => rfl

/-! ## The host operations, stretch by stretch, from arbitrary contents

Each stretch of host operations is read at the one buffer needed, as the operations' functions applied to the
contents before the stretch. -/

/-- The first stretch leaves the pixel numbers and the divisor 56. -/
theorem st0a (X : Valuation τ sig (Elt Ideal)) :
    (StableHlo.after Gen.hostOps1 X (Proc.devRef .tc main_v26) : S3136.Idx → BitVec 32) = iotaInDim S3136 32 0 := by
  simp only [Gen.hostOps1]
  after_results
theorem st0b (X : Valuation τ sig (Elt Ideal)) :
    (StableHlo.after Gen.hostOps1 X (Proc.devRef .tc main_c) : S_.Idx → BitVec 32) = constantI S_ 32 56#32 := by
  simp only [Gen.hostOps1]
  after_results

set_option maxHeartbeats 1000000 in
/-- The remainder function's stretch at its result buffer: the truncating remainder by the divisor made nonzero,
    corrected by the divisor where it is nonzero and of the other sign. -/
theorem st1 (X : Valuation τ sig (Elt Ideal)) :
    (StableHlo.after Gen.hostOps1_1 X (Proc.devRef .tc main_v27) : S3136.Idx → BitVec 32)
      = select (andi (cmpi .ne (cmpi .slt (Host.remsi (X (Proc.devRef .tc main_v26) : S3136.Idx → BitVec 32) (broadcastInDim S3136 ![] Gen.bcast_S_S3136 (select (cmpi .eq (X (Proc.devRef .tc main_c) : S_.Idx → BitVec 32) (constantI S_ 32 0#32)) (constantI S_ 32 1#32) (X (Proc.devRef .tc main_c) : S_.Idx → BitVec 32) : S_.Idx → BitVec 32)) : S3136.Idx → BitVec 32) (broadcastInDim S3136 ![] Gen.bcast_S_S3136 (constantI S_ 32 0#32)))
                            (broadcastInDim S3136 ![] Gen.bcast_S_S3136 (cmpi .slt (select (cmpi .eq (X (Proc.devRef .tc main_c) : S_.Idx → BitVec 32) (constantI S_ 32 0#32)) (constantI S_ 32 1#32) (X (Proc.devRef .tc main_c) : S_.Idx → BitVec 32) : S_.Idx → BitVec 32) (constantI S_ 32 0#32))))
                  (cmpi .ne (Host.remsi (X (Proc.devRef .tc main_v26) : S3136.Idx → BitVec 32) (broadcastInDim S3136 ![] Gen.bcast_S_S3136 (select (cmpi .eq (X (Proc.devRef .tc main_c) : S_.Idx → BitVec 32) (constantI S_ 32 0#32)) (constantI S_ 32 1#32) (X (Proc.devRef .tc main_c) : S_.Idx → BitVec 32) : S_.Idx → BitVec 32)) : S3136.Idx → BitVec 32) (broadcastInDim S3136 ![] Gen.bcast_S_S3136 (constantI S_ 32 0#32))))
            (addi (Host.remsi (X (Proc.devRef .tc main_v26) : S3136.Idx → BitVec 32) (broadcastInDim S3136 ![] Gen.bcast_S_S3136 (select (cmpi .eq (X (Proc.devRef .tc main_c) : S_.Idx → BitVec 32) (constantI S_ 32 0#32)) (constantI S_ 32 1#32) (X (Proc.devRef .tc main_c) : S_.Idx → BitVec 32) : S_.Idx → BitVec 32)) : S3136.Idx → BitVec 32) (broadcastInDim S3136 ![] Gen.bcast_S_S3136 (select (cmpi .eq (X (Proc.devRef .tc main_c) : S_.Idx → BitVec 32) (constantI S_ 32 0#32)) (constantI S_ 32 1#32) (X (Proc.devRef .tc main_c) : S_.Idx → BitVec 32) : S_.Idx → BitVec 32))) (Host.remsi (X (Proc.devRef .tc main_v26) : S3136.Idx → BitVec 32) (broadcastInDim S3136 ![] Gen.bcast_S_S3136 (select (cmpi .eq (X (Proc.devRef .tc main_c) : S_.Idx → BitVec 32) (constantI S_ 32 0#32)) (constantI S_ 32 1#32) (X (Proc.devRef .tc main_c) : S_.Idx → BitVec 32) : S_.Idx → BitVec 32)) : S3136.Idx → BitVec 32) := by
  simp only [StableHlo.after_cons, StableHlo.after_nil]
  rfl

/-- The last stretch at the mask's buffer: the two comparisons of the remainder buffer, each broadcast to a column, the
    columns joined and converted. -/
theorem st2 (X : Valuation τ sig (Elt Ideal)) :
    (StableHlo.after Gen.hostOps1_2 X (Proc.devRef .tc main_v35) : S3136x2.Idx → EReal)
      = uitofp (F := Ideal) .f32 (concatenate S3136x2 1
          [⟨S3136x1, broadcastInDim S3136x1 ![0] Gen.bcast_S3136_S3136x1_0
              (cmpi .sgt (X (Proc.devRef .tc main_v27) : S3136.Idx → BitVec 32) (broadcastInDim S3136 ![] Gen.bcast_S_S3136 (constantI S_ 32 0#32)))⟩,
           ⟨S3136x1, broadcastInDim S3136x1 ![0] Gen.bcast_S3136_S3136x1_0
              (cmpi .slt (X (Proc.devRef .tc main_v27) : S3136.Idx → BitVec 32) (broadcastInDim S3136 ![] Gen.bcast_S_S3136 (constantI S_ 32 55#32)))⟩]
          Gen.concatenates_S3136x1_S3136x1_S3136x2_d1) := by
  simp only [Gen.hostOps1_2]
  after_results

/-- The remainder buffer at pixel r, after the first two stretches, is the remainder word of the pixel number. -/
theorem rem_at (X : Valuation τ sig (Elt Ideal)) (r : Fin 3136) :
    (StableHlo.after Gen.hostOps1_1 (StableHlo.after Gen.hostOps1 X) (Proc.devRef .tc main_v27) : S3136.Idx → BitVec 32) (ix1 r)
      = remWord (BitVec.ofNat 32 r.val) := by
  rw [st1, st0a, st0b]
  rfl

end Mask

/-- The edge mask the host builds before the second region (pixel number modulo 56 by the host's remainder function,
    compared with 0 and with 55, the two truth columns joined and converted to floats) is Spec's edge mask. -/
theorem cm_eq (c : Dev nD) (r : Fin 3136) (j : Fin 2) :
    (Gen.V5 m ρ c main_v35 : S3136x2.Idx → EReal) (ix2 r j) = edge r j := by
  show (StableHlo.after Gen.hostOps1_2 (StableHlo.after Gen.hostOps1_1 (StableHlo.after Gen.hostOps1 (Gen.W2 m ρ c)))
    (Proc.devRef .tc main_v35) : S3136x2.Idx → EReal) (ix2 r j) = _
  have hs : r.val % 56 < 56 := Nat.mod_lt _ (by decide)
  rw [Mask.st2, Mask.mask_at, Mask.rem_at, Mask.remWord_eq r.val r.isLt, Mask.sgt_zero _ hs, Mask.slt_55 _ hs,
    Mask.uitofp_bit, Mask.uitofp_bit]
  rfl

end Cert.ReferenceIdeal.Val
end
-- ==== Proof.RBna.lean ====
/-
  The scale and shift rows of a column normalisation, computed from partial totals the way the host program spells it,
  read at a column over the extended reals.

  The partial totals are an array [N, 2, C]: for each of N partials, row 0 holds the column totals and row 1 the column
  totals of squares. The computation sums the partials along the leading axis from the zero word, slices the two rows
  [1, C] out of the [2, C] sum, flattens each to [C], divides each by the row count (a scalar stretched to [C]), takes
  the variance as the mean of squares minus the squared mean, clamps it below at zero, adds the offset, takes the
  reciprocal square root and multiplies by the gain; the shift is the bias minus the mean times that scale. Both are
  set up again as rows [1, C]. At column q they are Spec's scOf and shOf. For any N and C. Names no program.
-/
import proofs.«118062_g2000700299631556_pallasbulk_725_21_alg».proof.Proof.Spec
import Idealize.ShloMosaic.Lib.IdealHost
import Idealize.ShloMosaic.Lib.ValueLayout
import Idealize.ShloMosaic.Lib.Pipeline.Value
import Idealize.ShloMosaic.Lib.ValueIdx

noncomputable section

open scoped BigOperators

namespace Cert.BnRow

open Idealize.ShloMosaic Idealize.ShloMosaic.ValueIdx Cert.Bneck

variable {N C : ℕ}

/-- The shape facts the computation's operations carry, at extents N and C. -/
structure Facts (N C : ℕ) : Prop where
  red : (⟨3, ![N, 2, C]⟩ : Shape).ReducesTo [(0 : Fin 3)] ⟨2, ![2, C]⟩
  red' : (⟨3, ![N, 2, C]⟩ : Shape).Reduces [(0 : Fin 3)] ⟨2, ![2, C]⟩
  hu : 0 < (⟨0, ![]⟩ : Shape).numel
  sl0 : (⟨2, ![2, C]⟩ : Shape).Slices ![0, 0] ⟨2, ![1, C]⟩
  sl1 : (⟨2, ![2, C]⟩ : Shape).Slices ![1, 0] ⟨2, ![1, C]⟩
  c21 : (⟨2, ![1, C]⟩ : Shape).ShapeCasts ⟨1, ![C]⟩
  c12 : (⟨1, ![C]⟩ : Shape).ShapeCasts ⟨2, ![1, C]⟩
  bc : (⟨0, ![]⟩ : Shape).BroadcastsInDim ⟨1, ![C]⟩ (![] : Fin 0 → Fin 1)

/-- The sum of the partials along the leading axis from the zero word: an array [2, C]. -/
def total (F : Facts N C) (ST : FVec Ideal ⟨3, ![N, 2, C]⟩ .f32) : FVec Ideal ⟨2, ![2, C]⟩ .f32 :=
  Host.reduceAdd ST (constant (F := Ideal) ⟨0, ![]⟩ .f32 0x00000000#32) F.red F.hu

/-- Row 0 of the sum (the column totals) and row 1 (the column totals of squares), each flattened to [C]. -/
def row0 (F : Facts N C) (ST : FVec Ideal ⟨3, ![N, 2, C]⟩ .f32) : FVec Ideal ⟨1, ![C]⟩ .f32 :=
  shapeCast ⟨1, ![C]⟩ (extractStridedSlice ⟨2, ![1, C]⟩ ![0, 0] (total F ST) F.sl0) F.c21
def row1 (F : Facts N C) (ST : FVec Ideal ⟨3, ![N, 2, C]⟩ .f32) : FVec Ideal ⟨1, ![C]⟩ .f32 :=
  shapeCast ⟨1, ![C]⟩ (extractStridedSlice ⟨2, ![1, C]⟩ ![1, 0] (total F ST) F.sl1) F.c21

/-- A float word stretched to [C]. -/
def splat (F : Facts N C) (b : BitVec 32) : FVec Ideal ⟨1, ![C]⟩ .f32 :=
  broadcastInDim ⟨1, ![C]⟩ ![] F.bc (constant (F := Ideal) ⟨0, ![]⟩ .f32 b)

/-- The column means: the column totals over the row count. -/
def meanVec (F : Facts N C) (ST : FVec Ideal ⟨3, ![N, 2, C]⟩ .f32) : FVec Ideal ⟨1, ![C]⟩ .f32 :=
  Host.divf (row0 F ST) (splat F 0x46C40000#32)

/-- The scale as a vector [C]. -/
def scVec (F : Facts N C) (ST : FVec Ideal ⟨3, ![N, 2, C]⟩ .f32) (G : FVec Ideal ⟨2, ![1, C]⟩ .f32) :
    FVec Ideal ⟨1, ![C]⟩ .f32 :=
  mulf (shapeCast ⟨1, ![C]⟩ G F.c21)
    (Host.rsqrt
      (addf
        (maximumf
          (subf (Host.divf (row1 F ST) (splat F 0x46C40000#32)) (mulf (meanVec F ST) (meanVec F ST)))
          (splat F 0x00000000#32))
        (splat F 0x3727C5AC#32)))

/-- The scale row [1, C] and the shift row [1, C]. -/
def scRow (F : Facts N C) (ST : FVec Ideal ⟨3, ![N, 2, C]⟩ .f32) (G : FVec Ideal ⟨2, ![1, C]⟩ .f32) :
    FVec Ideal ⟨2, ![1, C]⟩ .f32 :=
  shapeCast ⟨2, ![1, C]⟩ (scVec F ST G) F.c12
def shRow (F : Facts N C) (ST : FVec Ideal ⟨3, ![N, 2, C]⟩ .f32) (G B : FVec Ideal ⟨2, ![1, C]⟩ .f32) :
    FVec Ideal ⟨2, ![1, C]⟩ .f32 :=
  shapeCast ⟨2, ![1, C]⟩ (subf (shapeCast ⟨1, ![C]⟩ B F.c21) (mulf (meanVec F ST) (scVec F ST G))) F.c12

/-- Result index (p, q) of a reduction along the first of three axes, with the dropped coordinate k put back, is
    (k, p, q). -/
theorem lift3 (h : (⟨3, ![N, 2, C]⟩ : Shape).Reduces [(0 : Fin 3)] ⟨2, ![2, C]⟩) (p : Fin 2) (q : Fin C) (k : Fin N) :
    h.lift (ix2 p q) k = ix3 k p q := by
  funext c
  apply Fin.ext
  match c with
  | ⟨0, _⟩ => rfl
  | ⟨1, _⟩ => rfl
  | ⟨2, _⟩ => rfl

/-- The sum at (p, q): the plain sum of the partials' entries (p, q). -/
theorem total_apply (F : Facts N C) (ST : FVec Ideal ⟨3, ![N, 2, C]⟩ .f32) (p : Fin 2) (q : Fin C) :
    total F ST (ix2 p q) = ∑ n : Fin N, ST (ix3 n p q) := by
  unfold total
  refine (hostReduceAdd_apply ST _ F.red F.hu (ix2 p q)).trans ?_
  refine (Ideal.hostReduceAdd_single F.red F.red' ST _ (ix2 p q)).trans ?_
  show Ideal.ofBits .f32 0x00000000#32 + _ = _
  rw [Ideal.ofBits_zero_f32, zero_add]
  exact Finset.sum_congr rfl fun k _ => congrArg ST (lift3 F.red' p q k)

theorem row0_apply (F : Facts N C) (ST : FVec Ideal ⟨3, ![N, 2, C]⟩ .f32) (q : Fin C) :
    row0 F ST (ix1 q) = ∑ n : Fin N, ST (ix3 n 0 q) := by
  unfold row0
  refine (shapeCast_1a_a_apply _ F.c21 q).trans ?_
  refine (extractStridedSlice_apply ![0, 0] _ F.sl0 (ix2 (0 : Fin 1) q) (ix2 (0 : Fin 2) q) ?_).trans ?_
  · intro a
    match a with
    | ⟨0, _⟩ => rfl
    | ⟨1, _⟩ => exact (Nat.zero_add _).symm
  exact total_apply F ST 0 q

theorem row1_apply (F : Facts N C) (ST : FVec Ideal ⟨3, ![N, 2, C]⟩ .f32) (q : Fin C) :
    row1 F ST (ix1 q) = ∑ n : Fin N, ST (ix3 n 1 q) := by
  unfold row1
  refine (shapeCast_1a_a_apply _ F.c21 q).trans ?_
  refine (extractStridedSlice_apply ![1, 0] _ F.sl1 (ix2 (0 : Fin 1) q) (ix2 (1 : Fin 2) q) ?_).trans ?_
  · intro a
    match a with
    | ⟨0, _⟩ => rfl
    | ⟨1, _⟩ => exact (Nat.zero_add _).symm
  exact total_apply F ST 1 q

theorem splat_apply (F : Facts N C) (b : BitVec 32) (j : (⟨1, ![C]⟩ : Shape).Idx) :
    splat F b j = Ideal.ofBits .f32 b := by
  unfold splat
  exact (broadcastInDim_scalar_apply F.bc _ j).trans rfl

theorem meanVec_apply (F : Facts N C) (ST : FVec Ideal ⟨3, ![N, 2, C]⟩ .f32) (q : Fin C) :
    meanVec F ST (ix1 q) = mean (∑ n : Fin N, ST (ix3 n 0 q)) := by
  unfold meanVec
  rw [hostDivf_apply, row0_apply, splat_apply]
  rfl

theorem hostRsqrt_apply {s : Shape} {φ : FTy} (x : FVec Ideal s φ) (i : s.Idx) :
    Host.rsqrt x i = Ideal.rsqrt (x i) := rfl

theorem scVec_apply (F : Facts N C) (ST : FVec Ideal ⟨3, ![N, 2, C]⟩ .f32) (G : FVec Ideal ⟨2, ![1, C]⟩ .f32) (q : Fin C) :
    scVec F ST G (ix1 q) = scOf (cur2 G) (cur3 ST) q := by
  unfold scVec
  rw [mulf_apply, hostRsqrt_apply, addf_apply, maximumf_apply, subf_apply, hostDivf_apply, mulf_apply,
    shapeCast_1a_a_apply, row1_apply, meanVec_apply, splat_apply, splat_apply, splat_apply]
  rfl

/-- The scale row at column q. -/
theorem scRow_apply (F : Facts N C) (ST : FVec Ideal ⟨3, ![N, 2, C]⟩ .f32) (G : FVec Ideal ⟨2, ![1, C]⟩ .f32) (q : Fin C) :
    scRow F ST G (ix2 (0 : Fin 1) q) = scOf (cur2 G) (cur3 ST) q := by
  unfold scRow
  exact (shapeCast_a_1a_apply _ F.c12 0 q).trans (scVec_apply F ST G q)

/-- The shift row at column q. -/
theorem shRow_apply (F : Facts N C) (ST : FVec Ideal ⟨3, ![N, 2, C]⟩ .f32) (G B : FVec Ideal ⟨2, ![1, C]⟩ .f32) (q : Fin C) :
    shRow F ST G B (ix2 (0 : Fin 1) q) = shOf (cur2 B) (cur2 G) (cur3 ST) q := by
  unfold shRow
  refine (shapeCast_a_1a_apply _ F.c12 0 q).trans ?_
  rw [subf_apply, mulf_apply, shapeCast_1a_a_apply, meanVec_apply, scVec_apply]
  rfl

end Cert.BnRow

end
-- ==== Proof.RBn.lean ====
import proofs.«118062_g2000700299631556_pallasbulk_725_21_alg».proof.Proof.Gen.ReferenceIdeal.Frame
import proofs.«118062_g2000700299631556_pallasbulk_725_21_alg».proof.Proof.Spec
import proofs.«118062_g2000700299631556_pallasbulk_725_21_alg».proof.Proof.RBna

noncomputable section
namespace Cert.ReferenceIdeal.Val
open Idealize.ShloMosaic Idealize.ShloMosaic.TcCoe Idealize.SL.Sem Idealize.ShloMosaic.ValueIdx
open Cert.ReferenceIdeal Cert.Bneck
open scoped BigOperators

variable (m : (ℓ : Loc nD τ sig) → Buf (Elt Ideal) ℓ) (ρ : Dev nD → PrngReg)

/-! The three stretches of host operations that turn the partial totals a region left into the next region's scale
    and shift rows: a sum of the partials along the leading axis from the zero word, two row slices, the quotients by
    the row count, the clamped variance plus the offset, its reciprocal square root times the gain, and the bias
    minus the mean times the scale. Each is read at a column q. The partial totals, gains and biases are read from
    the contents the previous region left (Gen.V2, Gen.V6, Gen.V8: the stretch does not write them). -/

/-- The shape facts of the three computations: 98 partials of 64 columns, 8 of 64, 98 of 256. -/
theorem bnFacts1 : Cert.BnRow.Facts 98 64 := ⟨by decide, by decide, by decide, by decide, by decide, by decide, by decide, by decide⟩
theorem bnFacts2 : Cert.BnRow.Facts 8 64 := ⟨by decide, by decide, by decide, by decide, by decide, by decide, by decide, by decide⟩
theorem bnFacts3 : Cert.BnRow.Facts 98 256 := ⟨by decide, by decide, by decide, by decide, by decide, by decide, by decide, by decide⟩

/-! The first stretch is followed by two more before the next region; neither writes the scale row or the shift row,
    so the rows the region finds are the ones the first stretch left. -/

theorem bn_v24_skip (c : Dev nD) :
    Gen.V5 m ρ c main_v24 = StableHlo.after Gen.hostOps1 (Gen.W2 m ρ c) (Proc.devRef .tc main_v24) :=
  calc Gen.W5 m ρ c (Proc.devRef .tc main_v24)
    _ = Gen.W4 m ρ c (Proc.devRef .tc main_v24) :=
      StableHlo.after_of_forall_not_mem (b := Proc.devRef .tc main_v24) _ _ (List.forall_iff_forall_mem.mp (by
      simp only [Gen.hostOps1_2, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
    _ = Gen.W3 m ρ c (Proc.devRef .tc main_v24) :=
      StableHlo.after_of_forall_not_mem (b := Proc.devRef .tc main_v24) _ _ (List.forall_iff_forall_mem.mp (by
      simp only [Gen.hostOps1_1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
    _ = _ := rfl

theorem bn_v25_skip (c : Dev nD) :
    Gen.V5 m ρ c main_v25 = StableHlo.after Gen.hostOps1 (Gen.W2 m ρ c) (Proc.devRef .tc main_v25) :=
  calc Gen.W5 m ρ c (Proc.devRef .tc main_v25)
    _ = Gen.W4 m ρ c (Proc.devRef .tc main_v25) :=
      StableHlo.after_of_forall_not_mem (b := Proc.devRef .tc main_v25) _ _ (List.forall_iff_forall_mem.mp (by
      simp only [Gen.hostOps1_2, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
    _ = Gen.W3 m ρ c (Proc.devRef .tc main_v25) :=
      StableHlo.after_of_forall_not_mem (b := Proc.devRef .tc main_v25) _ _ (List.forall_iff_forall_mem.mp (by
      simp only [Gen.hostOps1_1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
    _ = _ := rfl

theorem sc1_eq (c : Dev nD) (q : Fin 64) :
    (Gen.V5 m ρ c main_v24 : S1x64.Idx → EReal) (ix2 0 q)
      = scOf (cur2 (Gen.V2 m ρ c main_arg4 : S1x64.Idx → EReal)) (cur3 (Gen.V2 m ρ c main_v2_1 : S98x2x64.Idx → EReal)) q := by
  have e : (Gen.V5 m ρ c main_v24 : S1x64.Idx → EReal)
      = Cert.BnRow.scRow bnFacts1 (Gen.V2 m ρ c main_v2_1) (Gen.V2 m ρ c main_arg4) := by
    refine (bn_v24_skip m ρ c).trans ?_
    after_results_simp
    rfl
  rw [e]
  exact Cert.BnRow.scRow_apply bnFacts1 _ _ q
theorem sh1_eq (c : Dev nD) (q : Fin 64) :
    (Gen.V5 m ρ c main_v25 : S1x64.Idx → EReal) (ix2 0 q)
      = shOf (cur2 (Gen.V2 m ρ c main_arg5 : S1x64.Idx → EReal)) (cur2 (Gen.V2 m ρ c main_arg4 : S1x64.Idx → EReal)) (cur3 (Gen.V2 m ρ c main_v2_1 : S98x2x64.Idx → EReal)) q := by
  have e : (Gen.V5 m ρ c main_v25 : S1x64.Idx → EReal)
      = Cert.BnRow.shRow bnFacts1 (Gen.V2 m ρ c main_v2_1) (Gen.V2 m ρ c main_arg4) (Gen.V2 m ρ c main_arg5) := by
    refine (bn_v25_skip m ρ c).trans ?_
    after_results_simp
    rfl
  rw [e]
  exact Cert.BnRow.shRow_apply bnFacts1 _ _ _ q

theorem sc2_eq (c : Dev nD) (q : Fin 64) :
    (Gen.V7 m ρ c main_v60 : S1x64.Idx → EReal) (ix2 0 q)
      = scOf (cur2 (Gen.V6 m ρ c main_arg6 : S1x64.Idx → EReal)) (cur3 (Gen.V6 m ρ c main_v38_1 : S8x2x64.Idx → EReal)) q := by
  have e : (Gen.V7 m ρ c main_v60 : S1x64.Idx → EReal)
      = Cert.BnRow.scRow bnFacts2 (Gen.V6 m ρ c main_v38_1) (Gen.V6 m ρ c main_arg6) := by
    show StableHlo.after Gen.hostOps2 (Gen.W6 m ρ c) (Proc.devRef .tc main_v60) = _
    after_results_simp
    rfl
  rw [e]
  exact Cert.BnRow.scRow_apply bnFacts2 _ _ q
theorem sh2_eq (c : Dev nD) (q : Fin 64) :
    (Gen.V7 m ρ c main_v61 : S1x64.Idx → EReal) (ix2 0 q)
      = shOf (cur2 (Gen.V6 m ρ c main_arg7 : S1x64.Idx → EReal)) (cur2 (Gen.V6 m ρ c main_arg6 : S1x64.Idx → EReal)) (cur3 (Gen.V6 m ρ c main_v38_1 : S8x2x64.Idx → EReal)) q := by
  have e : (Gen.V7 m ρ c main_v61 : S1x64.Idx → EReal)
      = Cert.BnRow.shRow bnFacts2 (Gen.V6 m ρ c main_v38_1) (Gen.V6 m ρ c main_arg6) (Gen.V6 m ρ c main_arg7) := by
    show StableHlo.after Gen.hostOps2 (Gen.W6 m ρ c) (Proc.devRef .tc main_v61) = _
    after_results_simp
    rfl
  rw [e]
  exact Cert.BnRow.shRow_apply bnFacts2 _ _ _ q

theorem sc3_eq (c : Dev nD) (q : Fin 256) :
    (Gen.V9 m ρ c main_v85 : S1x256.Idx → EReal) (ix2 0 q)
      = scOf (cur2 (Gen.V8 m ρ c main_arg8 : S1x256.Idx → EReal)) (cur3 (Gen.V8 m ρ c main_v63_1 : S98x2x256.Idx → EReal)) q := by
  have e : (Gen.V9 m ρ c main_v85 : S1x256.Idx → EReal)
      = Cert.BnRow.scRow bnFacts3 (Gen.V8 m ρ c main_v63_1) (Gen.V8 m ρ c main_arg8) := by
    show StableHlo.after Gen.hostOps3 (Gen.W8 m ρ c) (Proc.devRef .tc main_v85) = _
    after_results_simp
    rfl
  rw [e]
  exact Cert.BnRow.scRow_apply bnFacts3 _ _ q
theorem sh3_eq (c : Dev nD) (q : Fin 256) :
    (Gen.V9 m ρ c main_v86 : S1x256.Idx → EReal) (ix2 0 q)
      = shOf (cur2 (Gen.V8 m ρ c main_arg9 : S1x256.Idx → EReal)) (cur2 (Gen.V8 m ρ c main_arg8 : S1x256.Idx → EReal)) (cur3 (Gen.V8 m ρ c main_v63_1 : S98x2x256.Idx → EReal)) q := by
  have e : (Gen.V9 m ρ c main_v86 : S1x256.Idx → EReal)
      = Cert.BnRow.shRow bnFacts3 (Gen.V8 m ρ c main_v63_1) (Gen.V8 m ρ c main_arg8) (Gen.V8 m ρ c main_arg9) := by
    show StableHlo.after Gen.hostOps3 (Gen.W8 m ρ c) (Proc.devRef .tc main_v86) = _
    after_results_simp
    rfl
  rw [e]
  exact Cert.BnRow.shRow_apply bnFacts3 _ _ _ q

end Cert.ReferenceIdeal.Val
end
-- ==== Proof.RChain.lean ====
/-
  The second program region by region: what each region and each stretch of host operations leaves, as the one
  function of Pipe. Region 0 leaves the first product and its per-tile totals, from which the host takes the first
  scale and shift; region 1 the 3x3 convolution (taps moved then masked) of the rectified affine product and its
  per-image totals, from which the host takes the second scale and shift; region 2 the last product of the second
  rectified affine activation and its per-tile totals; region 3 the block's result. Per-tile and per-image totals add
  up to the totals over all rows.
-/
import proofs.«118062_g2000700299631556_pallasbulk_725_21_alg».proof.Proof.Gen.ReferenceIdeal.Frame
import proofs.«118062_g2000700299631556_pallasbulk_725_21_alg».proof.Proof.RHost
import proofs.«118062_g2000700299631556_pallasbulk_725_21_alg».proof.Proof.R0
import proofs.«118062_g2000700299631556_pallasbulk_725_21_alg».proof.Proof.R1
import proofs.«118062_g2000700299631556_pallasbulk_725_21_alg».proof.Proof.R2
import proofs.«118062_g2000700299631556_pallasbulk_725_21_alg».proof.Proof.R3
import proofs.«118062_g2000700299631556_pallasbulk_725_21_alg».proof.Proof.RMask
import proofs.«118062_g2000700299631556_pallasbulk_725_21_alg».proof.Proof.RBn
import proofs.«118062_g2000700299631556_pallasbulk_725_21_alg».proof.Proof.Arrange
import Idealize.ShloMosaic.Lib.StableHlo.Run

set_option maxRecDepth 16384
noncomputable section
namespace Cert.ReferenceIdeal.Val
open Idealize.ShloMosaic Idealize.ShloMosaic.TcCoe Idealize.SL.Sem Idealize.ShloMosaic.ValueIdx
open Cert.ReferenceIdeal Cert.Bneck

variable (m : (ℓ : Loc nD τ sig) → Buf (Elt Ideal) ℓ) (ρ : Dev nD → PrngReg) (c : Dev nD)

/-- The argument arrays read through their coordinates. -/
abbrev aX : Fin 25088 → Fin 256 → EReal := cur2 (xArr m c)
abbrev aW1 : Fin 256 → Fin 64 → EReal := cur2 (m ((c : Thread nD τ).loc main_arg1) : S256x64.Idx → EReal)
abbrev aW2 : Fin 576 → Fin 64 → EReal := cur2 (w2Arr m c)
abbrev aW3 : Fin 64 → Fin 256 → EReal := cur2 (m ((c : Thread nD τ).loc main_arg3) : S64x256.Idx → EReal)
abbrev aG1 : Fin 1 → Fin 64 → EReal := cur2 (m ((c : Thread nD τ).loc main_arg4) : S1x64.Idx → EReal)
abbrev aB1 : Fin 1 → Fin 64 → EReal := cur2 (m ((c : Thread nD τ).loc main_arg5) : S1x64.Idx → EReal)
abbrev aG2 : Fin 1 → Fin 64 → EReal := cur2 (m ((c : Thread nD τ).loc main_arg6) : S1x64.Idx → EReal)
abbrev aB2 : Fin 1 → Fin 64 → EReal := cur2 (m ((c : Thread nD τ).loc main_arg7) : S1x64.Idx → EReal)
abbrev aG3 : Fin 1 → Fin 256 → EReal := cur2 (m ((c : Thread nD τ).loc main_arg8) : S1x256.Idx → EReal)
abbrev aB3 : Fin 1 → Fin 256 → EReal := cur2 (m ((c : Thread nD τ).loc main_arg9) : S1x256.Idx → EReal)

/-! ## Region 0 -/

theorem y1_at2 (p : Fin 25088) (q : Fin 64) :
    (Gen.V2 m ρ c main_v2_0 : S25088x64.Idx → EReal) (ix2 p q) = y1 (aX m c) (aW1 m c) p q := by
  have h := y1_eq (Gen.V1 m ρ) c (Cert.Bneck.tileOf p) (Cert.Bneck.offOf p) q
  rw [x_at1, arg1_at1, Cert.Bneck.trow_tileOf_offOf] at h
  have e : (Gen.V2 m ρ c main_v2_0 : S25088x64.Idx → EReal) = ((Gen.dat0 (Gen.V1 m ρ) c).arrAt 2 cfg0.N : S25088x64.Idx → EReal) :=
    Gen.W2_arr m ρ c 2
  rw [e]; exact h

theorem st1_at2 (i : Fin 98) (q : Fin 64) :
    cur3 (Gen.V2 m ρ c main_v2_1 : S98x2x64.Idx → EReal) i 0 q = tot (tile (y1 (aX m c) (aW1 m c)) i) q
    ∧ cur3 (Gen.V2 m ρ c main_v2_1 : S98x2x64.Idx → EReal) i 1 q = totSq (tile (y1 (aX m c) (aW1 m c)) i) q := by
  have h := st1_eq (Gen.V1 m ρ) c i q
  rw [x_at1, arg1_at1] at h
  have e : (Gen.V2 m ρ c main_v2_1 : S98x2x64.Idx → EReal) = ((Gen.dat0 (Gen.V1 m ρ) c).arrAt 3 cfg0.N : S98x2x64.Idx → EReal) :=
    Gen.W2_arr m ρ c 3
  rw [e]; exact h

/-! ## The first scale and shift -/

theorem sc1_at5 : cur2 (Gen.V5 m ρ c main_v24 : S1x64.Idx → EReal) 0 = bnSc (aG1 m c) (y1 (aX m c) (aW1 m c)) := by
  funext q
  show (Gen.V5 m ρ c main_v24 : S1x64.Idx → EReal) (ix2 0 q) = _
  rw [sc1_eq, arg4_at2, arg4_at1,
    scOf_tile _ _ _ (fun i q => (st1_at2 m ρ c i q).1) (fun i q => (st1_at2 m ρ c i q).2)]
theorem sh1_at5 : cur2 (Gen.V5 m ρ c main_v25 : S1x64.Idx → EReal) 0 = bnSh (aB1 m c) (aG1 m c) (y1 (aX m c) (aW1 m c)) := by
  funext q
  show (Gen.V5 m ρ c main_v25 : S1x64.Idx → EReal) (ix2 0 q) = _
  rw [sh1_eq, arg4_at2, arg4_at1, arg5_at2, arg5_at1,
    shOf_tile _ _ _ _ (fun i q => (st1_at2 m ρ c i q).1) (fun i q => (st1_at2 m ρ c i q).2)]

/-! ## Region 1 -/

theorem a1_at5 (n : Fin 8) :
    Cert.ReferenceIdeal.Val.a1 (Gen.V5 m ρ) c n = img (Cert.Bneck.a1 (aX m c) (aW1 m c) (aG1 m c) (aB1 m c)) n := by
  have hy : cur3 (Gen.V5 m ρ c main_v37 : S8x3136x64.Idx → EReal) n = img (y1 (aX m c) (aW1 m c)) n := by
    funext r q
    show (Gen.V5 m ρ c main_v37 : S8x3136x64.Idx → EReal) (ix3 n r q) = _
    rw [y1r_at5, y1_at2]; rfl
  show act (cur3 (Gen.V5 m ρ c main_v37 : S8x3136x64.Idx → EReal) n) (cur2 (Gen.V5 m ρ c main_v24 : S1x64.Idx → EReal) 0)
      (cur2 (Gen.V5 m ρ c main_v25 : S1x64.Idx → EReal) 0) = _
  rw [hy, sc1_at5, sh1_at5]
  rfl

theorem cm_at5 : cur2 (Gen.V5 m ρ c main_v35 : S3136x2.Idx → EReal) = edge := by
  funext r j
  exact cm_eq m ρ c r j

theorem y2_at6 (n : Fin 8) (r : Fin 3136) (q : Fin 64) :
    (Gen.V6 m ρ c main_v38_0 : S8x3136x64.Idx → EReal) (ix3 n r q)
      = y2 (aX m c) (aW1 m c) (aW2 m c) (aG1 m c) (aB1 m c) (row n r) q := by
  have h := y2_eq (Gen.V5 m ρ) c n r q
  rw [a1_at5, cm_at5, w2_at5] at h
  have e : (Gen.V6 m ρ c main_v38_0 : S8x3136x64.Idx → EReal) = ((Gen.dat1 (Gen.V5 m ρ) c).arrAt 5 cfg1.N : S8x3136x64.Idx → EReal) :=
    Gen.W6_arr m ρ c 5
  rw [e, y2_row]; exact h

theorem st2_at6 (n : Fin 8) (q : Fin 64) :
    cur3 (Gen.V6 m ρ c main_v38_1 : S8x2x64.Idx → EReal) n 0 q = tot (img (y2 (aX m c) (aW1 m c) (aW2 m c) (aG1 m c) (aB1 m c)) n) q
    ∧ cur3 (Gen.V6 m ρ c main_v38_1 : S8x2x64.Idx → EReal) n 1 q = totSq (img (y2 (aX m c) (aW1 m c) (aW2 m c) (aG1 m c) (aB1 m c)) n) q := by
  have h := st2_eq (Gen.V5 m ρ) c n q
  rw [a1_at5, cm_at5, w2_at5] at h
  have e : (Gen.V6 m ρ c main_v38_1 : S8x2x64.Idx → EReal) = ((Gen.dat1 (Gen.V5 m ρ) c).arrAt 6 cfg1.N : S8x2x64.Idx → EReal) :=
    Gen.W6_arr m ρ c 6
  rw [e, img_y2]; exact h

/-! ## The second scale and shift, and the convolution's result row by row -/

theorem sc2_at7 : cur2 (Gen.V7 m ρ c main_v60 : S1x64.Idx → EReal) 0 = bnSc (aG2 m c) (y2 (aX m c) (aW1 m c) (aW2 m c) (aG1 m c) (aB1 m c)) := by
  funext q
  show (Gen.V7 m ρ c main_v60 : S1x64.Idx → EReal) (ix2 0 q) = _
  rw [sc2_eq, arg6_at6, arg6_at5, arg6_at2, arg6_at1,
    scOf_img _ _ _ (fun n q => (st2_at6 m ρ c n q).1) (fun n q => (st2_at6 m ρ c n q).2)]
theorem sh2_at7 : cur2 (Gen.V7 m ρ c main_v61 : S1x64.Idx → EReal) 0 = bnSh (aB2 m c) (aG2 m c) (y2 (aX m c) (aW1 m c) (aW2 m c) (aG1 m c) (aB1 m c)) := by
  funext q
  show (Gen.V7 m ρ c main_v61 : S1x64.Idx → EReal) (ix2 0 q) = _
  rw [sh2_eq, arg6_at6, arg6_at5, arg6_at2, arg6_at1, arg7_at6, arg7_at5, arg7_at2, arg7_at1,
    shOf_img _ _ _ _ (fun n q => (st2_at6 m ρ c n q).1) (fun n q => (st2_at6 m ρ c n q).2)]

theorem y2_at7 : cur2 (Gen.V7 m ρ c main_v62 : S25088x64.Idx → EReal) = y2 (aX m c) (aW1 m c) (aW2 m c) (aG1 m c) (aB1 m c) := by
  funext p q
  show (Gen.V7 m ρ c main_v62 : S25088x64.Idx → EReal) (ix2 p q) = _
  have h := y2r_at7 m ρ c (Cert.Bneck.imgOf p) (Cert.Bneck.pixOf p) q
  rw [Cert.Bneck.row_imgOf_pixOf] at h
  rw [h, y2_at6, Cert.Bneck.row_imgOf_pixOf]

/-! ## Region 2 -/

theorem a2_at7 : Cert.ReferenceIdeal.Val.a2 (Gen.V7 m ρ) c = Cert.Bneck.a2 (aX m c) (aW1 m c) (aW2 m c) (aG1 m c) (aB1 m c) (aG2 m c) (aB2 m c) := by
  show act (cur2 (Gen.V7 m ρ c main_v62 : S25088x64.Idx → EReal)) (cur2 (Gen.V7 m ρ c main_v60 : S1x64.Idx → EReal) 0)
      (cur2 (Gen.V7 m ρ c main_v61 : S1x64.Idx → EReal) 0) = _
  rw [y2_at7, sc2_at7, sh2_at7]
  rfl

theorem arg3_at7' : Gen.V7 m ρ c main_arg3 = m ((c : Thread nD τ).loc main_arg3) :=
  (arg3_at7 m ρ c).trans ((arg3_at6 m ρ c).trans ((arg3_at5 m ρ c).trans ((arg3_at2 m ρ c).trans (arg3_at1 m ρ c))))

theorem y3_at8 (p : Fin 25088) (q : Fin 256) :
    (Gen.V8 m ρ c main_v63_0 : S25088x256.Idx → EReal) (ix2 p q) = y3 (aX m c) (aW1 m c) (aW2 m c) (aW3 m c) (aG1 m c) (aB1 m c) (aG2 m c) (aB2 m c) p q := by
  have h := y3_eq (Gen.V7 m ρ) c (Cert.Bneck.tileOf p) (Cert.Bneck.offOf p) q
  rw [a2_at7, arg3_at7', Cert.Bneck.trow_tileOf_offOf] at h
  have e : (Gen.V8 m ρ c main_v63_0 : S25088x256.Idx → EReal) = ((Gen.dat2 (Gen.V7 m ρ) c).arrAt 4 cfg2.N : S25088x256.Idx → EReal) :=
    Gen.W8_arr m ρ c 4
  rw [e]; exact h

theorem st3_at8 (i : Fin 98) (q : Fin 256) :
    cur3 (Gen.V8 m ρ c main_v63_1 : S98x2x256.Idx → EReal) i 0 q = tot (tile (y3 (aX m c) (aW1 m c) (aW2 m c) (aW3 m c) (aG1 m c) (aB1 m c) (aG2 m c) (aB2 m c)) i) q
    ∧ cur3 (Gen.V8 m ρ c main_v63_1 : S98x2x256.Idx → EReal) i 1 q = totSq (tile (y3 (aX m c) (aW1 m c) (aW2 m c) (aW3 m c) (aG1 m c) (aB1 m c) (aG2 m c) (aB2 m c)) i) q := by
  have h := st3_eq (Gen.V7 m ρ) c i q
  rw [a2_at7, arg3_at7'] at h
  have e : (Gen.V8 m ρ c main_v63_1 : S98x2x256.Idx → EReal) = ((Gen.dat2 (Gen.V7 m ρ) c).arrAt 5 cfg2.N : S98x2x256.Idx → EReal) :=
    Gen.W8_arr m ρ c 5
  rw [e]; exact h

/-! ## The third scale and shift -/

theorem arg8_at8' : Gen.V8 m ρ c main_arg8 = m ((c : Thread nD τ).loc main_arg8) :=
  (arg8_at8 m ρ c).trans ((arg8_at7 m ρ c).trans ((arg8_at6 m ρ c).trans ((arg8_at5 m ρ c).trans ((arg8_at2 m ρ c).trans (arg8_at1 m ρ c)))))
theorem arg9_at8' : Gen.V8 m ρ c main_arg9 = m ((c : Thread nD τ).loc main_arg9) :=
  (arg9_at8 m ρ c).trans ((arg9_at7 m ρ c).trans ((arg9_at6 m ρ c).trans ((arg9_at5 m ρ c).trans ((arg9_at2 m ρ c).trans (arg9_at1 m ρ c)))))

theorem sc3_at9 : cur2 (Gen.V9 m ρ c main_v85 : S1x256.Idx → EReal) 0 = bnSc (aG3 m c) (y3 (aX m c) (aW1 m c) (aW2 m c) (aW3 m c) (aG1 m c) (aB1 m c) (aG2 m c) (aB2 m c)) := by
  funext q
  show (Gen.V9 m ρ c main_v85 : S1x256.Idx → EReal) (ix2 0 q) = _
  rw [sc3_eq, arg8_at8',
    scOf_tile _ _ _ (fun i q => (st3_at8 m ρ c i q).1) (fun i q => (st3_at8 m ρ c i q).2)]
theorem sh3_at9 : cur2 (Gen.V9 m ρ c main_v86 : S1x256.Idx → EReal) 0 = bnSh (aB3 m c) (aG3 m c) (y3 (aX m c) (aW1 m c) (aW2 m c) (aW3 m c) (aG1 m c) (aB1 m c) (aG2 m c) (aB2 m c)) := by
  funext q
  show (Gen.V9 m ρ c main_v86 : S1x256.Idx → EReal) (ix2 0 q) = _
  rw [sh3_eq, arg8_at8', arg9_at8',
    shOf_tile _ _ _ _ (fun i q => (st3_at8 m ρ c i q).1) (fun i q => (st3_at8 m ρ c i q).2)]

/-! ## Region 3 and the result -/

theorem x_at9' : (Gen.V9 m ρ c main_v1 : S25088x256.Idx → EReal) = xArr m c :=
  (x_at9 m ρ c).trans ((x_at8 m ρ c).trans ((x_at7 m ρ c).trans ((x_at6 m ρ c).trans ((x_at5 m ρ c).trans ((x_at2 m ρ c).trans (x_at1 m ρ c))))))

theorem y3_at9' : cur2 (Gen.V9 m ρ c main_v63_0 : S25088x256.Idx → EReal) = y3 (aX m c) (aW1 m c) (aW2 m c) (aW3 m c) (aG1 m c) (aB1 m c) (aG2 m c) (aB2 m c) := by
  funext p q
  show (Gen.V9 m ρ c main_v63_0 : S25088x256.Idx → EReal) (ix2 p q) = _
  rw [y3_at9, y3_at8]

/-- The last region's output array is the block's function of the argument arrays. -/
theorem v87_eq : (Gen.W10 m ρ c (Proc.devRef .tc main_v87) : S25088x256.Idx → EReal) = unc2 (out (aX m c) (aW1 m c) (aW2 m c) (aW3 m c) (aG1 m c) (aB1 m c) (aG2 m c) (aB2 m c) (aG3 m c) (aB3 m c)) := by
  funext i
  obtain ⟨p, q, rfl⟩ : ∃ (p : Fin 25088) (q : Fin 256), i = ix2 p q := ⟨i 0, i 1, eq_ix2 i⟩
  have h := out_eq (Gen.V9 m ρ) c (Cert.Bneck.tileOf p) (Cert.Bneck.offOf p) q
  rw [y3_at9', sc3_at9, sh3_at9, x_at9', Cert.Bneck.trow_tileOf_offOf] at h
  have e : (Gen.W10 m ρ c (Proc.devRef .tc main_v87) : S25088x256.Idx → EReal) = ((Gen.dat3 (Gen.V9 m ρ) c).arrAt 4 cfg3.N : S25088x256.Idx → EReal) :=
    Gen.W10_arr m ρ c 4
  rw [e]; exact h

/-- The program's tail: the pixel matrix reshaped to images and transposed back to channels-first. -/
abbrev tail (A : S25088x256.Idx → EReal) : S8x256x56x56.Idx → EReal :=
  transpose S8x256x56x56 [0, 3, 1, 2] (shapeCast S8x56x56x256 A Gen.shapeCasts_S25088x256_S8x56x56x256) Gen.transposes_S8x56x56x256_S8x256x56x56_0_3_1_2

/-- The result array at the last boundary. -/
theorem result_eq : (Gen.W11 m ρ c (Proc.devRef .tc main_v89) : S8x256x56x56.Idx → EReal) = tail (unc2 (out (aX m c) (aW1 m c) (aW2 m c) (aW3 m c) (aG1 m c) (aB1 m c) (aG2 m c) (aB2 m c) (aG3 m c) (aB3 m c))) := by
  rw [← v87_eq m ρ c]
  show StableHlo.after Gen.hostOps4 (Gen.W10 m ρ c) (Proc.devRef .tc main_v89) = _
  simp only [Gen.hostOps4]
  after_results
  rfl

end Cert.ReferenceIdeal.Val
end
-- ==== Proof.lean ====
/-
  The certificate of a residual bottleneck block (1x1 convolution, 3x3 convolution, 1x1 convolution, each followed by
  a batch normalisation whose statistics are taken over the whole batch; the input added back before the last
  rectification) computed by two programs of four regions each.

  The first program works image by image throughout, keeps its intermediates in a narrower float format (the identity
  on the extended reals), computes each normalisation's scale and shift inside the consuming region from 8 per-image
  partial totals, masks the lateral taps of the 3x3 window at their SOURCE pixel before moving them, and recomputes the
  last 1x1 product in the final region instead of storing it. The second works on 98 tiles of 256 pixel rows in three of
  its regions, computes scale and shift on the host from 98 per-tile (or 8 per-image) partial totals, moves the taps and
  masks them at the DESTINATION pixel, and stores the last product.

  On the extended reals both compute ONE function of the argument arrays (Proof/Pipe.lean): partial totals regroup a
  finite sum (no finiteness needed: addition is commutative and associative), and with the 0/1 edge mask the two
  orders of masking and moving agree entry by entry because a product with the mask value 0 is 0 and moving by whole
  image rows keeps a pixel's place in its row (Proof/Bridge.lean). Each region's output array is read off the generated
  frame run as a function of the region's input arrays (Proof/K0 … K3, R0 … R3), the host stretches likewise
  (Proof/KMask, RMask, RBn, KHost, RHost), and the two chains (Proof/KChain, RChain) compose them. Both programs end
  with the same reshape and transpose of that function's matrix. The frames are the generated ones; the ideal pass
  rewrote nothing, so the idealization claim is trivial.
-/
import proofs.«118062_g2000700299631556_pallasbulk_725_21_alg».proof.Defs
import proofs.«118062_g2000700299631556_pallasbulk_725_21_alg».proof.Proof.Gen.Kernel
import proofs.«118062_g2000700299631556_pallasbulk_725_21_alg».proof.Proof.Gen.Kernel.Skeleton
import proofs.«118062_g2000700299631556_pallasbulk_725_21_alg».proof.Proof.Gen.Kernel.Launch
import proofs.«118062_g2000700299631556_pallasbulk_725_21_alg».proof.Proof.Gen.Kernel.Points
import proofs.«118062_g2000700299631556_pallasbulk_725_21_alg».proof.Proof.Gen.Kernel.Frame
import proofs.«118062_g2000700299631556_pallasbulk_725_21_alg».proof.Proof.Gen.KernelIdeal
import proofs.«118062_g2000700299631556_pallasbulk_725_21_alg».proof.Proof.Gen.KernelIdeal.Skeleton
import proofs.«118062_g2000700299631556_pallasbulk_725_21_alg».proof.Proof.Gen.KernelIdeal.Launch
import proofs.«118062_g2000700299631556_pallasbulk_725_21_alg».proof.Proof.Gen.KernelIdeal.Points
import proofs.«118062_g2000700299631556_pallasbulk_725_21_alg».proof.Proof.Gen.KernelIdeal.Frame
import proofs.«118062_g2000700299631556_pallasbulk_725_21_alg».proof.Proof.Gen.ReferenceIdeal
import proofs.«118062_g2000700299631556_pallasbulk_725_21_alg».proof.Proof.Gen.ReferenceIdeal.Skeleton
import proofs.«118062_g2000700299631556_pallasbulk_725_21_alg».proof.Proof.Gen.ReferenceIdeal.Launch
import proofs.«118062_g2000700299631556_pallasbulk_725_21_alg».proof.Proof.Gen.ReferenceIdeal.Points
import proofs.«118062_g2000700299631556_pallasbulk_725_21_alg».proof.Proof.Gen.ReferenceIdeal.Frame
import proofs.«118062_g2000700299631556_pallasbulk_725_21_alg».proof.Proof.Gen.Pre_finite_inputs
import proofs.«118062_g2000700299631556_pallasbulk_725_21_alg».proof.Proof.KRun
import proofs.«118062_g2000700299631556_pallasbulk_725_21_alg».proof.Proof.RRun
import proofs.«118062_g2000700299631556_pallasbulk_725_21_alg».proof.Proof.KChain
import proofs.«118062_g2000700299631556_pallasbulk_725_21_alg».proof.Proof.RChain
import Idealize.ShloMosaic.Adequacy
import Idealize.ShloMosaic.Init

set_option maxRecDepth 16384

noncomputable section

namespace Cert.Proof

open Idealize.ShloMosaic Idealize.ShloMosaic.TcCoe Idealize.SL.Sem Cert.Bneck

/-- Run from memories that agree on the arguments, both programs end with the same result array: the shared tail of
    the block's one function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Val.tail (unc2 (out (Cert.KernelIdeal.Val.aX m c) (Cert.KernelIdeal.Val.aW1 m c) (Cert.KernelIdeal.Val.aW2 m c) (Cert.KernelIdeal.Val.aW3 m c) (Cert.KernelIdeal.Val.aG1 m c) (Cert.KernelIdeal.Val.aB1 m c) (Cert.KernelIdeal.Val.aG2 m c) (Cert.KernelIdeal.Val.aB2 m c) (Cert.KernelIdeal.Val.aG3 m c) (Cert.KernelIdeal.Val.aB3 m c))), ?_, ?_⟩
  · exact (θ_run Cert.KernelIdeal.defs _ _).mono
      (fun r h c => ⟨(h c).1.trans (Cert.KernelIdeal.Val.result_eq m ρ c), (h c).2⟩)
      (Cert.KernelIdeal.Gen.run_named (F := Ideal) m ρ)
  · refine (θ_run Cert.ReferenceIdeal.defs _ _).mono
      (fun r h c => ⟨(h c).1.trans ((Cert.ReferenceIdeal.Val.result_eq m' ρ' c).trans ?_), (h c).2⟩)
      (Cert.ReferenceIdeal.Gen.run_named (F := Ideal) m' ρ')
    obtain ⟨h0, h1, h2, h3, h4, h5, h6, h7, h8, h9⟩ := hagree c
    show Cert.ReferenceIdeal.Val.tail (unc2 (out
        (cur2 (shapeCast Cert.ReferenceIdeal.S25088x256 (transpose Cert.ReferenceIdeal.S8x56x56x256 [0, 2, 3, 1] (m' ((c.tc : Thread Cert.ReferenceIdeal.nD Cert.ReferenceIdeal.τ).loc Cert.ReferenceIdeal.main_arg0)) Cert.ReferenceIdeal.Gen.transposes_S8x256x56x56_S8x56x56x256_0_2_3_1) Cert.ReferenceIdeal.Gen.shapeCasts_S8x56x56x256_S25088x256))
        (cur2 (m' ((c.tc : Thread Cert.ReferenceIdeal.nD Cert.ReferenceIdeal.τ).loc Cert.ReferenceIdeal.main_arg1) : Cert.ReferenceIdeal.S256x64.Idx → EReal))
        (cur2 (shapeCast Cert.ReferenceIdeal.S576x64 (m' ((c.tc : Thread Cert.ReferenceIdeal.nD Cert.ReferenceIdeal.τ).loc Cert.ReferenceIdeal.main_arg2)) Cert.ReferenceIdeal.Gen.shapeCasts_S9x64x64_S576x64))
        (cur2 (m' ((c.tc : Thread Cert.ReferenceIdeal.nD Cert.ReferenceIdeal.τ).loc Cert.ReferenceIdeal.main_arg3) : Cert.ReferenceIdeal.S64x256.Idx → EReal))
        (cur2 (m' ((c.tc : Thread Cert.ReferenceIdeal.nD Cert.ReferenceIdeal.τ).loc Cert.ReferenceIdeal.main_arg4) : Cert.ReferenceIdeal.S1x64.Idx → EReal))
        (cur2 (m' ((c.tc : Thread Cert.ReferenceIdeal.nD Cert.ReferenceIdeal.τ).loc Cert.ReferenceIdeal.main_arg5) : Cert.ReferenceIdeal.S1x64.Idx → EReal))
        (cur2 (m' ((c.tc : Thread Cert.ReferenceIdeal.nD Cert.ReferenceIdeal.τ).loc Cert.ReferenceIdeal.main_arg6) : Cert.ReferenceIdeal.S1x64.Idx → EReal))
        (cur2 (m' ((c.tc : Thread Cert.ReferenceIdeal.nD Cert.ReferenceIdeal.τ).loc Cert.ReferenceIdeal.main_arg7) : Cert.ReferenceIdeal.S1x64.Idx → EReal))
        (cur2 (m' ((c.tc : Thread Cert.ReferenceIdeal.nD Cert.ReferenceIdeal.τ).loc Cert.ReferenceIdeal.main_arg8) : Cert.ReferenceIdeal.S1x256.Idx → EReal))
        (cur2 (m' ((c.tc : Thread Cert.ReferenceIdeal.nD Cert.ReferenceIdeal.τ).loc Cert.ReferenceIdeal.main_arg9) : Cert.ReferenceIdeal.S1x256.Idx → EReal)))) = _
    rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.ReferenceIdeal.Gen.frame m ρ,
    trivial,
    algebraic⟩

end Cert.Proof

end
